-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v109_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part7 {F : FTy → Type} [FloatOps F] (main_arg26 : FVec F S64x40 .f32) (main_arg27 : FVec F S40 .f32) (main_v118 : IVec S_ 1) (main_v119 : FVec F S64x40 .f32) : IVec S_ 1 :=
  let main_cst_46 : FVec F S_ .f32 := constant S_ .f32 0x7F800000#32
  let main_v120 : FVec F S64x40 .f32 := broadcastInDim S64x40 ![] bcast_S_S64x40 main_cst_46
  let main_v121 : IVec S64x40 1 := cmpf .olt main_v119 main_v120
  let main_c_47 : IVec S_ 1 := constantI S_ 1 1#1
  let main_v122 : IVec S_ 1 := (fun x v => Host.reduce IntOp.andi x v reducesTo_S64x40_S_d0_1 h_S_) main_v121 main_c_47
  let main_v123 : IVec S_ 1 := andi main_v118 main_v122
  let main_v124 : FVec F S64x40 .f32 := Host.absf main_arg26
  let main_cst_48 : FVec F S_ .f32 := constant S_ .f32 0x7F800000#32
  let main_v125 : FVec F S64x40 .f32 := broadcastInDim S64x40 ![] bcast_S_S64x40 main_cst_48
  let main_v126 : IVec S64x40 1 := cmpf .olt main_v124 main_v125
  let main_c_49 : IVec S_ 1 := constantI S_ 1 1#1
  let main_v127 : IVec S_ 1 := (fun x v => Host.reduce IntOp.andi x v reducesTo_S64x40_S_d0_1 h_S_) main_v126 main_c_49
  let main_v128 : IVec S_ 1 := andi main_v123 main_v127
  let main_v129 : FVec F S40 .f32 := Host.absf main_arg27
  let main_cst_50 : FVec F S_ .f32 := constant S_ .f32 0x7F800000#32
  let main_v130 : FVec F S40 .f32 := broadcastInDim S40 ![] bcast_S_S40 main_cst_50
  let main_v131 : IVec S40 1 := cmpf .olt main_v129 main_v130
  let main_c_51 : IVec S_ 1 := constantI S_ 1 1#1
  let main_v132 : IVec S_ 1 := (fun x v => Host.reduce IntOp.andi x v reducesTo_S40_S_d0 h_S_) main_v131 main_c_51
  let main_v133 : IVec S_ 1 := andi main_v128 main_v132
  main_v133

def fn_part6 {F : FTy → Type} [FloatOps F] (main_arg22 : FVec F S64 .f32) (main_arg23 : FVec F S64x40 .f32) (main_arg24 : FVec F S40 .f32) (main_arg25 : FVec F S64x40 .f32) (main_arg26 : FVec F S64x40 .f32) (main_arg27 : FVec F S40 .f32) (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x40 .f32 := Host.absf main_arg23
  let main_cst_42 : FVec F S_ .f32 := constant S_ .f32 0x7F800000#32
  let main_v110 : FVec F S64x40 .f32 := broadcastInDim S64x40 ![] bcast_S_S64x40 main_cst_42
  let main_v111 : IVec S64x40 1 := cmpf .olt main_v109 main_v110
  let main_c_43 : IVec S_ 1 := constantI S_ 1 1#1
  let main_v112 : IVec S_ 1 := (fun x v => Host.reduce IntOp.andi x v reducesTo_S64x40_S_d0_1 h_S_) main_v111 main_c_43
  let main_v113 : IVec S_ 1 := andi main_v108 main_v112
  let main_v114 : FVec F S40 .f32 := Host.absf main_arg24
  let main_cst_44 : FVec F S_ .f32 := constant S_ .f32 0x7F800000#32
  let main_v115 : FVec F S40 .f32 := broadcastInDim S40 ![] bcast_S_S40 main_cst_44
  let main_v116 : IVec S40 1 := cmpf .olt main_v114 main_v115
  let main_c_45 : IVec S_ 1 := constantI S_ 1 1#1
  let main_v117 : IVec S_ 1 := (fun x v => Host.reduce IntOp.andi x v reducesTo_S40_S_d0 h_S_) main_v116 main_c_45
  let main_v118 : IVec S_ 1 := andi main_v113 main_v117
  let main_v119 : FVec F S64x40 .f32 := Host.absf main_arg25
  fn_part7 (F := F) main_arg26 main_arg27 main_v118 main_v119

def fn_part5 {F : FTy → Type} [FloatOps F] (main_arg19 : FVec F S128x64 .f32) (main_arg20 : FVec F S64 .f32) (main_arg21 : FVec F S64 .f32) (main_arg22 : FVec F S64 .f32) (main_arg23 : FVec F S64x40 .f32) (main_arg24 : FVec F S40 .f32) (main_arg25 : FVec F S64x40 .f32) (main_arg26 : FVec F S64x40 .f32) (main_arg27 : FVec F S40 .f32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_v89 : FVec F S128x64 .f32 := Host.absf main_arg19
  let main_cst_34 : FVec F S_ .f32 := constant S_ .f32 0x7F800000#32
  let main_v90 : FVec F S128x64 .f32 := broadcastInDim S128x64 ![] bcast_S_S128x64 main_cst_34
  let main_v91 : IVec S128x64 1 := cmpf .olt main_v89 main_v90
  let main_c_35 : IVec S_ 1 := constantI S_ 1 1#1
  let main_v92 : IVec S_ 1 := (fun x v => Host.reduce IntOp.andi x v reducesTo_S128x64_S_d0_1 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S128 .f32) (main_arg16 : FVec F S128x64 .f32) (main_arg17 : FVec F S64 .f32) (main_arg18 : FVec F S128x64 .f32) (main_arg19 : FVec F S128x64 .f32) (main_arg20 : FVec F S64 .f32) (main_arg21 : FVec F S64 .f32) (main_arg22 : FVec F S64 .f32) (main_arg23 : FVec F S64x40 .f32) (main_arg24 : FVec F S40 .f32) (main_arg25 : FVec F S64x40 .f32) (main_arg26 : FVec F S64x40 .f32) (main_arg27 : FVec F S40 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg16
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg17
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S256x128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_arg19 : FVec F S128x64 .f32) (main_arg20 : FVec F S64 .f32) (main_arg21 : FVec F S64 .f32) (main_arg22 : FVec F S64 .f32) (main_arg23 : FVec F S64x40 .f32) (main_arg24 : FVec F S40 .f32) (main_arg25 : FVec F S64x40 .f32) (main_arg26 : FVec F S64x40 .f32) (main_arg27 : FVec F S40 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S256 .f32) (main_arg9 : FVec F S256x128 .f32) (main_arg10 : FVec F S128 .f32) (main_arg11 : FVec F S256x128 .f32) (main_arg12 : FVec F S256x128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_arg19 : FVec F S128x64 .f32) (main_arg20 : FVec F S64 .f32) (main_arg21 : FVec F S64 .f32) (main_arg22 : FVec F S64 .f32) (main_arg23 : FVec F S64x40 .f32) (main_arg24 : FVec F S40 .f32) (main_arg25 : FVec F S64x40 .f32) (main_arg26 : FVec F S64x40 .f32) (main_arg27 : FVec F S40 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S256x128 .f32 := Host.absf main_arg11
  let main_cst_18 : FVec F S_ .f32 := constant S_ .f32 0x7F800000#32
  let main_v50 : FVec F S256x128 .f32 := broadcastInDim S256x128 ![] bcast_S_S256x128 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg5 : FVec F S128x256 .f32) (main_arg6 : FVec F S256 .f32) (main_arg7 : FVec F S256 .f32) (main_arg8 : FVec F S256 .f32) (main_arg9 : FVec F S256x128 .f32) (main_arg10 : FVec F S128 .f32) (main_arg11 : FVec F S256x128 .f32) (main_arg12 : FVec F S256x128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_arg19 : FVec F S128x64 .f32) (main_arg20 : FVec F S64 .f32) (main_arg21 : FVec F S64 .f32) (main_arg22 : FVec F S64 .f32) (main_arg23 : FVec F S64x40 .f32) (main_arg24 : FVec F S40 .f32) (main_arg25 : FVec F S64x40 .f32) (main_arg26 : FVec F S64x40 .f32) (main_arg27 : FVec F S40 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x128 .f32) (main_arg1 : IVec S2x800000 32) (main_arg2 : FVec F S128x256 .f32) (main_arg3 : FVec F S256 .f32) (main_arg4 : FVec F S128x256 .f32) (main_arg5 : FVec F S128x256 .f32) (main_arg6 : FVec F S256 .f32) (main_arg7 : FVec F S256 .f32) (main_arg8 : FVec F S256 .f32) (main_arg9 : FVec F S256x128 .f32) (main_arg10 : FVec F S128 .f32) (main_arg11 : FVec F S256x128 .f32) (main_arg12 : FVec F S256x128 .f32) (main_arg13 : FVec F S128 .f32) (main_arg14 : FVec F S128 .f32) (main_arg15 : FVec F S128 .f32) (main_arg16 : FVec F S128x64 .f32) (main_arg17 : FVec F S64 .f32) (main_arg18 : FVec F S128x64 .f32) (main_arg19 : FVec F S128x64 .f32) (main_arg20 : FVec F S64 .f32) (main_arg21 : FVec F S64 .f32) (main_arg22 : FVec F S64 .f32) (main_arg23 : FVec F S64x40 .f32) (main_arg24 : FVec F S40 .f32) (main_arg25 : FVec F S64x40 .f32) (main_arg26 : FVec F S64x40 .f32) (main_arg27 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x256 : Shape := ⟨2, ![1, 256]⟩
abbrev S50000x256 : Shape := ⟨2, ![50000, 256]⟩
abbrev S5000x128 : Shape := ⟨2, ![5000, 128]⟩
abbrev S5000x256 : Shape := ⟨2, ![5000, 256]⟩
abbrev S800000x256 : Shape := ⟨2, ![800000, 256]⟩
abbrev S1x128 : Shape := ⟨2, ![1, 128]⟩
abbrev S1x64 : Shape := ⟨2, ![1, 64]⟩
abbrev S50000x64 : Shape := ⟨2, ![50000, 64]⟩
abbrev S5000x64 : Shape := ⟨2, ![5000, 64]⟩
abbrev S800000x64 : Shape := ⟨2, ![800000, 64]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 167
  | .vmem => 68
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S128x256, .f32⟩
  | 5 => ⟨S128x256, .f32⟩
  | 6 => ⟨S256, .f32⟩
  | 7 => ⟨S256, .f32⟩
  | 8 => ⟨S256, .f32⟩
  | 9 => ⟨S256x128, .f32⟩
  | 10 => ⟨S128, .f32⟩
  | 11 => ⟨S256x128, .f32⟩
  | 12 => ⟨S256x128, .f32⟩
  | 13 => ⟨S128, .f32⟩
  | 14 => ⟨S128, .f32⟩
  | 15 => ⟨S128, .f32⟩
  | 16 => ⟨S128x64, .f32⟩
  | 17 => ⟨S64, .f32⟩
  | 18 => ⟨S128x64, .f32⟩
  | 19 => ⟨S128x64, .f32⟩
  | 20 => ⟨S64, .f32⟩
  | 21 => ⟨S64, .f32⟩
  | 22 => ⟨S64, .f32⟩
  | 23 => ⟨S64x40, .f32⟩
  | 24 => ⟨S40, .f32⟩
  | 25 => ⟨S64x40, .f32⟩
  | 26 => ⟨S64x40, .f32⟩
  | 27 => ⟨S40, .f32⟩
  | 28 => ⟨S1x800000, .i32⟩
  | 29 => ⟨S800000, .i32⟩
  | 30 => ⟨S1x800000, .i32⟩
  | 31 => ⟨S800000, .i32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x128, .f32⟩
  | 56 => ⟨S50000x128, .f32⟩
  | 57 => ⟨S128x256, .bf16⟩
  | 58 => ⟨S128x256, .f32⟩
  | 59 => ⟨S128x256, .bf16⟩
  | 60 => ⟨S256, .f32⟩
  | 61 => ⟨S1x256, .f32⟩
  | 62 => ⟨S50000x256, .f32⟩
  | 63 => ⟨S1x256, .f32⟩
  | 64 => ⟨S1x256, .f32⟩
  | 65 => ⟨S_, .f32⟩
  | 66 => ⟨S1x256, .f32⟩
  | 67 => ⟨S1x256, .f32⟩
  | 68 => ⟨S_, .f32⟩
  | 69 => ⟨S1x256, .f32⟩
  | 70 => ⟨S1x256, .f32⟩
  | 71 => ⟨S1x256, .f32⟩
  | 72 => ⟨S1x256, .f32⟩
  | 73 => ⟨S1x256, .f32⟩
  | 74 => ⟨S1x256, .f32⟩
  | 75 => ⟨S50000x256, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x256, .f32⟩
  | 85 => ⟨S_, .f32⟩
  | 86 => ⟨S50000x256, .f32⟩
  | 87 => ⟨S800000x1, .i32⟩
  | 88 => ⟨S50000x256, .f32⟩
  | 89 => ⟨S50000x256, .f32⟩
  | 90 => ⟨S50000x256, .f32⟩
  | 91 => ⟨S256x128, .bf16⟩
  | 92 => ⟨S256x128, .f32⟩
  | 93 => ⟨S256x128, .bf16⟩
  | 94 => ⟨S128, .f32⟩
  | 95 => ⟨S1x128, .f32⟩
  | 96 => ⟨S50000x128, .f32⟩
  | 97 => ⟨S1x128, .f32⟩
  | 98 => ⟨S1x128, .f32⟩
  | 99 => ⟨S_, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S1x128, .f32⟩
  | 107 => ⟨S1x128, .f32⟩
  | 108 => ⟨S1x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S50000x128, .f32⟩
  | 125 => ⟨S128x64, .bf16⟩
  | 126 => ⟨S128x64, .f32⟩
  | 127 => ⟨S128x64, .bf16⟩
  | _ => ⟨S50000x128, .f32⟩

abbrev hbmTy0_1 (i : Nat) : BufTy := match i % 128 with
  | 0 => ⟨S64, .f32⟩
  | 1 => ⟨S1x64, .f32⟩
  | 2 => ⟨S50000x64, .f32⟩
  | 3 => ⟨S1x64, .f32⟩
  | 4 => ⟨S1x64, .f32⟩
  | 5 => ⟨S_, .f32⟩
  | 6 => ⟨S1x64, .f32⟩
  | 7 => ⟨S1x64, .f32⟩
  | 8 => ⟨S_, .f32⟩
  | 9 => ⟨S1x64, .f32⟩
  | 10 => ⟨S1x64, .f32⟩
  | 11 => ⟨S1x64, .f32⟩
  | 12 => ⟨S1x64, .f32⟩
  | 13 => ⟨S1x64, .f32⟩
  | 14 => ⟨S1x64, .f32⟩
  | 15 => ⟨S50000x64, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000x64, .f32⟩
  | 25 => ⟨S_, .f32⟩
  | 26 => ⟨S50000x64, .f32⟩
  | 27 => ⟨S800000x1, .i32⟩
  | 28 => ⟨S50000x64, .f32⟩
  | 29 => ⟨S50000x64, .f32⟩
  | 30 => ⟨S50000x64, .f32⟩
  | 31 => ⟨S64x40, .bf16⟩
  | 32 => ⟨S64x40, .f32⟩
  | 33 => ⟨S64x40, .bf16⟩
  | 34 => ⟨S40, .f32⟩
  | 35 => ⟨S1x40, .f32⟩
  | 36 => ⟨S50000x40, .f32⟩
  | 37 => ⟨S1x40, .f32⟩
  | 38 => ⟨S1x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x256, .bf16⟩
  | .local _ .vmem, ⟨5, _⟩ => ⟨S128x256, .bf16⟩
  | .local _ .vmem, ⟨6, _⟩ => ⟨S1x256, .f32⟩
  | .local _ .vmem, ⟨7, _⟩ => ⟨S5000x256, .f32⟩
  | .local _ .vmem, ⟨8, _⟩ => ⟨S5000x256, .f32⟩
  | .local _ .vmem, ⟨9, _⟩ => ⟨S1x256, .f32⟩
  | .local _ .vmem, ⟨10, _⟩ => ⟨S1x256, .f32⟩
  | .local _ .vmem, ⟨11, _⟩ => ⟨S5000x256, .f32⟩
  | .local _ .vmem, ⟨12, _⟩ => ⟨S5000x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S5000x256, .f32⟩
  | .local _ .vmem, ⟨21, _⟩ => ⟨S5000x256, .f32⟩
  | .local _ .vmem, ⟨22, _⟩ => ⟨S5000x256, .f32⟩
  | .local _ .vmem, ⟨23, _⟩ => ⟨S256x128, .bf16⟩
  | .local _ .vmem, ⟨24, _⟩ => ⟨S256x128, .bf16⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x64, .bf16⟩
  | .local _ .vmem, ⟨43, _⟩ => ⟨S128x64, .bf16⟩
  | .local _ .vmem, ⟨44, _⟩ => ⟨S1x64, .f32⟩
  | .local _ .vmem, ⟨45, _⟩ => ⟨S5000x64, .f32⟩
  | .local _ .vmem, ⟨46, _⟩ => ⟨S5000x64, .f32⟩
  | .local _ .vmem, ⟨47, _⟩ => ⟨S1x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S64x40, .bf16⟩
  | .local _ .vmem, ⟨62, _⟩ => ⟨S64x40, .bf16⟩
  | .local _ .vmem, ⟨63, _⟩ => ⟨S1x40, .f32⟩
  | .local _ .vmem, ⟨64, _⟩ => ⟨S5000x40, .f32⟩
  | .local _ .vmem, ⟨65, _⟩ => ⟨S5000x40, .f32⟩
  | .local _ .vmem, ⟨66, _⟩ => ⟨S1x40, .f32⟩
  | .local _ .vmem, ⟨67, _⟩ => ⟨S1x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c : Ref sig .tc := ⟨.hbm, 42, rfl⟩
abbrev main_v11 : Ref sig .tc := ⟨.hbm, 43, rfl⟩
abbrev main_v12 : Ref sig .tc := ⟨.hbm, 44, rfl⟩
abbrev main_c_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28_0 : Ref sig .tc := ⟨.hbm, 62, rfl⟩
abbrev main_v28_1 : Ref sig .tc := ⟨.hbm, 63, rfl⟩
abbrev main_v28_2 : Ref sig .tc := ⟨.hbm, 64, rfl⟩
abbrev main_cst_4 : Ref sig .tc := ⟨.hbm, 65, rfl⟩
abbrev main_v29 : Ref sig .tc := ⟨.hbm, 66, rfl⟩
abbrev main_v30 : Ref sig .tc := ⟨.hbm, 67, rfl⟩
abbrev main_cst_5 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_6 : Ref sig .tc := ⟨.hbm, 76, rfl⟩
abbrev main_v38 : Ref sig .tc := ⟨.hbm, 77, rfl⟩
abbrev main_v39 : Ref sig .tc := ⟨.hbm, 78, rfl⟩
abbrev main_c_7 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_8 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55_0 : Ref sig .tc := ⟨.hbm, 96, rfl⟩
abbrev main_v55_1 : Ref sig .tc := ⟨.hbm, 97, rfl⟩
abbrev main_v55_2 : Ref sig .tc := ⟨.hbm, 98, rfl⟩
abbrev main_cst_9 : Ref sig .tc := ⟨.hbm, 99, rfl⟩
abbrev main_v56 : Ref sig .tc := ⟨.hbm, 100, rfl⟩
abbrev main_v57 : Ref sig .tc := ⟨.hbm, 101, rfl⟩
abbrev main_cst_10 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_c_11 : Ref sig .tc := ⟨.hbm, 110, rfl⟩
abbrev main_v65 : Ref sig .tc := ⟨.hbm, 111, rfl⟩
abbrev main_v66 : Ref sig .tc := ⟨.hbm, 112, rfl⟩
abbrev main_c_12 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_13 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82_0 : Ref sig .tc := ⟨.hbm, 130, rfl⟩
abbrev main_v82_1 : Ref sig .tc := ⟨.hbm, 131, rfl⟩
abbrev main_v82_2 : Ref sig .tc := ⟨.hbm, 132, rfl⟩
abbrev main_cst_14 : Ref sig .tc := ⟨.hbm, 133, rfl⟩
abbrev main_v83 : Ref sig .tc := ⟨.hbm, 134, rfl⟩
abbrev main_v84 : Ref sig .tc := ⟨.hbm, 135, rfl⟩
abbrev main_cst_15 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_c_16 : Ref sig .tc := ⟨.hbm, 144, rfl⟩
abbrev main_v92 : Ref sig .tc := ⟨.hbm, 145, rfl⟩
abbrev main_v93 : Ref sig .tc := ⟨.hbm, 146, rfl⟩
abbrev main_c_17 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_18 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109_0 : Ref sig .tc := ⟨.hbm, 164, rfl⟩
abbrev main_v109_1 : Ref sig .tc := ⟨.hbm, 165, rfl⟩
abbrev main_v109_2 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc2_stg6_0 : Ref sig .tc := ⟨.vmem, 28, rfl⟩
abbrev cc2_stg7_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg5_1 : Ref sig .tc := ⟨.vmem, 46, rfl⟩
abbrev cc4_stg6_0 : Ref sig .tc := ⟨.vmem, 47, rfl⟩
abbrev cc4_stg7_0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg7_0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc6_sem6_0 : DmaSem sig := 66
abbrev cc6_sem7_0 : DmaSem sig := 67

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x40 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x40 .bf16 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x40 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x40 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x40 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x40 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bitsLt_bf16_f32 : FTy.bits .bf16 < FTy.bits .f32
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  reduces_S5000x256_S256 : S5000x256.Reduces [0] S256
  bcast_S_S1x256 : S_.BroadcastsInDim S1x256 (![] : Fin 0 → Fin S1x256.rank)
  shapeCasts_S5000x256_S5000x256 : S5000x256.ShapeCasts S5000x256
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  reduces_S5000x40_S40 : S5000x40.Reduces [0] S40
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x256_S5000x256_1_0_0_1_n_n_wf : DotDims.WF S5000x128 S128x256 S5000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x128_S5000x128_1_0_0_1_n_n_wf : DotDims.WF S5000x256 S256x128 S5000x128 [1] [0] [0] [1] [] []
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .bf16 = 32 ∨ (Rect.block (s := S128x256) S128x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S50000x256.size a
  hwx0_5 : ∀ i : grid0.Coords, EltTy.bits .f32 = 32 ∨ (Rect.block (s := S50000x256) S5000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x256.size a ≤ S50000x256.size a
  hwx1_5 : ∀ i : grid1.Coords, EltTy.bits .f32 = 32 ∨ (Rect.block (s := S50000x256) S5000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x256.size a ≤ S50000x256.size a
  hwx2_1 : ∀ i : grid2.Coords, EltTy.bits .f32 = 32 ∨ (Rect.block (s := S50000x256) S5000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .bf16 = 32 ∨ (Rect.block (s := S128x64) S128x64.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .bf16 = 32 ∨ (Rect.block (s := S128x64) S128x64.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S50000x64.size a
  hwx4_5 : ∀ i : grid4.Coords, EltTy.bits .f32 = 32 ∨ (Rect.block (s := S50000x64) S5000x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S50000x64.size a
  hwx6_1 : ∀ i : grid6.Coords, EltTy.bits .f32 = 32 ∨ (Rect.block (s := S50000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x40.size a ≤ S64x40.size a
  hwx6_2 : ∀ i : grid6.Coords, EltTy.bits .bf16 = 32 ∨ (Rect.block (s := S64x40) S64x40.size (cc6_transform_2 i) (hinb6_2 i)).WholeWords (EltTy.packing .bf16)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x40.size a ≤ S64x40.size a
  hwx6_3 : ∀ i : grid6.Coords, EltTy.bits .bf16 = 32 ∨ (Rect.block (s := S64x40) S64x40.size (cc6_transform_3 i) (hinb6_3 i)).WholeWords (EltTy.packing .bf16)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x40.size a ≤ S1x40.size a
  hwx6_4 : ∀ i : grid6.Coords, EltTy.bits .f32 = 32 ∨ (Rect.block (s := S1x40) S1x40.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x40.size a ≤ S50000x40.size a
  hwx6_5 : ∀ i : grid6.Coords, EltTy.bits .f32 = 32 ∨ (Rect.block (s := S50000x40) S5000x40.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x40.size a ≤ S1x40.size a
  hwx6_6 : ∀ i : grid6.Coords, EltTy.bits .f32 = 32 ∨ (Rect.block (s := S1x40) S1x40.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x40.size a ≤ S1x40.size a
  hwx6_7 : ∀ i : grid6.Coords, EltTy.bits .f32 = 32 ∨ (Rect.block (s := S1x40) S1x40.size (cc6_transform_7 i) (hinb6_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28_0) S5000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v28_0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v49) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S5000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v55_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v55_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v55_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v62) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v63) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v64) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v76) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v77) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82_0) S5000x64.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v82_1) S1x64.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v82_2) S1x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v82_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v88) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v89) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v90) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v91) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v103) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v91) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v104) S64x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S64x40.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v108) S1x40.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v109_0) S5000x40.size cc6_transform_5 reads6_5 true false 2 stage6_5 sem6_5
    hrank6 hreads6_5 hinb6_5 nbuf6_5 (Memref.isWhole_whole _) hwx6_5 hstage6_5

abbrev win6_6 : Pipeline.Window sig grid6 :=
  Pipeline.Window.ofSpec (Memref.whole main_v109_1) S1x40.size cc6_transform_6 reads6_6 true true 1 stage6_6 sem6_6
    hrank6 hreads6_6 hinb6_6 nbuf6_6 (Memref.isWhole_whole _) hwx6_6 hstage6_6

abbrev win6_7 : Pipeline.Window sig grid6 :=
  Pipeline.Window.ofSpec (Memref.whole main_v109_2) S1x40.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩
abbrev S50000x64 : Shape := ⟨2, ![50000, 64]⟩
abbrev S1x64 : Shape := ⟨2, ![1, 64]⟩
abbrev S800000x64 : Shape := ⟨2, ![800000, 64]⟩
abbrev S50000x40 : Shape := ⟨2, ![50000, 40]⟩
abbrev S1x40 : Shape := ⟨2, ![1, 40]⟩

abbrev nBuf : Space → Nat
  | .hbm => 287
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S128x256, .f32⟩
  | 5 => ⟨S128x256, .f32⟩
  | 6 => ⟨S256, .f32⟩
  | 7 => ⟨S256, .f32⟩
  | 8 => ⟨S256, .f32⟩
  | 9 => ⟨S256x128, .f32⟩
  | 10 => ⟨S128, .f32⟩
  | 11 => ⟨S256x128, .f32⟩
  | 12 => ⟨S256x128, .f32⟩
  | 13 => ⟨S128, .f32⟩
  | 14 => ⟨S128, .f32⟩
  | 15 => ⟨S128, .f32⟩
  | 16 => ⟨S128x64, .f32⟩
  | 17 => ⟨S64, .f32⟩
  | 18 => ⟨S128x64, .f32⟩
  | 19 => ⟨S128x64, .f32⟩
  | 20 => ⟨S64, .f32⟩
  | 21 => ⟨S64, .f32⟩
  | 22 => ⟨S64, .f32⟩
  | 23 => ⟨S64x40, .f32⟩
  | 24 => ⟨S40, .f32⟩
  | 25 => ⟨S64x40, .f32⟩
  | 26 => ⟨S64x40, .f32⟩
  | 27 => ⟨S40, .f32⟩
  | 28 => ⟨S1x800000, .i32⟩
  | 29 => ⟨S800000, .i32⟩
  | 30 => ⟨S1x800000, .i32⟩
  | 31 => ⟨S800000, .i32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .f32⟩
  | 52 => ⟨S50000x128, .f32⟩
  | 53 => ⟨S800000x1, .i32⟩
  | 54 => ⟨S50000x128, .f32⟩
  | 55 => ⟨S50000x128, .f32⟩
  | 56 => ⟨S50000x128, .f32⟩
  | 57 => ⟨S50000x256, .f32⟩
  | 58 => ⟨S1x256, .f32⟩
  | 59 => ⟨S50000x256, .f32⟩
  | 60 => ⟨S50000x256, .f32⟩
  | 61 => ⟨S50000x256, .f32⟩
  | 62 => ⟨S50000x256, .f32⟩
  | 63 => ⟨S50000x256, .f32⟩
  | 64 => ⟨S50000x256, .f32⟩
  | 65 => ⟨S1x256, .f32⟩
  | 66 => ⟨S50000x256, .f32⟩
  | 67 => ⟨S50000x256, .f32⟩
  | 68 => ⟨S_, .f32⟩
  | 69 => ⟨S50000x256, .f32⟩
  | 70 => ⟨S50000x256, .f32⟩
  | 71 => ⟨S_, .f32⟩
  | 72 => ⟨S256, .f32⟩
  | 73 => ⟨S_, .f32⟩
  | 74 => ⟨S256, .f32⟩
  | 75 => ⟨S256, .f32⟩
  | 76 => ⟨S_, .i32⟩
  | 77 => ⟨S_, .f32⟩
  | 78 => ⟨S256, .f32⟩
  | 79 => ⟨S1x256, .f32⟩
  | 80 => ⟨S_, .f32⟩
  | 81 => ⟨S1x256, .f32⟩
  | 82 => ⟨S1x256, .f32⟩
  | 83 => ⟨S50000x256, .f32⟩
  | 84 => ⟨S50000x256, .f32⟩
  | 85 => ⟨S50000x256, .f32⟩
  | 86 => ⟨S_, .f32⟩
  | 87 => ⟨S_, .f32⟩
  | 88 => ⟨S_, .f32⟩
  | 89 => ⟨S_, .f32⟩
  | 90 => ⟨S256, .f32⟩
  | 91 => ⟨S256, .f32⟩
  | 92 => ⟨S256, .f32⟩
  | 93 => ⟨S_, .f32⟩
  | 94 => ⟨S_, .i1⟩
  | 95 => ⟨S_, .f32⟩
  | 96 => ⟨S_, .f32⟩
  | 97 => ⟨S256, .f32⟩
  | 98 => ⟨S256, .f32⟩
  | 99 => ⟨S1x256, .f32⟩
  | 100 => ⟨S50000x256, .f32⟩
  | 101 => ⟨S50000x256, .f32⟩
  | 102 => ⟨S_, .f32⟩
  | 103 => ⟨S256, .f32⟩
  | 104 => ⟨S256, .f32⟩
  | 105 => ⟨S256, .f32⟩
  | 106 => ⟨S1x256, .f32⟩
  | 107 => ⟨S50000x256, .f32⟩
  | 108 => ⟨S50000x256, .f32⟩
  | 109 => ⟨S1x256, .f32⟩
  | 110 => ⟨S50000x256, .f32⟩
  | 111 => ⟨S50000x256, .f32⟩
  | 112 => ⟨S1x256, .f32⟩
  | 113 => ⟨S50000x256, .f32⟩
  | 114 => ⟨S50000x256, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .f32⟩
  | 124 => ⟨S_, .f32⟩
  | 125 => ⟨S50000x256, .f32⟩
  | 126 => ⟨S800000x1, .i32⟩
  | 127 => ⟨S50000x256, .f32⟩
  | _ => ⟨S50000x128, .f32⟩

abbrev hbmTy0_1 (i : Nat) : BufTy := match i % 128 with
  | 0 => ⟨S50000x256, .f32⟩
  | 1 => ⟨S50000x256, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S_, .f32⟩
  | 17 => ⟨S128, .f32⟩
  | 18 => ⟨S_, .f32⟩
  | 19 => ⟨S128, .f32⟩
  | 20 => ⟨S128, .f32⟩
  | 21 => ⟨S_, .i32⟩
  | 22 => ⟨S_, .f32⟩
  | 23 => ⟨S128, .f32⟩
  | 24 => ⟨S1x128, .f32⟩
  | 25 => ⟨S_, .f32⟩
  | 26 => ⟨S1x128, .f32⟩
  | 27 => ⟨S1x128, .f32⟩
  | 28 => ⟨S50000x128, .f32⟩
  | 29 => ⟨S50000x128, .f32⟩
  | 30 => ⟨S50000x128, .f32⟩
  | 31 => ⟨S_, .f32⟩
  | 32 => ⟨S_, .f32⟩
  | 33 => ⟨S_, .f32⟩
  | 34 => ⟨S_, .f32⟩
  | 35 => ⟨S128, .f32⟩
  | 36 => ⟨S128, .f32⟩
  | 37 => ⟨S128, .f32⟩
  | 38 => ⟨S_, .f32⟩
  | 39 => ⟨S_, .i1⟩
  | 40 => ⟨S_, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S_, .f32⟩
  | 48 => ⟨S128, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000x128, .f32⟩
  | 74 => ⟨S50000x128, .f32⟩
  | 75 => ⟨S50000x64, .f32⟩
  | 76 => ⟨S1x64, .f32⟩
  | 77 => ⟨S50000x64, .f32⟩
  | 78 => ⟨S50000x64, .f32⟩
  | 79 => ⟨S50000x64, .f32⟩
  | 80 => ⟨S50000x64, .f32⟩
  | 81 => ⟨S50000x64, .f32⟩
  | 82 => ⟨S50000x64, .f32⟩
  | 83 => ⟨S1x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S_, .f32⟩
  | 90 => ⟨S64, .f32⟩
  | 91 => ⟨S_, .f32⟩
  | 92 => ⟨S64, .f32⟩
  | 93 => ⟨S64, .f32⟩
  | 94 => ⟨S_, .i32⟩
  | 95 => ⟨S_, .f32⟩
  | 96 => ⟨S64, .f32⟩
  | 97 => ⟨S1x64, .f32⟩
  | 98 => ⟨S_, .f32⟩
  | 99 => ⟨S1x64, .f32⟩
  | 100 => ⟨S1x64, .f32⟩
  | 101 => ⟨S50000x64, .f32⟩
  | 102 => ⟨S50000x64, .f32⟩
  | 103 => ⟨S50000x64, .f32⟩
  | 104 => ⟨S_, .f32⟩
  | 105 => ⟨S_, .f32⟩
  | 106 => ⟨S_, .f32⟩
  | 107 => ⟨S_, .f32⟩
  | 108 => ⟨S64, .f32⟩
  | 109 => ⟨S64, .f32⟩
  | 110 => ⟨S64, .f32⟩
  | 111 => ⟨S_, .f32⟩
  | 112 => ⟨S_, .i1⟩
  | 113 => ⟨S_, .f32⟩
  | 114 => ⟨S_, .f32⟩
  | 115 => ⟨S64, .f32⟩
  | 116 => ⟨S64, .f32⟩
  | 117 => ⟨S1x64, .f32⟩
  | 118 => ⟨S50000x64, .f32⟩
  | 119 => ⟨S50000x64, .f32⟩
  | 120 => ⟨S_, .f32⟩
  | 121 => ⟨S64, .f32⟩
  | 122 => ⟨S64, .f32⟩
  | 123 => ⟨S64, .f32⟩
  | 124 => ⟨S1x64, .f32⟩
  | 125 => ⟨S50000x64, .f32⟩
  | 126 => ⟨S50000x64, .f32⟩
  | 127 => ⟨S1x64, .f32⟩
  | _ => ⟨S50000x128, .f32⟩

abbrev hbmTy0_2 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S_, .f32⟩
  | 15 => ⟨S50000x64, .f32⟩
  | 16 => ⟨S800000x1, .i32⟩
  | 17 => ⟨S50000x64, .f32⟩
  | 18 => ⟨S50000x64, .f32⟩
  | 19 => ⟨S50000x64, .f32⟩
  | 20 => ⟨S50000x40, .f32⟩
  | 21 => ⟨S1x40, .f32⟩
  | 22 => ⟨S50000x40, .f32⟩
  | 23 => ⟨S50000x40, .f32⟩
  | 24 => ⟨S50000x40, .f32⟩
  | 25 => ⟨S50000x40, .f32⟩
  | 26 => ⟨S50000x40, .f32⟩
  | 27 => ⟨S50000x40, .f32⟩
  | 28 => ⟨S1x40, .f32⟩
  | 29 => ⟨S50000x40, .f32⟩
  | 30 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_c : Ref sig .tc := ⟨.hbm, 42, rfl⟩
abbrev main_v11 : Ref sig .tc := ⟨.hbm, 43, rfl⟩
abbrev main_v12 : Ref sig .tc := ⟨.hbm, 44, rfl⟩
abbrev main_c_2 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_3 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_call0_cst : Ref sig .tc := ⟨.hbm, 68, rfl⟩
abbrev main_call0_v0 : Ref sig .tc := ⟨.hbm, 69, rfl⟩
abbrev main_v34 : Ref sig .tc := ⟨.hbm, 70, rfl⟩
abbrev main_cst_4 : Ref sig .tc := ⟨.hbm, 71, rfl⟩
abbrev main_v35 : Ref sig .tc := ⟨.hbm, 72, rfl⟩
abbrev main_cst_5 : Ref sig .tc := ⟨.hbm, 73, rfl⟩
abbrev main_v36 : Ref sig .tc := ⟨.hbm, 74, rfl⟩
abbrev main_v37 : Ref sig .tc := ⟨.hbm, 75, rfl⟩
abbrev main_c_6 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_cst_7 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_c_8 : Ref sig .tc := ⟨.hbm, 115, rfl⟩
abbrev main_v54 : Ref sig .tc := ⟨.hbm, 116, rfl⟩
abbrev main_v55 : Ref sig .tc := ⟨.hbm, 117, rfl⟩
abbrev main_c_9 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_cst_10 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_call2_cst : Ref sig .tc := ⟨.hbm, 141, rfl⟩
abbrev main_call2_v0 : Ref sig .tc := ⟨.hbm, 142, rfl⟩
abbrev main_v77 : Ref sig .tc := ⟨.hbm, 143, rfl⟩
abbrev main_cst_11 : Ref sig .tc := ⟨.hbm, 144, rfl⟩
abbrev main_v78 : Ref sig .tc := ⟨.hbm, 145, rfl⟩
abbrev main_cst_12 : Ref sig .tc := ⟨.hbm, 146, rfl⟩
abbrev main_v79 : Ref sig .tc := ⟨.hbm, 147, rfl⟩
abbrev main_v80 : Ref sig .tc := ⟨.hbm, 148, rfl⟩
abbrev main_c_13 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_cst_0 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_cst_1 : Ref sig .tc := ⟨.hbm, 160, rfl⟩
abbrev main_call3_v8 : Ref sig .tc := ⟨.hbm, 161, rfl⟩
abbrev main_call3_cst_2 : Ref sig .tc := ⟨.hbm, 162, rfl⟩
abbrev main_call3_v9 : Ref sig .tc := ⟨.hbm, 163, rfl⟩
abbrev main_call3_v10 : Ref sig .tc := ⟨.hbm, 164, rfl⟩
abbrev main_call3_v11 : Ref sig .tc := ⟨.hbm, 165, rfl⟩
abbrev main_call3_cst_3 : Ref sig .tc := ⟨.hbm, 166, rfl⟩
abbrev main_call3_v12 : Ref sig .tc := ⟨.hbm, 167, rfl⟩
abbrev main_call3_cst_4 : Ref sig .tc := ⟨.hbm, 168, rfl⟩
abbrev main_call3_call0_v0 : Ref sig .tc := ⟨.hbm, 169, rfl⟩
abbrev main_call3_call0_v1 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_cst_14 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_c_15 : Ref sig .tc := ⟨.hbm, 188, rfl⟩
abbrev main_v97 : Ref sig .tc := ⟨.hbm, 189, rfl⟩
abbrev main_v98 : Ref sig .tc := ⟨.hbm, 190, rfl⟩
abbrev main_c_16 : Ref sig .tc := ⟨.hbm, 191, rfl⟩
abbrev main_v99 : Ref sig .tc := ⟨.hbm, 192, rfl⟩
abbrev main_v100 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_cst_17 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_v107 : Ref sig .tc := ⟨.hbm, 201, rfl⟩
abbrev main_v108 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_call4_cst : Ref sig .tc := ⟨.hbm, 214, rfl⟩
abbrev main_call4_v0 : Ref sig .tc := ⟨.hbm, 215, rfl⟩
abbrev main_v120 : Ref sig .tc := ⟨.hbm, 216, rfl⟩
abbrev main_cst_18 : Ref sig .tc := ⟨.hbm, 217, rfl⟩
abbrev main_v121 : Ref sig .tc := ⟨.hbm, 218, rfl⟩
abbrev main_cst_19 : Ref sig .tc := ⟨.hbm, 219, rfl⟩
abbrev main_v122 : Ref sig .tc := ⟨.hbm, 220, rfl⟩
abbrev main_v123 : Ref sig .tc := ⟨.hbm, 221, rfl⟩
abbrev main_c_20 : Ref sig .tc := ⟨.hbm, 222, rfl⟩
abbrev main_call5_cst : Ref sig .tc := ⟨.hbm, 223, rfl⟩
abbrev main_call5_v0 : Ref sig .tc := ⟨.hbm, 224, rfl⟩
abbrev main_call5_v1 : Ref sig .tc := ⟨.hbm, 225, rfl⟩
abbrev main_call5_cst_0 : Ref sig .tc := ⟨.hbm, 226, rfl⟩
abbrev main_call5_v2 : Ref sig .tc := ⟨.hbm, 227, rfl⟩
abbrev main_call5_v3 : Ref sig .tc := ⟨.hbm, 228, rfl⟩
abbrev main_call5_v4 : Ref sig .tc := ⟨.hbm, 229, rfl⟩
abbrev main_call5_v5 : Ref sig .tc := ⟨.hbm, 230, rfl⟩
abbrev main_call5_v6 : Ref sig .tc := ⟨.hbm, 231, rfl⟩
abbrev main_call5_v7 : Ref sig .tc := ⟨.hbm, 232, rfl⟩
abbrev main_call5_cst_1 : Ref sig .tc := ⟨.hbm, 233, rfl⟩
abbrev main_call5_v8 : Ref sig .tc := ⟨.hbm, 234, rfl⟩
abbrev main_call5_cst_2 : Ref sig .tc := ⟨.hbm, 235, rfl⟩
abbrev main_call5_v9 : Ref sig .tc := ⟨.hbm, 236, rfl⟩
abbrev main_call5_v10 : Ref sig .tc := ⟨.hbm, 237, rfl⟩
abbrev main_call5_v11 : Ref sig .tc := ⟨.hbm, 238, rfl⟩
abbrev main_call5_cst_3 : Ref sig .tc := ⟨.hbm, 239, rfl⟩
abbrev main_call5_v12 : Ref sig .tc := ⟨.hbm, 240, rfl⟩
abbrev main_call5_cst_4 : Ref sig .tc := ⟨.hbm, 241, rfl⟩
abbrev main_call5_call0_v0 : Ref sig .tc := ⟨.hbm, 242, rfl⟩
abbrev main_call5_call0_v1 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_21 : Ref sig .tc := ⟨.hbm, 248, rfl⟩
abbrev main_v128 : Ref sig .tc := ⟨.hbm, 249, rfl⟩
abbrev main_v129 : Ref sig .tc := ⟨.hbm, 250, rfl⟩
abbrev main_v130 : Ref sig .tc := ⟨.hbm, 251, rfl⟩
abbrev main_v131 : Ref sig .tc := ⟨.hbm, 252, rfl⟩
abbrev main_v132 : Ref sig .tc := ⟨.hbm, 253, rfl⟩
abbrev main_v133 : Ref sig .tc := ⟨.hbm, 254, rfl⟩
abbrev main_v134 : Ref sig .tc := ⟨.hbm, 255, rfl⟩
abbrev main_v135 : Ref sig .tc := ⟨.hbm, 256, rfl⟩
abbrev main_v136 : Ref sig .tc := ⟨.hbm, 257, rfl⟩
abbrev main_v137 : Ref sig .tc := ⟨.hbm, 258, rfl⟩
abbrev main_v138 : Ref sig .tc := ⟨.hbm, 259, rfl⟩
abbrev main_v139 : Ref sig .tc := ⟨.hbm, 260, rfl⟩
abbrev main_c_22 : Ref sig .tc := ⟨.hbm, 261, rfl⟩
abbrev main_v140 : Ref sig .tc := ⟨.hbm, 262, rfl⟩
abbrev main_v141 : Ref sig .tc := ⟨.hbm, 263, rfl⟩
abbrev main_c_23 : Ref sig .tc := ⟨.hbm, 264, rfl⟩
abbrev main_v142 : Ref sig .tc := ⟨.hbm, 265, rfl⟩
abbrev main_v143 : Ref sig .tc := ⟨.hbm, 266, rfl⟩
abbrev main_v144 : Ref sig .tc := ⟨.hbm, 267, rfl⟩
abbrev main_v145 : Ref sig .tc := ⟨.hbm, 268, rfl⟩
abbrev main_v146 : Ref sig .tc := ⟨.hbm, 269, rfl⟩
abbrev main_cst_24 : Ref sig .tc := ⟨.hbm, 270, rfl⟩
abbrev main_v147 : Ref sig .tc := ⟨.hbm, 271, rfl⟩
abbrev main_v148 : Ref sig .tc := ⟨.hbm, 272, rfl⟩
abbrev main_v149 : Ref sig .tc := ⟨.hbm, 273, rfl⟩
abbrev main_v150 : Ref sig .tc := ⟨.hbm, 274, rfl⟩
abbrev main_v151 : Ref sig .tc := ⟨.hbm, 275, rfl⟩
abbrev main_v152 : Ref sig .tc := ⟨.hbm, 276, rfl⟩
abbrev main_v153 : Ref sig .tc := ⟨.hbm, 277, rfl⟩
abbrev main_v154 : Ref sig .tc := ⟨.hbm, 278, rfl⟩
abbrev main_v155 : Ref sig .tc := ⟨.hbm, 279, rfl⟩
abbrev main_v156 : Ref sig .tc := ⟨.hbm, 280, rfl⟩
abbrev main_v157 : Ref sig .tc := ⟨.hbm, 281, rfl⟩
abbrev main_v158 : Ref sig .tc := ⟨.hbm, 282, rfl⟩
abbrev main_v159 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  bcast_S_S64 : S_.BroadcastsInDim S64 (![] : Fin 0 → Fin S64.rank)
  bcast_S_S1x64 : S_.BroadcastsInDim S1x64 (![] : Fin 0 → Fin S1x64.rank)
  bcast_S50000x1_S50000x64_0_1 : S50000x1.BroadcastsInDim S50000x64 (![0, 1] : Fin 2 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x40_S50000x40_1_0_0_1_n_n_wf : DotDims.WF S50000x64 S64x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.KRun.lean ====
/- The kernel's run with the result named.

   From any memory with zero counters, every weakly fair execution of the tiled program on the TensorCores
   terminates without fault.  At the end the buffer that receives the last layer's output holds the array the last
   region's write-backs leave, `(Gen.dat6 (Gen.V13 m ρ) c).arrAt 5 cfg6.N`, where `Gen.V13 m ρ` is the memory at
   that region's entry, and each of the twenty-eight argument arrays is as launched. -/
import proofs.«144552_j81088982548491_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The sixth window of the last region is the buffer of the program's result. -/
theorem arrRef_result : Pipeline.arrRef spec6 5 = main_v109_0 := rfl

set_option backward.isDefEq.respectTransparency.types false in
/-- At the compiled mesh, from any memory with zero counters, every weakly fair execution of the program on the
    TensorCores terminates, nothing faulting, and every final state has the result buffer at what the last region's
    write-backs leave and each argument array as launched. -/
theorem run_named : θ_run defs (onTc (τ := τ) (main (F := F))) ⟨m, fun _ => 0, ρ⟩ (fun r => ∀ c : Dev nD,
      r.2.mem ((c.tc : Thread nD τ).loc main_v109_0) = (Gen.dat6 (Gen.V13 m ρ) c).arrAt 5 cfg6.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨(h c _ (mem_uc main_v109_0 (by decide))).trans (W14_arr m ρ c 5),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c),
       (h c _ (mem_uc main_arg17 (by decide))).trans (W14_main_arg17 m ρ c),
       (h c _ (mem_uc main_arg18 (by decide))).trans (W14_main_arg18 m ρ c),
       (h c _ (mem_uc main_arg19 (by decide))).trans (W14_main_arg19 m ρ c),
       (h c _ (mem_uc main_arg20 (by decide))).trans (W14_main_arg20 m ρ c),
       (h c _ (mem_uc main_arg21 (by decide))).trans (W14_main_arg21 m ρ c),
       (h c _ (mem_uc main_arg22 (by decide))).trans (W14_main_arg22 m ρ c),
       (h c _ (mem_uc main_arg23 (by decide))).trans (W14_main_arg23 m ρ c),
       (h c _ (mem_uc main_arg24 (by decide))).trans (W14_main_arg24 m ρ c),
       (h c _ (mem_uc main_arg25 (by decide))).trans (W14_main_arg25 m ρ c),
       (h c _ (mem_uc main_arg26 (by decide))).trans (W14_main_arg26 m ρ c),
       (h c _ (mem_uc main_arg27 (by decide))).trans (W14_main_arg27 m ρ c)⟩)

end Cert.KernelIdeal.KRun

end
-- ==== Proof.RefOps.lean ====
/- The reference program's @main as a list of its host operations, the calls of its module-local
   functions (the rectifier, the variance with its guarded select) written out at the buffers each call
   names, and the statement that every weakly fair run of @main ends with each buffer at the fold of the
   operations' results over the launch contents. The list is cut into consecutive pieces: the stretches
   that compute one layer function each (the degree counts, a neighbourhood mean, a linear layer with its
   rectifier, a batch normalisation), themselves cut where the printed program's four windows end. -/
import proofs.«144552_j81088982548491_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 14 of the 259. -/
abbrev pCnt : List (HloOp τ sig (Elt F)) :=
  unary main_arg1 main_v0 ((extractStridedSlice S1x800000 ![0, 0] · slices_S2x800000_S1x800000_0_0) : (⟨S2x800000, .i32⟩ : BufTy).Contents (Elt F) → (⟨S1x800000, .i32⟩ : BufTy).Contents (Elt F)) ::
  reshape main_v0 main_v1 rfl shapeCasts_S1x800000_S800000 ::
  unary main_arg1 main_v2 ((extractStridedSlice S1x800000 ![1, 0] · slices_S2x800000_S1x800000_1_0) : (⟨S2x800000, .i32⟩ : BufTy).Contents (Elt F) → (⟨S1x800000, .i32⟩ : BufTy).Contents (Elt F)) ::
  reshape main_v2 main_v3 rfl shapeCasts_S1x800000_S800000 ::
  nullary main_cst (constant S_ .f32 0x3F800000#32) ::
  unary main_cst main_v4 (broadcastInDim S800000 ![] bcast_S_S800000 : (⟨S_, .f32⟩ : BufTy).Contents (Elt F) → (⟨S800000, .f32⟩ : BufTy).Contents (Elt F)) ::
  nullary main_cst_0 (constant S_ .f32 0x00000000#32) ::
  unary main_cst_0 main_v5 (broadcastInDim S50000 ![] bcast_S_S50000 : (⟨S_, .f32⟩ : BufTy).Contents (Elt F) → (⟨S50000, .f32⟩ : BufTy).Contents (Elt F)) ::
  unary main_v3 main_v6 (broadcastInDim S800000x1 ![0] bcast_S800000_S800000x1_0 : (⟨S800000, .i32⟩ : BufTy).Contents (Elt F) → (⟨S800000x1, .i32⟩ : BufTy).Contents (Elt F)) ::
  ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ::
  nullary main_cst_1 (constant S_ .f32 0x3F800000#32) ::
  unary main_cst_1 main_v8 (broadcastInDim S50000 ![] bcast_S_S50000 : (⟨S_, .f32⟩ : BufTy).Contents (Elt F) → (⟨S50000, .f32⟩ : BufTy).Contents (Elt F)) ::
  binary main_v7 main_v8 main_v9 (maximumf : (⟨S50000, .f32⟩ : BufTy).Contents (Elt F) → (⟨S50000, .f32⟩ : BufTy).Contents (Elt F) → (⟨S50000, .f32⟩ : BufTy).Contents (Elt F)) ::
  unary main_v9 main_v10 (broadcastInDim S50000x1 ![0] bcast_S50000_S50000x1_0 : (⟨S50000, .f32⟩ : BufTy).Contents (Elt F) → (⟨S50000x1, .f32⟩ : BufTy).Contents (Elt F)) ::
  []

/-- Operations 15 … 29 of the 259. -/
abbrev pAgg1 : List (HloOp τ sig (Elt F)) :=
  nullary main_c (constantI S_ 32 0#32) ::
  unary main_c main_v11 (broadcastInDim S800000 ![] bcast_S_S800000 : (⟨S_, .i32⟩ : BufTy).Contents (Elt F) → (⟨S800000, .i32⟩ : BufTy).Contents (Elt F)) ::
  binary main_v1 main_v11 main_v12 (cmpi .slt : (⟨S800000, .i32⟩ : BufTy).Contents (Elt F) → (⟨S800000, .i32⟩ : BufTy).Contents (Elt F) → (⟨S800000, .i1⟩ : BufTy).Contents (Elt F)) ::
  nullary main_c_2 (constantI S_ 32 50000#32) ::
  unary main_c_2 main_v13 (broadcastInDim S800000 ![] bcast_S_S800000 : (⟨S_, .i32⟩ : BufTy).Contents (Elt F) → (⟨S800000, .i32⟩ : BufTy).Contents (Elt F)) ::
  binary main_v1 main_v13 main_v14 (addi : (⟨S800000, .i32⟩ : BufTy).Contents (Elt F) → (⟨S800000, .i32⟩ : BufTy).Contents (Elt F) → (⟨S800000, .i32⟩ : BufTy).Contents (Elt F)) ::
  ternary main_v12 main_v14 main_v1 main_v15 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ::
  unary main_v15 main_v16 (broadcastInDim S800000x1 ![0] bcast_S800000_S800000x1_0 : (⟨S800000, .i32⟩ : BufTy).Contents (Elt F) → (⟨S800000x1, .i32⟩ : BufTy).Contents (Elt F)) ::
  binary main_arg0 main_v16 main_v17 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ::
  nullary main_cst_3 (constant S_ .f32 0x00000000#32) ::
  unary main_cst_3 main_v18 (broadcastInDim S50000x128 ![] bcast_S_S50000x128 : (⟨S_, .f32⟩ : BufTy).Contents (Elt F) → (⟨S50000x128, .f32⟩ : BufTy).Contents (Elt F)) ::
  unary main_v3 main_v19 (broadcastInDim S800000x1 ![0] bcast_S800000_S800000x1_0 : (⟨S800000, .i32⟩ : BufTy).Contents (Elt F) → (⟨S800000x1, .i32⟩ : BufTy).Contents (Elt F)) ::
  ternary main_v18 main_v19 main_v17 main_v20 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ::
  unary main_v10 main_v21 (broadcastInDim S50000x128 ![0, 1] bcast_S50000x1_S50000x128_0_1 : (⟨S50000x1, .f32⟩ : BufTy).Contents (Elt F) → (⟨S50000x128, .f32⟩ : BufTy).Contents (Elt F)) ::
  binary main_v20 main_v21 main_v22 (Host.divf : (⟨S50000x128, .f32⟩ : BufTy).Contents (Elt F) → (⟨S50000x128, .f32⟩ : BufTy).Contents (Elt F) → (⟨S50000x128, .f32⟩ : BufTy).Contents (Elt F)) ::
  []

/-- Operations 30 … 43 of the 259. -/
abbrev pZ1 : List (HloOp τ sig (Elt F)) :=
  binary main_v22 main_arg2 main_v23 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ::
  unary main_arg3 main_v24 (broadcastInDim S1x256 ![1] bcast_S256_S1x256_1 : (⟨S256, .f32⟩ : BufTy).Contents (Elt F) → (⟨S1x256, .f32⟩ : BufTy).Contents (Elt F)) ::
  unary main_v24 main_v25 (broadcastInDim S50000x256 ![0, 1] bcast_S1x256_S50000x256_0_1 : (⟨S1x256, .f32⟩ : BufTy).Contents (Elt F) → (⟨S50000x256, .f32⟩ : BufTy).Contents (Elt F)) ::
  binary main_v23 main_v25 main_v26 (addf : (⟨S50000x256, .f32⟩ : BufTy).Contents (Elt F) → (⟨S50000x256, .f32⟩ : BufTy).Contents (Elt F) → (⟨S50000x256, .f32⟩ : BufTy).Contents (Elt F)) ::
  binary main_arg0 main_arg4 main_v27 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ::
  binary main_v26 main_v27 main_v28 (addf : (⟨S50000x256, .f32⟩ : BufTy).Contents (Elt F) → (⟨S50000x256, .f32⟩ : BufTy).Contents (Elt F) → (⟨S50000x256, .f32⟩ : BufTy).Contents (Elt F)) ::
  binary main_arg0 main_arg5 main_v29 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)) ::
  binary main_v28 main_v29 main_v30 (addf : (⟨S50000x256, .f32⟩ : BufTy).Contents (Elt F) → (⟨S50000x256, .f32⟩ : BufTy).Contents (Elt F) → (⟨S50000x256, .f32⟩ : BufTy).Contents (Elt F)) ::
  unary main_arg6 main_v31 (broadcastInDim S1x256 ![1] bcast_S256_S1x256_1 : (⟨S256, .f32⟩ : BufTy).Contents (Elt F) → (⟨S1x256, .f32⟩ : BufTy).Contents (Elt F)) ::
  unary main_v31 main_v32 (broadcastInDim S50000x256 ![0, 1] bcast_S1x256_S50000x256_0_1 : (⟨S1x256, .f32⟩ : BufTy).Contents (Elt F) → (⟨S50000x256, .f32⟩ : BufTy).Contents (Elt F)) ::
  binary main_v30 main_v32 main_v33 (addf : (⟨S50000x256, .f32⟩ : BufTy).Contents (Elt F) → (⟨S50000x256, .f32⟩ : BufTy).Contents (Elt F) → (⟨S50000x256, .f32⟩ : BufTy).Contents (Elt F)) ::
  TRef.nullary main_call0.cst (constant S_ .f32 0x00000000#32) ::
  TRef.unary main_call0.cst main_call0.v0 (broadcastInDim S50000x256 ![] bcast_S_S50000x256) ::
  TRef.binary (.of main_v33) main_call0.v0 main_call0.v1 maximumf ::
  []

/-- Operations 44 … 83 of the 259. -/
abbrev pBn1a : List (HloOp τ sig (Elt F)) :=
  nullary main_cst_4 (constant S_ .f32 0x00000000#32) ::
  binary main_v34 main_cst_4 main_v35 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)) ::
  nullary main_cst_5 (constant S_ .f32 0x47435000#32) ::
  unary main_cst_5 main_v36 (broadcastInDim S256 ![] bcast_S_S256 : (⟨S_, .f32⟩ : BufTy).Contents (Elt F) → (⟨S256, .f32⟩ : BufTy).Contents (Elt F)) ::
  binary main_v35 main_v36 main_v37 (Host.divf : (⟨S256, .f32⟩ : BufTy).Contents (Elt F) → (⟨S256, .f32⟩ : BufTy).Contents (Elt F) → (⟨S256, .f32⟩ : BufTy).Contents (Elt F)) ::
  nullary main_c_6 (constantI S_ 32 0#32) ::
  TRef.nullary main_call1.cst (constant S_ .f32 0x00000000#32) ::
  TRef.binary (.of main_v34) main_call1.cst main_call1.v0 (fun x v => Host.reduceAdd x v reducesTo_S50000x256_S256_d0 h_S_) ::
  TRef.unary main_call1.v0 main_call1.v1 (broadcastInDim S1x256 ![1] bcast_S256_S1x256_1) ::
  TRef.nullary main_call1.cst_0 (constant S_ .f32 0x47435000#32) ::
  TRef.unary main_call1.cst_0 main_call1.v2 (broadcastInDim S1x256 ![] bcast_S_S1x256) ::
  TRef.binary main_call1.v1 main_call1.v2 main_call1.v3 Host.divf ::
  TRef.unary main_call1.v3 main_call1.v4 (broadcastInDim S50000x256 ![0, 1] bcast_S1x256_S50000x256_0_1) ::
  TRef.binary (.of main_v34) main_call1.v4 main_call1.v5 subf ::
  TRef.binary main_call1.v5 main_call1.v5 main_call1.v6 mulf ::
  TRef.unary (.of main_c_6) main_call1.v7 (sitofp .f32) ::
  TRef.nullary main_call1.cst_1 (constant S_ .f32 0x47435000#32) ::
  TRef.binary main_call1.cst_1 main_call1.v7 main_call1.v8 subf ::
  TRef.nullary main_call1.cst_2 (constant S_ .f32 0x00000000#32) ::
  TRef.binary main_call1.v6 main_call1.cst_2 main_call1.v9 (fun x v => Host.reduceAdd x v reducesTo_S50000x256_S256_d0 h_S_) ::
  TRef.unary main_call1.v8 main_call1.v10 (broadcastInDim S256 ![] bcast_S_S256) ::
  TRef.binary main_call1.v9 main_call1.v10 main_call1.v11 Host.divf ::
  TRef.nullary main_call1.cst_3 (constant S_ .f32 0x00000000#32) ::
  TRef.binary main_call1.v8 main_call1.cst_3 main_call1.v12 (cmpf .ogt) ::
  TRef.nullary main_call1.cst_4 (constant S_ .f32 0x7FC00000#32) ::
  TRef.unary main_call1.cst_4 main_call1.call0.v0 id ::
  TRef.unary main_call1.call0.v0 main_call1.call0.v1 (broadcastInDim S256 ![] bcast_S_S256) ::
  TRef.ternary main_call1.v12 main_call1.v11 main_call1.call0.v1 main_call1.call0.v2 (fun p a b => select (broadcastInDim S256 ![] bcast_S_S256 p) a b) ::
  unary main_v37 main_v39 (broadcastInDim S1x256 ![1] bcast_S256_S1x256_1 : (⟨S256, .f32⟩ : BufTy).Contents (Elt F) → (⟨S1x256, .f32⟩ : BufTy).Contents (Elt F)) ::
  unary main_v39 main_v40 (broadcastInDim S50000x256 ![0, 1] bcast_S1x256_S50000x256_0_1 : (⟨S1x256, .f32⟩ : BufTy).Contents (Elt F) → (⟨S50000x256, .f32⟩ : BufTy).Contents (Elt F)) ::
  binary main_v34 main_v40 main_v41 (subf : (⟨S50000x256, .f32⟩ : BufTy).Contents (Elt F) → (⟨S50000x256, .f32⟩ : BufTy).Contents (Elt F) → (⟨S50000x256, .f32⟩ : BufTy).Contents (Elt F)) ::
  nullary main_cst_7 (constant S_ .f32 0x3727C5AC#32) ::
  unary main_cst_7 main_v42 (broadcastInDim S256 ![] bcast_S_S256 : (⟨S_, .f32⟩ : BufTy).Contents (Elt F) → (⟨S256, .f32⟩ : BufTy).Contents (Elt F)) ::
  binary main_v38 main_v42 main_v43 (addf : (⟨S256, .f32⟩ : BufTy).Contents (Elt F) → (⟨S256, .f32⟩ : BufTy).Contents (Elt F) → (⟨S256, .f32⟩ : BufTy).Contents (Elt F)) ::
  unary main_v43 main_v44 (Host.rsqrt : (⟨S256, .f32⟩ : BufTy).Contents (Elt F) → (⟨S256, .f32⟩ : BufTy).Contents (Elt F)) ::
  unary main_v44 main_v45 (broadcastInDim S1x256 ![1] bcast_S256_S1x256_1 : (⟨S256, .f32⟩ : BufTy).Contents (Elt F) → (⟨S1x256, .f32⟩ : BufTy).Contents (Elt F)) ::
  unary main_v45 main_v46 (broadcastInDim S50000x256 ![0, 1] bcast_S1x256_S50000x256_0_1 : (⟨S1x256, .f32⟩ : BufTy).Contents (Elt F) → (⟨S50000x256, .f32⟩ : BufTy).Contents (Elt F)) ::
  binary main_v41 main_v46 main_v47 (mulf : (⟨S50000x256, .f32⟩ : BufTy).Contents (Elt F) → (⟨S50000x256, .f32⟩ : BufTy).Contents (Elt F) → (⟨S50000x256, .f32⟩ : BufTy).Contents (Elt F)) ::
  unary main_arg7 main_v48 (broadcastInDim S1x256 ![1] bcast_S256_S1x256_1 : (⟨S256, .f32⟩ : BufTy).Contents (Elt F) → (⟨S1x256, .f32⟩ : BufTy).Contents (Elt F)) ::
  unary main_v48 main_v49 (broadcastInDim S50000x256 ![0, 1] bcast_S1x256_S50000x256_0_1 : (⟨S1x256, .f32⟩ : BufTy).Contents (Elt F) → (⟨S50000x256, .f32⟩ : BufTy).Contents (Elt F)) ::
  []

/-- Operations 84 … 87 of the 259. -/
abbrev pBn1b : List (HloOp τ sig (Elt F)) :=
  binary main_v47 main_v49 main_v50 (mulf : (⟨S50000x256, .f32⟩ : BufTy).Contents (Elt F) → (⟨S50000x256, .f32⟩ : BufTy).Contents (Elt F) → (⟨S50000x256, .f32⟩ : BufTy).Contents (Elt F)) ::
  unary main_arg8 main_v51 (broadcastInDim S1x256 ![1] bcast_S256_S1x256_1 : (⟨S256, .f32⟩ : BufTy).Contents (Elt F) → (⟨S1x256, .f32⟩ : BufTy).Contents (Elt F)) ::
  unary main_v51 main_v52 (broadcastInDim S50000x256 ![0, 1] bcast_S1x256_S50000x256_0_1 : (⟨S1x256, .f32⟩ : BufTy).Contents (Elt F) → (⟨S50000x256, .f32⟩ : BufTy).Contents (Elt F)) ::
  binary main_v50 main_v52 main_v53 (addf : (⟨S50000x256, .f32⟩ : BufTy).Contents (Elt F) → (⟨S50000x256, .f32⟩ : BufTy).Contents (Elt F) → (⟨S50000x256, .f32⟩ : BufTy).Contents (Elt F)) ::
  []

/-- Operations 88 … 102 of the 259. -/
abbrev pAgg2 : List (HloOp τ sig (Elt F)) :=
  nullary main_c_8 (constantI S_ 32 0#32) ::
  unary main_c_8 main_v54 (broadcastInDim S800000 ![] bcast_S_S800000 : (⟨S_, .i32⟩ : BufTy).Contents (Elt F) → (⟨S800000, .i32⟩ : BufTy).Contents (Elt F)) ::
  binary main_v1 main_v54 main_v55 (cmpi .slt : (⟨S800000, .i32⟩ : BufTy).Contents (Elt F) → (⟨S800000, .i32⟩ : BufTy).Contents (Elt F) → (⟨S800000, .i1⟩ : BufTy).Contents (Elt F)) ::
  nullary main_c_9 (constantI S_ 32 50000#32) ::
  unary main_c_9 main_v56 (broadcastInDim S800000 ![] bcast_S_S800000 : (⟨S_, .i32⟩ : BufTy).Contents (Elt F) → (⟨S800000, .i32⟩ : BufTy).Contents (Elt F)) ::
  binary main_v1 main_v56 main_v57 (addi : (⟨S800000, .i32⟩ : BufTy).Contents (Elt F) → (⟨S800000, .i32⟩ : BufTy).Contents (Elt F) → (⟨S800000, .i32⟩ : BufTy).Contents (Elt F)) ::
  ternary main_v55 main_v57 main_v1 main_v58 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ::
  unary main_v58 main_v59 (broadcastInDim S800000x1 ![0] bcast_S800000_S800000x1_0 : (⟨S800000, .i32⟩ : BufTy).Contents (Elt F) → (⟨S800000x1, .i32⟩ : BufTy).Contents (Elt F)) ::
  binary main_v53 main_v59 main_v60 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)) ::
  nullary main_cst_10 (constant S_ .f32 0x00000000#32) ::
  unary main_cst_10 main_v61 (broadcastInDim S50000x256 ![] bcast_S_S50000x256 : (⟨S_, .f32⟩ : BufTy).Contents (Elt F) → (⟨S50000x256, .f32⟩ : BufTy).Contents (Elt F)) ::
  unary main_v3 main_v62 (broadcastInDim S800000x1 ![0] bcast_S800000_S800000x1_0 : (⟨S800000, .i32⟩ : BufTy).Contents (Elt F) → (⟨S800000x1, .i32⟩ : BufTy).Contents (Elt F)) ::
  ternary main_v61 main_v62 main_v60 main_v63 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ::
  unary main_v10 main_v64 (broadcastInDim S50000x256 ![0, 1] bcast_S50000x1_S50000x256_0_1 : (⟨S50000x1, .f32⟩ : BufTy).Contents (Elt F) → (⟨S50000x256, .f32⟩ : BufTy).Contents (Elt F)) ::
  binary main_v63 main_v64 main_v65 (Host.divf : (⟨S50000x256, .f32⟩ : BufTy).Contents (Elt F) → (⟨S50000x256, .f32⟩ : BufTy).Contents (Elt F) → (⟨S50000x256, .f32⟩ : BufTy).Contents (Elt F)) ::
  []

/-- Operations 103 … 116 of the 259. -/
abbrev pZ2 : List (HloOp τ sig (Elt F)) :=
  binary main_v65 main_arg9 main_v66 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ::
  unary main_arg10 main_v67 (broadcastInDim S1x128 ![1] bcast_S128_S1x128_1 : (⟨S128, .f32⟩ : BufTy).Contents (Elt F) → (⟨S1x128, .f32⟩ : BufTy).Contents (Elt F)) ::
  unary main_v67 main_v68 (broadcastInDim S50000x128 ![0, 1] bcast_S1x128_S50000x128_0_1 : (⟨S1x128, .f32⟩ : BufTy).Contents (Elt F) → (⟨S50000x128, .f32⟩ : BufTy).Contents (Elt F)) ::
  binary main_v66 main_v68 main_v69 (addf : (⟨S50000x128, .f32⟩ : BufTy).Contents (Elt F) → (⟨S50000x128, .f32⟩ : BufTy).Contents (Elt F) → (⟨S50000x128, .f32⟩ : BufTy).Contents (Elt F)) ::
  binary main_v53 main_arg11 main_v70 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ::
  binary main_v69 main_v70 main_v71 (addf : (⟨S50000x128, .f32⟩ : BufTy).Contents (Elt F) → (⟨S50000x128, .f32⟩ : BufTy).Contents (Elt F) → (⟨S50000x128, .f32⟩ : BufTy).Contents (Elt F)) ::
  binary main_v53 main_arg12 main_v72 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ::
  binary main_v71 main_v72 main_v73 (addf : (⟨S50000x128, .f32⟩ : BufTy).Contents (Elt F) → (⟨S50000x128, .f32⟩ : BufTy).Contents (Elt F) → (⟨S50000x128, .f32⟩ : BufTy).Contents (Elt F)) ::
  unary main_arg13 main_v74 (broadcastInDim S1x128 ![1] bcast_S128_S1x128_1 : (⟨S128, .f32⟩ : BufTy).Contents (Elt F) → (⟨S1x128, .f32⟩ : BufTy).Contents (Elt F)) ::
  unary main_v74 main_v75 (broadcastInDim S50000x128 ![0, 1] bcast_S1x128_S50000x128_0_1 : (⟨S1x128, .f32⟩ : BufTy).Contents (Elt F) → (⟨S50000x128, .f32⟩ : BufTy).Contents (Elt F)) ::
  binary main_v73 main_v75 main_v76 (addf : (⟨S50000x128, .f32⟩ : BufTy).Contents (Elt F) → (⟨S50000x128, .f32⟩ : BufTy).Contents (Elt F) → (⟨S50000x128, .f32⟩ : BufTy).Contents (Elt F)) ::
  TRef.nullary main_call2.cst (constant S_ .f32 0x00000000#32) ::
  TRef.unary main_call2.cst main_call2.v0 (broadcastInDim S50000x128 ![] bcast_S_S50000x128) ::
  TRef.binary (.of main_v76) main_call2.v0 main_call2.v1 maximumf ::
  []

/-- Operations 117 … 160 of the 259. -/
abbrev pBn2 : List (HloOp τ sig (Elt F)) :=
  nullary main_cst_11 (constant S_ .f32 0x00000000#32) ::
  binary main_v77 main_cst_11 main_v78 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ::
  nullary main_cst_12 (constant S_ .f32 0x47435000#32) ::
  unary main_cst_12 main_v79 (broadcastInDim S128 ![] bcast_S_S128 : (⟨S_, .f32⟩ : BufTy).Contents (Elt F) → (⟨S128, .f32⟩ : BufTy).Contents (Elt F)) ::
  binary main_v78 main_v79 main_v80 (Host.divf : (⟨S128, .f32⟩ : BufTy).Contents (Elt F) → (⟨S128, .f32⟩ : BufTy).Contents (Elt F) → (⟨S128, .f32⟩ : BufTy).Contents (Elt F)) ::
  nullary main_c_13 (constantI S_ 32 0#32) ::
  TRef.nullary main_call3.cst (constant S_ .f32 0x00000000#32) ::
  TRef.binary (.of main_v77) main_call3.cst main_call3.v0 (fun x v => Host.reduceAdd x v reducesTo_S50000x128_S128_d0 h_S_) ::
  TRef.unary main_call3.v0 main_call3.v1 (broadcastInDim S1x128 ![1] bcast_S128_S1x128_1) ::
  TRef.nullary main_call3.cst_0 (constant S_ .f32 0x47435000#32) ::
  TRef.unary main_call3.cst_0 main_call3.v2 (broadcastInDim S1x128 ![] bcast_S_S1x128) ::
  TRef.binary main_call3.v1 main_call3.v2 main_call3.v3 Host.divf ::
  TRef.unary main_call3.v3 main_call3.v4 (broadcastInDim S50000x128 ![0, 1] bcast_S1x128_S50000x128_0_1) ::
  TRef.binary (.of main_v77) main_call3.v4 main_call3.v5 subf ::
  TRef.binary main_call3.v5 main_call3.v5 main_call3.v6 mulf ::
  TRef.unary (.of main_c_13) main_call3.v7 (sitofp .f32) ::
  TRef.nullary main_call3.cst_1 (constant S_ .f32 0x47435000#32) ::
  TRef.binary main_call3.cst_1 main_call3.v7 main_call3.v8 subf ::
  TRef.nullary main_call3.cst_2 (constant S_ .f32 0x00000000#32) ::
  TRef.binary main_call3.v6 main_call3.cst_2 main_call3.v9 (fun x v => Host.reduceAdd x v reducesTo_S50000x128_S128_d0 h_S_) ::
  TRef.unary main_call3.v8 main_call3.v10 (broadcastInDim S128 ![] bcast_S_S128) ::
  TRef.binary main_call3.v9 main_call3.v10 main_call3.v11 Host.divf ::
  TRef.nullary main_call3.cst_3 (constant S_ .f32 0x00000000#32) ::
  TRef.binary main_call3.v8 main_call3.cst_3 main_call3.v12 (cmpf .ogt) ::
  TRef.nullary main_call3.cst_4 (constant S_ .f32 0x7FC00000#32) ::
  TRef.unary main_call3.cst_4 main_call3.call0.v0 id ::
  TRef.unary main_call3.call0.v0 main_call3.call0.v1 (broadcastInDim S128 ![] bcast_S_S128) ::
  TRef.ternary main_call3.v12 main_call3.v11 main_call3.call0.v1 main_call3.call0.v2 (fun p a b => select (broadcastInDim S128 ![] bcast_S_S128 p) a b) ::
  unary main_v80 main_v82 (broadcastInDim S1x128 ![1] bcast_S128_S1x128_1 : (⟨S128, .f32⟩ : BufTy).Contents (Elt F) → (⟨S1x128, .f32⟩ : BufTy).Contents (Elt F)) ::
  unary main_v82 main_v83 (broadcastInDim S50000x128 ![0, 1] bcast_S1x128_S50000x128_0_1 : (⟨S1x128, .f32⟩ : BufTy).Contents (Elt F) → (⟨S50000x128, .f32⟩ : BufTy).Contents (Elt F)) ::
  binary main_v77 main_v83 main_v84 (subf : (⟨S50000x128, .f32⟩ : BufTy).Contents (Elt F) → (⟨S50000x128, .f32⟩ : BufTy).Contents (Elt F) → (⟨S50000x128, .f32⟩ : BufTy).Contents (Elt F)) ::
  nullary main_cst_14 (constant S_ .f32 0x3727C5AC#32) ::
  unary main_cst_14 main_v85 (broadcastInDim S128 ![] bcast_S_S128 : (⟨S_, .f32⟩ : BufTy).Contents (Elt F) → (⟨S128, .f32⟩ : BufTy).Contents (Elt F)) ::
  binary main_v81 main_v85 main_v86 (addf : (⟨S128, .f32⟩ : BufTy).Contents (Elt F) → (⟨S128, .f32⟩ : BufTy).Contents (Elt F) → (⟨S128, .f32⟩ : BufTy).Contents (Elt F)) ::
  unary main_v86 main_v87 (Host.rsqrt : (⟨S128, .f32⟩ : BufTy).Contents (Elt F) → (⟨S128, .f32⟩ : BufTy).Contents (Elt F)) ::
  unary main_v87 main_v88 (broadcastInDim S1x128 ![1] bcast_S128_S1x128_1 : (⟨S128, .f32⟩ : BufTy).Contents (Elt F) → (⟨S1x128, .f32⟩ : BufTy).Contents (Elt F)) ::
  unary main_v88 main_v89 (broadcastInDim S50000x128 ![0, 1] bcast_S1x128_S50000x128_0_1 : (⟨S1x128, .f32⟩ : BufTy).Contents (Elt F) → (⟨S50000x128, .f32⟩ : BufTy).Contents (Elt F)) ::
  binary main_v84 main_v89 main_v90 (mulf : (⟨S50000x128, .f32⟩ : BufTy).Contents (Elt F) → (⟨S50000x128, .f32⟩ : BufTy).Contents (Elt F) → (⟨S50000x128, .f32⟩ : BufTy).Contents (Elt F)) ::
  unary main_arg14 main_v91 (broadcastInDim S1x128 ![1] bcast_S128_S1x128_1 : (⟨S128, .f32⟩ : BufTy).Contents (Elt F) → (⟨S1x128, .f32⟩ : BufTy).Contents (Elt F)) ::
  unary main_v91 main_v92 (broadcastInDim S50000x128 ![0, 1] bcast_S1x128_S50000x128_0_1 : (⟨S1x128, .f32⟩ : BufTy).Contents (Elt F) → (⟨S50000x128, .f32⟩ : BufTy).Contents (Elt F)) ::
  binary main_v90 main_v92 main_v93 (mulf : (⟨S50000x128, .f32⟩ : BufTy).Contents (Elt F) → (⟨S50000x128, .f32⟩ : BufTy).Contents (Elt F) → (⟨S50000x128, .f32⟩ : BufTy).Contents (Elt F)) ::
  unary main_arg15 main_v94 (broadcastInDim S1x128 ![1] bcast_S128_S1x128_1 : (⟨S128, .f32⟩ : BufTy).Contents (Elt F) → (⟨S1x128, .f32⟩ : BufTy).Contents (Elt F)) ::
  unary main_v94 main_v95 (broadcastInDim S50000x128 ![0, 1] bcast_S1x128_S50000x128_0_1 : (⟨S1x128, .f32⟩ : BufTy).Contents (Elt F) → (⟨S50000x128, .f32⟩ : BufTy).Contents (Elt F)) ::
  binary main_v93 main_v95 main_v96 (addf : (⟨S50000x128, .f32⟩ : BufTy).Contents (Elt F) → (⟨S50000x128, .f32⟩ : BufTy).Contents (Elt F) → (⟨S50000x128, .f32⟩ : BufTy).Contents (Elt F)) ::
  []

/-- Operations 161 … 166 of the 259. -/
abbrev pAgg3a : List (HloOp τ sig (Elt F)) :=
  nullary main_c_15 (constantI S_ 32 0#32) ::
  unary main_c_15 main_v97 (broadcastInDim S800000 ![] bcast_S_S800000 : (⟨S_, .i32⟩ : BufTy).Contents (Elt F) → (⟨S800000, .i32⟩ : BufTy).Contents (Elt F)) ::
  binary main_v1 main_v97 main_v98 (cmpi .slt : (⟨S800000, .i32⟩ : BufTy).Contents (Elt F) → (⟨S800000, .i32⟩ : BufTy).Contents (Elt F) → (⟨S800000, .i1⟩ : BufTy).Contents (Elt F)) ::
  nullary main_c_16 (constantI S_ 32 50000#32) ::
  unary main_c_16 main_v99 (broadcastInDim S800000 ![] bcast_S_S800000 : (⟨S_, .i32⟩ : BufTy).Contents (Elt F) → (⟨S800000, .i32⟩ : BufTy).Contents (Elt F)) ::
  binary main_v1 main_v99 main_v100 (addi : (⟨S800000, .i32⟩ : BufTy).Contents (Elt F) → (⟨S800000, .i32⟩ : BufTy).Contents (Elt F) → (⟨S800000, .i32⟩ : BufTy).Contents (Elt F)) ::
  []

/-- Operations 167 … 175 of the 259. -/
abbrev pAgg3b : List (HloOp τ sig (Elt F)) :=
  ternary main_v98 main_v100 main_v1 main_v101 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ::
  unary main_v101 main_v102 (broadcastInDim S800000x1 ![0] bcast_S800000_S800000x1_0 : (⟨S800000, .i32⟩ : BufTy).Contents (Elt F) → (⟨S800000x1, .i32⟩ : BufTy).Contents (Elt F)) ::
  binary main_v96 main_v102 main_v103 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) ::
  nullary main_cst_17 (constant S_ .f32 0x00000000#32) ::
  unary main_cst_17 main_v104 (broadcastInDim S50000x128 ![] bcast_S_S50000x128 : (⟨S_, .f32⟩ : BufTy).Contents (Elt F) → (⟨S50000x128, .f32⟩ : BufTy).Contents (Elt F)) ::
  unary main_v3 main_v105 (broadcastInDim S800000x1 ![0] bcast_S800000_S800000x1_0 : (⟨S800000, .i32⟩ : BufTy).Contents (Elt F) → (⟨S800000x1, .i32⟩ : BufTy).Contents (Elt F)) ::
  ternary main_v104 main_v105 main_v103 main_v106 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ::
  unary main_v10 main_v107 (broadcastInDim S50000x128 ![0, 1] bcast_S50000x1_S50000x128_0_1 : (⟨S50000x1, .f32⟩ : BufTy).Contents (Elt F) → (⟨S50000x128, .f32⟩ : BufTy).Contents (Elt F)) ::
  binary main_v106 main_v107 main_v108 (Host.divf : (⟨S50000x128, .f32⟩ : BufTy).Contents (Elt F) → (⟨S50000x128, .f32⟩ : BufTy).Contents (Elt F) → (⟨S50000x128, .f32⟩ : BufTy).Contents (Elt F)) ::
  []

/-- Operations 176 … 189 of the 259. -/
abbrev pZ3 : List (HloOp τ sig (Elt F)) :=
  binary main_v108 main_arg16 main_v109 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ::
  unary main_arg17 main_v110 (broadcastInDim S1x64 ![1] bcast_S64_S1x64_1 : (⟨S64, .f32⟩ : BufTy).Contents (Elt F) → (⟨S1x64, .f32⟩ : BufTy).Contents (Elt F)) ::
  unary main_v110 main_v111 (broadcastInDim S50000x64 ![0, 1] bcast_S1x64_S50000x64_0_1 : (⟨S1x64, .f32⟩ : BufTy).Contents (Elt F) → (⟨S50000x64, .f32⟩ : BufTy).Contents (Elt F)) ::
  binary main_v109 main_v111 main_v112 (addf : (⟨S50000x64, .f32⟩ : BufTy).Contents (Elt F) → (⟨S50000x64, .f32⟩ : BufTy).Contents (Elt F) → (⟨S50000x64, .f32⟩ : BufTy).Contents (Elt F)) ::
  binary main_v96 main_arg18 main_v113 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ::
  binary main_v112 main_v113 main_v114 (addf : (⟨S50000x64, .f32⟩ : BufTy).Contents (Elt F) → (⟨S50000x64, .f32⟩ : BufTy).Contents (Elt F) → (⟨S50000x64, .f32⟩ : BufTy).Contents (Elt F)) ::
  binary main_v96 main_arg19 main_v115 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)) ::
  binary main_v114 main_v115 main_v116 (addf : (⟨S50000x64, .f32⟩ : BufTy).Contents (Elt F) → (⟨S50000x64, .f32⟩ : BufTy).Contents (Elt F) → (⟨S50000x64, .f32⟩ : BufTy).Contents (Elt F)) ::
  unary main_arg20 main_v117 (broadcastInDim S1x64 ![1] bcast_S64_S1x64_1 : (⟨S64, .f32⟩ : BufTy).Contents (Elt F) → (⟨S1x64, .f32⟩ : BufTy).Contents (Elt F)) ::
  unary main_v117 main_v118 (broadcastInDim S50000x64 ![0, 1] bcast_S1x64_S50000x64_0_1 : (⟨S1x64, .f32⟩ : BufTy).Contents (Elt F) → (⟨S50000x64, .f32⟩ : BufTy).Contents (Elt F)) ::
  binary main_v116 main_v118 main_v119 (addf : (⟨S50000x64, .f32⟩ : BufTy).Contents (Elt F) → (⟨S50000x64, .f32⟩ : BufTy).Contents (Elt F) → (⟨S50000x64, .f32⟩ : BufTy).Contents (Elt F)) ::
  TRef.nullary main_call4.cst (constant S_ .f32 0x00000000#32) ::
  TRef.unary main_call4.cst main_call4.v0 (broadcastInDim S50000x64 ![] bcast_S_S50000x64) ::
  TRef.binary (.of main_v119) main_call4.v0 main_call4.v1 maximumf ::
  []

/-- Operations 190 … 233 of the 259. -/
abbrev pBn3 : List (HloOp τ sig (Elt F)) :=
  nullary main_cst_18 (constant S_ .f32 0x00000000#32) ::
  binary main_v120 main_cst_18 main_v121 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)) ::
  nullary main_cst_19 (constant S_ .f32 0x47435000#32) ::
  unary main_cst_19 main_v122 (broadcastInDim S64 ![] bcast_S_S64 : (⟨S_, .f32⟩ : BufTy).Contents (Elt F) → (⟨S64, .f32⟩ : BufTy).Contents (Elt F)) ::
  binary main_v121 main_v122 main_v123 (Host.divf : (⟨S64, .f32⟩ : BufTy).Contents (Elt F) → (⟨S64, .f32⟩ : BufTy).Contents (Elt F) → (⟨S64, .f32⟩ : BufTy).Contents (Elt F)) ::
  nullary main_c_20 (constantI S_ 32 0#32) ::
  TRef.nullary main_call5.cst (constant S_ .f32 0x00000000#32) ::
  TRef.binary (.of main_v120) main_call5.cst main_call5.v0 (fun x v => Host.reduceAdd x v reducesTo_S50000x64_S64_d0 h_S_) ::
  TRef.unary main_call5.v0 main_call5.v1 (broadcastInDim S1x64 ![1] bcast_S64_S1x64_1) ::
  TRef.nullary main_call5.cst_0 (constant S_ .f32 0x47435000#32) ::
  TRef.unary main_call5.cst_0 main_call5.v2 (broadcastInDim S1x64 ![] bcast_S_S1x64) ::
  TRef.binary main_call5.v1 main_call5.v2 main_call5.v3 Host.divf ::
  TRef.unary main_call5.v3 main_call5.v4 (broadcastInDim S50000x64 ![0, 1] bcast_S1x64_S50000x64_0_1) ::
  TRef.binary (.of main_v120) main_call5.v4 main_call5.v5 subf ::
  TRef.binary main_call5.v5 main_call5.v5 main_call5.v6 mulf ::
  TRef.unary (.of main_c_20) main_call5.v7 (sitofp .f32) ::
  TRef.nullary main_call5.cst_1 (constant S_ .f32 0x47435000#32) ::
  TRef.binary main_call5.cst_1 main_call5.v7 main_call5.v8 subf ::
  TRef.nullary main_call5.cst_2 (constant S_ .f32 0x00000000#32) ::
  TRef.binary main_call5.v6 main_call5.cst_2 main_call5.v9 (fun x v => Host.reduceAdd x v reducesTo_S50000x64_S64_d0 h_S_) ::
  TRef.unary main_call5.v8 main_call5.v10 (broadcastInDim S64 ![] bcast_S_S64) ::
  TRef.binary main_call5.v9 main_call5.v10 main_call5.v11 Host.divf ::
  TRef.nullary main_call5.cst_3 (constant S_ .f32 0x00000000#32) ::
  TRef.binary main_call5.v8 main_call5.cst_3 main_call5.v12 (cmpf .ogt) ::
  TRef.nullary main_call5.cst_4 (constant S_ .f32 0x7FC00000#32) ::
  TRef.unary main_call5.cst_4 main_call5.call0.v0 id ::
  TRef.unary main_call5.call0.v0 main_call5.call0.v1 (broadcastInDim S64 ![] bcast_S_S64) ::
  TRef.ternary main_call5.v12 main_call5.v11 main_call5.call0.v1 main_call5.call0.v2 (fun p a b => select (broadcastInDim S64 ![] bcast_S_S64 p) a b) ::
  unary main_v123 main_v125 (broadcastInDim S1x64 ![1] bcast_S64_S1x64_1 : (⟨S64, .f32⟩ : BufTy).Contents (Elt F) → (⟨S1x64, .f32⟩ : BufTy).Contents (Elt F)) ::
  unary main_v125 main_v126 (broadcastInDim S50000x64 ![0, 1] bcast_S1x64_S50000x64_0_1 : (⟨S1x64, .f32⟩ : BufTy).Contents (Elt F) → (⟨S50000x64, .f32⟩ : BufTy).Contents (Elt F)) ::
  binary main_v120 main_v126 main_v127 (subf : (⟨S50000x64, .f32⟩ : BufTy).Contents (Elt F) → (⟨S50000x64, .f32⟩ : BufTy).Contents (Elt F) → (⟨S50000x64, .f32⟩ : BufTy).Contents (Elt F)) ::
  nullary main_cst_21 (constant S_ .f32 0x3727C5AC#32) ::
  unary main_cst_21 main_v128 (broadcastInDim S64 ![] bcast_S_S64 : (⟨S_, .f32⟩ : BufTy).Contents (Elt F) → (⟨S64, .f32⟩ : BufTy).Contents (Elt F)) ::
  binary main_v124 main_v128 main_v129 (addf : (⟨S64, .f32⟩ : BufTy).Contents (Elt F) → (⟨S64, .f32⟩ : BufTy).Contents (Elt F) → (⟨S64, .f32⟩ : BufTy).Contents (Elt F)) ::
  unary main_v129 main_v130 (Host.rsqrt : (⟨S64, .f32⟩ : BufTy).Contents (Elt F) → (⟨S64, .f32⟩ : BufTy).Contents (Elt F)) ::
  unary main_v130 main_v131 (broadcastInDim S1x64 ![1] bcast_S64_S1x64_1 : (⟨S64, .f32⟩ : BufTy).Contents (Elt F) → (⟨S1x64, .f32⟩ : BufTy).Contents (Elt F)) ::
  unary main_v131 main_v132 (broadcastInDim S50000x64 ![0, 1] bcast_S1x64_S50000x64_0_1 : (⟨S1x64, .f32⟩ : BufTy).Contents (Elt F) → (⟨S50000x64, .f32⟩ : BufTy).Contents (Elt F)) ::
  binary main_v127 main_v132 main_v133 (mulf : (⟨S50000x64, .f32⟩ : BufTy).Contents (Elt F) → (⟨S50000x64, .f32⟩ : BufTy).Contents (Elt F) → (⟨S50000x64, .f32⟩ : BufTy).Contents (Elt F)) ::
  unary main_arg21 main_v134 (broadcastInDim S1x64 ![1] bcast_S64_S1x64_1 : (⟨S64, .f32⟩ : BufTy).Contents (Elt F) → (⟨S1x64, .f32⟩ : BufTy).Contents (Elt F)) ::
  unary main_v134 main_v135 (broadcastInDim S50000x64 ![0, 1] bcast_S1x64_S50000x64_0_1 : (⟨S1x64, .f32⟩ : BufTy).Contents (Elt F) → (⟨S50000x64, .f32⟩ : BufTy).Contents (Elt F)) ::
  binary main_v133 main_v135 main_v136 (mulf : (⟨S50000x64, .f32⟩ : BufTy).Contents (Elt F) → (⟨S50000x64, .f32⟩ : BufTy).Contents (Elt F) → (⟨S50000x64, .f32⟩ : BufTy).Contents (Elt F)) ::
  unary main_arg22 main_v137 (broadcastInDim S1x64 ![1] bcast_S64_S1x64_1 : (⟨S64, .f32⟩ : BufTy).Contents (Elt F) → (⟨S1x64, .f32⟩ : BufTy).Contents (Elt F)) ::
  unary main_v137 main_v138 (broadcastInDim S50000x64 ![0, 1] bcast_S1x64_S50000x64_0_1 : (⟨S1x64, .f32⟩ : BufTy).Contents (Elt F) → (⟨S50000x64, .f32⟩ : BufTy).Contents (Elt F)) ::
  binary main_v136 main_v138 main_v139 (addf : (⟨S50000x64, .f32⟩ : BufTy).Contents (Elt F) → (⟨S50000x64, .f32⟩ : BufTy).Contents (Elt F) → (⟨S50000x64, .f32⟩ : BufTy).Contents (Elt F)) ::
  []

/-- Operations 234 … 248 of the 259. -/
abbrev pAgg4 : List (HloOp τ sig (Elt F)) :=
  nullary main_c_22 (constantI S_ 32 0#32) ::
  unary main_c_22 main_v140 (broadcastInDim S800000 ![] bcast_S_S800000 : (⟨S_, .i32⟩ : BufTy).Contents (Elt F) → (⟨S800000, .i32⟩ : BufTy).Contents (Elt F)) ::
  binary main_v1 main_v140 main_v141 (cmpi .slt : (⟨S800000, .i32⟩ : BufTy).Contents (Elt F) → (⟨S800000, .i32⟩ : BufTy).Contents (Elt F) → (⟨S800000, .i1⟩ : BufTy).Contents (Elt F)) ::
  nullary main_c_23 (constantI S_ 32 50000#32) ::
  unary main_c_23 main_v142 (broadcastInDim S800000 ![] bcast_S_S800000 : (⟨S_, .i32⟩ : BufTy).Contents (Elt F) → (⟨S800000, .i32⟩ : BufTy).Contents (Elt F)) ::
  binary main_v1 main_v142 main_v143 (addi : (⟨S800000, .i32⟩ : BufTy).Contents (Elt F) → (⟨S800000, .i32⟩ : BufTy).Contents (Elt F) → (⟨S800000, .i32⟩ : BufTy).Contents (Elt F)) ::
  ternary main_v141 main_v143 main_v1 main_v144 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ::
  unary main_v144 main_v145 (broadcastInDim S800000x1 ![0] bcast_S800000_S800000x1_0 : (⟨S800000, .i32⟩ : BufTy).Contents (Elt F) → (⟨S800000x1, .i32⟩ : BufTy).Contents (Elt F)) ::
  binary main_v139 main_v145 main_v146 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ::
  nullary main_cst_24 (constant S_ .f32 0x00000000#32) ::
  unary main_cst_24 main_v147 (broadcastInDim S50000x64 ![] bcast_S_S50000x64 : (⟨S_, .f32⟩ : BufTy).Contents (Elt F) → (⟨S50000x64, .f32⟩ : BufTy).Contents (Elt F)) ::
  unary main_v3 main_v148 (broadcastInDim S800000x1 ![0] bcast_S800000_S800000x1_0 : (⟨S800000, .i32⟩ : BufTy).Contents (Elt F) → (⟨S800000x1, .i32⟩ : BufTy).Contents (Elt F)) ::
  ternary main_v147 main_v148 main_v146 main_v149 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ::
  unary main_v10 main_v150 (broadcastInDim S50000x64 ![0, 1] bcast_S50000x1_S50000x64_0_1 : (⟨S50000x1, .f32⟩ : BufTy).Contents (Elt F) → (⟨S50000x64, .f32⟩ : BufTy).Contents (Elt F)) ::
  binary main_v149 main_v150 main_v151 (Host.divf : (⟨S50000x64, .f32⟩ : BufTy).Contents (Elt F) → (⟨S50000x64, .f32⟩ : BufTy).Contents (Elt F) → (⟨S50000x64, .f32⟩ : BufTy).Contents (Elt F)) ::
  []

/-- Operations 249 … 249 of the 259. -/
abbrev pZ4a : List (HloOp τ sig (Elt F)) :=
  binary main_v151 main_arg23 main_v152 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)) ::
  []

/-- Operations 250 … 259 of the 259. -/
abbrev pZ4b : List (HloOp τ sig (Elt F)) :=
  unary main_arg24 main_v153 (broadcastInDim S1x40 ![1] bcast_S40_S1x40_1 : (⟨S40, .f32⟩ : BufTy).Contents (Elt F) → (⟨S1x40, .f32⟩ : BufTy).Contents (Elt F)) ::
  unary main_v153 main_v154 (broadcastInDim S50000x40 ![0, 1] bcast_S1x40_S50000x40_0_1 : (⟨S1x40, .f32⟩ : BufTy).Contents (Elt F) → (⟨S50000x40, .f32⟩ : BufTy).Contents (Elt F)) ::
  binary main_v152 main_v154 main_v155 (addf : (⟨S50000x40, .f32⟩ : BufTy).Contents (Elt F) → (⟨S50000x40, .f32⟩ : BufTy).Contents (Elt F) → (⟨S50000x40, .f32⟩ : BufTy).Contents (Elt F)) ::
  binary main_v139 main_arg25 main_v156 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)) ::
  binary main_v155 main_v156 main_v157 (addf : (⟨S50000x40, .f32⟩ : BufTy).Contents (Elt F) → (⟨S50000x40, .f32⟩ : BufTy).Contents (Elt F) → (⟨S50000x40, .f32⟩ : BufTy).Contents (Elt F)) ::
  binary main_v139 main_arg26 main_v158 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)) ::
  binary main_v157 main_v158 main_v159 (addf : (⟨S50000x40, .f32⟩ : BufTy).Contents (Elt F) → (⟨S50000x40, .f32⟩ : BufTy).Contents (Elt F) → (⟨S50000x40, .f32⟩ : BufTy).Contents (Elt F)) ::
  unary main_arg27 main_v160 (broadcastInDim S1x40 ![1] bcast_S40_S1x40_1 : (⟨S40, .f32⟩ : BufTy).Contents (Elt F) → (⟨S1x40, .f32⟩ : BufTy).Contents (Elt F)) ::
  unary main_v160 main_v161 (broadcastInDim S50000x40 ![0, 1] bcast_S1x40_S50000x40_0_1 : (⟨S1x40, .f32⟩ : BufTy).Contents (Elt F) → (⟨S50000x40, .f32⟩ : BufTy).Contents (Elt F)) ::
  binary main_v159 main_v161 main_v162 (addf : (⟨S50000x40, .f32⟩ : BufTy).Contents (Elt F) → (⟨S50000x40, .f32⟩ : BufTy).Contents (Elt F) → (⟨S50000x40, .f32⟩ : BufTy).Contents (Elt F)) ::
  []

/-- The operations of one printed window of @main. -/
abbrev P0 : List (HloOp τ sig (Elt F)) := pCnt ++ pAgg1 ++ pZ1 ++ pBn1a
/-- The operations of one printed window of @main. -/
abbrev P1 : List (HloOp τ sig (Elt F)) := pBn1b ++ pAgg2 ++ pZ2 ++ pBn2 ++ pAgg3a
/-- The operations of one printed window of @main. -/
abbrev P2 : List (HloOp τ sig (Elt F)) := pAgg3b ++ pZ3 ++ pBn3 ++ pAgg4 ++ pZ4a
/-- The operations of one printed window of @main. -/
abbrev P3 : List (HloOp τ sig (Elt F)) := pZ4b

/-- The operations of one layer function. -/
abbrev lCnt : List (HloOp τ sig (Elt F)) := pCnt
/-- The operations of one layer function. -/
abbrev lAgg1 : List (HloOp τ sig (Elt F)) := pAgg1
/-- The operations of one layer function. -/
abbrev lZ1 : List (HloOp τ sig (Elt F)) := pZ1
/-- The operations of one layer function. -/
abbrev lBn1 : List (HloOp τ sig (Elt F)) := pBn1a ++ pBn1b
/-- The operations of one layer function. -/
abbrev lAgg2 : List (HloOp τ sig (Elt F)) := pAgg2
/-- The operations of one layer function. -/
abbrev lZ2 : List (HloOp τ sig (Elt F)) := pZ2
/-- The operations of one layer function. -/
abbrev lBn2 : List (HloOp τ sig (Elt F)) := pBn2
/-- The operations of one layer function. -/
abbrev lAgg3 : List (HloOp τ sig (Elt F)) := pAgg3a ++ pAgg3b
/-- The operations of one layer function. -/
abbrev lZ3 : List (HloOp τ sig (Elt F)) := pZ3
/-- The operations of one layer function. -/
abbrev lBn3 : List (HloOp τ sig (Elt F)) := pBn3
/-- The operations of one layer function. -/
abbrev lAgg4 : List (HloOp τ sig (Elt F)) := pAgg4
/-- The operations of one layer function. -/
abbrev lZ4 : List (HloOp τ sig (Elt F)) := pZ4a ++ pZ4b

/-- @main's 259 operations, in order, layer function by layer function. -/
abbrev ops : List (HloOp τ sig (Elt F)) := lCnt ++ lAgg1 ++ lZ1 ++ lBn1 ++ lAgg2 ++ lZ2 ++ lBn2 ++ lAgg3 ++ lZ3 ++ lBn3 ++ lAgg4 ++ lZ4

set_option maxRecDepth 8192 in
set_option maxHeartbeats 4000000 in
/-- The window is that straight line: the functions' bodies unfolded at their calls, sequencing reassociated. -/
theorem main_part0_eq (c : Dev nD) : main_part0 (F := F) c = seq P0 := by
  simp only [main_part0, fn_relu.body, fn_var.body, fn_where.body, fn_relu_0.body, fn_var_1.body, fn_where_2.body,
    fn_relu_3.body, fn_var_4.body, fn_where_5.body, bind_assoc, pure_bind]
  rfl

set_option maxRecDepth 8192 in
set_option maxHeartbeats 4000000 in
/-- The window is that straight line: the functions' bodies unfolded at their calls, sequencing reassociated. -/
theorem main_part1_eq (c : Dev nD) : main_part1 (F := F) c = seq P1 := by
  simp only [main_part1, fn_relu.body, fn_var.body, fn_where.body, fn_relu_0.body, fn_var_1.body, fn_where_2.body,
    fn_relu_3.body, fn_var_4.body, fn_where_5.body, bind_assoc, pure_bind]
  rfl

set_option maxRecDepth 8192 in
set_option maxHeartbeats 4000000 in
/-- The window is that straight line: the functions' bodies unfolded at their calls, sequencing reassociated. -/
theorem main_part2_eq (c : Dev nD) : main_part2 (F := F) c = seq P2 := by
  simp only [main_part2, fn_relu.body, fn_var.body, fn_where.body, fn_relu_0.body, fn_var_1.body, fn_where_2.body,
    fn_relu_3.body, fn_var_4.body, fn_where_5.body, bind_assoc, pure_bind]
  rfl

set_option maxRecDepth 8192 in
set_option maxHeartbeats 4000000 in
/-- The window is that straight line: the functions' bodies unfolded at their calls, sequencing reassociated. -/
theorem main_part3_eq (c : Dev nD) : main_part3 (F := F) c = seq P3 := by
  simp only [main_part3, fn_relu.body, fn_var.body, fn_where.body, fn_relu_0.body, fn_var_1.body, fn_where_2.body,
    fn_relu_3.body, fn_var_4.body, fn_where_5.body, bind_assoc, pure_bind]
  rfl

/-- The layer stretches, concatenated, are the windows, concatenated. -/
theorem ops_eq_windows : (ops : List (HloOp τ sig (Elt F))) = P0 ++ (P1 ++ (P2 ++ P3)) := by
  simp only [ops, P0, P1, P2, P3, lCnt, lAgg1, lZ1, lBn1, lAgg2, lZ2, lBn2, lAgg3, lZ3, lBn3, lAgg4, lZ4, List.append_assoc]

/-- @main is the straight line of its operations. -/
theorem main_eq (c : Dev nD) : main (F := F) c = seq ops := by
  rw [ops_eq_windows, seq_append P0, seq_append P1, seq_append P2, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem pCnt_sub : (pCnt : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub ..⟩
theorem pCnt_fresh : (pCnt : List (HloOp τ sig (Elt F))).Forall fun op => op.fresh = ∅ :=
  ⟨rfl, rfl, rfl, rfl, rfl, rfl, rfl, rfl, rfl, rfl, rfl, rfl, rfl, rfl⟩
theorem pAgg1_sub : (pAgg1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem pAgg1_fresh : (pAgg1 : List (HloOp τ sig (Elt F))).Forall fun op => op.fresh = ∅ :=
  ⟨rfl, rfl, rfl, rfl, rfl, rfl, rfl, rfl, rfl, rfl, rfl, rfl, rfl, rfl, rfl⟩
theorem pZ1_sub : (pZ1 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
theorem pZ1_fresh : (pZ1 : List (HloOp τ sig (Elt F))).Forall fun op => op.fresh = ∅ :=
  ⟨rfl, rfl, rfl, rfl, rfl, rfl, rfl, rfl, rfl, rfl, rfl, rfl, rfl, rfl⟩
theorem pBn1a_sub : (pBn1a : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub ..⟩
theorem pBn1a_fresh : (pBn1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pBn1b_sub : (pBn1b : List (HloOp τ sig (Elt F))).Forall fun op => op.bufs ⊆ tcRefs τ sig :=
  ⟨binary_bufs_sub .., unary_bufs_sub .., unary_bufs_sub .., binary_bufs_sub ..⟩
theorem pBn1b_fresh : (pBn1b : List (HloOp τ sig (Elt F))).Forall fun op => op.fresh = ∅ :=
  ⟨rfl, rfl, rfl, rfl⟩
theorem pAgg2_sub : (pAgg2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem pAgg2_fresh : (pAgg2 : List (HloOp τ sig (Elt F))).Forall fun op => op.fresh = ∅ :=
  ⟨rfl, rfl, rfl, rfl, rfl, rfl, rfl, rfl, rfl, rfl, rfl, rfl, rfl, rfl, rfl⟩
theorem pZ2_sub : (pZ2 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
theorem pZ2_fresh : (pZ2 : List (HloOp τ sig (Elt F))).Forall fun op => op.fresh = ∅ :=
  ⟨rfl, rfl, rfl, rfl, rfl, rfl, rfl, rfl, rfl, rfl, rfl, rfl, rfl, rfl⟩
theorem pBn2_sub : (pBn2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem pBn2_fresh : (pBn2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pAgg3a_sub : (pAgg3a : List (HloOp τ sig (Elt F))).Forall fun op => op.bufs ⊆ tcRefs τ sig :=
  ⟨nullary_bufs_sub .., unary_bufs_sub .., binary_bufs_sub .., nullary_bufs_sub .., unary_bufs_sub .., binary_bufs_sub ..⟩
theorem pAgg3a_fresh : (pAgg3a : List (HloOp τ sig (Elt F))).Forall fun op => op.fresh = ∅ :=
  ⟨rfl, rfl, rfl, rfl, rfl, rfl⟩
theorem pAgg3b_sub : (pAgg3b : List (HloOp τ sig (Elt F))).Forall fun op => op.bufs ⊆ tcRefs τ sig :=
  ⟨ternary_bufs_sub .., unary_bufs_sub .., binary_bufs_sub .., nullary_bufs_sub .., unary_bufs_sub .., unary_bufs_sub .., ternary_bufs_sub .., unary_bufs_sub .., binary_bufs_sub ..⟩
theorem pAgg3b_fresh : (pAgg3b : List (HloOp τ sig (Elt F))).Forall fun op => op.fresh = ∅ :=
  ⟨rfl, rfl, rfl, rfl, rfl, rfl, rfl, rfl, rfl⟩
theorem pZ3_sub : (pZ3 : List (HloOp τ sig (Elt F))).Forall fun op => op.bufs ⊆ tcRefs τ sig :=
  ⟨binary_bufs_sub .., unary_bufs_sub .., unary_bufs_sub .., binary_bufs_sub .., binary_bufs_sub .., binary_bufs_sub .., binary_bufs_sub .., binary_bufs_sub .., unary_bufs_sub .., unary_bufs_sub .., binary_bufs_sub .., nullary_bufs_sub .., unary_bufs_sub .., binary_bufs_sub ..⟩
theorem pZ3_fresh : (pZ3 : List (HloOp τ sig (Elt F))).Forall fun op => op.fresh = ∅ :=
  ⟨rfl, rfl, rfl, rfl, rfl, rfl, rfl, rfl, rfl, rfl, rfl, rfl, rfl, rfl⟩
theorem pBn3_sub : (pBn3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩
theorem pBn3_fresh : (pBn3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem pAgg4_sub : (pAgg4 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub ..⟩
theorem pAgg4_fresh : (pAgg4 : List (HloOp τ sig (Elt F))).Forall fun op => op.fresh = ∅ :=
  ⟨rfl, rfl, rfl, rfl, rfl, rfl, rfl, rfl, rfl, rfl, rfl, rfl, rfl, rfl, rfl⟩
theorem pZ4a_sub : (pZ4a : List (HloOp τ sig (Elt F))).Forall fun op => op.bufs ⊆ tcRefs τ sig :=
  binary_bufs_sub ..
theorem pZ4a_fresh : (pZ4a : List (HloOp τ sig (Elt F))).Forall fun op => op.fresh = ∅ :=
  rfl
theorem pZ4b_sub : (pZ4b : List (HloOp τ sig (Elt F))).Forall fun op => op.bufs ⊆ tcRefs τ sig :=
  ⟨unary_bufs_sub .., unary_bufs_sub .., binary_bufs_sub .., binary_bufs_sub .., binary_bufs_sub .., binary_bufs_sub .., binary_bufs_sub .., unary_bufs_sub .., unary_bufs_sub .., binary_bufs_sub ..⟩
theorem pZ4b_fresh : (pZ4b : List (HloOp τ sig (Elt F))).Forall fun op => op.fresh = ∅ :=
  ⟨rfl, rfl, rfl, rfl, rfl, rfl, rfl, rfl, rfl, rfl⟩

/-- Membership in the whole list is membership in one of its pieces. -/
theorem mem_ops {op : HloOp τ sig (Elt F)} (h : op ∈ (ops : List (HloOp τ sig (Elt F)))) :
    op ∈ (pCnt : List (HloOp τ sig (Elt F))) ∨ op ∈ (pAgg1 : List (HloOp τ sig (Elt F))) ∨ op ∈ (pZ1 : List (HloOp τ sig (Elt F))) ∨ op ∈ (pBn1a : List (HloOp τ sig (Elt F))) ∨ op ∈ (pBn1b : List (HloOp τ sig (Elt F))) ∨ op ∈ (pAgg2 : List (HloOp τ sig (Elt F))) ∨ op ∈ (pZ2 : List (HloOp τ sig (Elt F))) ∨ op ∈ (pBn2 : List (HloOp τ sig (Elt F))) ∨ op ∈ (pAgg3a : List (HloOp τ sig (Elt F))) ∨ op ∈ (pAgg3b : List (HloOp τ sig (Elt F))) ∨ op ∈ (pZ3 : List (HloOp τ sig (Elt F))) ∨ op ∈ (pBn3 : List (HloOp τ sig (Elt F))) ∨ op ∈ (pAgg4 : List (HloOp τ sig (Elt F))) ∨ op ∈ (pZ4a : List (HloOp τ sig (Elt F))) ∨ op ∈ (pZ4b : List (HloOp τ sig (Elt F))) := by
  simp only [ops, lCnt, lAgg1, lZ1, lBn1, lAgg2, lZ2, lBn2, lAgg3, lZ3, lBn3, lAgg4, lZ4, List.mem_append, or_assoc] at h
  exact h

theorem ops_sub : (ops : List (HloOp τ sig (Elt F))).Forall fun op => op.bufs ⊆ tcRefs τ sig :=
  List.forall_iff_forall_mem.mpr fun op h => by
    rcases mem_ops h with h | h | h | h | h | h | h | h | h | h | h | h | h | h | h
    exacts [List.forall_iff_forall_mem.mp pCnt_sub op h, List.forall_iff_forall_mem.mp pAgg1_sub op h, List.forall_iff_forall_mem.mp pZ1_sub op h, List.forall_iff_forall_mem.mp pBn1a_sub op h, List.forall_iff_forall_mem.mp pBn1b_sub op h, List.forall_iff_forall_mem.mp pAgg2_sub op h, List.forall_iff_forall_mem.mp pZ2_sub op h, List.forall_iff_forall_mem.mp pBn2_sub op h, List.forall_iff_forall_mem.mp pAgg3a_sub op h, List.forall_iff_forall_mem.mp pAgg3b_sub op h, List.forall_iff_forall_mem.mp pZ3_sub op h, List.forall_iff_forall_mem.mp pBn3_sub op h, List.forall_iff_forall_mem.mp pAgg4_sub op h, List.forall_iff_forall_mem.mp pZ4a_sub op h, List.forall_iff_forall_mem.mp pZ4b_sub op h]

theorem ops_fresh : ∀ op ∈ (ops : List (HloOp τ sig (Elt F))), op.fresh = ∅ := fun op h => by
  rcases mem_ops h with h | h | h | h | h | h | h | h | h | h | h | h | h | h | h
  exacts [List.forall_iff_forall_mem.mp pCnt_fresh op h, List.forall_iff_forall_mem.mp pAgg1_fresh op h, List.forall_iff_forall_mem.mp pZ1_fresh op h, List.forall_iff_forall_mem.mp pBn1a_fresh op h, List.forall_iff_forall_mem.mp pBn1b_fresh op h, List.forall_iff_forall_mem.mp pAgg2_fresh op h, List.forall_iff_forall_mem.mp pZ2_fresh op h, List.forall_iff_forall_mem.mp pBn2_fresh op h, List.forall_iff_forall_mem.mp pAgg3a_fresh op h, List.forall_iff_forall_mem.mp pAgg3b_fresh op h, List.forall_iff_forall_mem.mp pZ3_fresh op h, List.forall_iff_forall_mem.mp pBn3_fresh op h, List.forall_iff_forall_mem.mp pAgg4_fresh op h, List.forall_iff_forall_mem.mp pZ4a_fresh op h, List.forall_iff_forall_mem.mp pZ4b_fresh op h]

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- On every device, for any float values, from any memory with zero counters: every weakly fair execution of @main
    terminates, and every final state has each buffer at the operations' fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefLayers.lean ====
/- What the reference program computes, layer function by layer function, read off its operations
   in order: the clamped in-degree column; the mean of a node's in-neighbours' features (gather the
   source rows, add them at the destination rows, divide by the degree); a layer's linear maps of the
   aggregate and of the node's own features with their biases, rectified except in the last layer; and the
   batch normalisation over the nodes (mean, centred second moment under the guarded select, inverse
   square root, scale and shift). `RES` composes them into the network's output. -/
import proofs.«144552_j81088982548491_1_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- The edges' source nodes: row 0 of the edge table. -/
def srcR (ei : IVec S2x800000 32) : IVec S800000 32 :=
  shapeCast S800000 (extractStridedSlice S1x800000 ![0, 0] ei slices_S2x800000_S1x800000_0_0) shapeCasts_S1x800000_S800000

/-- The edges' destination nodes: row 1 of the edge table. -/
def dstR (ei : IVec S2x800000 32) : IVec S800000 32 :=
  shapeCast S800000 (extractStridedSlice S1x800000 ![1, 0] ei slices_S2x800000_S1x800000_1_0) shapeCasts_S1x800000_S800000

/-- The in-degree column from the destinations: one added at each edge's destination, clamped below by one. -/
def cntS (dst : IVec S800000 32) : FVec F S50000x1 .f32 :=
  broadcastInDim S50000x1 ![0] bcast_S50000_S50000x1_0 (maximumf (Host.scatterAdd scatter_S50000_S800000x1_S800000_n_0_0_1 (broadcastInDim S50000 ![] bcast_S_S50000 (constant (F := F) S_ .f32 0x00000000#32)) (broadcastInDim S800000x1 ![0] bcast_S800000_S800000x1_0 dst) (broadcastInDim S800000 ![] bcast_S_S800000 (constant (F := F) S_ .f32 0x3F800000#32))) (broadcastInDim S50000 ![] bcast_S_S50000 (constant (F := F) S_ .f32 0x3F800000#32)))

/-- The in-degree column of the edge table. -/
def cntR (ei : IVec S2x800000 32) : FVec F S50000x1 .f32 := cntS (dstR ei)

/-- The mean over in-neighbours of features of width 128, from the sources and destinations: the source index brought
    into range, the source rows gathered, added at the destination rows into zeros, divided by the degree. -/
def aggS_128 (cnt : FVec F S50000x1 .f32) (src dst : IVec S800000 32) (h : FVec F S50000x128 .f32) : FVec F S50000x128 .f32 :=
  Host.divf (Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 dst) (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 cnt)

/-- The mean over in-neighbours of features of width 128, from the edge table. -/
def aggR_128 (cnt : FVec F S50000x1 .f32) (ei : IVec S2x800000 32) (h : FVec F S50000x128 .f32) : FVec F S50000x128 .f32 :=
  aggS_128 cnt (srcR ei) (dstR ei) h

/-- The mean over in-neighbours of features of width 256, from the sources and destinations: the source index brought
    into range, the source rows gathered, added at the destination rows into zeros, divided by the degree. -/
def aggS_256 (cnt : FVec F S50000x1 .f32) (src dst : IVec S800000 32) (h : FVec F S50000x256 .f32) : FVec F S50000x256 .f32 :=
  Host.divf (Host.scatterAdd scatter_S50000x256_S800000x1_S800000x256_1_0_0_1 (broadcastInDim S50000x256 ![] bcast_S_S50000x256 (constant (F := F) S_ .f32 0x00000000#32)) (broadcastInDim S800000x1 ![0] bcast_S800000_S800000x1_0 dst) (Host.gather gather_S50000x256_S800000x1_S800000x256_1_0_n_n_0_1_1256 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x256 ![0, 1] bcast_S50000x1_S50000x256_0_1 cnt)

/-- The mean over in-neighbours of features of width 256, from the edge table. -/
def aggR_256 (cnt : FVec F S50000x1 .f32) (ei : IVec S2x800000 32) (h : FVec F S50000x256 .f32) : FVec F S50000x256 .f32 :=
  aggS_256 cnt (srcR ei) (dstR ei) h

/-- The mean over in-neighbours of features of width 64, from the sources and destinations: the source index brought
    into range, the source rows gathered, added at the destination rows into zeros, divided by the degree. -/
def aggS_64 (cnt : FVec F S50000x1 .f32) (src dst : IVec S800000 32) (h : FVec F S50000x64 .f32) : FVec F S50000x64 .f32 :=
  Host.divf (Host.scatterAdd scatter_S50000x64_S800000x1_S800000x64_1_0_0_1 (broadcastInDim S50000x64 ![] bcast_S_S50000x64 (constant (F := F) S_ .f32 0x00000000#32)) (broadcastInDim S800000x1 ![0] bcast_S800000_S800000x1_0 dst) (Host.gather gather_S50000x64_S800000x1_S800000x64_1_0_n_n_0_1_164 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x64 ![0, 1] bcast_S50000x1_S50000x64_0_1 cnt)

/-- The mean over in-neighbours of features of width 64, from the edge table. -/
def aggR_64 (cnt : FVec F S50000x1 .f32) (ei : IVec S2x800000 32) (h : FVec F S50000x64 .f32) : FVec F S50000x64 .f32 :=
  aggS_64 cnt (srcR ei) (dstR ei) h

/-- Layer 1's linear part, rectified: the aggregate through `Wl` plus `bl`, plus the node's own features through `Wr`, plus
    the same through `Ws`, plus `bs`, then the maximum with zero. -/
def zR_1 (agg h : FVec F S50000x128 .f32) (Wl : FVec F S128x256 .f32) (bl : FVec F S256 .f32) (Wr Ws : FVec F S128x256 .f32)
    (bs : FVec F S256 .f32) : FVec F S50000x256 .f32 :=
  maximumf (addf (addf (addf (addf (Host.dotGeneral dot_S50000x128_S128x256_S50000x256_1_0_0_1_n_n none agg Wl) (broadcastInDim S50000x256 ![0, 1] bcast_S1x256_S50000x256_0_1 (broadcastInDim S1x256 ![1] bcast_S256_S1x256_1 bl))) (Host.dotGeneral dot_S50000x128_S128x256_S50000x256_1_0_0_1_n_n none h Wr)) (Host.dotGeneral dot_S50000x128_S128x256_S50000x256_1_0_0_1_n_n none h Ws)) (broadcastInDim S50000x256 ![0, 1] bcast_S1x256_S50000x256_0_1 (broadcastInDim S1x256 ![1] bcast_S256_S1x256_1 bs))) (broadcastInDim S50000x256 ![] bcast_S_S50000x256 (constant (F := F) S_ .f32 0x00000000#32))

/-- Layer 2's linear part, rectified: the aggregate through `Wl` plus `bl`, plus the node's own features through `Wr`, plus
    the same through `Ws`, plus `bs`, then the maximum with zero. -/
def zR_2 (agg h : FVec F S50000x256 .f32) (Wl : FVec F S256x128 .f32) (bl : FVec F S128 .f32) (Wr Ws : FVec F S256x128 .f32)
    (bs : FVec F S128 .f32) : FVec F S50000x128 .f32 :=
  maximumf (addf (addf (addf (addf (Host.dotGeneral dot_S50000x256_S256x128_S50000x128_1_0_0_1_n_n none agg Wl) (broadcastInDim S50000x128 ![0, 1] bcast_S1x128_S50000x128_0_1 (broadcastInDim S1x128 ![1] bcast_S128_S1x128_1 bl))) (Host.dotGeneral dot_S50000x256_S256x128_S50000x128_1_0_0_1_n_n none h Wr)) (Host.dotGeneral dot_S50000x256_S256x128_S50000x128_1_0_0_1_n_n none h Ws)) (broadcastInDim S50000x128 ![0, 1] bcast_S1x128_S50000x128_0_1 (broadcastInDim S1x128 ![1] bcast_S128_S1x128_1 bs))) (broadcastInDim S50000x128 ![] bcast_S_S50000x128 (constant (F := F) S_ .f32 0x00000000#32))

/-- Layer 3's linear part, rectified: the aggregate through `Wl` plus `bl`, plus the node's own features through `Wr`, plus
    the same through `Ws`, plus `bs`, then the maximum with zero. -/
def zR_3 (agg h : FVec F S50000x128 .f32) (Wl : FVec F S128x64 .f32) (bl : FVec F S64 .f32) (Wr Ws : FVec F S128x64 .f32)
    (bs : FVec F S64 .f32) : FVec F S50000x64 .f32 :=
  maximumf (addf (addf (addf (addf (Host.dotGeneral dot_S50000x128_S128x64_S50000x64_1_0_0_1_n_n none agg Wl) (broadcastInDim S50000x64 ![0, 1] bcast_S1x64_S50000x64_0_1 (broadcastInDim S1x64 ![1] bcast_S64_S1x64_1 bl))) (Host.dotGeneral dot_S50000x128_S128x64_S50000x64_1_0_0_1_n_n none h Wr)) (Host.dotGeneral dot_S50000x128_S128x64_S50000x64_1_0_0_1_n_n none h Ws)) (broadcastInDim S50000x64 ![0, 1] bcast_S1x64_S50000x64_0_1 (broadcastInDim S1x64 ![1] bcast_S64_S1x64_1 bs))) (broadcastInDim S50000x64 ![] bcast_S_S50000x64 (constant (F := F) S_ .f32 0x00000000#32))

/-- Layer 4's linear part: the aggregate through `Wl` plus `bl`, plus the node's own features through `Wr`, plus
    the same through `Ws`, plus `bs`. -/
def zR_4 (agg h : FVec F S50000x64 .f32) (Wl : FVec F S64x40 .f32) (bl : FVec F S40 .f32) (Wr Ws : FVec F S64x40 .f32)
    (bs : FVec F S40 .f32) : FVec F S50000x40 .f32 :=
  addf (addf (addf (addf (Host.dotGeneral dot_S50000x64_S64x40_S50000x40_1_0_0_1_n_n none agg Wl) (broadcastInDim S50000x40 ![0, 1] bcast_S1x40_S50000x40_0_1 (broadcastInDim S1x40 ![1] bcast_S40_S1x40_1 bl))) (Host.dotGeneral dot_S50000x64_S64x40_S50000x40_1_0_0_1_n_n none h Wr)) (Host.dotGeneral dot_S50000x64_S64x40_S50000x40_1_0_0_1_n_n none h Ws)) (broadcastInDim S50000x40 ![0, 1] bcast_S1x40_S50000x40_0_1 (broadcastInDim S1x40 ![1] bcast_S40_S1x40_1 bs))

/-- The variance's divisor: the number of nodes less the zero correction. -/
def ddofR : FVec F S_ .f32 :=
  subf (constant (F := F) S_ .f32 0x47435000#32) (sitofp .f32 (constantI S_ 32 0#32))

/-- Layer 1's mean over the nodes, per feature. -/
def meanR_1 (z : FVec F S50000x256 .f32) : FVec F S256 .f32 :=
  Host.divf (Host.reduceAdd z (constant (F := F) S_ .f32 0x00000000#32) reducesTo_S50000x256_S256_d0 h_S_) (broadcastInDim S256 ![] bcast_S_S256 (constant (F := F) S_ .f32 0x47435000#32))

/-- Layer 1's features less their mean over the nodes (the mean recomputed as the variance computes it). -/
def cenR_1 (z : FVec F S50000x256 .f32) : FVec F S50000x256 .f32 :=
  subf z (broadcastInDim S50000x256 ![0, 1] bcast_S1x256_S50000x256_0_1 (Host.divf (broadcastInDim S1x256 ![1] bcast_S256_S1x256_1 (Host.reduceAdd z (constant (F := F) S_ .f32 0x00000000#32) reducesTo_S50000x256_S256_d0 h_S_)) (broadcastInDim S1x256 ![] bcast_S_S1x256 (constant (F := F) S_ .f32 0x47435000#32))))

/-- Layer 1's variance over the nodes, per feature: the mean of the squared centred features, under the select
    that guards a non-positive divisor. -/
def varR_1 (z : FVec F S50000x256 .f32) : FVec F S256 .f32 :=
  select (broadcastInDim S256 ![] bcast_S_S256 (cmpf .ogt (ddofR (F := F)) (constant (F := F) S_ .f32 0x00000000#32))) (Host.divf (Host.reduceAdd (mulf (cenR_1 z) (cenR_1 z)) (constant (F := F) S_ .f32 0x00000000#32) reducesTo_S50000x256_S256_d0 h_S_) (broadcastInDim S256 ![] bcast_S_S256 (ddofR (F := F)))) (broadcastInDim S256 ![] bcast_S_S256 (id (constant (F := F) S_ .f32 0x7FC00000#32)))

/-- Layer 1's batch normalisation: centred by the mean, scaled by the inverse square root of the variance plus
    epsilon, times `g`, plus `be`. -/
def bnR_1 (z : FVec F S50000x256 .f32) (g be : FVec F S256 .f32) : FVec F S50000x256 .f32 :=
  addf (mulf (mulf (subf z (broadcastInDim S50000x256 ![0, 1] bcast_S1x256_S50000x256_0_1 (broadcastInDim S1x256 ![1] bcast_S256_S1x256_1 (meanR_1 z)))) (broadcastInDim S50000x256 ![0, 1] bcast_S1x256_S50000x256_0_1 (broadcastInDim S1x256 ![1] bcast_S256_S1x256_1 (Host.rsqrt (addf (varR_1 z) (broadcastInDim S256 ![] bcast_S_S256 (constant (F := F) S_ .f32 0x3727C5AC#32))))))) (broadcastInDim S50000x256 ![0, 1] bcast_S1x256_S50000x256_0_1 (broadcastInDim S1x256 ![1] bcast_S256_S1x256_1 g))) (broadcastInDim S50000x256 ![0, 1] bcast_S1x256_S50000x256_0_1 (broadcastInDim S1x256 ![1] bcast_S256_S1x256_1 be))

/-- Layer 2's mean over the nodes, per feature. -/
def meanR_2 (z : FVec F S50000x128 .f32) : FVec F S128 .f32 :=
  Host.divf (Host.reduceAdd z (constant (F := F) S_ .f32 0x00000000#32) reducesTo_S50000x128_S128_d0 h_S_) (broadcastInDim S128 ![] bcast_S_S128 (constant (F := F) S_ .f32 0x47435000#32))

/-- Layer 2's features less their mean over the nodes (the mean recomputed as the variance computes it). -/
def cenR_2 (z : FVec F S50000x128 .f32) : FVec F S50000x128 .f32 :=
  subf z (broadcastInDim S50000x128 ![0, 1] bcast_S1x128_S50000x128_0_1 (Host.divf (broadcastInDim S1x128 ![1] bcast_S128_S1x128_1 (Host.reduceAdd z (constant (F := F) S_ .f32 0x00000000#32) reducesTo_S50000x128_S128_d0 h_S_)) (broadcastInDim S1x128 ![] bcast_S_S1x128 (constant (F := F) S_ .f32 0x47435000#32))))

/-- Layer 2's variance over the nodes, per feature: the mean of the squared centred features, under the select
    that guards a non-positive divisor. -/
def varR_2 (z : FVec F S50000x128 .f32) : FVec F S128 .f32 :=
  select (broadcastInDim S128 ![] bcast_S_S128 (cmpf .ogt (ddofR (F := F)) (constant (F := F) S_ .f32 0x00000000#32))) (Host.divf (Host.reduceAdd (mulf (cenR_2 z) (cenR_2 z)) (constant (F := F) S_ .f32 0x00000000#32) reducesTo_S50000x128_S128_d0 h_S_) (broadcastInDim S128 ![] bcast_S_S128 (ddofR (F := F)))) (broadcastInDim S128 ![] bcast_S_S128 (id (constant (F := F) S_ .f32 0x7FC00000#32)))

/-- Layer 2's batch normalisation: centred by the mean, scaled by the inverse square root of the variance plus
    epsilon, times `g`, plus `be`. -/
def bnR_2 (z : FVec F S50000x128 .f32) (g be : FVec F S128 .f32) : FVec F S50000x128 .f32 :=
  addf (mulf (mulf (subf z (broadcastInDim S50000x128 ![0, 1] bcast_S1x128_S50000x128_0_1 (broadcastInDim S1x128 ![1] bcast_S128_S1x128_1 (meanR_2 z)))) (broadcastInDim S50000x128 ![0, 1] bcast_S1x128_S50000x128_0_1 (broadcastInDim S1x128 ![1] bcast_S128_S1x128_1 (Host.rsqrt (addf (varR_2 z) (broadcastInDim S128 ![] bcast_S_S128 (constant (F := F) S_ .f32 0x3727C5AC#32))))))) (broadcastInDim S50000x128 ![0, 1] bcast_S1x128_S50000x128_0_1 (broadcastInDim S1x128 ![1] bcast_S128_S1x128_1 g))) (broadcastInDim S50000x128 ![0, 1] bcast_S1x128_S50000x128_0_1 (broadcastInDim S1x128 ![1] bcast_S128_S1x128_1 be))

/-- Layer 3's mean over the nodes, per feature. -/
def meanR_3 (z : FVec F S50000x64 .f32) : FVec F S64 .f32 :=
  Host.divf (Host.reduceAdd z (constant (F := F) S_ .f32 0x00000000#32) reducesTo_S50000x64_S64_d0 h_S_) (broadcastInDim S64 ![] bcast_S_S64 (constant (F := F) S_ .f32 0x47435000#32))

/-- Layer 3's features less their mean over the nodes (the mean recomputed as the variance computes it). -/
def cenR_3 (z : FVec F S50000x64 .f32) : FVec F S50000x64 .f32 :=
  subf z (broadcastInDim S50000x64 ![0, 1] bcast_S1x64_S50000x64_0_1 (Host.divf (broadcastInDim S1x64 ![1] bcast_S64_S1x64_1 (Host.reduceAdd z (constant (F := F) S_ .f32 0x00000000#32) reducesTo_S50000x64_S64_d0 h_S_)) (broadcastInDim S1x64 ![] bcast_S_S1x64 (constant (F := F) S_ .f32 0x47435000#32))))

/-- Layer 3's variance over the nodes, per feature: the mean of the squared centred features, under the select
    that guards a non-positive divisor. -/
def varR_3 (z : FVec F S50000x64 .f32) : FVec F S64 .f32 :=
  select (broadcastInDim S64 ![] bcast_S_S64 (cmpf .ogt (ddofR (F := F)) (constant (F := F) S_ .f32 0x00000000#32))) (Host.divf (Host.reduceAdd (mulf (cenR_3 z) (cenR_3 z)) (constant (F := F) S_ .f32 0x00000000#32) reducesTo_S50000x64_S64_d0 h_S_) (broadcastInDim S64 ![] bcast_S_S64 (ddofR (F := F)))) (broadcastInDim S64 ![] bcast_S_S64 (id (constant (F := F) S_ .f32 0x7FC00000#32)))

/-- Layer 3's batch normalisation: centred by the mean, scaled by the inverse square root of the variance plus
    epsilon, times `g`, plus `be`. -/
def bnR_3 (z : FVec F S50000x64 .f32) (g be : FVec F S64 .f32) : FVec F S50000x64 .f32 :=
  addf (mulf (mulf (subf z (broadcastInDim S50000x64 ![0, 1] bcast_S1x64_S50000x64_0_1 (broadcastInDim S1x64 ![1] bcast_S64_S1x64_1 (meanR_3 z)))) (broadcastInDim S50000x64 ![0, 1] bcast_S1x64_S50000x64_0_1 (broadcastInDim S1x64 ![1] bcast_S64_S1x64_1 (Host.rsqrt (addf (varR_3 z) (broadcastInDim S64 ![] bcast_S_S64 (constant (F := F) S_ .f32 0x3727C5AC#32))))))) (broadcastInDim S50000x64 ![0, 1] bcast_S1x64_S50000x64_0_1 (broadcastInDim S1x64 ![1] bcast_S64_S1x64_1 g))) (broadcastInDim S50000x64 ![0, 1] bcast_S1x64_S50000x64_0_1 (broadcastInDim S1x64 ![1] bcast_S64_S1x64_1 be))

/-- The hidden features after layer 1: the aggregate of the inputs, the linear part, the normalisation. -/
def hR_1 (ei : IVec S2x800000 32) (x : FVec F S50000x128 .f32) (Wl : FVec F S128x256 .f32) (bl : FVec F S256 .f32)
    (Wr Ws : FVec F S128x256 .f32) (bs g be : FVec F S256 .f32) : FVec F S50000x256 .f32 :=
  bnR_1 (zR_1 (aggR_128 (cntR ei) ei x) x Wl bl Wr Ws bs) g be

/-- The hidden features after layer 2. -/
def hR_2 (ei : IVec S2x800000 32) (h : FVec F S50000x256 .f32) (Wl : FVec F S256x128 .f32) (bl : FVec F S128 .f32)
    (Wr Ws : FVec F S256x128 .f32) (bs g be : FVec F S128 .f32) : FVec F S50000x128 .f32 :=
  bnR_2 (zR_2 (aggR_256 (cntR ei) ei h) h Wl bl Wr Ws bs) g be

/-- The hidden features after layer 3. -/
def hR_3 (ei : IVec S2x800000 32) (h : FVec F S50000x128 .f32) (Wl : FVec F S128x64 .f32) (bl : FVec F S64 .f32)
    (Wr Ws : FVec F S128x64 .f32) (bs g be : FVec F S64 .f32) : FVec F S50000x64 .f32 :=
  bnR_3 (zR_3 (aggR_128 (cntR ei) ei h) h Wl bl Wr Ws bs) g be

/-- The output layer: no rectifier, no normalisation. -/
def outR (ei : IVec S2x800000 32) (h : FVec F S50000x64 .f32) (Wl : FVec F S64x40 .f32) (bl : FVec F S40 .f32)
    (Wr Ws : FVec F S64x40 .f32) (bs : FVec F S40 .f32) : FVec F S50000x40 .f32 :=
  zR_4 (aggR_64 (cntR ei) ei h) h Wl bl Wr Ws bs

/-- What the reference returns on device `c`, from the launch contents `m` of its twenty-eight arguments. -/
def RES (m : (ℓ : Loc nD τ sig) → Buf (Elt F) ℓ) (c : Dev nD) : FVec F S50000x40 .f32 :=
  outR (m ((c.tc : Thread nD τ).loc main_arg1))
    (hR_3 (m ((c.tc : Thread nD τ).loc main_arg1))
      (hR_2 (m ((c.tc : Thread nD τ).loc main_arg1))
        (hR_1 (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
        (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)))
      (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)))
    (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27))

/-- `RES` with its layers written out. -/
theorem RES_eq (m : (ℓ : Loc nD τ sig) → Buf (Elt F) ℓ) (c : Dev nD) :
    RES m c = zR_4 (aggR_64 (cntR (m ((c.tc : Thread nD τ).loc main_arg1))) (m ((c.tc : Thread nD τ).loc main_arg1)) (bnR_3 (zR_3 (aggR_128 (cntR (m ((c.tc : Thread nD τ).loc main_arg1))) (m ((c.tc : Thread nD τ).loc main_arg1)) (bnR_2 (zR_2 (aggR_256 (cntR (m ((c.tc : Thread nD τ).loc main_arg1))) (m ((c.tc : Thread nD τ).loc main_arg1)) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15)))) (bnR_2 (zR_2 (aggR_256 (cntR (m ((c.tc : Thread nD τ).loc main_arg1))) (m ((c.tc : Thread nD τ).loc main_arg1)) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15))) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (m ((c.tc : Thread nD τ).loc main_arg21)) (m ((c.tc : Thread nD τ).loc main_arg22)))) (bnR_3 (zR_3 (aggR_128 (cntR (m ((c.tc : Thread nD τ).loc main_arg1))) (m ((c.tc : Thread nD τ).loc main_arg1)) (bnR_2 (zR_2 (aggR_256 (cntR (m ((c.tc : Thread nD τ).loc main_arg1))) (m ((c.tc : Thread nD τ).loc main_arg1)) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15)))) (bnR_2 (zR_2 (aggR_256 (cntR (m ((c.tc : Thread nD τ).loc main_arg1))) (m ((c.tc : Thread nD τ).loc main_arg1)) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))) (bnR_1 (zR_1 (aggR_128 (cntR (m ((c.tc : Thread nD τ).loc main_arg1))) (m ((c.tc : Thread nD τ).loc main_arg1)) (m ((c.tc : Thread nD τ).loc main_arg0))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg14)) (m ((c.tc : Thread nD τ).loc main_arg15))) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) (m ((c.tc : Thread nD τ).loc main_arg21)) (m ((c.tc : Thread nD τ).loc main_arg22))) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) := rfl

end Cert.ReferenceIdeal.RefRun

end
-- ==== Proof.RefRead.lean ====
/- The reference program's run read back layer function by layer function. The buffer contents after each
   piece of the operation list are named (`X1 … X15`, from any contents `V0`); a piece leaves alone every buffer it
   does not write; each layer's stretch, from ANY contents, puts the layer function of the contents it reads into its
   result buffer; chaining these gives the result buffer after the whole list as the composition `RES`, and every
   argument buffer unchanged. -/
import proofs.«144552_j81088982548491_1_alg».proof.Proof.RefOps
import proofs.«144552_j81088982548491_1_alg».proof.Proof.RefLayers

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each piece writes, and the contents after each piece -/

/-- The buffers that piece `pCnt` writes. -/
abbrev W_pCnt : List (Ref sig .tc) := [main_v0, main_v1, main_v2, main_v3, main_cst, main_v4, main_cst_0, main_v5, main_v6, main_v7, main_cst_1, main_v8, main_v9, main_v10]
set_option maxRecDepth 8192 in
theorem pCnt_writes : (pCnt : List (HloOp τ sig (Elt F))).Forall fun op => op.writes ⊆ ((W_pCnt).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pAgg1` writes. -/
abbrev W_pAgg1 : List (Ref sig .tc) := [main_c, main_v11, main_v12, main_c_2, main_v13, main_v14, main_v15, main_v16, main_v17, main_cst_3, main_v18, main_v19, main_v20, main_v21, main_v22]
set_option maxRecDepth 8192 in
theorem pAgg1_writes : (pAgg1 : List (HloOp τ sig (Elt F))).Forall fun op => op.writes ⊆ ((W_pAgg1).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pZ1` writes. -/
abbrev W_pZ1 : List (Ref sig .tc) := [main_v23, main_v24, main_v25, main_v26, main_v27, main_v28, main_v29, main_v30, main_v31, main_v32, main_v33, main_call0_cst, main_call0_v0, main_v34]
set_option maxRecDepth 8192 in
theorem pZ1_writes : (pZ1 : List (HloOp τ sig (Elt F))).Forall fun op => op.writes ⊆ ((W_pZ1).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pBn1a` writes. -/
abbrev W_pBn1a : List (Ref sig .tc) := [main_cst_4, main_v35, main_cst_5, main_v36, main_v37, main_c_6, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v38, main_v39, main_v40, main_v41, main_cst_7, main_v42, main_v43, main_v44, main_v45, main_v46, main_v47, main_v48, main_v49]
set_option maxRecDepth 8192 in
theorem pBn1a_writes : (pBn1a : List (HloOp τ sig (Elt F))).Forall fun op => op.writes ⊆ ((W_pBn1a).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pBn1b` writes. -/
abbrev W_pBn1b : List (Ref sig .tc) := [main_v50, main_v51, main_v52, main_v53]
set_option maxRecDepth 8192 in
theorem pBn1b_writes : (pBn1b : List (HloOp τ sig (Elt F))).Forall fun op => op.writes ⊆ ((W_pBn1b).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pAgg2` writes. -/
abbrev W_pAgg2 : List (Ref sig .tc) := [main_c_8, main_v54, main_v55, main_c_9, main_v56, main_v57, main_v58, main_v59, main_v60, main_cst_10, main_v61, main_v62, main_v63, main_v64, main_v65]
set_option maxRecDepth 8192 in
theorem pAgg2_writes : (pAgg2 : List (HloOp τ sig (Elt F))).Forall fun op => op.writes ⊆ ((W_pAgg2).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pZ2` writes. -/
abbrev W_pZ2 : List (Ref sig .tc) := [main_v66, main_v67, main_v68, main_v69, main_v70, main_v71, main_v72, main_v73, main_v74, main_v75, main_v76, main_call2_cst, main_call2_v0, main_v77]
set_option maxRecDepth 8192 in
theorem pZ2_writes : (pZ2 : List (HloOp τ sig (Elt F))).Forall fun op => op.writes ⊆ ((W_pZ2).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pBn2` writes. -/
abbrev W_pBn2 : List (Ref sig .tc) := [main_cst_11, main_v78, main_cst_12, main_v79, main_v80, main_c_13, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v81, main_v82, main_v83, main_v84, main_cst_14, main_v85, main_v86, main_v87, main_v88, main_v89, main_v90, main_v91, main_v92, main_v93, main_v94, main_v95, main_v96]
set_option maxRecDepth 8192 in
theorem pBn2_writes : (pBn2 : List (HloOp τ sig (Elt F))).Forall fun op => op.writes ⊆ ((W_pBn2).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pAgg3a` writes. -/
abbrev W_pAgg3a : List (Ref sig .tc) := [main_c_15, main_v97, main_v98, main_c_16, main_v99, main_v100]
set_option maxRecDepth 8192 in
theorem pAgg3a_writes : (pAgg3a : List (HloOp τ sig (Elt F))).Forall fun op => op.writes ⊆ ((W_pAgg3a).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pAgg3b` writes. -/
abbrev W_pAgg3b : List (Ref sig .tc) := [main_v101, main_v102, main_v103, main_cst_17, main_v104, main_v105, main_v106, main_v107, main_v108]
set_option maxRecDepth 8192 in
theorem pAgg3b_writes : (pAgg3b : List (HloOp τ sig (Elt F))).Forall fun op => op.writes ⊆ ((W_pAgg3b).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pZ3` writes. -/
abbrev W_pZ3 : List (Ref sig .tc) := [main_v109, main_v110, main_v111, main_v112, main_v113, main_v114, main_v115, main_v116, main_v117, main_v118, main_v119, main_call4_cst, main_call4_v0, main_v120]
set_option maxRecDepth 8192 in
theorem pZ3_writes : (pZ3 : List (HloOp τ sig (Elt F))).Forall fun op => op.writes ⊆ ((W_pZ3).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pBn3` writes. -/
abbrev W_pBn3 : List (Ref sig .tc) := [main_cst_18, main_v121, main_cst_19, main_v122, main_v123, main_c_20, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v124, main_v125, main_v126, main_v127, main_cst_21, main_v128, main_v129, main_v130, main_v131, main_v132, main_v133, main_v134, main_v135, main_v136, main_v137, main_v138, main_v139]
set_option maxRecDepth 8192 in
theorem pBn3_writes : (pBn3 : List (HloOp τ sig (Elt F))).Forall fun op => op.writes ⊆ ((W_pBn3).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pAgg4` writes. -/
abbrev W_pAgg4 : List (Ref sig .tc) := [main_c_22, main_v140, main_v141, main_c_23, main_v142, main_v143, main_v144, main_v145, main_v146, main_cst_24, main_v147, main_v148, main_v149, main_v150, main_v151]
set_option maxRecDepth 8192 in
theorem pAgg4_writes : (pAgg4 : List (HloOp τ sig (Elt F))).Forall fun op => op.writes ⊆ ((W_pAgg4).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- The buffers that piece `pZ4a` writes. -/
abbrev W_pZ4a : List (Ref sig .tc) := [main_v152]
set_option maxRecDepth 8192 in
theorem pZ4a_writes : (pZ4a : List (HloOp τ sig (Elt F))).Forall fun op => op.writes ⊆ ((W_pZ4a).map (Proc.devRef (τ := τ) .tc)).toFinset := by
  simp only [List.Forall]; exact (by simp only [nullary_writes, unary_writes, binary_writes, ternary_writes, reshape_writes, Finset.singleton_subset_iff, List.mem_toFinset]; exact List.mem_map_of_mem (by decide))
/-- The buffers that piece `pZ4b` writes. -/
abbrev W_pZ4b : List (Ref sig .tc) := [main_v153, main_v154, main_v155, main_v156, main_v157, main_v158, main_v159, main_v160, main_v161, main_v162]
set_option maxRecDepth 8192 in
theorem pZ4b_writes : (pZ4b : List (HloOp τ sig (Elt F))).Forall fun op => op.writes ⊆ ((W_pZ4b).map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Every buffer some operation writes. -/
abbrev Wall : List (Ref sig .tc) := W_pCnt ++ (W_pAgg1 ++ (W_pZ1 ++ (W_pBn1a ++ (W_pBn1b ++ (W_pAgg2 ++ (W_pZ2 ++ (W_pBn2 ++ (W_pAgg3a ++ (W_pAgg3b ++ (W_pZ3 ++ (W_pBn3 ++ (W_pAgg4 ++ (W_pZ4a ++ (W_pZ4b))))))))))))))

/-- The contents before the first piece. -/
def X0 (V0 : Valuation τ sig (Elt F)) : Valuation τ sig (Elt F) := V0
theorem X0_arg (V0 : Valuation τ sig (Elt F)) (r : Ref sig .tc) (h : r ∉ Wall) : X0 V0 (Proc.devRef .tc r) = V0 (Proc.devRef .tc r) := rfl

/-- The contents after the first 1 piece. -/
def X1 (V0 : Valuation τ sig (Elt F)) : Valuation τ sig (Elt F) := after pCnt (X0 V0)
/-- A buffer the piece does not write keeps its contents through it. -/
theorem X1_keep (V0 : Valuation τ sig (Elt F)) (r : Ref sig .tc) (h : r ∉ W_pCnt) : X1 V0 (Proc.devRef .tc r) = X0 V0 (Proc.devRef .tc r) :=
  after_of_writes_sub pCnt _ pCnt_writes h
/-- A buffer no operation writes holds what it held at the start. -/
theorem X1_arg (V0 : Valuation τ sig (Elt F)) (r : Ref sig .tc) (h : r ∉ Wall) : X1 V0 (Proc.devRef .tc r) = V0 (Proc.devRef .tc r) :=
  (X1_keep V0 r fun hm => h (List.mem_append_left _ hm)).trans (X0_arg V0 r h)

/-- The contents after the first 2 pieces. -/
def X2 (V0 : Valuation τ sig (Elt F)) : Valuation τ sig (Elt F) := after pAgg1 (X1 V0)
/-- A buffer the piece does not write keeps its contents through it. -/
theorem X2_keep (V0 : Valuation τ sig (Elt F)) (r : Ref sig .tc) (h : r ∉ W_pAgg1) : X2 V0 (Proc.devRef .tc r) = X1 V0 (Proc.devRef .tc r) :=
  after_of_writes_sub pAgg1 _ pAgg1_writes h
/-- A buffer no operation writes holds what it held at the start. -/
theorem X2_arg (V0 : Valuation τ sig (Elt F)) (r : Ref sig .tc) (h : r ∉ Wall) : X2 V0 (Proc.devRef .tc r) = V0 (Proc.devRef .tc r) :=
  (X2_keep V0 r fun hm => h (List.mem_append_right _ (List.mem_append_left _ hm))).trans (X1_arg V0 r h)

/-- The contents after the first 3 pieces. -/
def X3 (V0 : Valuation τ sig (Elt F)) : Valuation τ sig (Elt F) := after pZ1 (X2 V0)
/-- A buffer the piece does not write keeps its contents through it. -/
theorem X3_keep (V0 : Valuation τ sig (Elt F)) (r : Ref sig .tc) (h : r ∉ W_pZ1) : X3 V0 (Proc.devRef .tc r) = X2 V0 (Proc.devRef .tc r) :=
  after_of_writes_sub pZ1 _ pZ1_writes h
/-- A buffer no operation writes holds what it held at the start. -/
theorem X3_arg (V0 : Valuation τ sig (Elt F)) (r : Ref sig .tc) (h : r ∉ Wall) : X3 V0 (Proc.devRef .tc r) = V0 (Proc.devRef .tc r) :=
  (X3_keep V0 r fun hm => h (List.mem_append_right _ (List.mem_append_right _ (List.mem_append_left _ hm)))).trans (X2_arg V0 r h)

/-- The contents after the first 4 pieces. -/
def X4 (V0 : Valuation τ sig (Elt F)) : Valuation τ sig (Elt F) := after pBn1a (X3 V0)
/-- A buffer the piece does not write keeps its contents through it. -/
theorem X4_keep (V0 : Valuation τ sig (Elt F)) (r : Ref sig .tc) (h : r ∉ W_pBn1a) : X4 V0 (Proc.devRef .tc r) = X3 V0 (Proc.devRef .tc r) :=
  after_of_writes_sub pBn1a _ pBn1a_writes h
/-- A buffer no operation writes holds what it held at the start. -/
theorem X4_arg (V0 : Valuation τ sig (Elt F)) (r : Ref sig .tc) (h : r ∉ Wall) : X4 V0 (Proc.devRef .tc r) = V0 (Proc.devRef .tc r) :=
  (X4_keep V0 r fun hm => h (List.mem_append_right _ (List.mem_append_right _ (List.mem_append_right _ (List.mem_append_left _ hm))))).trans (X3_arg V0 r h)

/-- The contents after the first 5 pieces. -/
def X5 (V0 : Valuation τ sig (Elt F)) : Valuation τ sig (Elt F) := after pBn1b (X4 V0)
/-- A buffer the piece does not write keeps its contents through it. -/
theorem X5_keep (V0 : Valuation τ sig (Elt F)) (r : Ref sig .tc) (h : r ∉ W_pBn1b) : X5 V0 (Proc.devRef .tc r) = X4 V0 (Proc.devRef .tc r) :=
  after_of_writes_sub pBn1b _ pBn1b_writes h
/-- A buffer no operation writes holds what it held at the start. -/
theorem X5_arg (V0 : Valuation τ sig (Elt F)) (r : Ref sig .tc) (h : r ∉ Wall) : X5 V0 (Proc.devRef .tc r) = V0 (Proc.devRef .tc r) :=
  (X5_keep V0 r fun hm => h (List.mem_append_right _ (List.mem_append_right _ (List.mem_append_right _ (List.mem_append_right _ (List.mem_append_left _ hm)))))).trans (X4_arg V0 r h)

/-- The contents after the first 6 pieces. -/
def X6 (V0 : Valuation τ sig (Elt F)) : Valuation τ sig (Elt F) := after pAgg2 (X5 V0)
/-- A buffer the piece does not write keeps its contents through it. -/
theorem X6_keep (V0 : Valuation τ sig (Elt F)) (r : Ref sig .tc) (h : r ∉ W_pAgg2) : X6 V0 (Proc.devRef .tc r) = X5 V0 (Proc.devRef .tc r) :=
  after_of_writes_sub pAgg2 _ pAgg2_writes h
/-- A buffer no operation writes holds what it held at the start. -/
theorem X6_arg (V0 : Valuation τ sig (Elt F)) (r : Ref sig .tc) (h : r ∉ Wall) : X6 V0 (Proc.devRef .tc r) = V0 (Proc.devRef .tc r) :=
  (X6_keep V0 r fun hm => h (List.mem_append_right _ (List.mem_append_right _ (List.mem_append_right _ (List.mem_append_right _ (List.mem_append_right _ (List.mem_append_left _ hm))))))).trans (X5_arg V0 r h)

/-- The contents after the first 7 pieces. -/
def X7 (V0 : Valuation τ sig (Elt F)) : Valuation τ sig (Elt F) := after pZ2 (X6 V0)
/-- A buffer the piece does not write keeps its contents through it. -/
theorem X7_keep (V0 : Valuation τ sig (Elt F)) (r : Ref sig .tc) (h : r ∉ W_pZ2) : X7 V0 (Proc.devRef .tc r) = X6 V0 (Proc.devRef .tc r) :=
  after_of_writes_sub pZ2 _ pZ2_writes h
/-- A buffer no operation writes holds what it held at the start. -/
theorem X7_arg (V0 : Valuation τ sig (Elt F)) (r : Ref sig .tc) (h : r ∉ Wall) : X7 V0 (Proc.devRef .tc r) = V0 (Proc.devRef .tc r) :=
  (X7_keep V0 r fun hm => h (List.mem_append_right _ (List.mem_append_right _ (List.mem_append_right _ (List.mem_append_right _ (List.mem_append_right _ (List.mem_append_right _ (List.mem_append_left _ hm)))))))).trans (X6_arg V0 r h)

/-- The contents after the first 8 pieces. -/
def X8 (V0 : Valuation τ sig (Elt F)) : Valuation τ sig (Elt F) := after pBn2 (X7 V0)
/-- A buffer the piece does not write keeps its contents through it. -/
theorem X8_keep (V0 : Valuation τ sig (Elt F)) (r : Ref sig .tc) (h : r ∉ W_pBn2) : X8 V0 (Proc.devRef .tc r) = X7 V0 (Proc.devRef .tc r) :=
  after_of_writes_sub pBn2 _ pBn2_writes h
/-- A buffer no operation writes holds what it held at the start. -/
theorem X8_arg (V0 : Valuation τ sig (Elt F)) (r : Ref sig .tc) (h : r ∉ Wall) : X8 V0 (Proc.devRef .tc r) = V0 (Proc.devRef .tc r) :=
  (X8_keep V0 r fun hm => h (List.mem_append_right _ (List.mem_append_right _ (List.mem_append_right _ (List.mem_append_right _ (List.mem_append_right _ (List.mem_append_right _ (List.mem_append_right _ (List.mem_append_left _ hm))))))))).trans (X7_arg V0 r h)

/-- The contents after the first 9 pieces. -/
def X9 (V0 : Valuation τ sig (Elt F)) : Valuation τ sig (Elt F) := after pAgg3a (X8 V0)
/-- A buffer the piece does not write keeps its contents through it. -/
theorem X9_keep (V0 : Valuation τ sig (Elt F)) (r : Ref sig .tc) (h : r ∉ W_pAgg3a) : X9 V0 (Proc.devRef .tc r) = X8 V0 (Proc.devRef .tc r) :=
  after_of_writes_sub pAgg3a _ pAgg3a_writes h
/-- A buffer no operation writes holds what it held at the start. -/
theorem X9_arg (V0 : Valuation τ sig (Elt F)) (r : Ref sig .tc) (h : r ∉ Wall) : X9 V0 (Proc.devRef .tc r) = V0 (Proc.devRef .tc r) :=
  (X9_keep V0 r fun hm => h (List.mem_append_right _ (List.mem_append_right _ (List.mem_append_right _ (List.mem_append_right _ (List.mem_append_right _ (List.mem_append_right _ (List.mem_append_right _ (List.mem_append_right _ (List.mem_append_left _ hm)))))))))).trans (X8_arg V0 r h)

/-- The contents after the first 10 pieces. -/
def X10 (V0 : Valuation τ sig (Elt F)) : Valuation τ sig (Elt F) := after pAgg3b (X9 V0)
/-- A buffer the piece does not write keeps its contents through it. -/
theorem X10_keep (V0 : Valuation τ sig (Elt F)) (r : Ref sig .tc) (h : r ∉ W_pAgg3b) : X10 V0 (Proc.devRef .tc r) = X9 V0 (Proc.devRef .tc r) :=
  after_of_writes_sub pAgg3b _ pAgg3b_writes h
/-- A buffer no operation writes holds what it held at the start. -/
theorem X10_arg (V0 : Valuation τ sig (Elt F)) (r : Ref sig .tc) (h : r ∉ Wall) : X10 V0 (Proc.devRef .tc r) = V0 (Proc.devRef .tc r) :=
  (X10_keep V0 r fun hm => h (List.mem_append_right _ (List.mem_append_right _ (List.mem_append_right _ (List.mem_append_right _ (List.mem_append_right _ (List.mem_append_right _ (List.mem_append_right _ (List.mem_append_right _ (List.mem_append_right _ (List.mem_append_left _ hm))))))))))).trans (X9_arg V0 r h)

/-- The contents after the first 11 pieces. -/
def X11 (V0 : Valuation τ sig (Elt F)) : Valuation τ sig (Elt F) := after pZ3 (X10 V0)
/-- A buffer the piece does not write keeps its contents through it. -/
theorem X11_keep (V0 : Valuation τ sig (Elt F)) (r : Ref sig .tc) (h : r ∉ W_pZ3) : X11 V0 (Proc.devRef .tc r) = X10 V0 (Proc.devRef .tc r) :=
  after_of_writes_sub pZ3 _ pZ3_writes h
/-- A buffer no operation writes holds what it held at the start. -/
theorem X11_arg (V0 : Valuation τ sig (Elt F)) (r : Ref sig .tc) (h : r ∉ Wall) : X11 V0 (Proc.devRef .tc r) = V0 (Proc.devRef .tc r) :=
  (X11_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))).trans (X10_arg V0 r h)

/-- The contents after the first 12 pieces. -/
def X12 (V0 : Valuation τ sig (Elt F)) : Valuation τ sig (Elt F) := after pBn3 (X11 V0)
/-- A buffer the piece does not write keeps its contents through it. -/
theorem X12_keep (V0 : Valuation τ sig (Elt F)) (r : Ref sig .tc) (h : r ∉ W_pBn3) : X12 V0 (Proc.devRef .tc r) = X11 V0 (Proc.devRef .tc r) :=
  after_of_writes_sub pBn3 _ pBn3_writes h
/-- A buffer no operation writes holds what it held at the start. -/
theorem X12_arg (V0 : Valuation τ sig (Elt F)) (r : Ref sig .tc) (h : r ∉ Wall) : X12 V0 (Proc.devRef .tc r) = V0 (Proc.devRef .tc r) :=
  (X12_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))).trans (X11_arg V0 r h)

/-- The contents after the first 13 pieces. -/
def X13 (V0 : Valuation τ sig (Elt F)) : Valuation τ sig (Elt F) := after pAgg4 (X12 V0)
/-- A buffer the piece does not write keeps its contents through it. -/
theorem X13_keep (V0 : Valuation τ sig (Elt F)) (r : Ref sig .tc) (h : r ∉ W_pAgg4) : X13 V0 (Proc.devRef .tc r) = X12 V0 (Proc.devRef .tc r) :=
  after_of_writes_sub pAgg4 _ pAgg4_writes h
/-- A buffer no operation writes holds what it held at the start. -/
theorem X13_arg (V0 : Valuation τ sig (Elt F)) (r : Ref sig .tc) (h : r ∉ Wall) : X13 V0 (Proc.devRef .tc r) = V0 (Proc.devRef .tc r) :=
  (X13_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm)))))))))))))).trans (X12_arg V0 r h)

/-- The contents after the first 14 pieces. -/
def X14 (V0 : Valuation τ sig (Elt F)) : Valuation τ sig (Elt F) := after pZ4a (X13 V0)
/-- A buffer the piece does not write keeps its contents through it. -/
theorem X14_keep (V0 : Valuation τ sig (Elt F)) (r : Ref sig .tc) (h : r ∉ W_pZ4a) : X14 V0 (Proc.devRef .tc r) = X13 V0 (Proc.devRef .tc r) :=
  after_of_writes_sub pZ4a _ pZ4a_writes h
/-- A buffer no operation writes holds what it held at the start. -/
theorem X14_arg (V0 : Valuation τ sig (Elt F)) (r : Ref sig .tc) (h : r ∉ Wall) : X14 V0 (Proc.devRef .tc r) = V0 (Proc.devRef .tc r) :=
  (X14_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_left _ hm))))))))))))))).trans (X13_arg V0 r h)

/-- The contents after the first 15 pieces. -/
def X15 (V0 : Valuation τ sig (Elt F)) : Valuation τ sig (Elt F) := after pZ4b (X14 V0)
/-- A buffer the piece does not write keeps its contents through it. -/
theorem X15_keep (V0 : Valuation τ sig (Elt F)) (r : Ref sig .tc) (h : r ∉ W_pZ4b) : X15 V0 (Proc.devRef .tc r) = X14 V0 (Proc.devRef .tc r) :=
  after_of_writes_sub pZ4b _ pZ4b_writes h
/-- A buffer no operation writes holds what it held at the start. -/
theorem X15_arg (V0 : Valuation τ sig (Elt F)) (r : Ref sig .tc) (h : r ∉ Wall) : X15 V0 (Proc.devRef .tc r) = V0 (Proc.devRef .tc r) :=
  (X15_keep V0 r fun hm => h (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ (List.mem_append_right _ hm))))))))))))))).trans (X14_arg V0 r h)

/-- The contents after the whole list are the contents after the last piece. -/
theorem after_ops (V0 : Valuation τ sig (Elt F)) : after ops V0 = X15 V0 := by
  simp only [ops, lCnt, lAgg1, lZ1, lBn1, lAgg2, lZ2, lBn2, lAgg3, lZ3, lBn3, lAgg4, lZ4, after_append]
  rfl

/-! ## Each layer's stretch, from any contents -/

set_option maxRecDepth 8192 in
set_option maxHeartbeats 4000000 in
/-- The degree stretch leaves the edges' sources in their buffer. -/
theorem cnt_src (V : Valuation τ sig (Elt F)) :
    after pCnt V (Proc.devRef .tc main_v1)
      = srcR (V (Proc.devRef .tc main_arg1)) := by
  simp only [pCnt]
  after_results_simp
  rfl

set_option maxRecDepth 8192 in
set_option maxHeartbeats 4000000 in
/-- The degree stretch leaves the edges' destinations in their buffer. -/
theorem cnt_dst (V : Valuation τ sig (Elt F)) :
    after pCnt V (Proc.devRef .tc main_v3)
      = dstR (V (Proc.devRef .tc main_arg1)) := by
  simp only [pCnt]
  after_results_simp
  rfl

set_option maxRecDepth 8192 in
set_option maxHeartbeats 4000000 in
/-- The degree stretch leaves the clamped in-degree column in its buffer. -/
theorem cnt_cnt (V : Valuation τ sig (Elt F)) :
    after pCnt V (Proc.devRef .tc main_v10)
      = cntR (V (Proc.devRef .tc main_arg1)) := by
  simp only [pCnt]
  after_results_simp
  rfl

set_option maxRecDepth 8192 in
set_option maxHeartbeats 4000000 in
/-- Layer 1's aggregation stretch: the neighbourhood mean of the features it reads. -/
theorem agg1_read (V : Valuation τ sig (Elt F)) :
    after pAgg1 V (Proc.devRef .tc main_v22)
      = aggS_128 (V (Proc.devRef .tc main_v10)) (V (Proc.devRef .tc main_v1)) (V (Proc.devRef .tc main_v3)) (V (Proc.devRef .tc main_arg0)) := by
  simp only [pAgg1]
  after_results_simp
  rfl

set_option maxRecDepth 8192 in
set_option maxHeartbeats 4000000 in
/-- Layer 1's linear stretch. -/
theorem z1_read (V : Valuation τ sig (Elt F)) :
    after pZ1 V (Proc.devRef .tc main_v34)
      = zR_1 (V (Proc.devRef .tc main_v22)) (V (Proc.devRef .tc main_arg0)) (V (Proc.devRef .tc main_arg2)) (V (Proc.devRef .tc main_arg3)) (V (Proc.devRef .tc main_arg4)) (V (Proc.devRef .tc main_arg5)) (V (Proc.devRef .tc main_arg6)) := by
  simp only [pZ1]
  after_results_simp
  rfl

set_option maxRecDepth 8192 in
set_option maxHeartbeats 4000000 in
/-- Layer 1's normalisation stretch. -/
theorem bn1_read (V : Valuation τ sig (Elt F)) :
    after pBn1b (after pBn1a V) (Proc.devRef .tc main_v53)
      = bnR_1 (V (Proc.devRef .tc main_v34)) (V (Proc.devRef .tc main_arg7)) (V (Proc.devRef .tc main_arg8)) := by
  simp only [pBn1a, pBn1b]
  after_results_simp
  rfl

set_option maxRecDepth 8192 in
set_option maxHeartbeats 4000000 in
/-- Layer 2's aggregation stretch: the neighbourhood mean of the features it reads. -/
theorem agg2_read (V : Valuation τ sig (Elt F)) :
    after pAgg2 V (Proc.devRef .tc main_v65)
      = aggS_256 (V (Proc.devRef .tc main_v10)) (V (Proc.devRef .tc main_v1)) (V (Proc.devRef .tc main_v3)) (V (Proc.devRef .tc main_v53)) := by
  simp only [pAgg2]
  after_results_simp
  rfl

set_option maxRecDepth 8192 in
set_option maxHeartbeats 4000000 in
/-- Layer 2's linear stretch. -/
theorem z2_read (V : Valuation τ sig (Elt F)) :
    after pZ2 V (Proc.devRef .tc main_v77)
      = zR_2 (V (Proc.devRef .tc main_v65)) (V (Proc.devRef .tc main_v53)) (V (Proc.devRef .tc main_arg9)) (V (Proc.devRef .tc main_arg10)) (V (Proc.devRef .tc main_arg11)) (V (Proc.devRef .tc main_arg12)) (V (Proc.devRef .tc main_arg13)) := by
  simp only [pZ2]
  after_results_simp
  rfl

set_option maxRecDepth 8192 in
set_option maxHeartbeats 4000000 in
/-- Layer 2's normalisation stretch. -/
theorem bn2_read (V : Valuation τ sig (Elt F)) :
    after pBn2 V (Proc.devRef .tc main_v96)
      = bnR_2 (V (Proc.devRef .tc main_v77)) (V (Proc.devRef .tc main_arg14)) (V (Proc.devRef .tc main_arg15)) := by
  simp only [pBn2]
  after_results_simp
  rfl

set_option maxRecDepth 8192 in
set_option maxHeartbeats 4000000 in
/-- Layer 3's aggregation stretch: the neighbourhood mean of the features it reads. -/
theorem agg3_read (V : Valuation τ sig (Elt F)) :
    after pAgg3b (after pAgg3a V) (Proc.devRef .tc main_v108)
      = aggS_128 (V (Proc.devRef .tc main_v10)) (V (Proc.devRef .tc main_v1)) (V (Proc.devRef .tc main_v3)) (V (Proc.devRef .tc main_v96)) := by
  simp only [pAgg3a, pAgg3b]
  after_results_simp
  rfl

set_option maxRecDepth 8192 in
set_option maxHeartbeats 4000000 in
/-- Layer 3's linear stretch. -/
theorem z3_read (V : Valuation τ sig (Elt F)) :
    after pZ3 V (Proc.devRef .tc main_v120)
      = zR_3 (V (Proc.devRef .tc main_v108)) (V (Proc.devRef .tc main_v96)) (V (Proc.devRef .tc main_arg16)) (V (Proc.devRef .tc main_arg17)) (V (Proc.devRef .tc main_arg18)) (V (Proc.devRef .tc main_arg19)) (V (Proc.devRef .tc main_arg20)) := by
  simp only [pZ3]
  after_results_simp
  rfl

set_option maxRecDepth 8192 in
set_option maxHeartbeats 4000000 in
/-- Layer 3's normalisation stretch. -/
theorem bn3_read (V : Valuation τ sig (Elt F)) :
    after pBn3 V (Proc.devRef .tc main_v139)
      = bnR_3 (V (Proc.devRef .tc main_v120)) (V (Proc.devRef .tc main_arg21)) (V (Proc.devRef .tc main_arg22)) := by
  simp only [pBn3]
  after_results_simp
  rfl

set_option maxRecDepth 8192 in
set_option maxHeartbeats 4000000 in
/-- Layer 4's aggregation stretch: the neighbourhood mean of the features it reads. -/
theorem agg4_read (V : Valuation τ sig (Elt F)) :
    after pAgg4 V (Proc.devRef .tc main_v151)
      = aggS_64 (V (Proc.devRef .tc main_v10)) (V (Proc.devRef .tc main_v1)) (V (Proc.devRef .tc main_v3)) (V (Proc.devRef .tc main_v139)) := by
  simp only [pAgg4]
  after_results_simp
  rfl

set_option maxRecDepth 8192 in
set_option maxHeartbeats 4000000 in
/-- Layer 4's linear stretch. -/
theorem z4_read (V : Valuation τ sig (Elt F)) :
    after pZ4b (after pZ4a V) (Proc.devRef .tc main_v162)
      = zR_4 (V (Proc.devRef .tc main_v151)) (V (Proc.devRef .tc main_v139)) (V (Proc.devRef .tc main_arg23)) (V (Proc.devRef .tc main_arg24)) (V (Proc.devRef .tc main_arg25)) (V (Proc.devRef .tc main_arg26)) (V (Proc.devRef .tc main_arg27)) := by
  simp only [pZ4a, pZ4b]
  after_results_simp
  rfl

/-! ## The chain: each live buffer after each piece, from the contents `V0` at the start -/

theorem X1_v1 (V0 : Valuation τ sig (Elt F)) : X1 V0 (Proc.devRef .tc main_v1) = srcR (V0 (Proc.devRef .tc main_arg1)) := cnt_src (X0 V0)
theorem X1_v3 (V0 : Valuation τ sig (Elt F)) : X1 V0 (Proc.devRef .tc main_v3) = dstR (V0 (Proc.devRef .tc main_arg1)) := cnt_dst (X0 V0)
theorem X1_v10 (V0 : Valuation τ sig (Elt F)) : X1 V0 (Proc.devRef .tc main_v10) = cntR (V0 (Proc.devRef .tc main_arg1)) := cnt_cnt (X0 V0)
theorem X2_v1 (V0 : Valuation τ sig (Elt F)) : X2 V0 (Proc.devRef .tc main_v1) = srcR (V0 (Proc.devRef .tc main_arg1)) := (X2_keep V0 main_v1 (by decide)).trans (X1_v1 V0)
theorem X2_v3 (V0 : Valuation τ sig (Elt F)) : X2 V0 (Proc.devRef .tc main_v3) = dstR (V0 (Proc.devRef .tc main_arg1)) := (X2_keep V0 main_v3 (by decide)).trans (X1_v3 V0)
theorem X2_v10 (V0 : Valuation τ sig (Elt F)) : X2 V0 (Proc.devRef .tc main_v10) = cntR (V0 (Proc.devRef .tc main_arg1)) := (X2_keep V0 main_v10 (by decide)).trans (X1_v10 V0)
theorem X3_v1 (V0 : Valuation τ sig (Elt F)) : X3 V0 (Proc.devRef .tc main_v1) = srcR (V0 (Proc.devRef .tc main_arg1)) := (X3_keep V0 main_v1 (by decide)).trans (X2_v1 V0)
theorem X3_v3 (V0 : Valuation τ sig (Elt F)) : X3 V0 (Proc.devRef .tc main_v3) = dstR (V0 (Proc.devRef .tc main_arg1)) := (X3_keep V0 main_v3 (by decide)).trans (X2_v3 V0)
theorem X3_v10 (V0 : Valuation τ sig (Elt F)) : X3 V0 (Proc.devRef .tc main_v10) = cntR (V0 (Proc.devRef .tc main_arg1)) := (X3_keep V0 main_v10 (by decide)).trans (X2_v10 V0)
theorem X4_v1 (V0 : Valuation τ sig (Elt F)) : X4 V0 (Proc.devRef .tc main_v1) = srcR (V0 (Proc.devRef .tc main_arg1)) := (X4_keep V0 main_v1 (by decide)).trans (X3_v1 V0)
theorem X4_v3 (V0 : Valuation τ sig (Elt F)) : X4 V0 (Proc.devRef .tc main_v3) = dstR (V0 (Proc.devRef .tc main_arg1)) := (X4_keep V0 main_v3 (by decide)).trans (X3_v3 V0)
theorem X4_v10 (V0 : Valuation τ sig (Elt F)) : X4 V0 (Proc.devRef .tc main_v10) = cntR (V0 (Proc.devRef .tc main_arg1)) := (X4_keep V0 main_v10 (by decide)).trans (X3_v10 V0)
theorem X5_v1 (V0 : Valuation τ sig (Elt F)) : X5 V0 (Proc.devRef .tc main_v1) = srcR (V0 (Proc.devRef .tc main_arg1)) := (X5_keep V0 main_v1 (by decide)).trans (X4_v1 V0)
theorem X5_v3 (V0 : Valuation τ sig (Elt F)) : X5 V0 (Proc.devRef .tc main_v3) = dstR (V0 (Proc.devRef .tc main_arg1)) := (X5_keep V0 main_v3 (by decide)).trans (X4_v3 V0)
theorem X5_v10 (V0 : Valuation τ sig (Elt F)) : X5 V0 (Proc.devRef .tc main_v10) = cntR (V0 (Proc.devRef .tc main_arg1)) := (X5_keep V0 main_v10 (by decide)).trans (X4_v10 V0)
theorem X6_v1 (V0 : Valuation τ sig (Elt F)) : X6 V0 (Proc.devRef .tc main_v1) = srcR (V0 (Proc.devRef .tc main_arg1)) := (X6_keep V0 main_v1 (by decide)).trans (X5_v1 V0)
theorem X6_v3 (V0 : Valuation τ sig (Elt F)) : X6 V0 (Proc.devRef .tc main_v3) = dstR (V0 (Proc.devRef .tc main_arg1)) := (X6_keep V0 main_v3 (by decide)).trans (X5_v3 V0)
theorem X6_v10 (V0 : Valuation τ sig (Elt F)) : X6 V0 (Proc.devRef .tc main_v10) = cntR (V0 (Proc.devRef .tc main_arg1)) := (X6_keep V0 main_v10 (by decide)).trans (X5_v10 V0)
theorem X7_v1 (V0 : Valuation τ sig (Elt F)) : X7 V0 (Proc.devRef .tc main_v1) = srcR (V0 (Proc.devRef .tc main_arg1)) := (X7_keep V0 main_v1 (by decide)).trans (X6_v1 V0)
theorem X7_v3 (V0 : Valuation τ sig (Elt F)) : X7 V0 (Proc.devRef .tc main_v3) = dstR (V0 (Proc.devRef .tc main_arg1)) := (X7_keep V0 main_v3 (by decide)).trans (X6_v3 V0)
theorem X7_v10 (V0 : Valuation τ sig (Elt F)) : X7 V0 (Proc.devRef .tc main_v10) = cntR (V0 (Proc.devRef .tc main_arg1)) := (X7_keep V0 main_v10 (by decide)).trans (X6_v10 V0)
theorem X8_v1 (V0 : Valuation τ sig (Elt F)) : X8 V0 (Proc.devRef .tc main_v1) = srcR (V0 (Proc.devRef .tc main_arg1)) := (X8_keep V0 main_v1 (by decide)).trans (X7_v1 V0)
theorem X8_v3 (V0 : Valuation τ sig (Elt F)) : X8 V0 (Proc.devRef .tc main_v3) = dstR (V0 (Proc.devRef .tc main_arg1)) := (X8_keep V0 main_v3 (by decide)).trans (X7_v3 V0)
theorem X8_v10 (V0 : Valuation τ sig (Elt F)) : X8 V0 (Proc.devRef .tc main_v10) = cntR (V0 (Proc.devRef .tc main_arg1)) := (X8_keep V0 main_v10 (by decide)).trans (X7_v10 V0)
theorem X9_v1 (V0 : Valuation τ sig (Elt F)) : X9 V0 (Proc.devRef .tc main_v1) = srcR (V0 (Proc.devRef .tc main_arg1)) := (X9_keep V0 main_v1 (by decide)).trans (X8_v1 V0)
theorem X9_v3 (V0 : Valuation τ sig (Elt F)) : X9 V0 (Proc.devRef .tc main_v3) = dstR (V0 (Proc.devRef .tc main_arg1)) := (X9_keep V0 main_v3 (by decide)).trans (X8_v3 V0)
theorem X9_v10 (V0 : Valuation τ sig (Elt F)) : X9 V0 (Proc.devRef .tc main_v10) = cntR (V0 (Proc.devRef .tc main_arg1)) := (X9_keep V0 main_v10 (by decide)).trans (X8_v10 V0)
theorem X10_v1 (V0 : Valuation τ sig (Elt F)) : X10 V0 (Proc.devRef .tc main_v1) = srcR (V0 (Proc.devRef .tc main_arg1)) := (X10_keep V0 main_v1 (by decide)).trans (X9_v1 V0)
theorem X10_v3 (V0 : Valuation τ sig (Elt F)) : X10 V0 (Proc.devRef .tc main_v3) = dstR (V0 (Proc.devRef .tc main_arg1)) := (X10_keep V0 main_v3 (by decide)).trans (X9_v3 V0)
theorem X10_v10 (V0 : Valuation τ sig (Elt F)) : X10 V0 (Proc.devRef .tc main_v10) = cntR (V0 (Proc.devRef .tc main_arg1)) := (X10_keep V0 main_v10 (by decide)).trans (X9_v10 V0)
theorem X11_v1 (V0 : Valuation τ sig (Elt F)) : X11 V0 (Proc.devRef .tc main_v1) = srcR (V0 (Proc.devRef .tc main_arg1)) := (X11_keep V0 main_v1 (by decide)).trans (X10_v1 V0)
theorem X11_v3 (V0 : Valuation τ sig (Elt F)) : X11 V0 (Proc.devRef .tc main_v3) = dstR (V0 (Proc.devRef .tc main_arg1)) := (X11_keep V0 main_v3 (by decide)).trans (X10_v3 V0)
theorem X11_v10 (V0 : Valuation τ sig (Elt F)) : X11 V0 (Proc.devRef .tc main_v10) = cntR (V0 (Proc.devRef .tc main_arg1)) := (X11_keep V0 main_v10 (by decide)).trans (X10_v10 V0)
theorem X12_v1 (V0 : Valuation τ sig (Elt F)) : X12 V0 (Proc.devRef .tc main_v1) = srcR (V0 (Proc.devRef .tc main_arg1)) := (X12_keep V0 main_v1 (by decide)).trans (X11_v1 V0)
theorem X12_v3 (V0 : Valuation τ sig (Elt F)) : X12 V0 (Proc.devRef .tc main_v3) = dstR (V0 (Proc.devRef .tc main_arg1)) := (X12_keep V0 main_v3 (by decide)).trans (X11_v3 V0)
theorem X12_v10 (V0 : Valuation τ sig (Elt F)) : X12 V0 (Proc.devRef .tc main_v10) = cntR (V0 (Proc.devRef .tc main_arg1)) := (X12_keep V0 main_v10 (by decide)).trans (X11_v10 V0)

/-- The hidden features after layers 1, 2, 3 and the output, as functions of the starting contents. -/
def H1 (V0 : Valuation τ sig (Elt F)) : FVec F S50000x256 .f32 := hR_1 (V0 (Proc.devRef .tc main_arg1)) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))
def H2 (V0 : Valuation τ sig (Elt F)) : FVec F S50000x128 .f32 := hR_2 (V0 (Proc.devRef .tc main_arg1)) (H1 V0) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15))
def H3 (V0 : Valuation τ sig (Elt F)) : FVec F S50000x64 .f32 := hR_3 (V0 (Proc.devRef .tc main_arg1)) (H2 V0) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22))
def OUT (V0 : Valuation τ sig (Elt F)) : FVec F S50000x40 .f32 := outR (V0 (Proc.devRef .tc main_arg1)) (H3 V0) (V0 (Proc.devRef .tc main_arg23)) (V0 (Proc.devRef .tc main_arg24)) (V0 (Proc.devRef .tc main_arg25)) (V0 (Proc.devRef .tc main_arg26)) (V0 (Proc.devRef .tc main_arg27))

theorem X2_v22 (V0 : Valuation τ sig (Elt F)) : X2 V0 (Proc.devRef .tc main_v22) = aggR_128 (cntR (V0 (Proc.devRef .tc main_arg1))) (V0 (Proc.devRef .tc main_arg1)) (V0 (Proc.devRef .tc main_arg0)) := by
  have h := agg1_read (X1 V0)
  rw [X1_v10, X1_v1, X1_v3, X1_arg V0 main_arg0 (by decide)] at h
  exact h
theorem X3_v34 (V0 : Valuation τ sig (Elt F)) : X3 V0 (Proc.devRef .tc main_v34) = zR_1 (aggR_128 (cntR (V0 (Proc.devRef .tc main_arg1))) (V0 (Proc.devRef .tc main_arg1)) (V0 (Proc.devRef .tc main_arg0))) (V0 (Proc.devRef .tc main_arg0)) (V0 (Proc.devRef .tc main_arg2)) (V0 (Proc.devRef .tc main_arg3)) (V0 (Proc.devRef .tc main_arg4)) (V0 (Proc.devRef .tc main_arg5)) (V0 (Proc.devRef .tc main_arg6)) := by
  have h := z1_read (X2 V0)
  rw [X2_v22, X2_arg V0 main_arg0 (by decide), X2_arg V0 main_arg2 (by decide), X2_arg V0 main_arg3 (by decide), X2_arg V0 main_arg4 (by decide), X2_arg V0 main_arg5 (by decide), X2_arg V0 main_arg6 (by decide)] at h
  exact h
theorem X5_v53 (V0 : Valuation τ sig (Elt F)) : X5 V0 (Proc.devRef .tc main_v53) = H1 V0 := by
  have h := bn1_read (X3 V0)
  rw [X3_v34, X3_arg V0 main_arg7 (by decide), X3_arg V0 main_arg8 (by decide)] at h
  exact h

theorem X6_v65 (V0 : Valuation τ sig (Elt F)) : X6 V0 (Proc.devRef .tc main_v65) = aggR_256 (cntR (V0 (Proc.devRef .tc main_arg1))) (V0 (Proc.devRef .tc main_arg1)) (H1 V0) := by
  have h := agg2_read (X5 V0)
  rw [X5_v10, X5_v1, X5_v3, X5_v53 V0] at h
  exact h
theorem X6_v53 (V0 : Valuation τ sig (Elt F)) : X6 V0 (Proc.devRef .tc main_v53) = H1 V0 := (X6_keep V0 main_v53 (by decide)).trans (X5_v53 V0)
theorem X7_v77 (V0 : Valuation τ sig (Elt F)) : X7 V0 (Proc.devRef .tc main_v77) = zR_2 (aggR_256 (cntR (V0 (Proc.devRef .tc main_arg1))) (V0 (Proc.devRef .tc main_arg1)) (H1 V0)) (H1 V0) (V0 (Proc.devRef .tc main_arg9)) (V0 (Proc.devRef .tc main_arg10)) (V0 (Proc.devRef .tc main_arg11)) (V0 (Proc.devRef .tc main_arg12)) (V0 (Proc.devRef .tc main_arg13)) := by
  have h := z2_read (X6 V0)
  rw [X6_v65, X6_v53 V0, X6_arg V0 main_arg9 (by decide), X6_arg V0 main_arg10 (by decide), X6_arg V0 main_arg11 (by decide), X6_arg V0 main_arg12 (by decide), X6_arg V0 main_arg13 (by decide)] at h
  exact h
theorem X8_v96 (V0 : Valuation τ sig (Elt F)) : X8 V0 (Proc.devRef .tc main_v96) = H2 V0 := by
  have h := bn2_read (X7 V0)
  rw [X7_v77, X7_arg V0 main_arg14 (by decide), X7_arg V0 main_arg15 (by decide)] at h
  exact h

theorem X10_v108 (V0 : Valuation τ sig (Elt F)) : X10 V0 (Proc.devRef .tc main_v108) = aggR_128 (cntR (V0 (Proc.devRef .tc main_arg1))) (V0 (Proc.devRef .tc main_arg1)) (H2 V0) := by
  have h := agg3_read (X8 V0)
  rw [X8_v10, X8_v1, X8_v3, X8_v96 V0] at h
  exact h
theorem X9_v96 (V0 : Valuation τ sig (Elt F)) : X9 V0 (Proc.devRef .tc main_v96) = H2 V0 := (X9_keep V0 main_v96 (by decide)).trans (X8_v96 V0)
theorem X10_v96 (V0 : Valuation τ sig (Elt F)) : X10 V0 (Proc.devRef .tc main_v96) = H2 V0 := (X10_keep V0 main_v96 (by decide)).trans (X9_v96 V0)
theorem X11_v120 (V0 : Valuation τ sig (Elt F)) : X11 V0 (Proc.devRef .tc main_v120) = zR_3 (aggR_128 (cntR (V0 (Proc.devRef .tc main_arg1))) (V0 (Proc.devRef .tc main_arg1)) (H2 V0)) (H2 V0) (V0 (Proc.devRef .tc main_arg16)) (V0 (Proc.devRef .tc main_arg17)) (V0 (Proc.devRef .tc main_arg18)) (V0 (Proc.devRef .tc main_arg19)) (V0 (Proc.devRef .tc main_arg20)) := by
  have h := z3_read (X10 V0)
  rw [X10_v108, X10_v96 V0, X10_arg V0 main_arg16 (by decide), X10_arg V0 main_arg17 (by decide), X10_arg V0 main_arg18 (by decide), X10_arg V0 main_arg19 (by decide), X10_arg V0 main_arg20 (by decide)] at h
  exact h
theorem X12_v139 (V0 : Valuation τ sig (Elt F)) : X12 V0 (Proc.devRef .tc main_v139) = H3 V0 := by
  have h := bn3_read (X11 V0)
  rw [X11_v120, X11_arg V0 main_arg21 (by decide), X11_arg V0 main_arg22 (by decide)] at h
  exact h

theorem X13_v151 (V0 : Valuation τ sig (Elt F)) : X13 V0 (Proc.devRef .tc main_v151) = aggR_64 (cntR (V0 (Proc.devRef .tc main_arg1))) (V0 (Proc.devRef .tc main_arg1)) (H3 V0) := by
  have h := agg4_read (X12 V0)
  rw [X12_v10, X12_v1, X12_v3, X12_v139 V0] at h
  exact h
theorem X13_v139 (V0 : Valuation τ sig (Elt F)) : X13 V0 (Proc.devRef .tc main_v139) = H3 V0 := (X13_keep V0 main_v139 (by decide)).trans (X12_v139 V0)
theorem X15_v162 (V0 : Valuation τ sig (Elt F)) : X15 V0 (Proc.devRef .tc main_v162) = OUT V0 := by
  have h := z4_read (X13 V0)
  rw [X13_v151, X13_v139 V0, X13_arg V0 main_arg23 (by decide), X13_arg V0 main_arg24 (by decide), X13_arg V0 main_arg25 (by decide), X13_arg V0 main_arg26 (by decide), X13_arg V0 main_arg27 (by decide)] at h
  exact h

/-- `RES` is the output function of the launch contents. -/
theorem RES_eq_OUT (m : (ℓ : Loc nD τ sig) → Buf (Elt F) ℓ) (c : Dev nD) : RES m c = OUT (launchContents m c) := rfl

/-- On every device, for any float values, from any memory with zero counters: every weakly fair execution of @main
    terminates with the result buffer at `RES` of the arguments' launch contents and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v162) = RES m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v162).trans (by rw [after_ops, X15_v162, RES_eq_OUT]),
      (h c main_arg0).trans (by rw [after_ops]; exact X15_arg _ main_arg0 (by decide)),
      (h c main_arg1).trans (by rw [after_ops]; exact X15_arg _ main_arg1 (by decide)),
      (h c main_arg2).trans (by rw [after_ops]; exact X15_arg _ main_arg2 (by decide)),
      (h c main_arg3).trans (by rw [after_ops]; exact X15_arg _ main_arg3 (by decide)),
      (h c main_arg4).trans (by rw [after_ops]; exact X15_arg _ main_arg4 (by decide)),
      (h c main_arg5).trans (by rw [after_ops]; exact X15_arg _ main_arg5 (by decide)),
      (h c main_arg6).trans (by rw [after_ops]; exact X15_arg _ main_arg6 (by decide)),
      (h c main_arg7).trans (by rw [after_ops]; exact X15_arg _ main_arg7 (by decide)),
      (h c main_arg8).trans (by rw [after_ops]; exact X15_arg _ main_arg8 (by decide)),
      (h c main_arg9).trans (by rw [after_ops]; exact X15_arg _ main_arg9 (by decide)),
      (h c main_arg10).trans (by rw [after_ops]; exact X15_arg _ main_arg10 (by decide)),
      (h c main_arg11).trans (by rw [after_ops]; exact X15_arg _ main_arg11 (by decide)),
      (h c main_arg12).trans (by rw [after_ops]; exact X15_arg _ main_arg12 (by decide)),
      (h c main_arg13).trans (by rw [after_ops]; exact X15_arg _ main_arg13 (by decide)),
      (h c main_arg14).trans (by rw [after_ops]; exact X15_arg _ main_arg14 (by decide)),
      (h c main_arg15).trans (by rw [after_ops]; exact X15_arg _ main_arg15 (by decide)),
      (h c main_arg16).trans (by rw [after_ops]; exact X15_arg _ main_arg16 (by decide)),
      (h c main_arg17).trans (by rw [after_ops]; exact X15_arg _ main_arg17 (by decide)),
      (h c main_arg18).trans (by rw [after_ops]; exact X15_arg _ main_arg18 (by decide)),
      (h c main_arg19).trans (by rw [after_ops]; exact X15_arg _ main_arg19 (by decide)),
      (h c main_arg20).trans (by rw [after_ops]; exact X15_arg _ main_arg20 (by decide)),
      (h c main_arg21).trans (by rw [after_ops]; exact X15_arg _ main_arg21 (by decide)),
      (h c main_arg22).trans (by rw [after_ops]; exact X15_arg _ main_arg22 (by decide)),
      (h c main_arg23).trans (by rw [after_ops]; exact X15_arg _ main_arg23 (by decide)),
      (h c main_arg24).trans (by rw [after_ops]; exact X15_arg _ main_arg24 (by decide)),
      (h c main_arg25).trans (by rw [after_ops]; exact X15_arg _ main_arg25 (by decide)),
      (h c main_arg26).trans (by rw [after_ops]; exact X15_arg _ main_arg26 (by decide)),
      (h c main_arg27).trans (by rw [after_ops]; exact X15_arg _ main_arg27 (by decide))⟩)
    (run_after m ρ)

end Cert.ReferenceIdeal.RefRun

end
-- ==== Proof.RefFrame.lean ====
/- The reference program runs and leaves its arguments unchanged: the run read back, with the result's
   conjunct dropped. -/
import proofs.«144552_j81088982548491_1_alg».proof.Defs
import proofs.«144552_j81088982548491_1_alg».proof.Proof.Gen.Pre_finite_inputs
import proofs.«144552_j81088982548491_1_alg».proof.Proof.RefRead

noncomputable section

namespace Cert.ReferenceIdeal.RefRun

open Idealize.ShloMosaic Idealize.SL.Sem

/-- Every weakly fair execution of the reference terminates with its twenty-eight argument buffers unchanged. -/
theorem frame_ri : Cert.frame_ReferenceIdeal := fun m ρ _ =>
  (θ_run (Cert.ReferenceIdeal.defs (F := Ideal)) _ _).mono (fun _ h c => (h c).2) (run (F := Ideal) m ρ)

end Cert.ReferenceIdeal.RefRun

end
-- ==== Proof.KHostSage.lean ====
import proofs.«144552_j81088982548491_1_alg».proof.Proof.Gen.KernelIdeal.Frame

/-! # The host stretches that precede each aggregate-and-project region of the kernel program

Every graph layer first forms, on the host, the mean of the neighbours' rows:
`agg[v] = (Σ_{e : dst e = v} h[src e]) / max 1 #{e : dst e = v}`.
The edge list is one integer array of two rows (row 0 the sources, row 1 the destinations). The in-degree
column `cnt = max 1 (scatter-add of ones at dst)` is computed once; the sum of the neighbours' rows is a gather of
`h` at the sources (a negative source index is first shifted by the number of nodes) followed by a
scatter-add at the destinations. Besides `agg`, a stretch prepares the layer's three parameters: the
neighbour weight rounded to the narrow format, the SUM of the two self weights rounded to the narrow
format, and the sum of the two biases as a row vector.

This module names these functions of the launch contents and reads each stretch's results, over an
arbitrary valuation of the buffers it starts from, as those functions of the buffers it reads. -/

noncomputable section

namespace Cert.KernelIdeal.KHost

open Idealize.ShloMosaic Idealize.ShloMosaic.TcCoe
open Cert.KernelIdeal Cert.KernelIdeal.Gen

variable {F : FTy → Type} [FloatOps F]

/-! ## The functions -/

/-- The sources: row 0 of the edge list. -/
def srcK (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0) shapeCasts_S1x800000_S800000 i

/-- The destinations: row 1 of the edge list. -/
def dstK (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0) shapeCasts_S1x800000_S800000 i

/-- The in-degree column from the destinations: ones scatter-added at the destinations, raised to at least one. -/
def cntOf (dst : (⟨S800000, .i32⟩ : BufTy).Contents (Elt F)) : (⟨S50000x1, .f32⟩ : BufTy).Contents (Elt F) :=
  broadcastInDim S50000x1 ![0] bcast_S50000_S50000x1_0
    (maximumf
      (Host.scatterAdd scatter_S50000_S800000x1_S800000_n_0_0_1
        (broadcastInDim S50000 ![] bcast_S_S50000 (constant S_ .f32 0x00000000#32))
        (broadcastInDim S800000x1 ![0] bcast_S800000_S800000x1_0 dst)
        (broadcastInDim S800000 ![] bcast_S_S800000 (constant S_ .f32 0x3F800000#32)))
      (broadcastInDim S50000 ![] bcast_S_S50000 (constant S_ .f32 0x3F800000#32)))

/-- The in-degree column as a function of the edge list. -/
def cntK (ei : (⟨S2x800000, .i32⟩ : BufTy).Contents (Elt F)) : (⟨S50000x1, .f32⟩ : BufTy).Contents (Elt F) :=
  cntOf (dstK ei)

/-- The neighbour mean at width 128 from the sources, the destinations, the in-degree column and the rows `h`:
    gather `h` at the sources (a negative index shifted by the number of nodes), scatter-add at the destinations
    into zeros, divide by the in-degree. -/
def aggOf_128 (src dst : (⟨S800000, .i32⟩ : BufTy).Contents (Elt F)) (cnt : (⟨S50000x1, .f32⟩ : BufTy).Contents (Elt F))
    (h : (⟨S50000x128, .f32⟩ : BufTy).Contents (Elt F)) : (⟨S50000x128, .f32⟩ : BufTy).Contents (Elt F) :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst)
      (Host.gather gather_S50000x128_S800000x1_S800000x128_1_0_n_n_0_1_1128 h
        (broadcastInDim S800000x1 ![0] bcast_S800000_S800000x1_0
          (select
            (cmpi .slt src (broadcastInDim S800000 ![] bcast_S_S800000 (constantI S_ 32 0#32)))
            (addi src (broadcastInDim S800000 ![] bcast_S_S800000 (constantI S_ 32 50000#32)))
            src))))
    (broadcastInDim S50000x128 ![0, 1] bcast_S50000x1_S50000x128_0_1 cnt)

/-- The neighbour mean at width 128 as a function of the edge list and the rows `h`. -/
def aggK_128 (ei : (⟨S2x800000, .i32⟩ : BufTy).Contents (Elt F)) (h : (⟨S50000x128, .f32⟩ : BufTy).Contents (Elt F)) :
    (⟨S50000x128, .f32⟩ : BufTy).Contents (Elt F) :=
  aggOf_128 (srcK ei) (dstK ei) (cntK ei) h

/-- The neighbour mean at width 256 from the sources, the destinations, the in-degree column and the rows `h`:
    gather `h` at the sources (a negative index shifted by the number of nodes), scatter-add at the destinations
    into zeros, divide by the in-degree. -/
def aggOf_256 (src dst : (⟨S800000, .i32⟩ : BufTy).Contents (Elt F)) (cnt : (⟨S50000x1, .f32⟩ : BufTy).Contents (Elt F))
    (h : (⟨S50000x256, .f32⟩ : BufTy).Contents (Elt F)) : (⟨S50000x256, .f32⟩ : BufTy).Contents (Elt F) :=
  Host.divf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select
            (cmpi .slt src (broadcastInDim S800000 ![] bcast_S_S800000 (constantI S_ 32 0#32)))
            (addi src (broadcastInDim S800000 ![] bcast_S_S800000 (constantI S_ 32 50000#32)))
            src))))
    (broadcastInDim S50000x256 ![0, 1] bcast_S50000x1_S50000x256_0_1 cnt)

/-- The neighbour mean at width 256 as a function of the edge list and the rows `h`. -/
def aggK_256 (ei : (⟨S2x800000, .i32⟩ : BufTy).Contents (Elt F)) (h : (⟨S50000x256, .f32⟩ : BufTy).Contents (Elt F)) :
    (⟨S50000x256, .f32⟩ : BufTy).Contents (Elt F) :=
  aggOf_256 (srcK ei) (dstK ei) (cntK ei) h

/-- The neighbour mean at width 64 from the sources, the destinations, the in-degree column and the rows `h`:
    gather `h` at the sources (a negative index shifted by the number of nodes), scatter-add at the destinations
    into zeros, divide by the in-degree. -/
def aggOf_64 (src dst : (⟨S800000, .i32⟩ : BufTy).Contents (Elt F)) (cnt : (⟨S50000x1, .f32⟩ : BufTy).Contents (Elt F))
    (h : (⟨S50000x64, .f32⟩ : BufTy).Contents (Elt F)) : (⟨S50000x64, .f32⟩ : BufTy).Contents (Elt F) :=
  Host.divf
    (Host.scatterAdd scatter_S50000x64_S800000x1_S800000x64_1_0_0_1
      (broadcastInDim S50000x64 ![] bcast_S_S50000x64 (constant S_ .f32 0x00000000#32))
      (broadcastInDim S800000x1 ![0] bcast_S800000_S800000x1_0 dst)
      (Host.gather gather_S50000x64_S800000x1_S800000x64_1_0_n_n_0_1_164 h
        (broadcastInDim S800000x1 ![0] bcast_S800000_S800000x1_0
          (select
            (cmpi .slt src (broadcastInDim S800000 ![] bcast_S_S800000 (constantI S_ 32 0#32)))
            (addi src (broadcastInDim S800000 ![] bcast_S_S800000 (constantI S_ 32 50000#32)))
            src))))
    (broadcastInDim S50000x64 ![0, 1] bcast_S50000x1_S50000x64_0_1 cnt)

/-- The neighbour mean at width 64 as a function of the edge list and the rows `h`. -/
def aggK_64 (ei : (⟨S2x800000, .i32⟩ : BufTy).Contents (Elt F)) (h : (⟨S50000x64, .f32⟩ : BufTy).Contents (Elt F)) :
    (⟨S50000x64, .f32⟩ : BufTy).Contents (Elt F) :=
  aggOf_64 (srcK ei) (dstK ei) (cntK ei) h

/-! ## The first stretch: everything from the launch contents -/

section Stretch0
variable (W : Valuation τ sig (Elt F))

theorem ops0_src : StableHlo.after (hostOps0 (F := F)) W (Proc.devRef .tc main_v1) = srcK (W (Proc.devRef .tc main_arg1)) := by
  after_results_simp; rfl
theorem ops0_dst : StableHlo.after (hostOps0 (F := F)) W (Proc.devRef .tc main_v3) = dstK (W (Proc.devRef .tc main_arg1)) := by
  after_results_simp; rfl
theorem ops0_cnt : StableHlo.after (hostOps0 (F := F)) W (Proc.devRef .tc main_v10) = cntK (W (Proc.devRef .tc main_arg1)) := by
  after_results_simp; rfl
theorem ops0_agg : StableHlo.after (hostOps0 (F := F)) W (Proc.devRef .tc main_v22)
    = aggK_128 (W (Proc.devRef .tc main_arg1)) (W (Proc.devRef .tc main_arg0)) := by
  after_results_simp; rfl
theorem ops0_h : StableHlo.after (hostOps0 (F := F)) W (Proc.devRef .tc main_arg0) = W (Proc.devRef .tc main_arg0) := by
  after_results_simp
theorem ops0_wl : StableHlo.after (hostOps0 (F := F)) W (Proc.devRef .tc main_v23)
    = truncf .bf16 (W (Proc.devRef .tc main_arg2)) bitsLt_bf16_f32 := by
  after_results_simp
theorem ops0_wrs : StableHlo.after (hostOps0 (F := F)) W (Proc.devRef .tc main_v25)
    = truncf .bf16 (addf (W (Proc.devRef .tc main_arg4)) (W (Proc.devRef .tc main_arg5))) bitsLt_bf16_f32 := by
  after_results_simp
theorem ops0_b : StableHlo.after (hostOps0 (F := F)) W (Proc.devRef .tc main_v27)
    = fun i => shapeCast S1x256 (addf (W (Proc.devRef .tc main_arg3)) (W (Proc.devRef .tc main_arg6))) shapeCasts_S256_S1x256 i := by
  after_results_simp; rfl
end Stretch0

/-! ## The stretch before region 2: the neighbour mean of the previous layer's normalised rows, and the layer's parameters -/

section Stretch2
variable (W : Valuation τ sig (Elt F))

theorem ops2_agg : StableHlo.after (hostOps2 (F := F)) W (Proc.devRef .tc main_v49)
    = aggOf_256 (W (Proc.devRef .tc main_v1)) (W (Proc.devRef .tc main_v3)) (W (Proc.devRef .tc main_v10)) (W (Proc.devRef .tc main_v37)) := by
  after_results_simp; rfl
theorem ops2_h : StableHlo.after (hostOps2 (F := F)) W (Proc.devRef .tc main_v37) = W (Proc.devRef .tc main_v37) := by
  after_results_simp
theorem ops2_wl : StableHlo.after (hostOps2 (F := F)) W (Proc.devRef .tc main_v50)
    = truncf .bf16 (W (Proc.devRef .tc main_arg9)) bitsLt_bf16_f32 := by
  after_results_simp
theorem ops2_wrs : StableHlo.after (hostOps2 (F := F)) W (Proc.devRef .tc main_v52)
    = truncf .bf16 (addf (W (Proc.devRef .tc main_arg11)) (W (Proc.devRef .tc main_arg12))) bitsLt_bf16_f32 := by
  after_results_simp
theorem ops2_b : StableHlo.after (hostOps2 (F := F)) W (Proc.devRef .tc main_v54)
    = fun i => shapeCast S1x128 (addf (W (Proc.devRef .tc main_arg10)) (W (Proc.devRef .tc main_arg13))) shapeCasts_S128_S1x128 i := by
  after_results_simp; rfl
end Stretch2

/-! ## The stretch before region 4: the neighbour mean of the previous layer's normalised rows, and the layer's parameters -/

section Stretch4
variable (W : Valuation τ sig (Elt F))

theorem ops4_agg : StableHlo.after (hostOps4 (F := F)) W (Proc.devRef .tc main_v76)
    = aggOf_128 (W (Proc.devRef .tc main_v1)) (W (Proc.devRef .tc main_v3)) (W (Proc.devRef .tc main_v10)) (W (Proc.devRef .tc main_v64)) := by
  after_results_simp; rfl
theorem ops4_h : StableHlo.after (hostOps4 (F := F)) W (Proc.devRef .tc main_v64) = W (Proc.devRef .tc main_v64) := by
  after_results_simp
theorem ops4_wl : StableHlo.after (hostOps4 (F := F)) W (Proc.devRef .tc main_v77)
    = truncf .bf16 (W (Proc.devRef .tc main_arg16)) bitsLt_bf16_f32 := by
  after_results_simp
theorem ops4_wrs : StableHlo.after (hostOps4 (F := F)) W (Proc.devRef .tc main_v79)
    = truncf .bf16 (addf (W (Proc.devRef .tc main_arg18)) (W (Proc.devRef .tc main_arg19))) bitsLt_bf16_f32 := by
  after_results_simp
theorem ops4_b : StableHlo.after (hostOps4 (F := F)) W (Proc.devRef .tc main_v81)
    = fun i => shapeCast S1x64 (addf (W (Proc.devRef .tc main_arg17)) (W (Proc.devRef .tc main_arg20))) shapeCasts_S64_S1x64 i := by
  after_results_simp; rfl
end Stretch4

/-! ## The stretch before region 6: the neighbour mean of the previous layer's normalised rows, and the layer's parameters -/

section Stretch6
variable (W : Valuation τ sig (Elt F))

theorem ops6_agg : StableHlo.after (hostOps6 (F := F)) W (Proc.devRef .tc main_v103)
    = aggOf_64 (W (Proc.devRef .tc main_v1)) (W (Proc.devRef .tc main_v3)) (W (Proc.devRef .tc main_v10)) (W (Proc.devRef .tc main_v91)) := by
  after_results_simp; rfl
theorem ops6_h : StableHlo.after (hostOps6 (F := F)) W (Proc.devRef .tc main_v91) = W (Proc.devRef .tc main_v91) := by
  after_results_simp
theorem ops6_wl : StableHlo.after (hostOps6 (F := F)) W (Proc.devRef .tc main_v104)
    = truncf .bf16 (W (Proc.devRef .tc main_arg23)) bitsLt_bf16_f32 := by
  after_results_simp
theorem ops6_wrs : StableHlo.after (hostOps6 (F := F)) W (Proc.devRef .tc main_v106)
    = truncf .bf16 (addf (W (Proc.devRef .tc main_arg25)) (W (Proc.devRef .tc main_arg26))) bitsLt_bf16_f32 := by
  after_results_simp
theorem ops6_b : StableHlo.after (hostOps6 (F := F)) W (Proc.devRef .tc main_v108)
    = fun i => shapeCast S1x40 (addf (W (Proc.devRef .tc main_arg24)) (W (Proc.devRef .tc main_arg27))) shapeCasts_S40_S1x40 i := by
  after_results_simp; rfl
end Stretch6

/-! ## What each stretch leaves unchanged -/

/-- The references stretch 0's operations write. -/
abbrev ops0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_cst_3, main_v18, main_v19, main_v20, main_v21, main_v22, main_v23, main_v24, main_v25, main_v26, main_v27]
theorem ops0_writes : (hostOps0 : List (HloOp τ sig (Elt F))).Forall fun op => op.writes ⊆ (ops0_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer stretch 0 does not write keeps its contents through it. -/
theorem ops0_keep (W : Valuation τ sig (Elt F)) (r : Ref sig .tc) (h : r ∉ ops0_W) :
    StableHlo.after (hostOps0 (F := F)) W (Proc.devRef .tc r) = W (Proc.devRef .tc r) :=
  StableHlo.after_of_writes_sub hostOps0 _ ops0_writes h

/-- The references stretch 1's operations write. -/
abbrev ops1_W : List (Ref sig .tc) := [main_cst_4, main_v29, main_v30, main_cst_5, main_v31, main_v32, main_v33, main_v34, main_v35, main_v36]
theorem ops1_writes : (hostOps1 : List (HloOp τ sig (Elt F))).Forall fun op => op.writes ⊆ (ops1_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer stretch 1 does not write keeps its contents through it. -/
theorem ops1_keep (W : Valuation τ sig (Elt F)) (r : Ref sig .tc) (h : r ∉ ops1_W) :
    StableHlo.after (hostOps1 (F := F)) W (Proc.devRef .tc r) = W (Proc.devRef .tc r) :=
  StableHlo.after_of_writes_sub hostOps1 _ ops1_writes h

/-- The references stretch 2's operations write. -/
abbrev ops2_W : List (Ref sig .tc) := [main_c_6, main_v38, main_v39, main_c_7, main_v40, main_v41, main_v42, main_v43, main_v44, main_cst_8, main_v45, main_v46, main_v47, main_v48, main_v49, main_v50, main_v51, main_v52, main_v53, main_v54]
theorem ops2_writes : (hostOps2 : List (HloOp τ sig (Elt F))).Forall fun op => op.writes ⊆ (ops2_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer stretch 2 does not write keeps its contents through it. -/
theorem ops2_keep (W : Valuation τ sig (Elt F)) (r : Ref sig .tc) (h : r ∉ ops2_W) :
    StableHlo.after (hostOps2 (F := F)) W (Proc.devRef .tc r) = W (Proc.devRef .tc r) :=
  StableHlo.after_of_writes_sub hostOps2 _ ops2_writes h

/-- The references stretch 3's operations write. -/
abbrev ops3_W : List (Ref sig .tc) := [main_cst_9, main_v56, main_v57, main_cst_10, main_v58, main_v59, main_v60, main_v61, main_v62, main_v63]
theorem ops3_writes : (hostOps3 : List (HloOp τ sig (Elt F))).Forall fun op => op.writes ⊆ (ops3_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer stretch 3 does not write keeps its contents through it. -/
theorem ops3_keep (W : Valuation τ sig (Elt F)) (r : Ref sig .tc) (h : r ∉ ops3_W) :
    StableHlo.after (hostOps3 (F := F)) W (Proc.devRef .tc r) = W (Proc.devRef .tc r) :=
  StableHlo.after_of_writes_sub hostOps3 _ ops3_writes h

/-- The references stretch 4's operations write. -/
abbrev ops4_W : List (Ref sig .tc) := [main_c_11, main_v65, main_v66, main_c_12, main_v67, main_v68, main_v69, main_v70, main_v71, main_cst_13, main_v72, main_v73, main_v74, main_v75, main_v76, main_v77, main_v78, main_v79, main_v80, main_v81]
theorem ops4_writes : (hostOps4 : List (HloOp τ sig (Elt F))).Forall fun op => op.writes ⊆ (ops4_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer stretch 4 does not write keeps its contents through it. -/
theorem ops4_keep (W : Valuation τ sig (Elt F)) (r : Ref sig .tc) (h : r ∉ ops4_W) :
    StableHlo.after (hostOps4 (F := F)) W (Proc.devRef .tc r) = W (Proc.devRef .tc r) :=
  StableHlo.after_of_writes_sub hostOps4 _ ops4_writes h

/-- The references stretch 5's operations write. -/
abbrev ops5_W : List (Ref sig .tc) := [main_cst_14, main_v83, main_v84, main_cst_15, main_v85, main_v86, main_v87, main_v88, main_v89, main_v90]
theorem ops5_writes : (hostOps5 : List (HloOp τ sig (Elt F))).Forall fun op => op.writes ⊆ (ops5_W.map (Proc.devRef (τ := τ) .tc)).toFinset := by
  simp only [List.Forall]
  repeat' apply And.intro
  all_goals
    simp only [StableHlo.nullary_writes, StableHlo.unary_writes, StableHlo.binary_writes, StableHlo.ternary_writes, StableHlo.reshape_writes, Finset.singleton_subset_iff, List.mem_toFinset]
    exact List.mem_map_of_mem (by decide)
/-- A buffer stretch 5 does not write keeps its contents through it. -/
theorem ops5_keep (W : Valuation τ sig (Elt F)) (r : Ref sig .tc) (h : r ∉ ops5_W) :
    StableHlo.after (hostOps5 (F := F)) W (Proc.devRef .tc r) = W (Proc.devRef .tc r) :=
  StableHlo.after_of_writes_sub hostOps5 _ ops5_writes h

/-! ## The contents each aggregate-and-project region is entered with

The run's buffer contents at a region's entry are the fold of the host stretches and the earlier regions over the
launch contents. The edge list's two rows and the in-degree column are written once, by the first stretch, and no
later stretch or region writes them; a parameter is never written at all; the rows `h` of a later layer are the
preceding normalisation region's output array. So each of a region's five input arrays is one of the functions
above of the launch contents and of that output array. -/

section Entries

variable (m : (ℓ : Loc nD τ sig) → Buf (Elt F) ℓ) (ρ : Dev nD → PrngReg)

/-- The fold starts from the launch contents. -/
theorem W0_at (c : Dev nD) (r : Ref sig .tc) : W0 m ρ c (Proc.devRef .tc r) = m ((c : Thread nD τ).loc r) := rfl

/-- A buffer that the first stretch does not write holds its launch contents at the first region's entry. -/
theorem W1_W0 (c : Dev nD) (r : Ref sig .tc) (h : r ∉ ops0_W) :
    W1 m ρ c (Proc.devRef .tc r) = m ((c : Thread nD τ).loc r) :=
  ops0_keep (W0 m ρ c) r h

/-- From the first region's entry to the second aggregate-and-project region's stretch: a buffer that is no array of
    regions 0 and 1 and that the stretch between them does not write. -/
theorem W4_W1 (c : Dev nD) (r : Ref sig .tc) (h0 : ∀ w, Pipeline.arrRef spec0 w ≠ r) (h1 : r ∉ ops1_W)
    (h1' : ∀ w, Pipeline.arrRef spec1 w ≠ r) :
    W4 m ρ c (Proc.devRef .tc r) = W1 m ρ c (Proc.devRef .tc r) :=
  (W4_of_ne m ρ c r h1').trans ((ops1_keep (W2 m ρ c) r h1).trans (W2_of_ne m ρ c r h0))

/-- The same through regions 2 and 3 and the stretches before them. -/
theorem W8_W4 (c : Dev nD) (r : Ref sig .tc) (h2 : r ∉ ops2_W) (h2' : ∀ w, Pipeline.arrRef spec2 w ≠ r) (h3 : r ∉ ops3_W)
    (h3' : ∀ w, Pipeline.arrRef spec3 w ≠ r) :
    W8 m ρ c (Proc.devRef .tc r) = W4 m ρ c (Proc.devRef .tc r) :=
  (W8_of_ne m ρ c r h3').trans ((ops3_keep (W6 m ρ c) r h3).trans ((W6_of_ne m ρ c r h2').trans (ops2_keep (W4 m ρ c) r h2)))

/-- The same through regions 4 and 5 and the stretches before them. -/
theorem W12_W8 (c : Dev nD) (r : Ref sig .tc) (h4 : r ∉ ops4_W) (h4' : ∀ w, Pipeline.arrRef spec4 w ≠ r) (h5 : r ∉ ops5_W)
    (h5' : ∀ w, Pipeline.arrRef spec5 w ≠ r) :
    W12 m ρ c (Proc.devRef .tc r) = W8 m ρ c (Proc.devRef .tc r) :=
  (W12_of_ne m ρ c r h5').trans ((ops5_keep (W10 m ρ c) r h5).trans ((W10_of_ne m ρ c r h4').trans (ops4_keep (W8 m ρ c) r h4)))

/-- A buffer nothing writes up to the second aggregate-and-project region's stretch holds its launch contents there. -/
theorem W4_W0 (c : Dev nD) (r : Ref sig .tc) (h : r ∉ ops0_W) (h0 : ∀ w, Pipeline.arrRef spec0 w ≠ r) (h1 : r ∉ ops1_W)
    (h1' : ∀ w, Pipeline.arrRef spec1 w ≠ r) :
    W4 m ρ c (Proc.devRef .tc r) = m ((c : Thread nD τ).loc r) :=
  (W4_W1 m ρ c r h0 h1 h1').trans (W1_W0 m ρ c r h)

/-! ### The edge list's rows and the in-degree column, wherever they are read -/

theorem src_W1 (c : Dev nD) : W1 m ρ c (Proc.devRef .tc main_v1) = srcK (m ((c : Thread nD τ).loc main_arg1)) := ops0_src (W0 m ρ c)
theorem dst_W1 (c : Dev nD) : W1 m ρ c (Proc.devRef .tc main_v3) = dstK (m ((c : Thread nD τ).loc main_arg1)) := ops0_dst (W0 m ρ c)
theorem cnt_W1 (c : Dev nD) : W1 m ρ c (Proc.devRef .tc main_v10) = cntK (m ((c : Thread nD τ).loc main_arg1)) := ops0_cnt (W0 m ρ c)

theorem src_W4 (c : Dev nD) : W4 m ρ c (Proc.devRef .tc main_v1) = srcK (m ((c : Thread nD τ).loc main_arg1)) :=
  (W4_W1 m ρ c main_v1 (by decide) (by decide) (by decide)).trans (src_W1 m ρ c)
theorem dst_W4 (c : Dev nD) : W4 m ρ c (Proc.devRef .tc main_v3) = dstK (m ((c : Thread nD τ).loc main_arg1)) :=
  (W4_W1 m ρ c main_v3 (by decide) (by decide) (by decide)).trans (dst_W1 m ρ c)
theorem cnt_W4 (c : Dev nD) : W4 m ρ c (Proc.devRef .tc main_v10) = cntK (m ((c : Thread nD τ).loc main_arg1)) :=
  (W4_W1 m ρ c main_v10 (by decide) (by decide) (by decide)).trans (cnt_W1 m ρ c)

theorem src_W8 (c : Dev nD) : W8 m ρ c (Proc.devRef .tc main_v1) = srcK (m ((c : Thread nD τ).loc main_arg1)) :=
  (W8_W4 m ρ c main_v1 (by decide) (by decide) (by decide) (by decide)).trans (src_W4 m ρ c)
theorem dst_W8 (c : Dev nD) : W8 m ρ c (Proc.devRef .tc main_v3) = dstK (m ((c : Thread nD τ).loc main_arg1)) :=
  (W8_W4 m ρ c main_v3 (by decide) (by decide) (by decide) (by decide)).trans (dst_W4 m ρ c)
theorem cnt_W8 (c : Dev nD) : W8 m ρ c (Proc.devRef .tc main_v10) = cntK (m ((c : Thread nD τ).loc main_arg1)) :=
  (W8_W4 m ρ c main_v10 (by decide) (by decide) (by decide) (by decide)).trans (cnt_W4 m ρ c)

theorem src_W12 (c : Dev nD) : W12 m ρ c (Proc.devRef .tc main_v1) = srcK (m ((c : Thread nD τ).loc main_arg1)) :=
  (W12_W8 m ρ c main_v1 (by decide) (by decide) (by decide) (by decide)).trans (src_W8 m ρ c)
theorem dst_W12 (c : Dev nD) : W12 m ρ c (Proc.devRef .tc main_v3) = dstK (m ((c : Thread nD τ).loc main_arg1)) :=
  (W12_W8 m ρ c main_v3 (by decide) (by decide) (by decide) (by decide)).trans (dst_W8 m ρ c)
theorem cnt_W12 (c : Dev nD) : W12 m ρ c (Proc.devRef .tc main_v10) = cntK (m ((c : Thread nD τ).loc main_arg1)) :=
  (W12_W8 m ρ c main_v10 (by decide) (by decide) (by decide) (by decide)).trans (cnt_W8 m ρ c)

/-- A parameter holds its launch contents at each stretch's start. -/
theorem arg_W4 (c : Dev nD) (r : Ref sig .tc) (h : r ∉ ops0_W) (h0 : ∀ w, Pipeline.arrRef spec0 w ≠ r) (h1 : r ∉ ops1_W)
    (h1' : ∀ w, Pipeline.arrRef spec1 w ≠ r) :
    W4 m ρ c (Proc.devRef .tc r) = m ((c : Thread nD τ).loc r) := W4_W0 m ρ c r h h0 h1 h1'
theorem arg_W8 (c : Dev nD) (r : Ref sig .tc) (h : r ∉ ops0_W) (h0 : ∀ w, Pipeline.arrRef spec0 w ≠ r) (h1 : r ∉ ops1_W)
    (h1' : ∀ w, Pipeline.arrRef spec1 w ≠ r) (h2 : r ∉ ops2_W) (h2' : ∀ w, Pipeline.arrRef spec2 w ≠ r) (h3 : r ∉ ops3_W)
    (h3' : ∀ w, Pipeline.arrRef spec3 w ≠ r) :
    W8 m ρ c (Proc.devRef .tc r) = m ((c : Thread nD τ).loc r) :=
  (W8_W4 m ρ c r h2 h2' h3 h3').trans (W4_W0 m ρ c r h h0 h1 h1')
theorem arg_W12 (c : Dev nD) (r : Ref sig .tc) (h : r ∉ ops0_W) (h0 : ∀ w, Pipeline.arrRef spec0 w ≠ r) (h1 : r ∉ ops1_W)
    (h1' : ∀ w, Pipeline.arrRef spec1 w ≠ r) (h2 : r ∉ ops2_W) (h2' : ∀ w, Pipeline.arrRef spec2 w ≠ r) (h3 : r ∉ ops3_W)
    (h3' : ∀ w, Pipeline.arrRef spec3 w ≠ r) (h4 : r ∉ ops4_W) (h4' : ∀ w, Pipeline.arrRef spec4 w ≠ r) (h5 : r ∉ ops5_W)
    (h5' : ∀ w, Pipeline.arrRef spec5 w ≠ r) :
    W12 m ρ c (Proc.devRef .tc r) = m ((c : Thread nD τ).loc r) :=
  (W12_W8 m ρ c r h4 h4' h5 h5').trans (arg_W8 m ρ c r h h0 h1 h1' h2 h2' h3 h3')

/-! ### Region 0 (layer 1): entered straight from the first stretch -/

theorem entry0_0 (c : Dev nD) : V1 m ρ c (Pipeline.arrRef spec0 0) = aggK_128 (m ((c : Thread nD τ).loc main_arg1)) (m ((c : Thread nD τ).loc main_arg0)) :=
  ops0_agg (W0 m ρ c)
theorem entry0_1 (c : Dev nD) : V1 m ρ c (Pipeline.arrRef spec0 1) = m ((c : Thread nD τ).loc main_arg0) :=
  ops0_h (W0 m ρ c)
theorem entry0_2 (c : Dev nD) : V1 m ρ c (Pipeline.arrRef spec0 2) = truncf .bf16 (m ((c : Thread nD τ).loc main_arg2)) bitsLt_bf16_f32 :=
  ops0_wl (W0 m ρ c)
theorem entry0_3 (c : Dev nD) : V1 m ρ c (Pipeline.arrRef spec0 3)
    = truncf .bf16 (addf (m ((c : Thread nD τ).loc main_arg4)) (m ((c : Thread nD τ).loc main_arg5))) bitsLt_bf16_f32 :=
  ops0_wrs (W0 m ρ c)
theorem entry0_4 (c : Dev nD) : V1 m ρ c (Pipeline.arrRef spec0 4)
    = fun i => shapeCast S1x256 (addf (m ((c : Thread nD τ).loc main_arg3)) (m ((c : Thread nD τ).loc main_arg6))) shapeCasts_S256_S1x256 i :=
  ops0_b (W0 m ρ c)

/-! ### Region 2 (layer 2): the rows are region 1's output array -/

/-- The rows region 2 reads: the preceding normalisation region's output array. -/
theorem h_W4 (c : Dev nD) : W4 m ρ c (Proc.devRef .tc main_v37) = (dat1 (V3 m ρ) c).arrAt 5 cfg1.N := W4_arr m ρ c 5

theorem entry2_0 (c : Dev nD) : V5 m ρ c (Pipeline.arrRef spec2 0) = aggK_256 (m ((c : Thread nD τ).loc main_arg1)) ((dat1 (V3 m ρ) c).arrAt 5 cfg1.N) := by
  refine (ops2_agg (W4 m ρ c)).trans ?_
  rw [src_W4 m ρ c, dst_W4 m ρ c, cnt_W4 m ρ c, h_W4 m ρ c]; rfl
theorem entry2_1 (c : Dev nD) : V5 m ρ c (Pipeline.arrRef spec2 1) = (dat1 (V3 m ρ) c).arrAt 5 cfg1.N :=
  (ops2_h (W4 m ρ c)).trans (h_W4 m ρ c)
theorem entry2_2 (c : Dev nD) : V5 m ρ c (Pipeline.arrRef spec2 2) = truncf .bf16 (m ((c : Thread nD τ).loc main_arg9)) bitsLt_bf16_f32 := by
  refine (ops2_wl (W4 m ρ c)).trans ?_
  rw [(arg_W4 m ρ c main_arg9 (by decide) (by decide) (by decide) (by decide))]
theorem entry2_3 (c : Dev nD) : V5 m ρ c (Pipeline.arrRef spec2 3)
    = truncf .bf16 (addf (m ((c : Thread nD τ).loc main_arg11)) (m ((c : Thread nD τ).loc main_arg12))) bitsLt_bf16_f32 := by
  refine (ops2_wrs (W4 m ρ c)).trans ?_
  rw [(arg_W4 m ρ c main_arg11 (by decide) (by decide) (by decide) (by decide)), (arg_W4 m ρ c main_arg12 (by decide) (by decide) (by decide) (by decide))]
theorem entry2_4 (c : Dev nD) : V5 m ρ c (Pipeline.arrRef spec2 4)
    = fun i => shapeCast S1x128 (addf (m ((c : Thread nD τ).loc main_arg10)) (m ((c : Thread nD τ).loc main_arg13))) shapeCasts_S128_S1x128 i := by
  refine (ops2_b (W4 m ρ c)).trans ?_
  rw [(arg_W4 m ρ c main_arg10 (by decide) (by decide) (by decide) (by decide)), (arg_W4 m ρ c main_arg13 (by decide) (by decide) (by decide) (by decide))]

/-! ### Region 4 (layer 3): the rows are region 3's output array -/

/-- The rows region 4 reads: the preceding normalisation region's output array. -/
theorem h_W8 (c : Dev nD) : W8 m ρ c (Proc.devRef .tc main_v64) = (dat3 (V7 m ρ) c).arrAt 5 cfg3.N := W8_arr m ρ c 5

theorem entry4_0 (c : Dev nD) : V9 m ρ c (Pipeline.arrRef spec4 0) = aggK_128 (m ((c : Thread nD τ).loc main_arg1)) ((dat3 (V7 m ρ) c).arrAt 5 cfg3.N) := by
  refine (ops4_agg (W8 m ρ c)).trans ?_
  rw [src_W8 m ρ c, dst_W8 m ρ c, cnt_W8 m ρ c, h_W8 m ρ c]; rfl
theorem entry4_1 (c : Dev nD) : V9 m ρ c (Pipeline.arrRef spec4 1) = (dat3 (V7 m ρ) c).arrAt 5 cfg3.N :=
  (ops4_h (W8 m ρ c)).trans (h_W8 m ρ c)
theorem entry4_2 (c : Dev nD) : V9 m ρ c (Pipeline.arrRef spec4 2) = truncf .bf16 (m ((c : Thread nD τ).loc main_arg16)) bitsLt_bf16_f32 := by
  refine (ops4_wl (W8 m ρ c)).trans ?_
  rw [(arg_W8 m ρ c main_arg16 (by decide) (by decide) (by decide) (by decide) (by decide) (by decide) (by decide) (by decide))]
theorem entry4_3 (c : Dev nD) : V9 m ρ c (Pipeline.arrRef spec4 3)
    = truncf .bf16 (addf (m ((c : Thread nD τ).loc main_arg18)) (m ((c : Thread nD τ).loc main_arg19))) bitsLt_bf16_f32 := by
  refine (ops4_wrs (W8 m ρ c)).trans ?_
  rw [(arg_W8 m ρ c main_arg18 (by decide) (by decide) (by decide) (by decide) (by decide) (by decide) (by decide) (by decide)), (arg_W8 m ρ c main_arg19 (by decide) (by decide) (by decide) (by decide) (by decide) (by decide) (by decide) (by decide))]
theorem entry4_4 (c : Dev nD) : V9 m ρ c (Pipeline.arrRef spec4 4)
    = fun i => shapeCast S1x64 (addf (m ((c : Thread nD τ).loc main_arg17)) (m ((c : Thread nD τ).loc main_arg20))) shapeCasts_S64_S1x64 i := by
  refine (ops4_b (W8 m ρ c)).trans ?_
  rw [(arg_W8 m ρ c main_arg17 (by decide) (by decide) (by decide) (by decide) (by decide) (by decide) (by decide) (by decide)), (arg_W8 m ρ c main_arg20 (by decide) (by decide) (by decide) (by decide) (by decide) (by decide) (by decide) (by decide))]

/-! ### Region 6 (layer 4): the rows are region 5's output array -/

/-- The rows region 6 reads: the preceding normalisation region's output array. -/
theorem h_W12 (c : Dev nD) : W12 m ρ c (Proc.devRef .tc main_v91) = (dat5 (V11 m ρ) c).arrAt 5 cfg5.N := W12_arr m ρ c 5

theorem entry6_0 (c : Dev nD) : V13 m ρ c (Pipeline.arrRef spec6 0) = aggK_64 (m ((c : Thread nD τ).loc main_arg1)) ((dat5 (V11 m ρ) c).arrAt 5 cfg5.N) := by
  refine (ops6_agg (W12 m ρ c)).trans ?_
  rw [src_W12 m ρ c, dst_W12 m ρ c, cnt_W12 m ρ c, h_W12 m ρ c]; rfl
theorem entry6_1 (c : Dev nD) : V13 m ρ c (Pipeline.arrRef spec6 1) = (dat5 (V11 m ρ) c).arrAt 5 cfg5.N :=
  (ops6_h (W12 m ρ c)).trans (h_W12 m ρ c)
theorem entry6_2 (c : Dev nD) : V13 m ρ c (Pipeline.arrRef spec6 2) = truncf .bf16 (m ((c : Thread nD τ).loc main_arg23)) bitsLt_bf16_f32 := by
  refine (ops6_wl (W12 m ρ c)).trans ?_
  rw [(arg_W12 m ρ c main_arg23 (by decide) (by decide) (by decide) (by decide) (by decide) (by decide) (by decide) (by decide) (by decide) (by decide) (by decide) (by decide))]
theorem entry6_3 (c : Dev nD) : V13 m ρ c (Pipeline.arrRef spec6 3)
    = truncf .bf16 (addf (m ((c : Thread nD τ).loc main_arg25)) (m ((c : Thread nD τ).loc main_arg26))) bitsLt_bf16_f32 := by
  refine (ops6_wrs (W12 m ρ c)).trans ?_
  rw [(arg_W12 m ρ c main_arg25 (by decide) (by decide) (by decide) (by decide) (by decide) (by decide) (by decide) (by decide) (by decide) (by decide) (by decide) (by decide)), (arg_W12 m ρ c main_arg26 (by decide) (by decide) (by decide) (by decide) (by decide) (by decide) (by decide) (by decide) (by decide) (by decide) (by decide) (by decide))]
theorem entry6_4 (c : Dev nD) : V13 m ρ c (Pipeline.arrRef spec6 4)
    = fun i => shapeCast S1x40 (addf (m ((c : Thread nD τ).loc main_arg24)) (m ((c : Thread nD τ).loc main_arg27))) shapeCasts_S40_S1x40 i := by
  refine (ops6_b (W12 m ρ c)).trans ?_
  rw [(arg_W12 m ρ c main_arg24 (by decide) (by decide) (by decide) (by decide) (by decide) (by decide) (by decide) (by decide) (by decide) (by decide) (by decide) (by decide)), (arg_W12 m ρ c main_arg27 (by decide) (by decide) (by decide) (by decide) (by decide) (by decide) (by decide) (by decide) (by decide) (by decide) (by decide) (by decide))]

end Entries

end Cert.KernelIdeal.KHost
-- ==== Proof.Spec.lean ====
/-
  The network both programs compute, as functions on extended reals, index by index.

  A layer of the network takes the node features `h` (a matrix with one row per node) and their neighbourhood
  means `agg` (same extents) to `agg · Wl + h · (Wr + Ws) + (bl + bs)`; the first three layers follow this by
  `max · 0` and by a normalisation of every column to mean 0 and variance 1 over the nodes, with a learned
  scale and offset. The two programs group the same sums differently: one contracts `h` against `Wr + Ws`
  and adds the two offsets first (`linK`), the other contracts against `Wr` and `Ws` one after the other
  (`linR`); one takes a column's variance as the mean of the squares minus the square of the mean (`varK`),
  the other as the mean of the squared deviations (`varR`). Matrices are written curried, `Fin n → Fin d → EReal`.
-/
import Idealize.ShloMosaic.PureOps.Ideal

noncomputable section

namespace Cert.Net

open Idealize.ShloMosaic

variable {n d e : ℕ}

/-- The contraction of `a` (rows `i`, inner `k`) with `w` (inner `k`, columns `j`). -/
def dot (a : Fin n → Fin d → EReal) (w : Fin d → Fin e → EReal) : Fin n → Fin e → EReal :=
  fun i j => ∑ k, a i k * w k j

/-- A layer before its activation, grouped as `(agg · wl + h · wrs) + b`. -/
def linK (agg h : Fin n → Fin d → EReal) (wl wrs : Fin d → Fin e → EReal) (b : Fin e → EReal) :
    Fin n → Fin e → EReal :=
  fun i j => (dot agg wl i j + dot h wrs i j) + b j

/-- A layer before its activation, grouped as `((((agg · Wl + bl) + h · Wr) + h · Ws) + bs)`. -/
def linR (agg h : Fin n → Fin d → EReal) (Wl Wr Ws : Fin d → Fin e → EReal) (bl bs : Fin e → EReal) :
    Fin n → Fin e → EReal :=
  fun i j => (((dot agg Wl i j + bl j) + dot h Wr i j) + dot h Ws i j) + bs j

/-- The positive part, entry by entry. -/
def relu (z : Fin n → Fin e → EReal) : Fin n → Fin e → EReal := fun i j => max (z i j) 0

/-- The sum of every column over the rows. -/
def colsum (z : Fin n → Fin e → EReal) : Fin e → EReal := fun j => ∑ i, z i j

/-- The sum of the squares of every column over the rows. -/
def colsumsq (z : Fin n → Fin e → EReal) : Fin e → EReal := fun j => ∑ i, z i j * z i j

/-- A column sum divided by the number of rows `N`. -/
def meanK (s : Fin e → EReal) (N : EReal) : Fin e → EReal := fun j => Ideal.div (s j) N

/-- The variance as the mean of the squares minus the square of the mean. -/
def varK (ss s : Fin e → EReal) (N : EReal) : Fin e → EReal :=
  fun j => Ideal.div (ss j) N - meanK s N j * meanK s N j

/-- The column mean, summed from `0`. -/
def muR (z : Fin n → Fin e → EReal) (N : EReal) : Fin e → EReal := fun j => Ideal.div (0 + colsum z j) N

/-- The variance as the mean of the squared deviations from the mean, summed from `0`. -/
def varR (z : Fin n → Fin e → EReal) (N : EReal) : Fin e → EReal :=
  fun j => Ideal.div (0 + ∑ i, (z i j - muR z N j) * (z i j - muR z N j)) N

/-- The normalisation: `((z - mean) · (var + eps)^(-1/2)) · g + be`, column by column. -/
def bn (z : Fin n → Fin e → EReal) (mean var g be : Fin e → EReal) (eps : EReal) : Fin n → Fin e → EReal :=
  fun i j => ((z i j - mean j) * Ideal.rsqrt (var j + eps)) * g j + be j

/-- Every entry of a matrix is a real number. -/
def IsReal (f : Fin n → Fin e → EReal) : Prop := ∀ i j, ∃ r : ℝ, f i j = (r : EReal)

/-- Every entry of a row is a real number. -/
def IsRealRow (f : Fin e → EReal) : Prop := ∀ j, ∃ r : ℝ, f j = (r : EReal)

end Cert.Net

end
-- ==== Proof.LibDot.lean ====
/-
  A matrix product of an M×K by a K×N matrix, contracted over the shared axis, read at an entry as a sum over
  Fin K — for any dimension record with the plain product's dimension numbers — together with the lane sum and
  the few keepdims layout moves the kernel bodies and the host code use, each read at explicit coordinates.
-/
import Idealize.ShloMosaic.PureOps.Ideal.Laws
import Idealize.ShloMosaic.Lib.ValueIdx
import Idealize.ShloMosaic.Lib.Pipeline.Value

namespace Cert.LibDot

open Idealize.ShloMosaic Idealize.ShloMosaic.ValueIdx
open scoped BigOperators

variable {M K N : ℕ}

/-- For the plain dimension numbers (contract the left's axis 1 with the right's axis 0, no batch axes) the
    contraction's sum is the sum over the shared extent of left(p, k) · right(k, q). -/
theorem sum_contr_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  set d : DotDims ⟨2, ![M, K]⟩ ⟨2, ![K, N]⟩ ⟨2, ![M, N]⟩ := ⟨[1], [0], [0], [1], [], [], wf⟩ with hd
  have hrk : d.contr.rank = 1 := by rw [d.rank_contr]; rfl
  have hsz : d.contr.size ⟨0, by omega⟩ = K := by
    rw [d.size_contr 0 Nat.one_pos]; rfl
  rw [← Equiv.sum_comp (contrEquiv1 d K hrk hsz).symm]
  refine Finset.sum_congr rfl fun k _ => ?_
  have e1 : d.lhsIdx (ix2 p q) ((contrEquiv1 d K hrk hsz).symm k) = ix2 p k := by
    funext a
    match a with
    | ⟨0, _⟩ =>
      apply Fin.ext
      unfold DotDims.lhsIdx
      rfl
    | ⟨1, _⟩ =>
      apply Fin.ext
      exact (d.lhsIdx_val_of_single (cl := 1) rfl _ _).trans (contrEquiv1_symm_val d K hrk hsz k)
  have e2 : d.rhsIdx (ix2 p q) ((contrEquiv1 d K hrk hsz).symm k) = ix2 k q := by
    funext a
    match a with
    | ⟨0, _⟩ =>
      apply Fin.ext
      exact (d.rhsIdx_val_of_single (cr := 0) rfl _ _).trans (contrEquiv1_symm_val d K hrk hsz k)
    | ⟨1, _⟩ =>
      apply Fin.ext
      unfold DotDims.rhsIdx
      rfl
  rw [e1, e2]

/-- A kernel's matrix product into a zero accumulator, with the plain dimension numbers, at entry (p, q). -/
theorem matmul_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr_plain d hlc hrc hln hrn hlb hrb l r p q)

/-- The host's matrix product with the plain dimension numbers at entry (p, q). -/
theorem dotGeneral_plain {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) :=
  (Ideal.dotGeneral_apply d prec _ l r (ix2 p q)).trans (sum_contr_plain d hlc hrc hln hrn hlb hrb l r p q)

end Cert.LibDot
-- ==== Proof.LibHostAt.lean ====
/-
  Host operations of a dense layer and of a column normalisation, read at an index.

  A layer of the network is a handful of array operations: two or three matrix products, vectors copied
  into every row of a matrix, entrywise sums, a positive part, and, for the normalisation, sums down the
  columns, quotients by the number of rows and an inverse square root. Read at one entry of the result
  each of them is an operation on extended reals, and a whole layer read at (i, j) is the layer function
  of the specification applied to the operands read entry by entry. The lemmas are stated for any numbers
  of rows and columns, over the composition of operations exactly as a program spells it.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost
import proofs.«144552_j81088982548491_1_alg».proof.Proof.Spec
import proofs.«144552_j81088982548491_1_alg».proof.Proof.LibDot

noncomputable section

namespace Cert.LibHostAt

open Idealize.ShloMosaic Idealize.ShloMosaic.ValueIdx
open scoped BigOperators

variable {n d e : ℕ} {α : Type}

/-! ### Copies of a vector and of a row -/

/-- A vector of length e viewed as the one row of a 1 × e matrix reads, at (u, j), the vector at j. -/
theorem bcast_e_1e_apply (h : (⟨1, ![e]⟩ : Shape).BroadcastsInDim ⟨2, ![1, e]⟩ ![1])
    (b : (⟨1, ![e]⟩ : Shape).Idx → α) (u : Fin 1) (j : Fin e) :
    broadcastInDim ⟨2, ![1, e]⟩ ![1] h b (ix2 u j) = b (ix1 j) := by
  refine broadcastInDim_apply _ h b (ix2 u j) (ix1 j) fun a => ?_
  match a with
  | ⟨0, _⟩ =>
    show j.val = if e = 1 then 0 else j.val
    split
    · have := j.isLt; omega
    · rfl

/-- The one row of a 1 × e matrix copied into each of n rows reads, at (i, j), the row at j. -/
theorem bcast_1e_ne_apply (h : (⟨2, ![1, e]⟩ : Shape).BroadcastsInDim ⟨2, ![n, e]⟩ ![0, 1])
    (r : (⟨2, ![1, e]⟩ : Shape).Idx → α) (i : Fin n) (j : Fin e) :
    broadcastInDim ⟨2, ![n, e]⟩ ![0, 1] h r (ix2 i j) = r (ix2 (0 : Fin 1) j) := by
  refine broadcastInDim_apply _ h r (ix2 i j) (ix2 (0 : Fin 1) j) fun a => ?_
  match a with
  | ⟨0, _⟩ =>
    show (0 : ℕ) = if (1 : ℕ) = 1 then 0 else i.val
    rw [if_pos rfl]
  | ⟨1, _⟩ =>
    show j.val = if e = 1 then 0 else j.val
    split
    · have := j.isLt; omega
    · rfl

/-- A vector copied into every row of an n × e matrix, by way of a one-row matrix, reads at (i, j) the vector at j. -/
theorem bcast_e_ne_apply (h1 : (⟨1, ![e]⟩ : Shape).BroadcastsInDim ⟨2, ![1, e]⟩ ![1])
    (h2 : (⟨2, ![1, e]⟩ : Shape).BroadcastsInDim ⟨2, ![n, e]⟩ ![0, 1])
    (b : (⟨1, ![e]⟩ : Shape).Idx → α) (i : Fin n) (j : Fin e) :
    broadcastInDim ⟨2, ![n, e]⟩ ![0, 1] h2 (broadcastInDim ⟨2, ![1, e]⟩ ![1] h1 b) (ix2 i j) = b (ix1 j) := by
  rw [bcast_1e_ne_apply, bcast_e_1e_apply]

/-- A number copied into every entry of an array reads, anywhere, the real number its bit pattern denotes. -/
theorem bcast_const_apply {T : Shape} (h : (⟨0, ![]⟩ : Shape).BroadcastsInDim T ![]) (c : BitVec 32) (j : T.Idx) :
    broadcastInDim T ![] h (constant (F := Ideal) ⟨0, ![]⟩ .f32 c) j = Ideal.ofBits .f32 c := by
  rw [broadcastInDim_scalar_apply, constant_apply]

/-! ### A layer before its activation, and the positive part -/

/-- The layer grouped as ((((agg · Wl + bl) + x · Wr) + x · Ws) + bs), the two offsets copied into every row,
    read at (i, j). -/
theorem linR_at (D : DotDims ⟨2, ![n, d]⟩ ⟨2, ![d, e]⟩ ⟨2, ![n, e]⟩)
    (hlc : D.lhsContracting = [1]) (hrc : D.rhsContracting = [0]) (hln : D.lhsNonContracting = [0])
    (hrn : D.rhsNonContracting = [1]) (hlb : D.lhsBatch = []) (hrb : D.rhsBatch = [])
    (h1 : (⟨1, ![e]⟩ : Shape).BroadcastsInDim ⟨2, ![1, e]⟩ ![1])
    (h2 : (⟨2, ![1, e]⟩ : Shape).BroadcastsInDim ⟨2, ![n, e]⟩ ![0, 1])
    (agg x : FVec Ideal ⟨2, ![n, d]⟩ .f32) (Wl Wr Ws : FVec Ideal ⟨2, ![d, e]⟩ .f32)
    (bl bs : FVec Ideal ⟨1, ![e]⟩ .f32) (i : Fin n) (j : Fin e) :
    addf (addf (addf (addf (Host.dotGeneral D none agg Wl)
              (broadcastInDim ⟨2, ![n, e]⟩ ![0, 1] h2 (broadcastInDim ⟨2, ![1, e]⟩ ![1] h1 bl)))
            (Host.dotGeneral D none x Wr))
          (Host.dotGeneral D none x Ws))
        (broadcastInDim ⟨2, ![n, e]⟩ ![0, 1] h2 (broadcastInDim ⟨2, ![1, e]⟩ ![1] h1 bs)) (ix2 i j)
      = Net.linR (fun i k => agg (ix2 i k)) (fun i k => x (ix2 i k)) (fun k j => Wl (ix2 k j))
          (fun k j => Wr (ix2 k j)) (fun k j => Ws (ix2 k j)) (fun j => bl (ix1 j)) (fun j => bs (ix1 j)) i j := by
  rw [addf_apply, addf_apply, addf_apply, addf_apply, bcast_e_ne_apply, bcast_e_ne_apply,
    LibDot.dotGeneral_plain D hlc hrc hln hrn hlb hrb, LibDot.dotGeneral_plain D hlc hrc hln hrn hlb hrb,
    LibDot.dotGeneral_plain D hlc hrc hln hrn hlb hrb]
  rfl

/-- The larger of an array and a copy of the number zero, at any index, is the larger of the entry and 0. -/
theorem relu_at {T : Shape} (h : (⟨0, ![]⟩ : Shape).BroadcastsInDim T ![]) (a : FVec Ideal T .f32) (j : T.Idx) :
    maximumf a (broadcastInDim T ![] h (constant ⟨0, ![]⟩ .f32 0x00000000#32)) j = max (a j) 0 := by
  rw [maximumf_apply, bcast_const_apply, Ideal.ofBits_zero_f32]

/-! ### Sums down the columns -/

/-- The sum of an n × e matrix down its columns from an initial value, at column j. -/
theorem reduce0_apply (h' : (⟨2, ![n, e]⟩ : Shape).ReducesTo [0] ⟨1, ![e]⟩) (hu : 0 < (⟨0, ![]⟩ : Shape).numel)
    (z : FVec Ideal ⟨2, ![n, e]⟩ .f32) (init : FVec Ideal ⟨0, ![]⟩ .f32) (j : Fin e) :
    Host.reduceAdd z init h' hu (ix1 j) = init ix0 + ∑ i : Fin n, z (ix2 i j) := by
  have h : (⟨2, ![n, e]⟩ : Shape).Reduces [0] ⟨1, ![e]⟩ := ⟨h'.1, Nat.one_pos, h'.2⟩
  rw [hostReduceAdd_apply, Ideal.hostReduceAdd_single h' h]
  refine congrArg₂ (· + ·) (congrArg init (eq_ix0 _)) ?_
  refine Finset.sum_congr rfl fun k _ => congrArg z ?_
  funext c
  match c with
  | ⟨0, _⟩ => rfl
  | ⟨1, _⟩ => rfl

/-- The same from the number zero. -/
theorem reduce0_zero_apply (h' : (⟨2, ![n, e]⟩ : Shape).ReducesTo [0] ⟨1, ![e]⟩) (hu : 0 < (⟨0, ![]⟩ : Shape).numel)
    (z : FVec Ideal ⟨2, ![n, e]⟩ .f32) (j : Fin e) :
    Host.reduceAdd z (constant ⟨0, ![]⟩ .f32 0x00000000#32) h' hu (ix1 j) = 0 + ∑ i : Fin n, z (ix2 i j) := by
  rw [reduce0_apply, constant_apply, Ideal.ofBits_zero_f32]

/-! ### The column normalisation as the reference spells it -/

/-- The column sums from zero divided by a copy of the number of rows: the column mean. -/
theorem muR_at (h' : (⟨2, ![n, e]⟩ : Shape).ReducesTo [0] ⟨1, ![e]⟩) (hu : 0 < (⟨0, ![]⟩ : Shape).numel)
    (hb : (⟨0, ![]⟩ : Shape).BroadcastsInDim ⟨1, ![e]⟩ ![])
    (z : FVec Ideal ⟨2, ![n, e]⟩ .f32) (c : BitVec 32) (j : Fin e) :
    Host.divf (Host.reduceAdd z (constant ⟨0, ![]⟩ .f32 0x00000000#32) h' hu)
        (broadcastInDim ⟨1, ![e]⟩ ![] hb (constant ⟨0, ![]⟩ .f32 c)) (ix1 j)
      = Net.muR (fun i k => z (ix2 i k)) (Ideal.ofBits .f32 c) j := by
  rw [hostDivf_apply, reduce0_zero_apply, bcast_const_apply]
  rfl

/-- The same mean kept as a one-row matrix and copied into every row: what is subtracted from the matrix. -/
theorem muR_rows_at (h' : (⟨2, ![n, e]⟩ : Shape).ReducesTo [0] ⟨1, ![e]⟩) (hu : 0 < (⟨0, ![]⟩ : Shape).numel)
    (h1 : (⟨1, ![e]⟩ : Shape).BroadcastsInDim ⟨2, ![1, e]⟩ ![1])
    (hs1 : (⟨0, ![]⟩ : Shape).BroadcastsInDim ⟨2, ![1, e]⟩ ![])
    (h2 : (⟨2, ![1, e]⟩ : Shape).BroadcastsInDim ⟨2, ![n, e]⟩ ![0, 1])
    (z : FVec Ideal ⟨2, ![n, e]⟩ .f32) (c : BitVec 32) (i : Fin n) (j : Fin e) :
    broadcastInDim ⟨2, ![n, e]⟩ ![0, 1] h2
        (Host.divf (broadcastInDim ⟨2, ![1, e]⟩ ![1] h1 (Host.reduceAdd z (constant ⟨0, ![]⟩ .f32 0x00000000#32) h' hu))
          (broadcastInDim ⟨2, ![1, e]⟩ ![] hs1 (constant ⟨0, ![]⟩ .f32 c))) (ix2 i j)
      = Net.muR (fun i k => z (ix2 i k)) (Ideal.ofBits .f32 c) j := by
  rw [bcast_1e_ne_apply, hostDivf_apply, bcast_e_1e_apply, reduce0_zero_apply, bcast_const_apply]
  rfl

/-- The guarded variance. The divisor is the number of rows less a correction read from an integer that is zero, the
    guard asks that this divisor be positive, and where it is the result is the column sums, from zero, of the squared
    deviations from the column mean, divided by the divisor. With a positive number of rows the guard holds, whatever
    the other branch is. -/
theorem varR_at (h' : (⟨2, ![n, e]⟩ : Shape).ReducesTo [0] ⟨1, ![e]⟩) (hu : 0 < (⟨0, ![]⟩ : Shape).numel)
    (h1 : (⟨1, ![e]⟩ : Shape).BroadcastsInDim ⟨2, ![1, e]⟩ ![1])
    (hs1 : (⟨0, ![]⟩ : Shape).BroadcastsInDim ⟨2, ![1, e]⟩ ![])
    (h2 : (⟨2, ![1, e]⟩ : Shape).BroadcastsInDim ⟨2, ![n, e]⟩ ![0, 1])
    (hb : (⟨0, ![]⟩ : Shape).BroadcastsInDim ⟨1, ![e]⟩ ![])
    (z : FVec Ideal ⟨2, ![n, e]⟩ .f32) (c : BitVec 32) (k0 : IVec ⟨0, ![]⟩ 32) (els : FVec Ideal ⟨1, ![e]⟩ .f32)
    (hk0 : k0 ix0 = 0#32) (hc : ∃ r : ℝ, 0 < r ∧ Ideal.ofBits .f32 c = (r : EReal)) (j : Fin e) :
    select
        (broadcastInDim ⟨1, ![e]⟩ ![] hb
          (cmpf .ogt (subf (constant ⟨0, ![]⟩ .f32 c) (sitofp (F := Ideal) .f32 k0)) (constant ⟨0, ![]⟩ .f32 0x00000000#32)))
        (Host.divf
          (Host.reduceAdd
            (mulf
              (subf z (broadcastInDim ⟨2, ![n, e]⟩ ![0, 1] h2
                (Host.divf (broadcastInDim ⟨2, ![1, e]⟩ ![1] h1 (Host.reduceAdd z (constant ⟨0, ![]⟩ .f32 0x00000000#32) h' hu))
                  (broadcastInDim ⟨2, ![1, e]⟩ ![] hs1 (constant ⟨0, ![]⟩ .f32 c)))))
              (subf z (broadcastInDim ⟨2, ![n, e]⟩ ![0, 1] h2
                (Host.divf (broadcastInDim ⟨2, ![1, e]⟩ ![1] h1 (Host.reduceAdd z (constant ⟨0, ![]⟩ .f32 0x00000000#32) h' hu))
                  (broadcastInDim ⟨2, ![1, e]⟩ ![] hs1 (constant ⟨0, ![]⟩ .f32 c))))))
            (constant ⟨0, ![]⟩ .f32 0x00000000#32) h' hu)
          (broadcastInDim ⟨1, ![e]⟩ ![] hb (subf (constant ⟨0, ![]⟩ .f32 c) (sitofp (F := Ideal) .f32 k0))))
        els (ix1 j)
      = Net.varR (fun i k => z (ix2 i k)) (Ideal.ofBits .f32 c) j := by
  obtain ⟨r, hr, hcr⟩ := hc
  -- the divisor: the number of rows less zero
  have hN : subf (constant ⟨0, ![]⟩ .f32 c) (sitofp (F := Ideal) .f32 k0) ix0 = Ideal.ofBits .f32 c := by
    rw [subf_apply, constant_apply, sitofp_apply, hk0, hcr]
    show (r : EReal) - (((0#32 : BitVec 32).toInt : ℝ) : EReal) = (r : EReal)
    rw [show (0#32 : BitVec 32).toInt = 0 from rfl, Int.cast_zero, EReal.coe_zero, sub_zero]
  -- the guard holds
  have hg : broadcastInDim ⟨1, ![e]⟩ ![] hb
      (cmpf .ogt (subf (constant ⟨0, ![]⟩ .f32 c) (sitofp (F := Ideal) .f32 k0)) (constant ⟨0, ![]⟩ .f32 0x00000000#32)) (ix1 j) = 1#1 := by
    rw [broadcastInDim_scalar_apply, cmpf_apply, hN, constant_apply, Ideal.ofBits_zero_f32, hcr, Ideal.cmpf_def]
    show BitVec.ofBool (decide ((0 : EReal) < (r : EReal))) = 1#1
    rw [decide_eq_true (EReal.coe_pos.mpr hr)]
    rfl
  rw [select_apply, hg, select_one, hostDivf_apply, broadcastInDim_scalar_apply, hN, reduce0_zero_apply]
  unfold Net.varR
  refine congrArg (fun s => Ideal.div (0 + s) _) (Finset.sum_congr rfl fun i _ => ?_)
  rw [mulf_apply, subf_apply, muR_rows_at]

/-- The normalisation of a matrix by a column mean and a column variance given as vectors: the mean is subtracted, the
    result multiplied by the inverse square root of the variance plus a constant, then by the scale, and the offset is
    added; each vector is copied into every row by way of a one-row matrix. -/
theorem bn_at (h1 : (⟨1, ![e]⟩ : Shape).BroadcastsInDim ⟨2, ![1, e]⟩ ![1])
    (h2 : (⟨2, ![1, e]⟩ : Shape).BroadcastsInDim ⟨2, ![n, e]⟩ ![0, 1])
    (hb : (⟨0, ![]⟩ : Shape).BroadcastsInDim ⟨1, ![e]⟩ ![])
    (z : FVec Ideal ⟨2, ![n, e]⟩ .f32) (mean var g be : FVec Ideal ⟨1, ![e]⟩ .f32) (eps : BitVec 32) (i : Fin n) (j : Fin e) :
    addf
        (mulf
          (mulf (subf z (broadcastInDim ⟨2, ![n, e]⟩ ![0, 1] h2 (broadcastInDim ⟨2, ![1, e]⟩ ![1] h1 mean)))
            (broadcastInDim ⟨2, ![n, e]⟩ ![0, 1] h2 (broadcastInDim ⟨2, ![1, e]⟩ ![1] h1
              (Host.rsqrt (addf var (broadcastInDim ⟨1, ![e]⟩ ![] hb (constant ⟨0, ![]⟩ .f32 eps)))))))
          (broadcastInDim ⟨2, ![n, e]⟩ ![0, 1] h2 (broadcastInDim ⟨2, ![1, e]⟩ ![1] h1 g)))
        (broadcastInDim ⟨2, ![n, e]⟩ ![0, 1] h2 (broadcastInDim ⟨2, ![1, e]⟩ ![1] h1 be)) (ix2 i j)
      = Net.bn (fun i k => z (ix2 i k)) (fun j => mean (ix1 j)) (fun j => var (ix1 j)) (fun j => g (ix1 j))
          (fun j => be (ix1 j)) (Ideal.ofBits .f32 eps) i j := by
  rw [addf_apply, mulf_apply, mulf_apply, subf_apply, bcast_e_ne_apply, bcast_e_ne_apply, bcast_e_ne_apply,
    bcast_e_ne_apply]
  show ((z (ix2 i j) - mean (ix1 j)) * Ideal.rsqrt (addf var (broadcastInDim ⟨1, ![e]⟩ ![] hb (constant ⟨0, ![]⟩ .f32 eps)) (ix1 j)))
      * g (ix1 j) + be (ix1 j) = _
  rw [addf_apply, bcast_const_apply]
  rfl

/-! ### The column statistics as the kernel's host code spells them, on one-row matrices -/

/-- A one-row matrix of column sums divided by a copy of the number of rows. -/
theorem meanK_at (hs1 : (⟨0, ![]⟩ : Shape).BroadcastsInDim ⟨2, ![1, e]⟩ ![])
    (s : FVec Ideal ⟨2, ![1, e]⟩ .f32) (c : BitVec 32) (u : Fin 1) (j : Fin e) :
    Host.divf s (broadcastInDim ⟨2, ![1, e]⟩ ![] hs1 (constant ⟨0, ![]⟩ .f32 c)) (ix2 u j)
      = Net.meanK (fun j => s (ix2 u j)) (Ideal.ofBits .f32 c) j := by
  rw [hostDivf_apply, bcast_const_apply]
  rfl

/-- The mean of the squares less the square of the mean, on one-row matrices. -/
theorem varK_at (hs1 : (⟨0, ![]⟩ : Shape).BroadcastsInDim ⟨2, ![1, e]⟩ ![])
    (ss s : FVec Ideal ⟨2, ![1, e]⟩ .f32) (c : BitVec 32) (u : Fin 1) (j : Fin e) :
    subf (Host.divf ss (broadcastInDim ⟨2, ![1, e]⟩ ![] hs1 (constant ⟨0, ![]⟩ .f32 c)))
        (mulf (Host.divf s (broadcastInDim ⟨2, ![1, e]⟩ ![] hs1 (constant ⟨0, ![]⟩ .f32 c)))
          (Host.divf s (broadcastInDim ⟨2, ![1, e]⟩ ![] hs1 (constant ⟨0, ![]⟩ .f32 c)))) (ix2 u j)
      = Net.varK (fun j => ss (ix2 u j)) (fun j => s (ix2 u j)) (Ideal.ofBits .f32 c) j := by
  rw [subf_apply, mulf_apply, hostDivf_apply, hostDivf_apply, bcast_const_apply]
  rfl

/-- A vector recast as a one-row matrix reads, at (u, j), the vector at j. -/
theorem row_of_vec_at (h : (⟨1, ![e]⟩ : Shape).ShapeCasts ⟨2, ![1, e]⟩) (b : (⟨1, ![e]⟩ : Shape).Idx → α) (u : Fin 1) (j : Fin e) :
    shapeCast ⟨2, ![1, e]⟩ b h (ix2 u j) = b (ix1 j) :=
  shapeCast_a_1a_apply b h u j

/-- The sum of two vectors recast as a one-row matrix reads, at (u, j), the sum of the two entries at j. -/
theorem row_of_add_at (h : (⟨1, ![e]⟩ : Shape).ShapeCasts ⟨2, ![1, e]⟩) (bl bs : FVec Ideal ⟨1, ![e]⟩ .f32) (u : Fin 1) (j : Fin e) :
    shapeCast ⟨2, ![1, e]⟩ (addf bl bs) h (ix2 u j) = bl (ix1 j) + bs (ix1 j) := by
  rw [shapeCast_a_1a_apply, addf_apply]

end Cert.LibHostAt

end
-- ==== Proof.RefAt.lean ====
/-
  The reference's layers before normalisation, read at one entry.

  Each of the first three layers is the positive part of
  ((((agg · Wl + bl) + h · Wr) + h · Ws) + bs); the last layer is that sum itself. Read at the entry (i, j), the
  matrix products become sums over the shared axis and the offsets, copied into every row, become their entries at
  j: the layer is the specification's function of the operands read entry by entry.
-/
import proofs.«144552_j81088982548491_1_alg».proof.Proof.RefLayers
import proofs.«144552_j81088982548491_1_alg».proof.Proof.LibHostAt

noncomputable section

namespace Cert.ReferenceIdeal.RefAt

open Cert.ReferenceIdeal Cert.ReferenceIdeal.Gen Cert.ReferenceIdeal.RefRun
open Idealize.ShloMosaic Idealize.ShloMosaic.ValueIdx

/-- Layer 1 (128 features to 256) at (i, j). -/
theorem zR_1_at (agg x : FVec Ideal S50000x128 .f32) (Wl : FVec Ideal S128x256 .f32) (bl : FVec Ideal S256 .f32)
    (Wr Ws : FVec Ideal S128x256 .f32) (bs : FVec Ideal S256 .f32) (i : Fin 50000) (j : Fin 256) :
    zR_1 (F := Ideal) agg x Wl bl Wr Ws bs (ix2 i j)
      = Net.relu (Net.linR (fun i k => agg (ix2 i k)) (fun i k => x (ix2 i k)) (fun k j => Wl (ix2 k j))
          (fun k j => Wr (ix2 k j)) (fun k j => Ws (ix2 k j)) (fun j => bl (ix1 j)) (fun j => bs (ix1 j))) i j := by
  unfold zR_1
  rw [LibHostAt.relu_at]
  exact congrArg (max · 0) (LibHostAt.linR_at _ rfl rfl rfl rfl rfl rfl _ _ agg x Wl Wr Ws bl bs i j)

/-- Layer 2 (256 features to 128) at (i, j). -/
theorem zR_2_at (agg x : FVec Ideal S50000x256 .f32) (Wl : FVec Ideal S256x128 .f32) (bl : FVec Ideal S128 .f32)
    (Wr Ws : FVec Ideal S256x128 .f32) (bs : FVec Ideal S128 .f32) (i : Fin 50000) (j : Fin 128) :
    zR_2 (F := Ideal) agg x Wl bl Wr Ws bs (ix2 i j)
      = Net.relu (Net.linR (fun i k => agg (ix2 i k)) (fun i k => x (ix2 i k)) (fun k j => Wl (ix2 k j))
          (fun k j => Wr (ix2 k j)) (fun k j => Ws (ix2 k j)) (fun j => bl (ix1 j)) (fun j => bs (ix1 j))) i j := by
  unfold zR_2
  rw [LibHostAt.relu_at]
  exact congrArg (max · 0) (LibHostAt.linR_at _ rfl rfl rfl rfl rfl rfl _ _ agg x Wl Wr Ws bl bs i j)

/-- Layer 3 (128 features to 64) at (i, j). -/
theorem zR_3_at (agg x : FVec Ideal S50000x128 .f32) (Wl : FVec Ideal S128x64 .f32) (bl : FVec Ideal S64 .f32)
    (Wr Ws : FVec Ideal S128x64 .f32) (bs : FVec Ideal S64 .f32) (i : Fin 50000) (j : Fin 64) :
    zR_3 (F := Ideal) agg x Wl bl Wr Ws bs (ix2 i j)
      = Net.relu (Net.linR (fun i k => agg (ix2 i k)) (fun i k => x (ix2 i k)) (fun k j => Wl (ix2 k j))
          (fun k j => Wr (ix2 k j)) (fun k j => Ws (ix2 k j)) (fun j => bl (ix1 j)) (fun j => bs (ix1 j))) i j := by
  unfold zR_3
  rw [LibHostAt.relu_at]
  exact congrArg (max · 0) (LibHostAt.linR_at _ rfl rfl rfl rfl rfl rfl _ _ agg x Wl Wr Ws bl bs i j)

/-- Layer 4 (64 features to 40), which has no positive part, at (i, j). -/
theorem zR_4_at (agg x : FVec Ideal S50000x64 .f32) (Wl : FVec Ideal S64x40 .f32) (bl : FVec Ideal S40 .f32)
    (Wr Ws : FVec Ideal S64x40 .f32) (bs : FVec Ideal S40 .f32) (i : Fin 50000) (j : Fin 40) :
    zR_4 (F := Ideal) agg x Wl bl Wr Ws bs (ix2 i j)
      = Net.linR (fun i k => agg (ix2 i k)) (fun i k => x (ix2 i k)) (fun k j => Wl (ix2 k j))
          (fun k j => Wr (ix2 k j)) (fun k j => Ws (ix2 k j)) (fun j => bl (ix1 j)) (fun j => bs (ix1 j)) i j := by
  unfold zR_4
  exact LibHostAt.linR_at _ rfl rfl rfl rfl rfl rfl _ _ agg x Wl Wr Ws bl bs i j

end Cert.ReferenceIdeal.RefAt

end
-- ==== Proof.LibNet.lean ====
/-
  The laws of the extended reals that make the two groupings of the network agree, and the closure of
  "every entry is a real number" under the network's operations.

  On the extended reals addition and multiplication are commutative and associative without any
  finiteness, so regrouping a sum is free. Distributivity and the laws of subtraction hold for real
  numbers only; there every proof chooses the real numbers behind the entries, pushes the embedding of
  the reals outwards through products, sums and finite sums, and finishes with an identity of real numbers.
-/
import proofs.«144552_j81088982548491_1_alg».proof.Proof.Spec

noncomputable section

namespace Cert.Net

open Idealize.ShloMosaic

variable {n d e : ℕ}

/-! ### Finite sums of real numbers inside the extended reals -/

/-- The embedding of the reals commutes with finite sums. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of extended reals that are all real numbers is a real number. -/
theorem exists_real_sum {ι : Type*} (s : Finset ι) (f : ι → EReal)
    (hf : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The same over a whole finite index type. -/
theorem exists_real_sum_univ {ι : Type*} [Fintype ι] (f : ι → EReal)
    (hf : ∀ i, ∃ r : ℝ, f i = (r : EReal)) : ∃ r : ℝ, ∑ i, f i = (r : EReal) :=
  exists_real_sum Finset.univ f (fun i _ => hf i)

/-- A finite sum of nonnegative real numbers inside the extended reals is a nonnegative real number. -/
theorem exists_nonneg_real_sum {ι : Type*} (s : Finset ι) (f : ι → EReal)
    (hf : ∀ i ∈ s, ∃ r : ℝ, 0 ≤ r ∧ f i = (r : EReal)) :
    ∃ r : ℝ, 0 ≤ r ∧ ∑ i ∈ s, f i = (r : EReal) := by
  classical
  induction s using Finset.induction_on with
  | empty => exact ⟨0, le_refl 0, by simp⟩
  | insert a s ha ih =>
    obtain ⟨ra, h0a, hra⟩ := hf a (Finset.mem_insert_self a s)
    obtain ⟨rs, h0s, hrs⟩ := ih (fun i hi => hf i (Finset.mem_insert_of_mem hi))
    exact ⟨ra + rs, add_nonneg h0a h0s, by rw [Finset.sum_insert ha, hra, hrs, EReal.coe_add]⟩

/-- The larger of a real number and `1` is a real number that is at least `1`. -/
theorem exists_real_max_one {x : EReal} (hx : ∃ r : ℝ, x = (r : EReal)) :
    ∃ r : ℝ, 1 ≤ r ∧ max x 1 = (r : EReal) := by
  obtain ⟨r, rfl⟩ := hx
  refine ⟨max r 1, le_max_right r 1, ?_⟩
  rw [← EReal.coe_one]
  exact (EReal.coe_strictMono.monotone.map_max).symm

/-- The quotient of a real number by a nonzero real number is a real number. -/
theorem isReal_div {x y : EReal} (hx : ∃ r : ℝ, x = (r : EReal)) (hy : ∃ r : ℝ, r ≠ 0 ∧ y = (r : EReal)) :
    ∃ r : ℝ, Ideal.div x y = (r : EReal) := by
  obtain ⟨a, rfl⟩ := hx
  obtain ⟨b, hb, rfl⟩ := hy
  exact ⟨a * (1 / b), by rw [Ideal.div_coe hb, EReal.coe_mul]⟩

/-- The quotient of two real numbers, the divisor nonzero, as the real quotient. -/
theorem div_coe_coe (a : ℝ) {b : ℝ} (hb : b ≠ 0) :
    Ideal.div (a : EReal) (b : EReal) = ((a * (1 / b) : ℝ) : EReal) := by
  rw [Ideal.div_coe hb, EReal.coe_mul]

/-! ### Matrices of real numbers -/

/-- A matrix of real numbers is the entrywise embedding of a real matrix. -/
theorem IsReal.exists_eq {f : Fin n → Fin e → EReal} (hf : IsReal f) :
    ∃ g : Fin n → Fin e → ℝ, f = fun i j => ((g i j : ℝ) : EReal) := by
  choose g hg using hf
  exact ⟨g, by funext i j; exact hg i j⟩

/-- A row of real numbers is the entrywise embedding of a real row. -/
theorem IsRealRow.exists_eq {f : Fin e → EReal} (hf : IsRealRow f) :
    ∃ g : Fin e → ℝ, f = fun j => ((g j : ℝ) : EReal) := by
  choose g hg using hf
  exact ⟨g, by funext j; exact hg j⟩

theorem isReal_coe (g : Fin n → Fin e → ℝ) : IsReal (fun i j => ((g i j : ℝ) : EReal)) :=
  fun i j => ⟨g i j, rfl⟩

theorem isRealRow_coe (g : Fin e → ℝ) : IsRealRow (fun j => ((g j : ℝ) : EReal)) :=
  fun j => ⟨g j, rfl⟩

/-- The contraction of two real matrices, computed in the reals. -/
theorem dot_coe (a : Fin n → Fin d → ℝ) (w : Fin d → Fin e → ℝ) (i : Fin n) (j : Fin e) :
    dot (fun i k => ((a i k : ℝ) : EReal)) (fun k j => ((w k j : ℝ) : EReal)) i j
      = ((∑ k, a i k * w k j : ℝ) : EReal) := by
  unfold dot
  rw [← coe_sum]
  exact Finset.sum_congr rfl (fun k _ => (EReal.coe_mul _ _).symm)

/-! ### (M1) The two groupings of a layer -/

/-- The contraction of a real matrix distributes over the sum of two real matrices. -/
theorem dot_add {h : Fin n → Fin d → EReal} {Wr Ws : Fin d → Fin e → EReal}
    (hh : IsReal h) (hWr : IsReal Wr) (hWs : IsReal Ws) (i : Fin n) (j : Fin e) :
    dot h (fun k j => Wr k j + Ws k j) i j = dot h Wr i j + dot h Ws i j := by
  obtain ⟨a, rfl⟩ := hh.exists_eq
  obtain ⟨u, rfl⟩ := hWr.exists_eq
  obtain ⟨v, rfl⟩ := hWs.exists_eq
  unfold dot
  rw [← Finset.sum_add_distrib]
  refine Finset.sum_congr rfl (fun k _ => ?_)
  beta_reduce
  rw [← EReal.coe_add, ← EReal.coe_mul, ← EReal.coe_mul, ← EReal.coe_mul, ← EReal.coe_add, mul_add]

/-- Contracting the node features against `Wr + Ws` and adding `bl + bs` once gives the same layer as
    contracting against `Wr` and `Ws` in turn and adding `bl` and `bs` where the reference does. Only the
    contraction of `h` is distributed, so only `h`, `Wr`, `Ws` need be real; the rest is regrouping. -/
theorem lin_eq (agg h : Fin n → Fin d → EReal) (Wl Wr Ws : Fin d → Fin e → EReal) (bl bs : Fin e → EReal)
    (hh : IsReal h) (hWr : IsReal Wr) (hWs : IsReal Ws) :
    linK agg h Wl (fun k j => Wr k j + Ws k j) (fun j => bl j + bs j) = linR agg h Wl Wr Ws bl bs := by
  funext i j
  unfold linK linR
  rw [dot_add hh hWr hWs i j]
  beta_reduce
  ac_rfl

end Cert.Net

end
-- ==== Proof.LibNetNorm.lean ====
/-
  The mean and the variance of a column taken two ways, and the closure of "every entry is a real number"
  under a layer, the positive part and the normalisation.

  For real numbers `x₁ … xₙ` with mean `μ = (Σ xᵢ)/n`, expanding the square gives
  `Σ (xᵢ - μ)² = Σ xᵢ² - 2 μ Σ xᵢ + n μ² = Σ xᵢ² - (Σ xᵢ)²/n`, so the mean of the squared deviations is the
  mean of the squares minus the square of the mean. Every subtraction here needs real numbers (on the
  extended reals `⊤ - ⊤` is a junk value), so the identity is proved in the reals and carried across.
-/
import proofs.«144552_j81088982548491_1_alg».proof.Proof.LibNet

noncomputable section

namespace Cert.Net

open Idealize.ShloMosaic

variable {n d e : ℕ}

/-! ### Single extended reals that are real numbers -/

theorem real_add {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

theorem real_sub {x y : EReal} (hx : ∃ r : ℝ, x = (r : EReal)) (hy : ∃ r : ℝ, y = (r : EReal)) :
    ∃ r : ℝ, x - y = (r : EReal) := by
  obtain ⟨a, rfl⟩ := hx
  obtain ⟨b, rfl⟩ := hy
  exact ⟨a - b, (EReal.coe_sub a b).symm⟩

theorem real_mul {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

theorem real_max {x y : EReal} (hx : ∃ r : ℝ, x = (r : EReal)) (hy : ∃ r : ℝ, y = (r : EReal)) :
    ∃ r : ℝ, max x y = (r : EReal) := by
  obtain ⟨a, rfl⟩ := hx
  obtain ⟨b, rfl⟩ := hy
  exact ⟨max a b, (EReal.coe_strictMono.monotone.map_max).symm⟩

/-- The reciprocal square root of a positive real number is the real number `(√x)⁻¹`. -/
theorem rsqrt_coe_pos {r : ℝ} (hr : 0 < r) :
    Ideal.rsqrt ((r : ℝ) : EReal) = (((Real.sqrt r)⁻¹ : ℝ) : EReal) := by
  rw [Ideal.rsqrt_coe, if_neg (not_lt.mpr hr.le), if_neg hr.ne']

/-! ### (M2) The mean and the variance of a column, two ways -/

/-- The mean from the column sum is the reference's mean: the latter only starts its sum from `0`. -/
theorem meanK_eq (z : Fin n → Fin e → EReal) (N : EReal) : meanK (colsum z) N = muR z N := by
  funext j
  unfold meanK muR
  rw [zero_add]

/-- For real numbers: the mean of the squares minus the square of the mean is the mean of the squared
    deviations from the mean. -/
theorem real_var_identity (hn : 0 < n) (x : Fin n → ℝ) :
    (∑ i, x i * x i) * (1 / (n : ℝ)) - ((∑ i, x i) * (1 / (n : ℝ))) * ((∑ i, x i) * (1 / (n : ℝ)))
      = (∑ i, (x i - (∑ i, x i) * (1 / (n : ℝ))) * (x i - (∑ i, x i) * (1 / (n : ℝ)))) * (1 / (n : ℝ)) := by
  have hN : (n : ℝ) ≠ 0 := Nat.cast_ne_zero.mpr hn.ne'
  generalize hS : (∑ i, x i) = S
  generalize hμ : S * (1 / (n : ℝ)) = μ
  have h1 : (∑ i, (x i - μ) * (x i - μ)) = (∑ i, x i * x i) - 2 * μ * S + (n : ℝ) * (μ * μ) := by
    have h2 : ∀ i, (x i - μ) * (x i - μ) = x i * x i - 2 * μ * x i + μ * μ := fun i => by ring
    simp only [h2, Finset.sum_add_distrib, Finset.sum_sub_distrib, ← Finset.mul_sum, hS, Finset.sum_const,
      Finset.card_univ, Fintype.card_fin, nsmul_eq_mul]
    ring
  rw [h1, ← hμ]
  field_simp
  ring

theorem colsum_coe (g : Fin n → Fin e → ℝ) (j : Fin e) :
    colsum (fun i j => ((g i j : ℝ) : EReal)) j = ((∑ i, g i j : ℝ) : EReal) := by
  unfold colsum
  exact coe_sum _ _

theorem colsumsq_coe (g : Fin n → Fin e → ℝ) (j : Fin e) :
    colsumsq (fun i j => ((g i j : ℝ) : EReal)) j = ((∑ i, g i j * g i j : ℝ) : EReal) := by
  unfold colsumsq
  rw [← coe_sum]
  exact Finset.sum_congr rfl (fun i _ => (EReal.coe_mul _ _).symm)

theorem muR_coe (hn : 0 < n) (g : Fin n → Fin e → ℝ) (j : Fin e) :
    muR (fun i j => ((g i j : ℝ) : EReal)) ((n : ℝ) : EReal) j
      = (((∑ i, g i j) * (1 / (n : ℝ)) : ℝ) : EReal) := by
  have hN : (n : ℝ) ≠ 0 := Nat.cast_ne_zero.mpr hn.ne'
  unfold muR
  rw [zero_add, colsum_coe, div_coe_coe _ hN]

theorem varR_coe (hn : 0 < n) (g : Fin n → Fin e → ℝ) (j : Fin e) :
    varR (fun i j => ((g i j : ℝ) : EReal)) ((n : ℝ) : EReal) j
      = (((∑ i, (g i j - (∑ i, g i j) * (1 / (n : ℝ))) * (g i j - (∑ i, g i j) * (1 / (n : ℝ))))
            * (1 / (n : ℝ)) : ℝ) : EReal) := by
  have hN : (n : ℝ) ≠ 0 := Nat.cast_ne_zero.mpr hn.ne'
  unfold varR
  rw [zero_add, muR_coe hn g j]
  beta_reduce
  have h : ∀ i, ((g i j : ℝ) : EReal) - (((∑ i, g i j) * (1 / (n : ℝ)) : ℝ) : EReal) =
      ((g i j - (∑ i, g i j) * (1 / (n : ℝ)) : ℝ) : EReal) := fun i => (EReal.coe_sub _ _).symm
  simp only [h, ← EReal.coe_mul]
  rw [coe_sum, div_coe_coe _ hN]

theorem varK_coe (hn : 0 < n) (g : Fin n → Fin e → ℝ) (j : Fin e) :
    varK (colsumsq (fun i j => ((g i j : ℝ) : EReal))) (colsum (fun i j => ((g i j : ℝ) : EReal)))
        ((n : ℝ) : EReal) j
      = (((∑ i, g i j * g i j) * (1 / (n : ℝ))
            - ((∑ i, g i j) * (1 / (n : ℝ))) * ((∑ i, g i j) * (1 / (n : ℝ))) : ℝ) : EReal) := by
  have hN : (n : ℝ) ≠ 0 := Nat.cast_ne_zero.mpr hn.ne'
  unfold varK meanK
  rw [colsumsq_coe, colsum_coe, div_coe_coe _ hN, div_coe_coe _ hN, ← EReal.coe_mul, ← EReal.coe_sub]

/-- The variance as mean of squares minus squared mean is the variance as mean of squared deviations,
    for a matrix of real numbers with at least one row. -/
theorem var_eq {z : Fin n → Fin e → EReal} (hz : IsReal z) (hn : 0 < n) :
    varK (colsumsq z) (colsum z) ((n : ℝ) : EReal) = varR z ((n : ℝ) : EReal) := by
  obtain ⟨g, rfl⟩ := hz.exists_eq
  funext j
  rw [varR_coe hn, varK_coe hn, real_var_identity hn]

/-- Hence the two normalisations agree. -/
theorem bn_eq {z : Fin n → Fin e → EReal} (hz : IsReal z) (hn : 0 < n) (g be : Fin e → EReal) (eps : EReal) :
    bn z (meanK (colsum z) ((n : ℝ) : EReal)) (varK (colsumsq z) (colsum z) ((n : ℝ) : EReal)) g be eps
      = bn z (muR z ((n : ℝ) : EReal)) (varR z ((n : ℝ) : EReal)) g be eps := by
  rw [meanK_eq, var_eq hz hn]

/-! ### (M3) Real entries are preserved -/

theorem isReal_dot {a : Fin n → Fin d → EReal} {w : Fin d → Fin e → EReal} (ha : IsReal a) (hw : IsReal w) :
    IsReal (dot a w) := by
  obtain ⟨a', rfl⟩ := ha.exists_eq
  obtain ⟨w', rfl⟩ := hw.exists_eq
  exact fun i j => ⟨_, dot_coe a' w' i j⟩

theorem isReal_linR {agg h : Fin n → Fin d → EReal} {Wl Wr Ws : Fin d → Fin e → EReal} {bl bs : Fin e → EReal}
    (hagg : IsReal agg) (hh : IsReal h) (hWl : IsReal Wl) (hWr : IsReal Wr) (hWs : IsReal Ws)
    (hbl : IsRealRow bl) (hbs : IsRealRow bs) : IsReal (linR agg h Wl Wr Ws bl bs) := fun i j =>
  real_add (real_add (real_add (real_add (isReal_dot hagg hWl i j) (hbl j)) (isReal_dot hh hWr i j))
    (isReal_dot hh hWs i j)) (hbs j)

theorem isReal_linK {agg h : Fin n → Fin d → EReal} {wl wrs : Fin d → Fin e → EReal} {b : Fin e → EReal}
    (hagg : IsReal agg) (hh : IsReal h) (hwl : IsReal wl) (hwrs : IsReal wrs) (hb : IsRealRow b) :
    IsReal (linK agg h wl wrs b) := fun i j =>
  real_add (real_add (isReal_dot hagg hwl i j) (isReal_dot hh hwrs i j)) (hb j)

theorem isReal_relu {z : Fin n → Fin e → EReal} (hz : IsReal z) : IsReal (relu z) := fun i j =>
  real_max (hz i j) ⟨0, EReal.coe_zero.symm⟩

theorem isRealRow_colsum {z : Fin n → Fin e → EReal} (hz : IsReal z) : IsRealRow (colsum z) := fun j =>
  exists_real_sum_univ _ (fun i => hz i j)

theorem isRealRow_colsumsq {z : Fin n → Fin e → EReal} (hz : IsReal z) : IsRealRow (colsumsq z) := fun j =>
  exists_real_sum_univ _ (fun i => real_mul (hz i j) (hz i j))

theorem isRealRow_muR {z : Fin n → Fin e → EReal} (hz : IsReal z) (hn : 0 < n) :
    IsRealRow (muR z ((n : ℝ) : EReal)) := by
  obtain ⟨g, rfl⟩ := hz.exists_eq
  exact fun j => ⟨_, muR_coe hn g j⟩

theorem isRealRow_meanK {z : Fin n → Fin e → EReal} (hz : IsReal z) (hn : 0 < n) :
    IsRealRow (meanK (colsum z) ((n : ℝ) : EReal)) := by
  rw [meanK_eq]
  exact isRealRow_muR hz hn

/-- The variance of a column of real numbers is a nonnegative real number. -/
theorem varR_nonneg {z : Fin n → Fin e → EReal} (hz : IsReal z) (hn : 0 < n) (j : Fin e) :
    ∃ v : ℝ, 0 ≤ v ∧ varR z ((n : ℝ) : EReal) j = (v : EReal) := by
  obtain ⟨g, rfl⟩ := hz.exists_eq
  refine ⟨_, ?_, varR_coe hn g j⟩
  exact mul_nonneg (Finset.sum_nonneg (fun i _ => mul_self_nonneg _)) (by positivity)

theorem varK_nonneg {z : Fin n → Fin e → EReal} (hz : IsReal z) (hn : 0 < n) (j : Fin e) :
    ∃ v : ℝ, 0 ≤ v ∧ varK (colsumsq z) (colsum z) ((n : ℝ) : EReal) j = (v : EReal) := by
  rw [var_eq hz hn]
  exact varR_nonneg hz hn j

/-- The normalisation of a real matrix by a real mean, a nonnegative real variance, a positive real
    `eps` and real scale and offset is a real matrix: `var + eps` is a positive real number, whose
    reciprocal square root is the real number `(√(var + eps))⁻¹`. -/
theorem isReal_bn {z : Fin n → Fin e → EReal} {mean var g be : Fin e → EReal} {eps : EReal}
    (hz : IsReal z) (hmean : IsRealRow mean) (hvar : ∀ j, ∃ v : ℝ, 0 ≤ v ∧ var j = (v : EReal))
    (hg : IsRealRow g) (hbe : IsRealRow be) (heps : ∃ ε : ℝ, 0 < ε ∧ eps = (ε : EReal)) :
    IsReal (bn z mean var g be eps) := by
  intro i j
  obtain ⟨v, hv, hvj⟩ := hvar j
  obtain ⟨ε, hε, rfl⟩ := heps
  unfold bn
  rw [hvj, ← EReal.coe_add, rsqrt_coe_pos (add_pos_of_nonneg_of_pos hv hε)]
  exact real_add (real_mul (real_mul (real_sub (hz i j) (hmean j)) ⟨_, rfl⟩) (hg j)) (hbe j)

end Cert.Net

end
-- ==== Proof.LibVecReal.lean ====
/-
  Realness of whole arrays, carried through the host operations that form a neighbourhood mean: a gather returns
  entries of its operand, a broadcast returns entries of its operand, an accumulating scatter adds finitely many
  update entries to an operand entry, and a quotient of a real by a positive real is a real. On the extended reals
  these are the facts that keep the network's intermediate arrays away from the infinities.
-/
import proofs.«144552_j81088982548491_1_alg».proof.Proof.LibNet
import Idealize.ShloMosaic.PureOps.Ideal

noncomputable section

namespace Cert.VecReal

open Idealize.ShloMosaic Cert.Net

variable {s t si u : Shape}

/-- Every entry of an array is a real number. -/
def AllReal (v : s.Idx → EReal) : Prop := ∀ i, ∃ r : ℝ, v i = (r : EReal)

/-- Every entry of an array is a positive real number. -/
def AllPos (v : s.Idx → EReal) : Prop := ∀ i, ∃ r : ℝ, 0 < r ∧ v i = (r : EReal)

theorem AllPos.allReal {v : s.Idx → EReal} (h : AllPos v) : AllReal v :=
  fun i => let ⟨r, _, e⟩ := h i; ⟨r, e⟩

/-- A gather's entries are entries of its operand. -/
theorem allReal_gather {w : Nat} (d : GatherDims s si t) (x : s.Idx → EReal) (idx : IVec si w) (hx : AllReal x) :
    AllReal (Host.gather d x idx) := fun j => hx _

/-- A broadcast's entries are entries of its operand. -/
theorem allReal_broadcastInDim (dims : Fin s.rank → Fin t.rank) (h : s.BroadcastsInDim t dims) (x : s.Idx → EReal)
    (hx : AllReal x) : AllReal (broadcastInDim t dims h x) := fun _ => hx _

theorem allPos_broadcastInDim (dims : Fin s.rank → Fin t.rank) (h : s.BroadcastsInDim t dims) (x : s.Idx → EReal)
    (hx : AllPos x) : AllPos (broadcastInDim t dims h x) := fun _ => hx _

/-- A constant array of a real value. -/
theorem allReal_constant (b : BitVec 32) (r : ℝ) (hb : Ideal.ofBits .f32 b = (r : EReal)) :
    AllReal (constant (F := Ideal) s .f32 b) := fun _ => ⟨r, hb⟩

/-- An accumulating scatter of real updates into a real operand is real: an operand entry plus a finite sum. -/
theorem allReal_scatterAdd {w : Nat} (d : ScatterDims s si u) (x : FVec Ideal s .f32) (idx : IVec si w)
    (upd : FVec Ideal u .f32) (hx : AllReal x) (hu : AllReal upd) :
    AllReal (Host.scatterAdd (F := Ideal) d x idx upd) := by
  intro i
  obtain ⟨a, ha⟩ := hx i
  obtain ⟨b, hb⟩ := exists_real_sum (Finset.univ.filter (fun j => d.resultIdx? j idx = some i)) upd (fun j _ => hu j)
  refine ⟨a + b, ?_⟩
  show x i + ∑ j ∈ Finset.univ.filter (fun j => d.resultIdx? j idx = some i), upd j = _
  rw [ha, hb, EReal.coe_add]

/-- The larger of a real array and the constant one is at least one, entry by entry. -/
theorem allPos_maximumf_one (x y : FVec Ideal s .f32) (hx : AllReal x) (hy : ∀ i, y i = ((1 : ℝ) : EReal)) :
    AllPos (maximumf x y) := by
  intro i
  obtain ⟨r, hr, e⟩ := exists_real_max_one (hx i)
  refine ⟨r, by linarith, ?_⟩
  show max (x i) (y i) = _
  rw [hy i]; exact_mod_cast e

/-- A real array divided entry by entry by a positive one is real. -/
theorem allReal_divf (x y : FVec Ideal s .f32) (hx : AllReal x) (hy : AllPos y) : AllReal (Host.divf x y) := by
  intro i
  obtain ⟨r, hr, e⟩ := hy i
  exact isReal_div (hx i) ⟨r, ne_of_gt hr, e⟩

end Cert.VecReal

end
-- ==== Proof.BridgeSteps.lean ====
/-
  The two steps that join the programs, over arbitrary extents, and the passage between an array indexed by a
  rank-2 index and its curried matrix. A layer's linear part: contracting the node features against `Wr + Ws` and
  adding `bl + bs` at the end is contracting against `Wr` and `Ws` in turn with the offsets added on the way, once
  the features and the two weight matrices are real. The normalisation: with the column sums and sums of squares in
  hand, `E[z²] − E[z]²` is the mean squared deviation, once the column entries are real.
-/
import proofs.«144552_j81088982548491_1_alg».proof.Proof.LibNetNorm
import proofs.«144552_j81088982548491_1_alg».proof.Proof.LibVecReal
import Idealize.ShloMosaic.Lib.ValueIdx

noncomputable section

namespace Cert.Steps

open Idealize.ShloMosaic Idealize.ShloMosaic.ValueIdx Cert.Net Cert.VecReal

variable {n d e : ℕ}

/-- Two arrays over a rank-2 shape that agree at every pair of coordinates are equal. -/
theorem ext2 {α : Type} (A B : (⟨2, ![n, e]⟩ : Shape).Idx → α) (h : ∀ i j, A (ix2 i j) = B (ix2 i j)) : A = B := by
  funext idx; rw [eq_ix2 idx]; exact h _ _

/-- A real array, curried, is a real matrix. -/
theorem isReal_of_allReal (A : (⟨2, ![n, e]⟩ : Shape).Idx → EReal) (h : AllReal A) : IsReal (fun i j => A (ix2 i j)) :=
  fun i j => h (ix2 i j)

/-- A real matrix, as an array, is a real array. -/
theorem allReal_of_isReal (A : (⟨2, ![n, e]⟩ : Shape).Idx → EReal) (h : IsReal (fun i j => A (ix2 i j))) : AllReal A := by
  intro idx; rw [eq_ix2 idx]; exact h _ _

/-- A real vector is a real row. -/
theorem isRealRow_of_allReal (g : (⟨1, ![e]⟩ : Shape).Idx → EReal) (h : AllReal g) : IsRealRow (fun j => g (ix1 j)) :=
  fun j => h (ix1 j)

/-- The linear part, grouped one way and the other. -/
theorem sage_step (agg h : Fin n → Fin d → EReal) (wl wrs Wl Wr Ws : Fin d → Fin e → EReal) (b bl bs : Fin e → EReal)
    (hwl : ∀ k j, wl k j = Wl k j) (hwrs : ∀ k j, wrs k j = Wr k j + Ws k j) (hb : ∀ j, b j = bl j + bs j)
    (hh : IsReal h) (hWr : IsReal Wr) (hWs : IsReal Ws) :
    linK agg h wl wrs b = linR agg h Wl Wr Ws bl bs := by
  have e1 : wl = Wl := funext fun k => funext fun j => hwl k j
  have e2 : wrs = fun k j => Wr k j + Ws k j := funext fun k => funext fun j => hwrs k j
  have e3 : b = fun j => bl j + bs j := funext fun j => hb j
  rw [e1, e2, e3]
  exact lin_eq agg h Wl Wr Ws bl bs hh hWr hWs

/-- The normalisation from accumulated column sums is the normalisation from the mean squared deviation. -/
theorem bn_step (hn : 0 < n) (z : Fin n → Fin e → EReal) (s ss mean var g be : Fin e → EReal) (eps N : EReal)
    (hN : N = ((n : ℝ) : EReal))
    (hs : ∀ j, s j = colsum z j) (hss : ∀ j, ss j = colsumsq z j)
    (hmean : ∀ j, mean j = meanK s N j) (hvar : ∀ j, var j = varK ss s N j) (hz : IsReal z) :
    bn z mean var g be eps = bn z (muR z N) (varR z N) g be eps := by
  have e1 : s = colsum z := funext hs
  have e2 : ss = colsumsq z := funext hss
  have e3 : mean = meanK (colsum z) N := by funext j; rw [hmean j, e1]
  have e4 : var = varK (colsumsq z) (colsum z) N := by funext j; rw [hvar j, e1, e2]
  rw [e3, e4, hN]
  exact bn_eq hz hn g be eps

end Cert.Steps

end
-- ==== Proof.Consts.lean ====
/-
  The float literals of the two programs that the comparison has to evaluate, as the extended reals their
  IEEE patterns denote: the number of nodes 50000, the unit 1, the zero, and the small positive constant added
  to a variance before the inverse square root (only its being a positive real is used).
-/
import Idealize.ShloMosaic.PureOps.Ideal

noncomputable section

namespace Cert.Consts

open Idealize.ShloMosaic

/-- The pattern of `50000.0`: exponent field 142 (that is 2^15) and significand 1 + 4411392 / 2^23, the real `50000`. -/
theorem ofBits_50000 : Ideal.ofBits .f32 0x47435000#32 = ((50000 : ℝ) : EReal) := by
  simp [Ideal.ofBits, Ideal.ieee, -EReal.coe_mul]; norm_num

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `+0.0` denotes `0`. -/
theorem ofBits_zero : Ideal.ofBits .f32 0x00000000#32 = 0 := by
  simp [Ideal.ofBits, Ideal.ieee]

/-- The pattern of the variance offset (about `1e-5`): exponent field 110 and significand 1 + 2606508 / 2^23,
    the positive real `10995116 · 2^(-40)`. -/
theorem ofBits_eps : ∃ ε : ℝ, 0 < ε ∧ Ideal.ofBits .f32 0x3727C5AC#32 = (ε : EReal) := by
  refine ⟨(10995116 : ℝ) * (2 : ℝ) ^ (-40 : ℤ), by positivity, ?_⟩
  simp [Ideal.ofBits, Ideal.ieee, -EReal.coe_mul]

end Cert.Consts

end
-- ==== Proof.AggReal.lean ====
/-
  The neighbourhood mean of a real array is a real array: the gathered source rows are entries of the array, their
  sum at each destination row is a finite sum of reals, and the in-degree column it is divided by is the larger of a
  real count and one, hence a positive real.
-/
import proofs.«144552_j81088982548491_1_alg».proof.Proof.RefLayers
import proofs.«144552_j81088982548491_1_alg».proof.Proof.LibVecReal
import proofs.«144552_j81088982548491_1_alg».proof.Proof.Consts

noncomputable section

namespace Cert.AggReal

open Idealize.ShloMosaic Cert.ReferenceIdeal Cert.ReferenceIdeal.Gen Cert.ReferenceIdeal.RefRun Cert.VecReal

theorem zero_real : Ideal.ofBits .f32 0x00000000#32 = ((0 : ℝ) : EReal) := by
  rw [Cert.Consts.ofBits_zero]; rfl

/-- The in-degree column is positive: the larger of a count (a finite sum of ones onto zero) and one. -/
theorem allPos_cntS (dst : IVec S800000 32) : AllPos (cntS (F := Ideal) dst) := by
  unfold cntS
  refine allPos_broadcastInDim _ _ _ (allPos_maximumf_one _ _ ?_ (fun _ => Cert.Consts.ofBits_one))
  refine allReal_scatterAdd _ _ _ _ ?_ ?_
  · exact allReal_broadcastInDim _ _ _ (allReal_constant _ 0 zero_real)
  · exact allReal_broadcastInDim _ _ _ (allReal_constant _ 1 Cert.Consts.ofBits_one)

/-- The neighbourhood mean of a real array of width 128 is real. -/
theorem allReal_aggS_128 (src dst : IVec S800000 32) (h : FVec Ideal S50000x128 .f32) (hh : AllReal h) :
    AllReal (aggS_128 (F := Ideal) (cntS dst) src dst h) := by
  unfold aggS_128
  refine allReal_divf _ _ (allReal_scatterAdd _ _ _ _ ?_ (allReal_gather _ _ _ hh)) (allPos_broadcastInDim _ _ _ (allPos_cntS dst))
  exact allReal_broadcastInDim _ _ _ (allReal_constant _ 0 zero_real)

/-- The neighbourhood mean of a real array of width 256 is real. -/
theorem allReal_aggS_256 (src dst : IVec S800000 32) (h : FVec Ideal S50000x256 .f32) (hh : AllReal h) :
    AllReal (aggS_256 (F := Ideal) (cntS dst) src dst h) := by
  unfold aggS_256
  refine allReal_divf _ _ (allReal_scatterAdd _ _ _ _ ?_ (allReal_gather _ _ _ hh)) (allPos_broadcastInDim _ _ _ (allPos_cntS dst))
  exact allReal_broadcastInDim _ _ _ (allReal_constant _ 0 zero_real)

/-- The neighbourhood mean of a real array of width 64 is real. -/
theorem allReal_aggS_64 (src dst : IVec S800000 32) (h : FVec Ideal S50000x64 .f32) (hh : AllReal h) :
    AllReal (aggS_64 (F := Ideal) (cntS dst) src dst h) := by
  unfold aggS_64
  refine allReal_divf _ _ (allReal_scatterAdd _ _ _ _ ?_ (allReal_gather _ _ _ hh)) (allPos_broadcastInDim _ _ _ (allPos_cntS dst))
  exact allReal_broadcastInDim _ _ _ (allReal_constant _ 0 zero_real)

end Cert.AggReal

end
-- ==== Proof.BridgeSage.lean ====
/-
  The layers' linear parts, joined. The two programs form a node's neighbourhood mean by the same operations on the
  same edge table, so the two means are one function. On top of it one program contracts the node features against
  the sum of the two self weights and adds the sum of the two offsets at the end, the other contracts against each
  self weight in turn and adds the offsets on the way: for real features and real self weights the two are the same
  array, entry by entry, before and after the positive part. The reference's layer, of real operands, is real.
-/
import proofs.«144552_j81088982548491_1_alg».proof.Proof.KHostSage
import proofs.«144552_j81088982548491_1_alg».proof.Proof.RefLayers
import proofs.«144552_j81088982548491_1_alg».proof.Proof.RefAt
import proofs.«144552_j81088982548491_1_alg».proof.Proof.BridgeSteps
import proofs.«144552_j81088982548491_1_alg».proof.Proof.AggReal

noncomputable section

namespace Cert.Bridge

open Idealize.ShloMosaic Idealize.ShloMosaic.ValueIdx
open Cert.ReferenceIdeal.RefRun Cert.KernelIdeal.KHost

/-! ## The neighbourhood means are one function -/

set_option maxRecDepth 8192 in
/-- At width 128 the two programs' neighbourhood means are the same function of the edge table and the features. -/
theorem agg_eq_128 (ei : IVec ⟨2, ![2, 800000]⟩ 32) (h : (⟨2, ![50000, 128]⟩ : Shape).Idx → EReal) :
    aggK_128 (F := Ideal) ei h = aggR_128 (F := Ideal) (cntR ei) ei h := by
  unfold aggK_128 aggOf_128 cntK cntOf srcK dstK aggR_128 aggS_128 cntR cntS srcR dstR
  rfl

set_option maxRecDepth 8192 in
/-- At width 256 the two programs' neighbourhood means are the same function of the edge table and the features. -/
theorem agg_eq_256 (ei : IVec ⟨2, ![2, 800000]⟩ 32) (h : (⟨2, ![50000, 256]⟩ : Shape).Idx → EReal) :
    aggK_256 (F := Ideal) ei h = aggR_256 (F := Ideal) (cntR ei) ei h := by
  unfold aggK_256 aggOf_256 cntK cntOf srcK dstK aggR_256 aggS_256 cntR cntS srcR dstR
  rfl

set_option maxRecDepth 8192 in
/-- At width 64 the two programs' neighbourhood means are the same function of the edge table and the features. -/
theorem agg_eq_64 (ei : IVec ⟨2, ![2, 800000]⟩ 32) (h : (⟨2, ![50000, 64]⟩ : Shape).Idx → EReal) :
    aggK_64 (F := Ideal) ei h = aggR_64 (F := Ideal) (cntR ei) ei h := by
  unfold aggK_64 aggOf_64 cntK cntOf srcK dstK aggR_64 aggS_64 cntR cntS srcR dstR
  rfl

/-! ## The linear parts agree -/

/-- Layer 1: an array that is, entry by entry, the positive part of the contraction against the summed self weights with
    the summed offsets, over the neighbourhood mean, IS the reference's layer. -/
theorem sage1_eq (ZK : (⟨2, ![50000, 256]⟩ : Shape).Idx → EReal) (ei : IVec ⟨2, ![2, 800000]⟩ 32) (x : (⟨2, ![50000, 128]⟩ : Shape).Idx → EReal)
    (Wl : (⟨2, ![128, 256]⟩ : Shape).Idx → EReal) (bl : (⟨1, ![256]⟩ : Shape).Idx → EReal) (Wr Ws : (⟨2, ![128, 256]⟩ : Shape).Idx → EReal) (bs : (⟨1, ![256]⟩ : Shape).Idx → EReal)
    (hZK : ∀ i j, ZK (ix2 i j) = Net.relu (Net.linK (fun i k => aggK_128 (F := Ideal) ei x (ix2 i k)) (fun i k => x (ix2 i k))
      (fun k j => Wl (ix2 k j)) (fun k j => Wr (ix2 k j) + Ws (ix2 k j)) (fun j => bl (ix1 j) + bs (ix1 j))) i j)
    (hx : VecReal.AllReal x) (hWr : VecReal.AllReal Wr) (hWs : VecReal.AllReal Ws) :
    ZK = zR_1 (F := Ideal) (aggR_128 (cntR ei) ei x) x Wl bl Wr Ws bs := by
  refine Steps.ext2 _ _ fun i j => ?_
  rw [hZK, Cert.ReferenceIdeal.RefAt.zR_1_at, ← agg_eq_128]
  rw [Steps.sage_step (fun i k => aggK_128 (F := Ideal) ei x (ix2 i k)) (fun i k => x (ix2 i k))
    (fun k j => Wl (ix2 k j)) (fun k j => Wr (ix2 k j) + Ws (ix2 k j)) (fun k j => Wl (ix2 k j)) (fun k j => Wr (ix2 k j))
    (fun k j => Ws (ix2 k j)) (fun j => bl (ix1 j) + bs (ix1 j)) (fun j => bl (ix1 j)) (fun j => bs (ix1 j))
    (fun _ _ => rfl) (fun _ _ => rfl) (fun _ => rfl)
    (Steps.isReal_of_allReal x hx) (Steps.isReal_of_allReal Wr hWr) (Steps.isReal_of_allReal Ws hWs)]

/-- Layer 2: an array that is, entry by entry, the positive part of the contraction against the summed self weights with
    the summed offsets, over the neighbourhood mean, IS the reference's layer. -/
theorem sage2_eq (ZK : (⟨2, ![50000, 128]⟩ : Shape).Idx → EReal) (ei : IVec ⟨2, ![2, 800000]⟩ 32) (x : (⟨2, ![50000, 256]⟩ : Shape).Idx → EReal)
    (Wl : (⟨2, ![256, 128]⟩ : Shape).Idx → EReal) (bl : (⟨1, ![128]⟩ : Shape).Idx → EReal) (Wr Ws : (⟨2, ![256, 128]⟩ : Shape).Idx → EReal) (bs : (⟨1, ![128]⟩ : Shape).Idx → EReal)
    (hZK : ∀ i j, ZK (ix2 i j) = Net.relu (Net.linK (fun i k => aggK_256 (F := Ideal) ei x (ix2 i k)) (fun i k => x (ix2 i k))
      (fun k j => Wl (ix2 k j)) (fun k j => Wr (ix2 k j) + Ws (ix2 k j)) (fun j => bl (ix1 j) + bs (ix1 j))) i j)
    (hx : VecReal.AllReal x) (hWr : VecReal.AllReal Wr) (hWs : VecReal.AllReal Ws) :
    ZK = zR_2 (F := Ideal) (aggR_256 (cntR ei) ei x) x Wl bl Wr Ws bs := by
  refine Steps.ext2 _ _ fun i j => ?_
  rw [hZK, Cert.ReferenceIdeal.RefAt.zR_2_at, ← agg_eq_256]
  rw [Steps.sage_step (fun i k => aggK_256 (F := Ideal) ei x (ix2 i k)) (fun i k => x (ix2 i k))
    (fun k j => Wl (ix2 k j)) (fun k j => Wr (ix2 k j) + Ws (ix2 k j)) (fun k j => Wl (ix2 k j)) (fun k j => Wr (ix2 k j))
    (fun k j => Ws (ix2 k j)) (fun j => bl (ix1 j) + bs (ix1 j)) (fun j => bl (ix1 j)) (fun j => bs (ix1 j))
    (fun _ _ => rfl) (fun _ _ => rfl) (fun _ => rfl)
    (Steps.isReal_of_allReal x hx) (Steps.isReal_of_allReal Wr hWr) (Steps.isReal_of_allReal Ws hWs)]

/-- Layer 3: an array that is, entry by entry, the positive part of the contraction against the summed self weights with
    the summed offsets, over the neighbourhood mean, IS the reference's layer. -/
theorem sage3_eq (ZK : (⟨2, ![50000, 64]⟩ : Shape).Idx → EReal) (ei : IVec ⟨2, ![2, 800000]⟩ 32) (x : (⟨2, ![50000, 128]⟩ : Shape).Idx → EReal)
    (Wl : (⟨2, ![128, 64]⟩ : Shape).Idx → EReal) (bl : (⟨1, ![64]⟩ : Shape).Idx → EReal) (Wr Ws : (⟨2, ![128, 64]⟩ : Shape).Idx → EReal) (bs : (⟨1, ![64]⟩ : Shape).Idx → EReal)
    (hZK : ∀ i j, ZK (ix2 i j) = Net.relu (Net.linK (fun i k => aggK_128 (F := Ideal) ei x (ix2 i k)) (fun i k => x (ix2 i k))
      (fun k j => Wl (ix2 k j)) (fun k j => Wr (ix2 k j) + Ws (ix2 k j)) (fun j => bl (ix1 j) + bs (ix1 j))) i j)
    (hx : VecReal.AllReal x) (hWr : VecReal.AllReal Wr) (hWs : VecReal.AllReal Ws) :
    ZK = zR_3 (F := Ideal) (aggR_128 (cntR ei) ei x) x Wl bl Wr Ws bs := by
  refine Steps.ext2 _ _ fun i j => ?_
  rw [hZK, Cert.ReferenceIdeal.RefAt.zR_3_at, ← agg_eq_128]
  rw [Steps.sage_step (fun i k => aggK_128 (F := Ideal) ei x (ix2 i k)) (fun i k => x (ix2 i k))
    (fun k j => Wl (ix2 k j)) (fun k j => Wr (ix2 k j) + Ws (ix2 k j)) (fun k j => Wl (ix2 k j)) (fun k j => Wr (ix2 k j))
    (fun k j => Ws (ix2 k j)) (fun j => bl (ix1 j) + bs (ix1 j)) (fun j => bl (ix1 j)) (fun j => bs (ix1 j))
    (fun _ _ => rfl) (fun _ _ => rfl) (fun _ => rfl)
    (Steps.isReal_of_allReal x hx) (Steps.isReal_of_allReal Wr hWr) (Steps.isReal_of_allReal Ws hWs)]

/-- Layer 4: an array that is, entry by entry, the contraction against the summed self weights with
    the summed offsets, over the neighbourhood mean, IS the reference's layer. -/
theorem sage4_eq (ZK : (⟨2, ![50000, 40]⟩ : Shape).Idx → EReal) (ei : IVec ⟨2, ![2, 800000]⟩ 32) (x : (⟨2, ![50000, 64]⟩ : Shape).Idx → EReal)
    (Wl : (⟨2, ![64, 40]⟩ : Shape).Idx → EReal) (bl : (⟨1, ![40]⟩ : Shape).Idx → EReal) (Wr Ws : (⟨2, ![64, 40]⟩ : Shape).Idx → EReal) (bs : (⟨1, ![40]⟩ : Shape).Idx → EReal)
    (hZK : ∀ i j, ZK (ix2 i j) = Net.linK (fun i k => aggK_64 (F := Ideal) ei x (ix2 i k)) (fun i k => x (ix2 i k))
      (fun k j => Wl (ix2 k j)) (fun k j => Wr (ix2 k j) + Ws (ix2 k j)) (fun j => bl (ix1 j) + bs (ix1 j)) i j)
    (hx : VecReal.AllReal x) (hWr : VecReal.AllReal Wr) (hWs : VecReal.AllReal Ws) :
    ZK = zR_4 (F := Ideal) (aggR_64 (cntR ei) ei x) x Wl bl Wr Ws bs := by
  refine Steps.ext2 _ _ fun i j => ?_
  rw [hZK, Cert.ReferenceIdeal.RefAt.zR_4_at, ← agg_eq_64]
  rw [Steps.sage_step (fun i k => aggK_64 (F := Ideal) ei x (ix2 i k)) (fun i k => x (ix2 i k))
    (fun k j => Wl (ix2 k j)) (fun k j => Wr (ix2 k j) + Ws (ix2 k j)) (fun k j => Wl (ix2 k j)) (fun k j => Wr (ix2 k j))
    (fun k j => Ws (ix2 k j)) (fun j => bl (ix1 j) + bs (ix1 j)) (fun j => bl (ix1 j)) (fun j => bs (ix1 j))
    (fun _ _ => rfl) (fun _ _ => rfl) (fun _ => rfl)
    (Steps.isReal_of_allReal x hx) (Steps.isReal_of_allReal Wr hWr) (Steps.isReal_of_allReal Ws hWs)]

/-! ## The reference's layers of real operands are real -/

/-- Layer 1 of real features, weights and offsets is a real array. -/
theorem zR_1_real (ei : IVec ⟨2, ![2, 800000]⟩ 32) (x : (⟨2, ![50000, 128]⟩ : Shape).Idx → EReal)
    (Wl : (⟨2, ![128, 256]⟩ : Shape).Idx → EReal) (bl : (⟨1, ![256]⟩ : Shape).Idx → EReal) (Wr Ws : (⟨2, ![128, 256]⟩ : Shape).Idx → EReal) (bs : (⟨1, ![256]⟩ : Shape).Idx → EReal)
    (hx : VecReal.AllReal x) (hWl : VecReal.AllReal Wl) (hbl : VecReal.AllReal bl) (hWr : VecReal.AllReal Wr)
    (hWs : VecReal.AllReal Ws) (hbs : VecReal.AllReal bs) :
    VecReal.AllReal (zR_1 (F := Ideal) (aggR_128 (cntR ei) ei x) x Wl bl Wr Ws bs) := by
  have hagg : VecReal.AllReal (aggR_128 (F := Ideal) (cntR ei) ei x) := by
    unfold aggR_128 cntR
    exact Cert.AggReal.allReal_aggS_128 (srcR ei) (dstR ei) x hx
  refine Steps.allReal_of_isReal _ ?_
  have e : (fun i j => zR_1 (F := Ideal) (aggR_128 (cntR ei) ei x) x Wl bl Wr Ws bs (ix2 i j))
      = Net.relu (Net.linR (fun i k => aggR_128 (F := Ideal) (cntR ei) ei x (ix2 i k)) (fun i k => x (ix2 i k))
          (fun k j => Wl (ix2 k j)) (fun k j => Wr (ix2 k j)) (fun k j => Ws (ix2 k j)) (fun j => bl (ix1 j))
          (fun j => bs (ix1 j))) :=
    funext fun i => funext fun j => Cert.ReferenceIdeal.RefAt.zR_1_at _ x Wl bl Wr Ws bs i j
  rw [e]
  exact Net.isReal_relu (Net.isReal_linR (Steps.isReal_of_allReal _ hagg) (Steps.isReal_of_allReal x hx)
    (Steps.isReal_of_allReal Wl hWl) (Steps.isReal_of_allReal Wr hWr) (Steps.isReal_of_allReal Ws hWs)
    (Steps.isRealRow_of_allReal bl hbl) (Steps.isRealRow_of_allReal bs hbs))

/-- Layer 2 of real features, weights and offsets is a real array. -/
theorem zR_2_real (ei : IVec ⟨2, ![2, 800000]⟩ 32) (x : (⟨2, ![50000, 256]⟩ : Shape).Idx → EReal)
    (Wl : (⟨2, ![256, 128]⟩ : Shape).Idx → EReal) (bl : (⟨1, ![128]⟩ : Shape).Idx → EReal) (Wr Ws : (⟨2, ![256, 128]⟩ : Shape).Idx → EReal) (bs : (⟨1, ![128]⟩ : Shape).Idx → EReal)
    (hx : VecReal.AllReal x) (hWl : VecReal.AllReal Wl) (hbl : VecReal.AllReal bl) (hWr : VecReal.AllReal Wr)
    (hWs : VecReal.AllReal Ws) (hbs : VecReal.AllReal bs) :
    VecReal.AllReal (zR_2 (F := Ideal) (aggR_256 (cntR ei) ei x) x Wl bl Wr Ws bs) := by
  have hagg : VecReal.AllReal (aggR_256 (F := Ideal) (cntR ei) ei x) := by
    unfold aggR_256 cntR
    exact Cert.AggReal.allReal_aggS_256 (srcR ei) (dstR ei) x hx
  refine Steps.allReal_of_isReal _ ?_
  have e : (fun i j => zR_2 (F := Ideal) (aggR_256 (cntR ei) ei x) x Wl bl Wr Ws bs (ix2 i j))
      = Net.relu (Net.linR (fun i k => aggR_256 (F := Ideal) (cntR ei) ei x (ix2 i k)) (fun i k => x (ix2 i k))
          (fun k j => Wl (ix2 k j)) (fun k j => Wr (ix2 k j)) (fun k j => Ws (ix2 k j)) (fun j => bl (ix1 j))
          (fun j => bs (ix1 j))) :=
    funext fun i => funext fun j => Cert.ReferenceIdeal.RefAt.zR_2_at _ x Wl bl Wr Ws bs i j
  rw [e]
  exact Net.isReal_relu (Net.isReal_linR (Steps.isReal_of_allReal _ hagg) (Steps.isReal_of_allReal x hx)
    (Steps.isReal_of_allReal Wl hWl) (Steps.isReal_of_allReal Wr hWr) (Steps.isReal_of_allReal Ws hWs)
    (Steps.isRealRow_of_allReal bl hbl) (Steps.isRealRow_of_allReal bs hbs))

/-- Layer 3 of real features, weights and offsets is a real array. -/
theorem zR_3_real (ei : IVec ⟨2, ![2, 800000]⟩ 32) (x : (⟨2, ![50000, 128]⟩ : Shape).Idx → EReal)
    (Wl : (⟨2, ![128, 64]⟩ : Shape).Idx → EReal) (bl : (⟨1, ![64]⟩ : Shape).Idx → EReal) (Wr Ws : (⟨2, ![128, 64]⟩ : Shape).Idx → EReal) (bs : (⟨1, ![64]⟩ : Shape).Idx → EReal)
    (hx : VecReal.AllReal x) (hWl : VecReal.AllReal Wl) (hbl : VecReal.AllReal bl) (hWr : VecReal.AllReal Wr)
    (hWs : VecReal.AllReal Ws) (hbs : VecReal.AllReal bs) :
    VecReal.AllReal (zR_3 (F := Ideal) (aggR_128 (cntR ei) ei x) x Wl bl Wr Ws bs) := by
  have hagg : VecReal.AllReal (aggR_128 (F := Ideal) (cntR ei) ei x) := by
    unfold aggR_128 cntR
    exact Cert.AggReal.allReal_aggS_128 (srcR ei) (dstR ei) x hx
  refine Steps.allReal_of_isReal _ ?_
  have e : (fun i j => zR_3 (F := Ideal) (aggR_128 (cntR ei) ei x) x Wl bl Wr Ws bs (ix2 i j))
      = Net.relu (Net.linR (fun i k => aggR_128 (F := Ideal) (cntR ei) ei x (ix2 i k)) (fun i k => x (ix2 i k))
          (fun k j => Wl (ix2 k j)) (fun k j => Wr (ix2 k j)) (fun k j => Ws (ix2 k j)) (fun j => bl (ix1 j))
          (fun j => bs (ix1 j))) :=
    funext fun i => funext fun j => Cert.ReferenceIdeal.RefAt.zR_3_at _ x Wl bl Wr Ws bs i j
  rw [e]
  exact Net.isReal_relu (Net.isReal_linR (Steps.isReal_of_allReal _ hagg) (Steps.isReal_of_allReal x hx)
    (Steps.isReal_of_allReal Wl hWl) (Steps.isReal_of_allReal Wr hWr) (Steps.isReal_of_allReal Ws hWs)
    (Steps.isRealRow_of_allReal bl hbl) (Steps.isRealRow_of_allReal bs hbs))

end Cert.Bridge

end
-- ==== Proof.RefNormAt.lean ====
/-
  The reference's column normalisation, layer by layer, read at one entry.

  A layer's output matrix z is normalised column by column: the column mean is the column sum from zero divided by
  the number of rows; the variance is the column sum of the squared deviations from that mean divided by the same
  number, taken under a guard that asks the divisor to be positive, which it is; and the result at (i, j) is
  ((z i j − mean j) · (var j + eps)^(−1/2)) · g j + be j. Read entry by entry these are the specification's column mean,
  column variance and normalisation of the matrix of entries of z.
-/
import proofs.«144552_j81088982548491_1_alg».proof.Proof.RefLayers
import proofs.«144552_j81088982548491_1_alg».proof.Proof.LibHostAt
import proofs.«144552_j81088982548491_1_alg».proof.Proof.Consts

noncomputable section

namespace Cert.ReferenceIdeal.RefNormAt

open Cert.ReferenceIdeal Cert.ReferenceIdeal.Gen Cert.ReferenceIdeal.RefRun
open Idealize.ShloMosaic Idealize.ShloMosaic.ValueIdx

/-- Layer 1's column mean at j. -/
theorem meanR_1_at (z : FVec Ideal S50000x256 .f32) (j : Fin 256) :
    meanR_1 (F := Ideal) z (ix1 j) = Net.muR (fun i k => z (ix2 i k)) (Ideal.ofBits .f32 0x47435000#32) j := by
  unfold meanR_1
  exact LibHostAt.muR_at _ _ _ z _ j

/-- Layer 1's guarded column variance at j: the number of rows is positive, so the guard holds. -/
theorem varR_1_at (z : FVec Ideal S50000x256 .f32) (j : Fin 256) :
    varR_1 (F := Ideal) z (ix1 j) = Net.varR (fun i k => z (ix2 i k)) (Ideal.ofBits .f32 0x47435000#32) j := by
  unfold varR_1 cenR_1 ddofR
  exact LibHostAt.varR_at _ _ _ _ _ _ z _ _ _ rfl ⟨50000, by norm_num, Consts.ofBits_50000⟩ j

/-- Layer 1's normalisation at (i, j). -/
theorem bnR_1_at (z : FVec Ideal S50000x256 .f32) (g be : FVec Ideal S256 .f32) (i : Fin 50000) (j : Fin 256) :
    bnR_1 (F := Ideal) z g be (ix2 i j)
      = Net.bn (fun i k => z (ix2 i k)) (Net.muR (fun i k => z (ix2 i k)) (Ideal.ofBits .f32 0x47435000#32))
          (Net.varR (fun i k => z (ix2 i k)) (Ideal.ofBits .f32 0x47435000#32)) (fun j => g (ix1 j)) (fun j => be (ix1 j))
          (Ideal.ofBits .f32 0x3727C5AC#32) i j := by
  unfold bnR_1
  rw [LibHostAt.bn_at, show (fun j => meanR_1 (F := Ideal) z (ix1 j)) = _ from funext (meanR_1_at z),
    show (fun j => varR_1 (F := Ideal) z (ix1 j)) = _ from funext (varR_1_at z)]

/-- Layer 2's column mean at j. -/
theorem meanR_2_at (z : FVec Ideal S50000x128 .f32) (j : Fin 128) :
    meanR_2 (F := Ideal) z (ix1 j) = Net.muR (fun i k => z (ix2 i k)) (Ideal.ofBits .f32 0x47435000#32) j := by
  unfold meanR_2
  exact LibHostAt.muR_at _ _ _ z _ j

/-- Layer 2's guarded column variance at j: the number of rows is positive, so the guard holds. -/
theorem varR_2_at (z : FVec Ideal S50000x128 .f32) (j : Fin 128) :
    varR_2 (F := Ideal) z (ix1 j) = Net.varR (fun i k => z (ix2 i k)) (Ideal.ofBits .f32 0x47435000#32) j := by
  unfold varR_2 cenR_2 ddofR
  exact LibHostAt.varR_at _ _ _ _ _ _ z _ _ _ rfl ⟨50000, by norm_num, Consts.ofBits_50000⟩ j

/-- Layer 2's normalisation at (i, j). -/
theorem bnR_2_at (z : FVec Ideal S50000x128 .f32) (g be : FVec Ideal S128 .f32) (i : Fin 50000) (j : Fin 128) :
    bnR_2 (F := Ideal) z g be (ix2 i j)
      = Net.bn (fun i k => z (ix2 i k)) (Net.muR (fun i k => z (ix2 i k)) (Ideal.ofBits .f32 0x47435000#32))
          (Net.varR (fun i k => z (ix2 i k)) (Ideal.ofBits .f32 0x47435000#32)) (fun j => g (ix1 j)) (fun j => be (ix1 j))
          (Ideal.ofBits .f32 0x3727C5AC#32) i j := by
  unfold bnR_2
  rw [LibHostAt.bn_at, show (fun j => meanR_2 (F := Ideal) z (ix1 j)) = _ from funext (meanR_2_at z),
    show (fun j => varR_2 (F := Ideal) z (ix1 j)) = _ from funext (varR_2_at z)]

/-- Layer 3's column mean at j. -/
theorem meanR_3_at (z : FVec Ideal S50000x64 .f32) (j : Fin 64) :
    meanR_3 (F := Ideal) z (ix1 j) = Net.muR (fun i k => z (ix2 i k)) (Ideal.ofBits .f32 0x47435000#32) j := by
  unfold meanR_3
  exact LibHostAt.muR_at _ _ _ z _ j

/-- Layer 3's guarded column variance at j: the number of rows is positive, so the guard holds. -/
theorem varR_3_at (z : FVec Ideal S50000x64 .f32) (j : Fin 64) :
    varR_3 (F := Ideal) z (ix1 j) = Net.varR (fun i k => z (ix2 i k)) (Ideal.ofBits .f32 0x47435000#32) j := by
  unfold varR_3 cenR_3 ddofR
  exact LibHostAt.varR_at _ _ _ _ _ _ z _ _ _ rfl ⟨50000, by norm_num, Consts.ofBits_50000⟩ j

/-- Layer 3's normalisation at (i, j). -/
theorem bnR_3_at (z : FVec Ideal S50000x64 .f32) (g be : FVec Ideal S64 .f32) (i : Fin 50000) (j : Fin 64) :
    bnR_3 (F := Ideal) z g be (ix2 i j)
      = Net.bn (fun i k => z (ix2 i k)) (Net.muR (fun i k => z (ix2 i k)) (Ideal.ofBits .f32 0x47435000#32))
          (Net.varR (fun i k => z (ix2 i k)) (Ideal.ofBits .f32 0x47435000#32)) (fun j => g (ix1 j)) (fun j => be (ix1 j))
          (Ideal.ofBits .f32 0x3727C5AC#32) i j := by
  unfold bnR_3
  rw [LibHostAt.bn_at, show (fun j => meanR_3 (F := Ideal) z (ix1 j)) = _ from funext (meanR_3_at z),
    show (fun j => varR_3 (F := Ideal) z (ix1 j)) = _ from funext (varR_3_at z)]

end Cert.ReferenceIdeal.RefNormAt

end
-- ==== Proof.BridgeBn.lean ====
/-
  The normalisations of the two programs joined, layer by layer.

  One program normalises a layer's output Z with a mean and a variance taken from accumulated column sums: the mean is
  the column sum over the number of rows, the variance the column sum of squares over that number less the square of
  the mean. The other takes the mean the same way and the variance as the mean squared deviation. For a matrix of real
  numbers with 50000 rows the two variances are the same number, so the two normalised arrays are equal; and the
  normalised array of a real matrix, with real scale and offset, is again real, because the variance is a nonnegative
  real number and the constant added to it before the inverse square root is positive.
-/
import proofs.«144552_j81088982548491_1_alg».proof.Proof.BridgeSteps
import proofs.«144552_j81088982548491_1_alg».proof.Proof.RefNormAt
import proofs.«144552_j81088982548491_1_alg».proof.Proof.Consts

noncomputable section

namespace Cert.Bridge

open Idealize.ShloMosaic Idealize.ShloMosaic.ValueIdx

/-- The float constant that both programs divide the column sums by is the number of rows, 50000. -/
theorem nodes_eq : Ideal.ofBits .f32 0x47435000#32 = (((50000 : ℕ) : ℝ) : EReal) := by
  rw [Consts.ofBits_50000, Nat.cast_ofNat]

/-- Layer 1: an array that, entry by entry, is the normalisation of Z by the mean and variance taken from the column
    sums S and the column sums of squares SS is the reference's normalisation of Z, when Z is real. -/
theorem bn1_eq (HK Z : (⟨2, ![50000, 256]⟩ : Shape).Idx → EReal) (S SS : (⟨2, ![1, 256]⟩ : Shape).Idx → EReal)
    (g be : (⟨1, ![256]⟩ : Shape).Idx → EReal)
    (hS : ∀ j, S (ix2 (0 : Fin 1) j) = Net.colsum (fun i j => Z (ix2 i j)) j)
    (hSS : ∀ j, SS (ix2 (0 : Fin 1) j) = Net.colsumsq (fun i j => Z (ix2 i j)) j)
    (hHK : ∀ i j, HK (ix2 i j)
      = Net.bn (fun i j => Z (ix2 i j)) (Net.meanK (fun j => S (ix2 (0 : Fin 1) j)) (Ideal.ofBits .f32 0x47435000#32))
          (Net.varK (fun j => SS (ix2 (0 : Fin 1) j)) (fun j => S (ix2 (0 : Fin 1) j)) (Ideal.ofBits .f32 0x47435000#32))
          (fun j => g (ix1 j)) (fun j => be (ix1 j)) (Ideal.ofBits .f32 0x3727C5AC#32) i j)
    (hZ : VecReal.AllReal Z) : HK = Cert.ReferenceIdeal.RefRun.bnR_1 (F := Ideal) Z g be := by
  refine Steps.ext2 _ _ fun i j => ?_
  rw [hHK, Cert.ReferenceIdeal.RefNormAt.bnR_1_at]
  exact congrFun (congrFun (Steps.bn_step (n := 50000) (by norm_num) (fun i j => Z (ix2 i j))
    (fun j => S (ix2 (0 : Fin 1) j)) (fun j => SS (ix2 (0 : Fin 1) j)) _ _ (fun j => g (ix1 j)) (fun j => be (ix1 j)) _ _
    nodes_eq hS hSS (fun _ => rfl) (fun _ => rfl) (Steps.isReal_of_allReal Z hZ)) i) j

/-- Layer 1: the reference's normalisation of a real array by real scale and offset vectors is a real array. -/
theorem bnR_1_real (z : (⟨2, ![50000, 256]⟩ : Shape).Idx → EReal) (g be : (⟨1, ![256]⟩ : Shape).Idx → EReal)
    (hz : VecReal.AllReal z) (hg : VecReal.AllReal g) (hbe : VecReal.AllReal be) :
    VecReal.AllReal (Cert.ReferenceIdeal.RefRun.bnR_1 (F := Ideal) z g be) := by
  refine Steps.allReal_of_isReal _ ?_
  have hzr := Steps.isReal_of_allReal z hz
  have h : (fun i j => Cert.ReferenceIdeal.RefRun.bnR_1 (F := Ideal) z g be (ix2 i j))
      = Net.bn (fun i j => z (ix2 i j)) (Net.muR (fun i j => z (ix2 i j)) (Ideal.ofBits .f32 0x47435000#32))
          (Net.varR (fun i j => z (ix2 i j)) (Ideal.ofBits .f32 0x47435000#32)) (fun j => g (ix1 j)) (fun j => be (ix1 j))
          (Ideal.ofBits .f32 0x3727C5AC#32) := by
    funext i j; exact Cert.ReferenceIdeal.RefNormAt.bnR_1_at z g be i j
  rw [h, nodes_eq]
  exact Net.isReal_bn hzr (Net.isRealRow_muR hzr (by norm_num)) (Net.varR_nonneg hzr (by norm_num))
    (Steps.isRealRow_of_allReal g hg) (Steps.isRealRow_of_allReal be hbe) Consts.ofBits_eps

/-- Layer 2: an array that, entry by entry, is the normalisation of Z by the mean and variance taken from the column
    sums S and the column sums of squares SS is the reference's normalisation of Z, when Z is real. -/
theorem bn2_eq (HK Z : (⟨2, ![50000, 128]⟩ : Shape).Idx → EReal) (S SS : (⟨2, ![1, 128]⟩ : Shape).Idx → EReal)
    (g be : (⟨1, ![128]⟩ : Shape).Idx → EReal)
    (hS : ∀ j, S (ix2 (0 : Fin 1) j) = Net.colsum (fun i j => Z (ix2 i j)) j)
    (hSS : ∀ j, SS (ix2 (0 : Fin 1) j) = Net.colsumsq (fun i j => Z (ix2 i j)) j)
    (hHK : ∀ i j, HK (ix2 i j)
      = Net.bn (fun i j => Z (ix2 i j)) (Net.meanK (fun j => S (ix2 (0 : Fin 1) j)) (Ideal.ofBits .f32 0x47435000#32))
          (Net.varK (fun j => SS (ix2 (0 : Fin 1) j)) (fun j => S (ix2 (0 : Fin 1) j)) (Ideal.ofBits .f32 0x47435000#32))
          (fun j => g (ix1 j)) (fun j => be (ix1 j)) (Ideal.ofBits .f32 0x3727C5AC#32) i j)
    (hZ : VecReal.AllReal Z) : HK = Cert.ReferenceIdeal.RefRun.bnR_2 (F := Ideal) Z g be := by
  refine Steps.ext2 _ _ fun i j => ?_
  rw [hHK, Cert.ReferenceIdeal.RefNormAt.bnR_2_at]
  exact congrFun (congrFun (Steps.bn_step (n := 50000) (by norm_num) (fun i j => Z (ix2 i j))
    (fun j => S (ix2 (0 : Fin 1) j)) (fun j => SS (ix2 (0 : Fin 1) j)) _ _ (fun j => g (ix1 j)) (fun j => be (ix1 j)) _ _
    nodes_eq hS hSS (fun _ => rfl) (fun _ => rfl) (Steps.isReal_of_allReal Z hZ)) i) j

/-- Layer 2: the reference's normalisation of a real array by real scale and offset vectors is a real array. -/
theorem bnR_2_real (z : (⟨2, ![50000, 128]⟩ : Shape).Idx → EReal) (g be : (⟨1, ![128]⟩ : Shape).Idx → EReal)
    (hz : VecReal.AllReal z) (hg : VecReal.AllReal g) (hbe : VecReal.AllReal be) :
    VecReal.AllReal (Cert.ReferenceIdeal.RefRun.bnR_2 (F := Ideal) z g be) := by
  refine Steps.allReal_of_isReal _ ?_
  have hzr := Steps.isReal_of_allReal z hz
  have h : (fun i j => Cert.ReferenceIdeal.RefRun.bnR_2 (F := Ideal) z g be (ix2 i j))
      = Net.bn (fun i j => z (ix2 i j)) (Net.muR (fun i j => z (ix2 i j)) (Ideal.ofBits .f32 0x47435000#32))
          (Net.varR (fun i j => z (ix2 i j)) (Ideal.ofBits .f32 0x47435000#32)) (fun j => g (ix1 j)) (fun j => be (ix1 j))
          (Ideal.ofBits .f32 0x3727C5AC#32) := by
    funext i j; exact Cert.ReferenceIdeal.RefNormAt.bnR_2_at z g be i j
  rw [h, nodes_eq]
  exact Net.isReal_bn hzr (Net.isRealRow_muR hzr (by norm_num)) (Net.varR_nonneg hzr (by norm_num))
    (Steps.isRealRow_of_allReal g hg) (Steps.isRealRow_of_allReal be hbe) Consts.ofBits_eps

/-- Layer 3: an array that, entry by entry, is the normalisation of Z by the mean and variance taken from the column
    sums S and the column sums of squares SS is the reference's normalisation of Z, when Z is real. -/
theorem bn3_eq (HK Z : (⟨2, ![50000, 64]⟩ : Shape).Idx → EReal) (S SS : (⟨2, ![1, 64]⟩ : Shape).Idx → EReal)
    (g be : (⟨1, ![64]⟩ : Shape).Idx → EReal)
    (hS : ∀ j, S (ix2 (0 : Fin 1) j) = Net.colsum (fun i j => Z (ix2 i j)) j)
    (hSS : ∀ j, SS (ix2 (0 : Fin 1) j) = Net.colsumsq (fun i j => Z (ix2 i j)) j)
    (hHK : ∀ i j, HK (ix2 i j)
      = Net.bn (fun i j => Z (ix2 i j)) (Net.meanK (fun j => S (ix2 (0 : Fin 1) j)) (Ideal.ofBits .f32 0x47435000#32))
          (Net.varK (fun j => SS (ix2 (0 : Fin 1) j)) (fun j => S (ix2 (0 : Fin 1) j)) (Ideal.ofBits .f32 0x47435000#32))
          (fun j => g (ix1 j)) (fun j => be (ix1 j)) (Ideal.ofBits .f32 0x3727C5AC#32) i j)
    (hZ : VecReal.AllReal Z) : HK = Cert.ReferenceIdeal.RefRun.bnR_3 (F := Ideal) Z g be := by
  refine Steps.ext2 _ _ fun i j => ?_
  rw [hHK, Cert.ReferenceIdeal.RefNormAt.bnR_3_at]
  exact congrFun (congrFun (Steps.bn_step (n := 50000) (by norm_num) (fun i j => Z (ix2 i j))
    (fun j => S (ix2 (0 : Fin 1) j)) (fun j => SS (ix2 (0 : Fin 1) j)) _ _ (fun j => g (ix1 j)) (fun j => be (ix1 j)) _ _
    nodes_eq hS hSS (fun _ => rfl) (fun _ => rfl) (Steps.isReal_of_allReal Z hZ)) i) j

/-- Layer 3: the reference's normalisation of a real array by real scale and offset vectors is a real array. -/
theorem bnR_3_real (z : (⟨2, ![50000, 64]⟩ : Shape).Idx → EReal) (g be : (⟨1, ![64]⟩ : Shape).Idx → EReal)
    (hz : VecReal.AllReal z) (hg : VecReal.AllReal g) (hbe : VecReal.AllReal be) :
    VecReal.AllReal (Cert.ReferenceIdeal.RefRun.bnR_3 (F := Ideal) z g be) := by
  refine Steps.allReal_of_isReal _ ?_
  have hzr := Steps.isReal_of_allReal z hz
  have h : (fun i j => Cert.ReferenceIdeal.RefRun.bnR_3 (F := Ideal) z g be (ix2 i j))
      = Net.bn (fun i j => z (ix2 i j)) (Net.muR (fun i j => z (ix2 i j)) (Ideal.ofBits .f32 0x47435000#32))
          (Net.varR (fun i j => z (ix2 i j)) (Ideal.ofBits .f32 0x47435000#32)) (fun j => g (ix1 j)) (fun j => be (ix1 j))
          (Ideal.ofBits .f32 0x3727C5AC#32) := by
    funext i j; exact Cert.ReferenceIdeal.RefNormAt.bnR_3_at z g be i j
  rw [h, nodes_eq]
  exact Net.isReal_bn hzr (Net.isRealRow_muR hzr (by norm_num)) (Net.varR_nonneg hzr (by norm_num))
    (Steps.isRealRow_of_allReal g hg) (Steps.isRealRow_of_allReal be hbe) Consts.ofBits_eps

end Cert.Bridge

end
-- ==== Proof.BridgeChain.lean ====
/-
  The whole network, layer after layer. Given what each region of one program leaves in its arrays — a layer's
  rectified linear part with its column sums and sums of squares, then the normalised matrix — as functions of
  the arrays before it, the last array is the other program's composed result: each linear part is equal once the
  features entering it and the two summed weight matrices are real, each normalisation once the matrix entering
  it is real, and realness passes from the inputs through every layer (neighbourhood means, contractions,
  positive parts, normalisations by a positive variance offset).
-/
import proofs.«144552_j81088982548491_1_alg».proof.Proof.BridgeSage
import proofs.«144552_j81088982548491_1_alg».proof.Proof.BridgeBn

noncomputable section

namespace Cert.Bridge

open Idealize.ShloMosaic Idealize.ShloMosaic.ValueIdx Cert.VecReal

/-- The kernel program's last array is the reference's composed result. -/
theorem chain (a0 : (⟨2, ![50000, 128]⟩ : Shape).Idx → EReal) (a1 : IVec ⟨2, ![2, 800000]⟩ 32)
    (a2 : (⟨2, ![128, 256]⟩ : Shape).Idx → EReal) (a3 : (⟨1, ![256]⟩ : Shape).Idx → EReal) (a4 a5 : (⟨2, ![128, 256]⟩ : Shape).Idx → EReal) (a6 : (⟨1, ![256]⟩ : Shape).Idx → EReal) (a7 a8 : (⟨1, ![256]⟩ : Shape).Idx → EReal)
    (a9 : (⟨2, ![256, 128]⟩ : Shape).Idx → EReal) (a10 : (⟨1, ![128]⟩ : Shape).Idx → EReal) (a11 a12 : (⟨2, ![256, 128]⟩ : Shape).Idx → EReal) (a13 : (⟨1, ![128]⟩ : Shape).Idx → EReal) (a14 a15 : (⟨1, ![128]⟩ : Shape).Idx → EReal)
    (a16 : (⟨2, ![128, 64]⟩ : Shape).Idx → EReal) (a17 : (⟨1, ![64]⟩ : Shape).Idx → EReal) (a18 a19 : (⟨2, ![128, 64]⟩ : Shape).Idx → EReal) (a20 : (⟨1, ![64]⟩ : Shape).Idx → EReal) (a21 a22 : (⟨1, ![64]⟩ : Shape).Idx → EReal)
    (a23 : (⟨2, ![64, 40]⟩ : Shape).Idx → EReal) (a24 : (⟨1, ![40]⟩ : Shape).Idx → EReal) (a25 a26 : (⟨2, ![64, 40]⟩ : Shape).Idx → EReal) (a27 : (⟨1, ![40]⟩ : Shape).Idx → EReal)
    (Z1 : (⟨2, ![50000, 256]⟩ : Shape).Idx → EReal) (S1 SS1 : (⟨2, ![1, 256]⟩ : Shape).Idx → EReal) (H1 : (⟨2, ![50000, 256]⟩ : Shape).Idx → EReal)
    (Z2 : (⟨2, ![50000, 128]⟩ : Shape).Idx → EReal) (S2 SS2 : (⟨2, ![1, 128]⟩ : Shape).Idx → EReal) (H2 : (⟨2, ![50000, 128]⟩ : Shape).Idx → EReal)
    (Z3 : (⟨2, ![50000, 64]⟩ : Shape).Idx → EReal) (S3 SS3 : (⟨2, ![1, 64]⟩ : Shape).Idx → EReal) (H3 : (⟨2, ![50000, 64]⟩ : Shape).Idx → EReal)
    (OUT : (⟨2, ![50000, 40]⟩ : Shape).Idx → EReal)
    (kz1 : ∀ i j, Z1 (ix2 i j) = Net.relu (Net.linK (fun i k => Cert.KernelIdeal.KHost.aggK_128 (F := Ideal) a1 a0 (ix2 i k)) (fun i k => a0 (ix2 i k)) (fun k j => a2 (ix2 k j)) (fun k j => a4 (ix2 k j) + a5 (ix2 k j)) (fun j => a3 (ix1 j) + a6 (ix1 j))) i j)
    (ks1 : ∀ j, S1 (ix2 0 j) = Net.colsum (fun i j => Z1 (ix2 i j)) j)
    (kss1 : ∀ j, SS1 (ix2 0 j) = Net.colsumsq (fun i j => Z1 (ix2 i j)) j)
    (kbn1 : ∀ i j, H1 (ix2 i j) = Net.bn (fun i j => Z1 (ix2 i j)) (Net.meanK (fun j => S1 (ix2 0 j)) (Ideal.ofBits .f32 0x47435000#32)) (Net.varK (fun j => SS1 (ix2 0 j)) (fun j => S1 (ix2 0 j)) (Ideal.ofBits .f32 0x47435000#32)) (fun j => a7 (ix1 j)) (fun j => a8 (ix1 j)) (Ideal.ofBits .f32 0x3727C5AC#32) i j)
    (kz2 : ∀ i j, Z2 (ix2 i j) = Net.relu (Net.linK (fun i k => Cert.KernelIdeal.KHost.aggK_256 (F := Ideal) a1 H1 (ix2 i k)) (fun i k => H1 (ix2 i k)) (fun k j => a9 (ix2 k j)) (fun k j => a11 (ix2 k j) + a12 (ix2 k j)) (fun j => a10 (ix1 j) + a13 (ix1 j))) i j)
    (ks2 : ∀ j, S2 (ix2 0 j) = Net.colsum (fun i j => Z2 (ix2 i j)) j)
    (kss2 : ∀ j, SS2 (ix2 0 j) = Net.colsumsq (fun i j => Z2 (ix2 i j)) j)
    (kbn2 : ∀ i j, H2 (ix2 i j) = Net.bn (fun i j => Z2 (ix2 i j)) (Net.meanK (fun j => S2 (ix2 0 j)) (Ideal.ofBits .f32 0x47435000#32)) (Net.varK (fun j => SS2 (ix2 0 j)) (fun j => S2 (ix2 0 j)) (Ideal.ofBits .f32 0x47435000#32)) (fun j => a14 (ix1 j)) (fun j => a15 (ix1 j)) (Ideal.ofBits .f32 0x3727C5AC#32) i j)
    (kz3 : ∀ i j, Z3 (ix2 i j) = Net.relu (Net.linK (fun i k => Cert.KernelIdeal.KHost.aggK_128 (F := Ideal) a1 H2 (ix2 i k)) (fun i k => H2 (ix2 i k)) (fun k j => a16 (ix2 k j)) (fun k j => a18 (ix2 k j) + a19 (ix2 k j)) (fun j => a17 (ix1 j) + a20 (ix1 j))) i j)
    (ks3 : ∀ j, S3 (ix2 0 j) = Net.colsum (fun i j => Z3 (ix2 i j)) j)
    (kss3 : ∀ j, SS3 (ix2 0 j) = Net.colsumsq (fun i j => Z3 (ix2 i j)) j)
    (kbn3 : ∀ i j, H3 (ix2 i j) = Net.bn (fun i j => Z3 (ix2 i j)) (Net.meanK (fun j => S3 (ix2 0 j)) (Ideal.ofBits .f32 0x47435000#32)) (Net.varK (fun j => SS3 (ix2 0 j)) (fun j => S3 (ix2 0 j)) (Ideal.ofBits .f32 0x47435000#32)) (fun j => a21 (ix1 j)) (fun j => a22 (ix1 j)) (Ideal.ofBits .f32 0x3727C5AC#32) i j)
    (kz4 : ∀ i j, OUT (ix2 i j) = (Net.linK (fun i k => Cert.KernelIdeal.KHost.aggK_64 (F := Ideal) a1 H3 (ix2 i k)) (fun i k => H3 (ix2 i k)) (fun k j => a23 (ix2 k j)) (fun k j => a25 (ix2 k j) + a26 (ix2 k j)) (fun j => a24 (ix1 j) + a27 (ix1 j))) i j)
    (r0 : AllReal a0) (ra2 : AllReal a2) (ra3 : AllReal a3) (ra4 : AllReal a4) (ra5 : AllReal a5) (ra6 : AllReal a6) (ra7 : AllReal a7) (ra8 : AllReal a8)
    (ra9 : AllReal a9) (ra10 : AllReal a10) (ra11 : AllReal a11) (ra12 : AllReal a12) (ra13 : AllReal a13) (ra14 : AllReal a14) (ra15 : AllReal a15)
    (ra16 : AllReal a16) (ra17 : AllReal a17) (ra18 : AllReal a18) (ra19 : AllReal a19) (ra20 : AllReal a20) (ra21 : AllReal a21) (ra22 : AllReal a22)
    (ra23 : AllReal a23) (ra24 : AllReal a24) (ra25 : AllReal a25) (ra26 : AllReal a26) (ra27 : AllReal a27)
    :
    OUT = Cert.ReferenceIdeal.RefRun.zR_4 (F := Ideal) (Cert.ReferenceIdeal.RefRun.aggR_64 (Cert.ReferenceIdeal.RefRun.cntR a1) a1 (Cert.ReferenceIdeal.RefRun.bnR_3 (F := Ideal) (Cert.ReferenceIdeal.RefRun.zR_3 (F := Ideal) (Cert.ReferenceIdeal.RefRun.aggR_128 (Cert.ReferenceIdeal.RefRun.cntR a1) a1 (Cert.ReferenceIdeal.RefRun.bnR_2 (F := Ideal) (Cert.ReferenceIdeal.RefRun.zR_2 (F := Ideal) (Cert.ReferenceIdeal.RefRun.aggR_256 (Cert.ReferenceIdeal.RefRun.cntR a1) a1 (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8)) (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8) a9 a10 a11 a12 a13) a14 a15)) (Cert.ReferenceIdeal.RefRun.bnR_2 (F := Ideal) (Cert.ReferenceIdeal.RefRun.zR_2 (F := Ideal) (Cert.ReferenceIdeal.RefRun.aggR_256 (Cert.ReferenceIdeal.RefRun.cntR a1) a1 (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8)) (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8) a9 a10 a11 a12 a13) a14 a15) a16 a17 a18 a19 a20) a21 a22)) (Cert.ReferenceIdeal.RefRun.bnR_3 (F := Ideal) (Cert.ReferenceIdeal.RefRun.zR_3 (F := Ideal) (Cert.ReferenceIdeal.RefRun.aggR_128 (Cert.ReferenceIdeal.RefRun.cntR a1) a1 (Cert.ReferenceIdeal.RefRun.bnR_2 (F := Ideal) (Cert.ReferenceIdeal.RefRun.zR_2 (F := Ideal) (Cert.ReferenceIdeal.RefRun.aggR_256 (Cert.ReferenceIdeal.RefRun.cntR a1) a1 (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8)) (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8) a9 a10 a11 a12 a13) a14 a15)) (Cert.ReferenceIdeal.RefRun.bnR_2 (F := Ideal) (Cert.ReferenceIdeal.RefRun.zR_2 (F := Ideal) (Cert.ReferenceIdeal.RefRun.aggR_256 (Cert.ReferenceIdeal.RefRun.cntR a1) a1 (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8)) (Cert.ReferenceIdeal.RefRun.bnR_1 (F := Ideal) (Cert.ReferenceIdeal.RefRun.zR_1 (F := Ideal) (Cert.ReferenceIdeal.RefRun.aggR_128 (Cert.ReferenceIdeal.RefRun.cntR a1) a1 a0) a0 a2 a3 a4 a5 a6) a7 a8) a9 a10 a11 a12 a13) a14 a15) a16 a17 a18 a19 a20) a21 a22) a23 a24 a25 a26 a27 := by
  have e1 : Z1 = Cert.ReferenceIdeal.RefRun.zR_1 (F := Ideal) (Cert.ReferenceIdeal.RefRun.aggR_128 (Cert.ReferenceIdeal.RefRun.cntR a1) a1 a0) a0 a2 a3 a4 a5 a6 :=
    sage1_eq Z1 a1 a0 a2 a3 a4 a5 a6 kz1 r0 ra4 ra5
  have rz1 : AllReal Z1 := e1 ▸ zR_1_real a1 a0 a2 a3 a4 a5 a6 r0 ra2 ra3 ra4 ra5 ra6
  have f1 : H1 = Cert.ReferenceIdeal.RefRun.bnR_1 (F := Ideal) Z1 a7 a8 := bn1_eq H1 Z1 S1 SS1 a7 a8 ks1 kss1 kbn1 rz1
  have rh1 : AllReal H1 := f1 ▸ bnR_1_real Z1 a7 a8 rz1 ra7 ra8
  have e2 : Z2 = Cert.ReferenceIdeal.RefRun.zR_2 (F := Ideal) (Cert.ReferenceIdeal.RefRun.aggR_256 (Cert.ReferenceIdeal.RefRun.cntR a1) a1 H1) H1 a9 a10 a11 a12 a13 :=
    sage2_eq Z2 a1 H1 a9 a10 a11 a12 a13 kz2 rh1 ra11 ra12
  have rz2 : AllReal Z2 := e2 ▸ zR_2_real a1 H1 a9 a10 a11 a12 a13 rh1 ra9 ra10 ra11 ra12 ra13
  have f2 : H2 = Cert.ReferenceIdeal.RefRun.bnR_2 (F := Ideal) Z2 a14 a15 := bn2_eq H2 Z2 S2 SS2 a14 a15 ks2 kss2 kbn2 rz2
  have rh2 : AllReal H2 := f2 ▸ bnR_2_real Z2 a14 a15 rz2 ra14 ra15
  have e3 : Z3 = Cert.ReferenceIdeal.RefRun.zR_3 (F := Ideal) (Cert.ReferenceIdeal.RefRun.aggR_128 (Cert.ReferenceIdeal.RefRun.cntR a1) a1 H2) H2 a16 a17 a18 a19 a20 :=
    sage3_eq Z3 a1 H2 a16 a17 a18 a19 a20 kz3 rh2 ra18 ra19
  have rz3 : AllReal Z3 := e3 ▸ zR_3_real a1 H2 a16 a17 a18 a19 a20 rh2 ra16 ra17 ra18 ra19 ra20
  have f3 : H3 = Cert.ReferenceIdeal.RefRun.bnR_3 (F := Ideal) Z3 a21 a22 := bn3_eq H3 Z3 S3 SS3 a21 a22 ks3 kss3 kbn3 rz3
  have rh3 : AllReal H3 := f3 ▸ bnR_3_real Z3 a21 a22 rz3 ra21 ra22
  have e4 : OUT = Cert.ReferenceIdeal.RefRun.zR_4 (F := Ideal) (Cert.ReferenceIdeal.RefRun.aggR_64 (Cert.ReferenceIdeal.RefRun.cntR a1) a1 H3) H3 a23 a24 a25 a26 a27 :=
    sage4_eq OUT a1 H3 a23 a24 a25 a26 a27 kz4 rh3 ra25 ra26
  rw [e4, f3, e3, f2, e2, f1, e1]

end Cert.Bridge

end
-- ==== Proof.KHostSageAt.lean ====
import proofs.«144552_j81088982548491_1_alg».proof.Proof.KHostSage
import proofs.«144552_j81088982548491_1_alg».proof.Proof.Spec
import Idealize.ShloMosaic.Lib.ValueIdx
import Idealize.ShloMosaic.Lib.ValueLayout

/-! # The layer parameters a region is entered with, read at an index, over the extended reals

Over the extended reals a change of format is the identity, so the neighbour weight rounded to the narrow format
reads as the weight itself, the rounded sum of the two self weights as the sum of their entries, and the row vector
made of the sum of the two biases as the sum of their entries, at every index. -/

noncomputable section

namespace Cert.KernelIdeal.KHost

open Idealize.ShloMosaic Idealize.ShloMosaic.ValueIdx
open Cert.KernelIdeal Cert.KernelIdeal.Gen

/-! ## Layer 1: 128 inputs, 256 outputs -/

/-- The rounded neighbour weight is the weight. -/
theorem wl_apply_0 (W : S128x256.Idx → EReal) (k : Fin 128) (j : Fin 256) :
    (truncf (F := Ideal) (φ := .f32) .bf16 W bitsLt_bf16_f32) (ix2 k j) = W (ix2 k j) := rfl

/-- The rounded sum of the two self weights is the sum of their entries. -/
theorem wrs_apply_0 (Wr Ws : S128x256.Idx → EReal) (k : Fin 128) (j : Fin 256) :
    (truncf (F := Ideal) (φ := .f32) .bf16 (addf (F := Ideal) (φ := .f32) Wr Ws) bitsLt_bf16_f32) (ix2 k j)
      = Wr (ix2 k j) + Ws (ix2 k j) := rfl

/-- The bias row is the sum of the two biases' entries. -/
theorem b_apply_0 (bl bs : S256.Idx → EReal) (j : Fin 256) :
    (fun i => shapeCast S1x256 (addf (F := Ideal) (φ := .f32) bl bs) shapeCasts_S256_S1x256 i) (ix2 (0 : Fin 1) j)
      = bl (ix1 j) + bs (ix1 j) :=
  (shapeCast_a_1a_apply (addf (F := Ideal) (φ := .f32) bl bs) shapeCasts_S256_S1x256 0 j).trans rfl

/-! ## Layer 2: 256 inputs, 128 outputs -/

/-- The rounded neighbour weight is the weight. -/
theorem wl_apply_2 (W : S256x128.Idx → EReal) (k : Fin 256) (j : Fin 128) :
    (truncf (F := Ideal) (φ := .f32) .bf16 W bitsLt_bf16_f32) (ix2 k j) = W (ix2 k j) := rfl

/-- The rounded sum of the two self weights is the sum of their entries. -/
theorem wrs_apply_2 (Wr Ws : S256x128.Idx → EReal) (k : Fin 256) (j : Fin 128) :
    (truncf (F := Ideal) (φ := .f32) .bf16 (addf (F := Ideal) (φ := .f32) Wr Ws) bitsLt_bf16_f32) (ix2 k j)
      = Wr (ix2 k j) + Ws (ix2 k j) := rfl

/-- The bias row is the sum of the two biases' entries. -/
theorem b_apply_2 (bl bs : S128.Idx → EReal) (j : Fin 128) :
    (fun i => shapeCast S1x128 (addf (F := Ideal) (φ := .f32) bl bs) shapeCasts_S128_S1x128 i) (ix2 (0 : Fin 1) j)
      = bl (ix1 j) + bs (ix1 j) :=
  (shapeCast_a_1a_apply (addf (F := Ideal) (φ := .f32) bl bs) shapeCasts_S128_S1x128 0 j).trans rfl

/-! ## Layer 3: 128 inputs, 64 outputs -/

/-- The rounded neighbour weight is the weight. -/
theorem wl_apply_4 (W : S128x64.Idx → EReal) (k : Fin 128) (j : Fin 64) :
    (truncf (F := Ideal) (φ := .f32) .bf16 W bitsLt_bf16_f32) (ix2 k j) = W (ix2 k j) := rfl

/-- The rounded sum of the two self weights is the sum of their entries. -/
theorem wrs_apply_4 (Wr Ws : S128x64.Idx → EReal) (k : Fin 128) (j : Fin 64) :
    (truncf (F := Ideal) (φ := .f32) .bf16 (addf (F := Ideal) (φ := .f32) Wr Ws) bitsLt_bf16_f32) (ix2 k j)
      = Wr (ix2 k j) + Ws (ix2 k j) := rfl

/-- The bias row is the sum of the two biases' entries. -/
theorem b_apply_4 (bl bs : S64.Idx → EReal) (j : Fin 64) :
    (fun i => shapeCast S1x64 (addf (F := Ideal) (φ := .f32) bl bs) shapeCasts_S64_S1x64 i) (ix2 (0 : Fin 1) j)
      = bl (ix1 j) + bs (ix1 j) :=
  (shapeCast_a_1a_apply (addf (F := Ideal) (φ := .f32) bl bs) shapeCasts_S64_S1x64 0 j).trans rfl

/-! ## Layer 4: 64 inputs, 40 outputs -/

/-- The rounded neighbour weight is the weight. -/
theorem wl_apply_6 (W : S64x40.Idx → EReal) (k : Fin 64) (j : Fin 40) :
    (truncf (F := Ideal) (φ := .f32) .bf16 W bitsLt_bf16_f32) (ix2 k j) = W (ix2 k j) := rfl

/-- The rounded sum of the two self weights is the sum of their entries. -/
theorem wrs_apply_6 (Wr Ws : S64x40.Idx → EReal) (k : Fin 64) (j : Fin 40) :
    (truncf (F := Ideal) (φ := .f32) .bf16 (addf (F := Ideal) (φ := .f32) Wr Ws) bitsLt_bf16_f32) (ix2 k j)
      = Wr (ix2 k j) + Ws (ix2 k j) := rfl

/-- The bias row is the sum of the two biases' entries. -/
theorem b_apply_6 (bl bs : S40.Idx → EReal) (j : Fin 40) :
    (fun i => shapeCast S1x40 (addf (F := Ideal) (φ := .f32) bl bs) shapeCasts_S40_S1x40 i) (ix2 (0 : Fin 1) j)
      = bl (ix1 j) + bs (ix1 j) :=
  (shapeCast_a_1a_apply (addf (F := Ideal) (φ := .f32) bl bs) shapeCasts_S40_S1x40 0 j).trans rfl

end Cert.KernelIdeal.KHost
-- ==== Proof.Sage0Pieces.lean ====
/-
  What one grid point of the first layer's kernel leaves in its three output buffers, as values of the point's
  input blocks: the block of the layer's output is the activation of the block's rows, and each of the two
  accumulator rows is the row it held before the point (the zero row at the first point, where the kernel resets
  it) plus the block's column sums, of the entries or of their squares. Stated for any float instance.
-/
import proofs.«144552_j81088982548491_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Sage0

open Cert.KernelIdeal Cert.KernelIdeal.Gen

variable {F : FTy → Type} [FloatOps F]

/-- The zero offsets of every whole-buffer load and store. -/
theorem hz : (![0, 0] : Fin 2 → Nat) = fun _ => 0 := funext fun a => by fin_cases a <;> rfl

/-! ## The first grid point: the two accumulator rows are reset before they are read -/

/-- The block of the layer's output the first point leaves: the activation of the point's input blocks. -/
theorem out_A_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x256 .bf16) (h3 : a3.IsWhole) (a4 : Memref sig .tc .vmem S128x256 .bf16) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S5000x128 .f32) (x2 x3 : Vec F S128x256 .bf16) (x4 : Vec F S1x256 .f32) :
    out0_A_5 c i a1 h1 a2 h2 a3 h3 a4 h4 a5 h5 a6 h6 a7 h7 a8 h8 hc x0 x1 x2 x3 x4 = k0_pay2 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz]
  simp only [View.readAt_eq_ld, h1.read_unread, h2.read_unread, h3.read_unread, h4.read_unread, h5.read_unread,
    View.ld_unit_zero (S := S5000x128) hz, View.ld_unit_zero (S := S128x256) hz, View.ld_unit_zero (S := S1x256) hz]

/-- The row of column sums after the first point: the zero row plus the block's column sums. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x256 .bf16) (h3 : a3.IsWhole) (a4 : Memref sig .tc .vmem S128x256 .bf16) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S5000x128 .f32) (x2 x3 : Vec F S128x256 .bf16) (x4 : Vec F S1x256 .f32) :
    out0_A_6 c i a1 h1 a2 h2 a3 h3 a4 h4 a5 h5 a6 h6 a7 h7 a8 h8 hc x0 x1 x2 x3 x4 = k0_pay5 x0 x1 x2 x3 x4 (k0_pay3 (F := F)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread,
    View.ld_unit_zero (S := S5000x128) hz, View.ld_unit_zero (S := S128x256) hz, View.ld_unit_zero (S := S1x256) hz]

/-- The row of column sums of squares after the first point: the zero row plus the block's sums of squares. -/
theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x256 .bf16) (h3 : a3.IsWhole) (a4 : Memref sig .tc .vmem S128x256 .bf16) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : cond0_0 i) (x0 x1 : Vec F S5000x128 .f32) (x2 x3 : Vec F S128x256 .bf16) (x4 : Vec F S1x256 .f32) :
    out0_A_7 c i a1 h1 a2 h2 a3 h3 a4 h4 a5 h5 a6 h6 a7 h7 a8 h8 hc x0 x1 x2 x3 x4 = k0_pay1 (k0_pay6 (k0_pay4 (F := F))) (k0_pay7 x0 x1 x2 x3 x4) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz, View.readCov_unit_zero (S := S1x256) _ hz]
  simp only [View.readAt_eq_ld, h1.read_unread, h2.read_unread, h3.read_unread, h4.read_unread, h5.read_unread,
    View.ld_unit_zero (S := S5000x128) hz, View.ld_unit_zero (S := S128x256) hz, View.ld_unit_zero (S := S1x256) hz]

/-! ## Every later grid point: the two rows carry what the point before left -/

/-- The block of the layer's output a later point leaves: the activation of the point's input blocks. -/
theorem out_B_5 (c : Dev nD) (i : grid0.Coords) (a1 : Memref sig .tc .vmem S5000x128 .f32) (h1 : a1.IsWhole) (a2 : Memref sig .tc .vmem S5000x128 .f32) (h2 : a2.IsWhole) (a3 : Memref sig .tc .vmem S128x256 .bf16) (h3 : a3.IsWhole) (a4 : Memref sig .tc .vmem S128x256 .bf16) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S5000x128 .f32) (x2 x3 : Vec F S128x256 .bf16) (x4 : Vec F S1x256 .f32) (xo6 xo7 : Vec F S1x256 .f32) :
    out0_B_5 c i a1 h1 a2 h2 a3 h3 a4 h4 a5 h5 a6 h6 a7 h7 a8 h8 hc x0 x1 x2 x3 x4 xo6 xo7 = k0_pay2 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x256) hz, View.ld_unit_zero (S := S1x256) hz]

/-- The row of column sums after a later point: the row carried in plus the block's column sums. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x256 .bf16) (h3 : a3.IsWhole) (a4 : Memref sig .tc .vmem S128x256 .bf16) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S5000x128 .f32) (x2 x3 : Vec F S128x256 .bf16) (x4 : Vec F S1x256 .f32) (xo6 xo7 : Vec F S1x256 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x256) hz, View.ld_unit_zero (S := S1x256) hz]

/-- The row of column sums of squares after a later point: the row carried in plus the block's sums of squares. -/
theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x256 .bf16) (h3 : a3.IsWhole) (a4 : Memref sig .tc .vmem S128x256 .bf16) (h4 : a4.IsWhole) (a5 : Memref sig .tc .vmem S1x256 .f32) (h5 : a5.IsWhole) (a6 : Memref sig .tc .vmem S5000x256 .f32) (h6 : a6.IsWhole) (a7 : Memref sig .tc .vmem S1x256 .f32) (h7 : a7.IsWhole) (a8 : Memref sig .tc .vmem S1x256 .f32) (h8 : a8.IsWhole) (hc : ¬cond0_0 i) (x0 x1 : Vec F S5000x128 .f32) (x2 x3 : Vec F S128x256 .bf16) (x4 : Vec F S1x256 .f32) (xo6 xo7 : Vec F S1x256 .f32) :
    out0_B_7 c i a1 h1 a2 h2 a3 h3 a4 h4 a5 h5 a6 h6 a7 h7 a8 h8 hc x0 x1 x2 x3 x4 xo6 xo7 = k0_pay1 (k0_pay6 xo7) (k0_pay7 x0 x1 x2 x3 x4) := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x256) hz, View.ld_unit_zero (S := S1x256) hz]

end Cert.KernelIdeal.Sage0

end
-- ==== Proof.SageLayer.lean ====
/-
  One layer's arithmetic on a block of rows, entry by entry over the extended reals, for blocks of any extents:
  the value before the activation is the two contractions over the shared extent plus the offset row; the
  activation is the maximum with 0; a column's sum over the block's rows, kept as a one-row matrix, is the sum
  over the rows. The changes of float format on the way into the products are identities on extended reals.
-/
import proofs.«144552_j81088982548491_1_alg».proof.Proof.LibDot
import Idealize.ShloMosaic.Lib.ValueLayout

noncomputable section

namespace Cert.SageLayer

open Idealize.ShloMosaic Idealize.ShloMosaic.ValueIdx
open scoped BigOperators

variable {M K N : ℕ}

/-- The layer's value before its activation at entry (p, q): both products contract over the shared extent, the
    offset row is read at column q. The changes of float format and the casts to the same shape are identities. -/
theorem lin_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hlt : FTy.bits .bf16 < FTy.bits .f32)
    (hA : (⟨2, ![M, K]⟩ : Shape).ShapeCasts ⟨2, ![M, K]⟩) (hW : (⟨2, ![K, N]⟩ : Shape).ShapeCasts ⟨2, ![K, N]⟩)
    (hB : (⟨2, ![1, N]⟩ : Shape).ShapeCasts ⟨2, ![1, N]⟩) (hbc : (⟨2, ![1, N]⟩ : Shape).Broadcasts ⟨2, ![M, N]⟩)
    (a h : FVec Ideal ⟨2, ![M, K]⟩ .f32) (wl wrs : FVec Ideal ⟨2, ![K, N]⟩ .bf16) (b : FVec Ideal ⟨2, ![1, N]⟩ .f32)
    (p : Fin M) (q : Fin N) :
    addf (addf (matmul d none (truncf .bf16 (shapeCast ⟨2, ![M, K]⟩ a hA) hlt) (shapeCast ⟨2, ![K, N]⟩ wl hW)
                  (constant ⟨2, ![M, N]⟩ .f32 0x00000000#32))
               (matmul d none (truncf .bf16 h hlt) (shapeCast ⟨2, ![K, N]⟩ wrs hW)
                  (constant ⟨2, ![M, N]⟩ .f32 0x00000000#32)))
         (broadcastTo ⟨2, ![M, N]⟩ (shapeCast ⟨2, ![1, N]⟩ b hB) hbc) (ix2 p q)
      = ((∑ k : Fin K, a (ix2 p k) * wl (ix2 k q)) + ∑ k : Fin K, h (ix2 p k) * wrs (ix2 k q)) + b (ix2 (0 : Fin 1) q) := by
  rw [shapeCast_self, shapeCast_self, shapeCast_self, shapeCast_self]
  show (matmul d none (truncf .bf16 a hlt) wl (constant ⟨2, ![M, N]⟩ .f32 0x00000000#32) (ix2 p q)
      + matmul d none (truncf .bf16 h hlt) wrs (constant ⟨2, ![M, N]⟩ .f32 0x00000000#32) (ix2 p q))
      + broadcastTo ⟨2, ![M, N]⟩ b hbc (ix2 p q) = _
  rw [Cert.LibDot.matmul_plain d hlc hrc hln hrn hlb hrb, Cert.LibDot.matmul_plain d hlc hrc hln hrn hlb hrb,
    broadcastTo_1b_ab_apply]
  rfl

/-- The positive part at an entry: the broadcast zero word is the extended real 0. -/
theorem relu_apply {s : Shape} (x : FVec Ideal s .f32) (i : s.Idx) :
    maximumf x (broadcast s (Scalar.ofBits .f32 0x00000000#32)) i = max (x i) 0 := by
  show max (x i) (Ideal.ofBits .f32 0x00000000#32) = _
  rw [Ideal.ofBits_zero_f32]

/-- A column's sum over the rows of an M × N block, stored as a 1 × N row, at column q. -/
theorem colsum_apply (x : FVec Ideal ⟨2, ![M, N]⟩ .f32) (h : Shape.Reduces ⟨2, ![M, N]⟩ [0] ⟨1, ![N]⟩)
    (hφ : FKind.Formats .f32) (hacc : (0x00000000#32 : BitVec 32) = FKind.add.neutral .f32 hφ)
    (hsc : (⟨1, ![N]⟩ : Shape).ShapeCasts ⟨2, ![1, N]⟩) (q : Fin N) :
    shapeCast ⟨2, ![1, N]⟩ (multiReduction .add [0] ⟨1, ![N]⟩ x 0x00000000#32 h hφ hacc) hsc (ix2 (0 : Fin 1) q)
      = ∑ i : Fin M, x (ix2 i q) := by
  refine (shapeCast_a_1a_apply _ hsc 0 q).trans ?_
  refine (Ideal.multiReduction_add_single x _ h hφ hacc (ix1 q)).trans ?_
  show ∑ k : Fin M, x (h.lift (ix1 q) k) = _
  refine Finset.sum_congr rfl fun k _ => congrArg x ?_
  funext c
  apply Fin.ext
  match c with
  | ⟨0, _⟩ => rfl
  | ⟨1, _⟩ => rfl

end Cert.SageLayer

end
-- ==== Proof.SageSum.lean ====
/-
  Sums over the rows of a tall matrix taken block by block: a running total that starts from 0 and adds, for each
  block of B consecutive rows in turn, the sum over that block, is the sum over the rows seen so far; after the last
  block it is the sum over all the rows. Only the commutative-monoid laws of addition are used, so nothing needs the
  summands to be finite. Functions on an initial segment of the naturals are extended by 0 beyond it.
-/
import Idealize.ShloMosaic.PureOps.Ideal

noncomputable section

open scoped BigOperators

namespace Cert.SageSum

/-- A function on the first n naturals, extended by 0 to all of them. -/
def padded {n : ℕ} (f : Fin n → EReal) : ℕ → EReal := fun i => if h : i < n then f ⟨i, h⟩ else 0

/-- Below n the extension is the function. -/
theorem padded_of_lt {n : ℕ} (f : Fin n → EReal) (i : ℕ) (h : i < n) : padded f i = f ⟨i, h⟩ := dif_pos h

/-- The sum of the extension over the first n naturals is the sum of the function. -/
theorem sum_range_padded {n : ℕ} (f : Fin n → EReal) : ∑ i ∈ Finset.range n, padded f i = ∑ i : Fin n, f i := by
  rw [Finset.sum_range]
  exact Finset.sum_congr rfl fun i _ => padded_of_lt f i.val i.isLt

/-- The first block: 0 plus the sum over rows 0 … B − 1. -/
theorem first_block (g : ℕ → EReal) (B : ℕ) :
    (0 : EReal) + ∑ r : Fin B, g (B * 0 + r.val) = ∑ i ∈ Finset.range (B * (0 + 1)), g i := by
  rw [zero_add, Nat.mul_zero, Nat.zero_add, Nat.mul_one, Finset.sum_range]
  exact Finset.sum_congr rfl fun r _ => by rw [Nat.zero_add]

/-- The next block: the total over the first n + 1 blocks plus the sum over block n + 1. -/
theorem next_block (g : ℕ → EReal) (B n : ℕ) :
    (∑ i ∈ Finset.range (B * (n + 1)), g i) + ∑ r : Fin B, g (B * (n + 1) + r.val)
      = ∑ i ∈ Finset.range (B * (n + 1 + 1)), g i := by
  rw [show B * (n + 1 + 1) = B * (n + 1) + B from Nat.mul_succ B (n + 1), Finset.sum_range_add,
    Finset.sum_range (fun r => g (B * (n + 1) + r))]

end Cert.SageSum

end
-- ==== Proof.Sage0Value.lean ====
/-
  The first layer's kernel, grid point by grid point, as values of the arrays the region finds.

  The region walks the 50000 nodes in ten blocks of 5000 rows. At block t it reads rows 5000 · t … 5000 · t + 4999 of
  the neighbourhood means and of the node features, the two weight matrices and the offset row whole, and leaves
  (i) in the output's block the layer's output on those rows, max((agg · Wl + h · Wrs) + b, 0) entry by entry, and
  (ii) in each of two one-row accumulators the row it held before plus the block's column sums — of the entries and
  of their squares — starting from the zero row at the first block. By induction on the block, after block n the
  accumulators hold the sums over rows 0 … 5000 · (n + 1) − 1; only associativity and commutativity of addition on
  the extended reals are used, so no finiteness is needed.
-/
import proofs.«144552_j81088982548491_1_alg».proof.Proof.Sage0Pieces
import proofs.«144552_j81088982548491_1_alg».proof.Proof.SageLayer
import proofs.«144552_j81088982548491_1_alg».proof.Proof.SageSum
import proofs.«144552_j81088982548491_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Sage0

open Cert.KernelIdeal Cert.KernelIdeal.Gen

/-! ## The body's arithmetic on one block, entry by entry -/

/-- The activation of a block of rows at (r, j). -/
theorem pay2_apply (x0 x1 : Vec Ideal S5000x128 .f32) (x2 x3 : Vec Ideal S128x256 .bf16) (x4 : Vec Ideal S1x256 .f32)
    (r : Fin 5000) (j : Fin 256) :
    k0_pay2 x0 x1 x2 x3 x4 (ix2 r j)
      = max (((∑ k : Fin 128, x0 (ix2 r k) * x2 (ix2 k j)) + ∑ k : Fin 128, x1 (ix2 r k) * x3 (ix2 k j)) + x4 (ix2 (0 : Fin 1) j)) 0 := by
  unfold k0_pay2
  refine (Cert.SageLayer.relu_apply _ (ix2 r j)).trans ?_
  refine congrArg (max · 0) ?_
  exact Cert.SageLayer.lin_apply dot_S5000x128_S128x256_S5000x256_1_0_0_1_n_n rfl rfl rfl rfl rfl rfl bitsLt_bf16_f32
    shapeCasts_S5000x128_S5000x128 shapeCasts_S128x256_S128x256 shapeCasts_S1x256_S1x256 broadcasts_S1x256_S5000x256
    x0 x1 x2 x3 x4 r j

/-- The zero row the first point stores into the row of column sums. -/
theorem pay3_apply (j : Fin 256) : k0_pay3 (F := Ideal) (ix2 (0 : Fin 1) j) = 0 := Ideal.ofBits_zero_f32

/-- The zero row the first point stores into the row of sums of squares. -/
theorem pay4_apply (j : Fin 256) : k0_pay4 (F := Ideal) (ix2 (0 : Fin 1) j) = 0 := Ideal.ofBits_zero_f32

/-- The row of column sums after a point: the row before it plus the block's column sums. -/
theorem pay5_apply (x0 x1 : Vec Ideal S5000x128 .f32) (x2 x3 : Vec Ideal S128x256 .bf16) (x4 xo : Vec Ideal S1x256 .f32)
    (j : Fin 256) :
    k0_pay5 x0 x1 x2 x3 x4 xo (ix2 (0 : Fin 1) j)
      = xo (ix2 (0 : Fin 1) j) + ∑ r : Fin 5000, k0_pay2 x0 x1 x2 x3 x4 (ix2 r j) := by
  unfold k0_pay5
  show shapeCast S1x256 xo shapeCasts_S1x256_S1x256 (ix2 (0 : Fin 1) j) + _ = _
  rw [shapeCast_self]
  exact congrArg (xo (ix2 (0 : Fin 1) j) + ·)
    (Cert.SageLayer.colsum_apply (k0_pay2 x0 x1 x2 x3 x4) reduces_S5000x256_S256 (.inl rfl) rfl shapeCasts_S256_S1x256 j)

/-- The row of sums of squares after a point: the row before it plus the block's column sums of squares. -/
theorem pay1_apply (x0 x1 : Vec Ideal S5000x128 .f32) (x2 x3 : Vec Ideal S128x256 .bf16) (x4 xo : Vec Ideal S1x256 .f32)
    (j : Fin 256) :
    k0_pay1 (k0_pay6 xo) (k0_pay7 x0 x1 x2 x3 x4) (ix2 (0 : Fin 1) j)
      = xo (ix2 (0 : Fin 1) j) + ∑ r : Fin 5000, k0_pay2 x0 x1 x2 x3 x4 (ix2 r j) * k0_pay2 x0 x1 x2 x3 x4 (ix2 r j) := by
  unfold k0_pay1 k0_pay6 k0_pay7
  show shapeCast S1x256 xo shapeCasts_S1x256_S1x256 (ix2 (0 : Fin 1) j) + _ = _
  rw [shapeCast_self]
  exact congrArg (xo (ix2 (0 : Fin 1) j) + ·)
    (Cert.SageLayer.colsum_apply (mulf (k0_pay2 x0 x1 x2 x3 x4) (k0_pay2 x0 x1 x2 x3 x4)) reduces_S5000x256_S256 (.inl rfl) rfl
      shapeCasts_S256_S1x256 j)

/-! ## The arrays the region finds, and the layer they determine -/

variable (V : (c : Dev nD) → (b : Ref sig .tc) → Buf (Elt Ideal) ((c : Thread nD τ).loc b)) (c : Dev nD)

/-- The neighbourhood means, one row per node. -/
abbrev aggF : Fin 50000 → Fin 128 → EReal := fun i k => (V c (Pipeline.arrRef spec0 0) : S50000x128.Idx → EReal) (ix2 i k)
/-- The node features, one row per node. -/
abbrev hF : Fin 50000 → Fin 128 → EReal := fun i k => (V c (Pipeline.arrRef spec0 1) : S50000x128.Idx → EReal) (ix2 i k)
/-- The weights the means are contracted with. -/
abbrev wlF : Fin 128 → Fin 256 → EReal := fun k j => (V c (Pipeline.arrRef spec0 2) : S128x256.Idx → EReal) (ix2 k j)
/-- The weights the features are contracted with. -/
abbrev wrsF : Fin 128 → Fin 256 → EReal := fun k j => (V c (Pipeline.arrRef spec0 3) : S128x256.Idx → EReal) (ix2 k j)
/-- The offsets, one per output column. -/
abbrev bF : Fin 256 → EReal := fun j => (V c (Pipeline.arrRef spec0 4) : S1x256.Idx → EReal) (ix2 (0 : Fin 1) j)
/-- The layer's output on every node: the activation of the two contractions plus the offsets. -/
abbrev Z : Fin 50000 → Fin 256 → EReal := Net.relu (Net.linK (aggF V c) (hF V c) (wlF V c) (wrsF V c) (bF V c))

/-- Row r of the block of 5000 rows that grid point t works on, as a row of the whole matrix: 5000 · t + r. -/
def rowOf (t : Fin cfg0.N) (r : Fin 5000) : Fin 50000 :=
  ⟨5000 * t.val + r.val, by have := t.isLt; have hN : cfg0.N = 10 := N_0; omega⟩

/-- The printed index maps, decided over the grid: the two row-blocked inputs and the row-blocked output sit at block
    (t, 0); the weights, the offsets and the two accumulator rows at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) :=
  (by decide +kernel : ∀ t : Fin grid0.N, _)

/-- The block of neighbourhood means at point t holds rows 5000 · t … of the matrix. -/
theorem blk0_apply (t : Fin cfg0.N) (r : Fin 5000) (k : Fin 128) :
    (iblk0 V c 0 t : Vec Ideal S5000x128 .f32) (ix2 r k) = aggF V c (rowOf t r) k := by
  obtain ⟨⟨e0, e1⟩, -⟩ := idx_facts t
  unfold iblk0
  rw [View.read_apply]
  show V c (Pipeline.arrRef spec0 0) (((cfg0.win 0).blk t).view.emb (ix2 r k)) = V c (Pipeline.arrRef spec0 0) (ix2 (rowOf t r) k)
  refine congrArg _ (funext fun a => Fin.ext ?_)
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- The block of node features at point t holds the same rows. -/
theorem blk1_apply (t : Fin cfg0.N) (r : Fin 5000) (k : Fin 128) :
    (iblk0 V c 1 t : Vec Ideal S5000x128 .f32) (ix2 r k) = hF V c (rowOf t r) k := by
  obtain ⟨-, ⟨e0, e1⟩, -⟩ := idx_facts t
  unfold iblk0
  rw [View.read_apply]
  show V c (Pipeline.arrRef spec0 1) (((cfg0.win 1).blk t).view.emb (ix2 r k)) = V c (Pipeline.arrRef spec0 1) (ix2 (rowOf t r) k)
  refine congrArg _ (funext fun a => Fin.ext ?_)
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

/-- The first weight matrix is staged whole at every point. -/
theorem blk2_apply (t : Fin cfg0.N) (k : Fin 128) (j : Fin 256) :
    (iblk0 V c 2 t : Vec Ideal S128x256 .bf16) (ix2 k j) = wlF V c k j := by
  obtain ⟨-, -, ⟨e0, e1⟩, -⟩ := idx_facts t
  unfold iblk0
  rw [View.read_apply]
  show V c (Pipeline.arrRef spec0 2) (((cfg0.win 2).blk t).view.emb (ix2 k j)) = V c (Pipeline.arrRef spec0 2) (ix2 k j)
  refine congrArg _ (funext fun a => Fin.ext ?_)
  match a with
  | ⟨0, _⟩ => show win0_2.index t (0 : Fin 2) * 128 + 1 * k.val = k.val; rw [e0]; omega
  | ⟨1, _⟩ => show win0_2.index t (1 : Fin 2) * 256 + 1 * j.val = j.val; rw [e1]; omega

/-- The second weight matrix is staged whole at every point. -/
theorem blk3_apply (t : Fin cfg0.N) (k : Fin 128) (j : Fin 256) :
    (iblk0 V c 3 t : Vec Ideal S128x256 .bf16) (ix2 k j) = wrsF V c k j := by
  obtain ⟨-, -, -, ⟨e0, e1⟩, -⟩ := idx_facts t
  unfold iblk0
  rw [View.read_apply]
  show V c (Pipeline.arrRef spec0 3) (((cfg0.win 3).blk t).view.emb (ix2 k j)) = V c (Pipeline.arrRef spec0 3) (ix2 k j)
  refine congrArg _ (funext fun a => Fin.ext ?_)
  match a with
  | ⟨0, _⟩ => show win0_3.index t (0 : Fin 2) * 128 + 1 * k.val = k.val; rw [e0]; omega
  | ⟨1, _⟩ => show win0_3.index t (1 : Fin 2) * 256 + 1 * j.val = j.val; rw [e1]; omega

/-- The offset row is staged whole at every point. -/
theorem blk4_apply (t : Fin cfg0.N) (j : Fin 256) :
    (iblk0 V c 4 t : Vec Ideal S1x256 .f32) (ix2 (0 : Fin 1) j) = bF V c j := by
  obtain ⟨-, -, -, -, ⟨e0, e1⟩, -⟩ := idx_facts t
  unfold iblk0
  rw [View.read_apply]
  show V c (Pipeline.arrRef spec0 4) (((cfg0.win 4).blk t).view.emb (ix2 (0 : Fin 1) j)) = V c (Pipeline.arrRef spec0 4) (ix2 (0 : Fin 1) j)
  refine congrArg _ (funext fun a => Fin.ext ?_)
  match a with
  | ⟨0, _⟩ => show win0_4.index t (0 : Fin 2) * 1 + 1 * 0 = 0; rw [e0]
  | ⟨1, _⟩ => show win0_4.index t (1 : Fin 2) * 256 + 1 * j.val = j.val; rw [e1]; omega

/-- So the activation of point t's blocks at (r, j) is the layer's output at row 5000 · t + r. -/
theorem blockZ (t : Fin cfg0.N) (r : Fin 5000) (j : Fin 256) :
    k0_pay2 (iblk0 V c 0 t) (iblk0 V c 1 t) (iblk0 V c 2 t) (iblk0 V c 3 t) (iblk0 V c 4 t) (ix2 r j) = Z V c (rowOf t r) j := by
  refine (pay2_apply (iblk0 V c 0 t) (iblk0 V c 1 t) (iblk0 V c 2 t) (iblk0 V c 3 t) (iblk0 V c 4 t) r j).trans ?_
  have e0 : ∀ k, (iblk0 V c 0 t : Vec Ideal S5000x128 .f32) (ix2 r k) = aggF V c (rowOf t r) k := fun k => blk0_apply V c t r k
  have e1 : ∀ k, (iblk0 V c 1 t : Vec Ideal S5000x128 .f32) (ix2 r k) = hF V c (rowOf t r) k := fun k => blk1_apply V c t r k
  have e2 : ∀ k, (iblk0 V c 2 t : Vec Ideal S128x256 .bf16) (ix2 k j) = wlF V c k j := fun k => blk2_apply V c t k j
  have e3 : ∀ k, (iblk0 V c 3 t : Vec Ideal S128x256 .bf16) (ix2 k j) = wrsF V c k j := fun k => blk3_apply V c t k j
  have e4 : (iblk0 V c 4 t : Vec Ideal S1x256 .f32) (ix2 (0 : Fin 1) j) = bF V c j := blk4_apply V c t j
  refine congrArg (max · 0) ?_
  refine congr (congrArg HAdd.hAdd (congr (congrArg HAdd.hAdd (Finset.sum_congr rfl fun k _ => ?_)) (Finset.sum_congr rfl fun k _ => ?_))) e4
  · exact congr (congrArg HMul.hMul (e0 k)) (e2 k)
  · exact congr (congrArg HMul.hMul (e1 k)) (e3 k)

/-! ## What a grid point leaves, over the point's blocks -/

/-- At the first point. -/
theorem point_A (t : Fin cfg0.N) (h0 : t.val % 10 = 0) :
    outsAt0 V c t.val t.isLt
      = (k0_pay2 (iblk0 V c 0 t) (iblk0 V c 1 t) (iblk0 V c 2 t) (iblk0 V c 3 t) (iblk0 V c 4 t),
         k0_pay5 (iblk0 V c 0 t) (iblk0 V c 1 t) (iblk0 V c 2 t) (iblk0 V c 3 t) (iblk0 V c 4 t) (k0_pay3 (F := Ideal)),
         k0_pay1 (k0_pay6 (k0_pay4 (F := Ideal))) (k0_pay7 (iblk0 V c 0 t) (iblk0 V c 1 t) (iblk0 V c 2 t) (iblk0 V c 3 t) (iblk0 V c 4 t))) := by
  rw [outsAt0_A V c t h0]
  exact congr (congrArg Prod.mk (out_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)))
    (congr (congrArg Prod.mk (out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t))) (out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t)))

/-- At every later point, over what the point before left in the two accumulator rows. -/
theorem point_B (t : Fin cfg0.N) (h0 : ¬t.val % 10 = 0) :
    outsAt0 V c t.val t.isLt
      = (k0_pay2 (iblk0 V c 0 t) (iblk0 V c 1 t) (iblk0 V c 2 t) (iblk0 V c 3 t) (iblk0 V c 4 t),
         k0_pay5 (iblk0 V c 0 t) (iblk0 V c 1 t) (iblk0 V c 2 t) (iblk0 V c 3 t) (iblk0 V c 4 t) (outsAt0 V c (t.val - 1) (Nat.lt_of_le_of_lt (Nat.sub_le _ _) t.isLt)).2.1,
         k0_pay1 (k0_pay6 (outsAt0 V c (t.val - 1) (Nat.lt_of_le_of_lt (Nat.sub_le _ _) t.isLt)).2.2) (k0_pay7 (iblk0 V c 0 t) (iblk0 V c 1 t) (iblk0 V c 2 t) (iblk0 V c 3 t) (iblk0 V c 4 t))) := by
  rw [outsAt0_B V c t h0]
  exact congr (congrArg Prod.mk (out_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2))
    (congr (congrArg Prod.mk (out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2)) (out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2.1 (outsAt0 V c (t.val - 1) (Nat.lt_of_le_of_lt (Nat.sub_le _ _) t.isLt)).2.2))

/-! ## The three outputs after each grid point -/

/-- After point n the output's staging buffer holds the layer's output on the point's rows. -/
theorem z_at (n : ℕ) (hn : n < cfg0.N) (r : Fin 5000) (j : Fin 256) :
    (outsAt0 V c n hn).1 (ix2 r j) = Z V c (rowOf ⟨n, hn⟩ r) j := by
  by_cases h0 : n % 10 = 0
  · rw [point_A V c ⟨n, hn⟩ h0]
    exact blockZ V c ⟨n, hn⟩ r j
  · rw [point_B V c ⟨n, hn⟩ h0]
    exact blockZ V c ⟨n, hn⟩ r j

/-- After point n the row of column sums holds the sums over the rows of blocks 0 … n. -/
theorem s_at (j : Fin 256) : ∀ (n : ℕ) (hn : n < cfg0.N),
    (outsAt0 V c n hn).2.1 (ix2 (0 : Fin 1) j) = ∑ i ∈ Finset.range (5000 * (n + 1)), (Cert.SageSum.padded fun i => Z V c i j) i
  | 0, hn => by
    rw [point_A V c ⟨0, hn⟩ rfl]
    refine (pay5_apply (iblk0 V c 0 ⟨0, hn⟩) (iblk0 V c 1 ⟨0, hn⟩) (iblk0 V c 2 ⟨0, hn⟩) (iblk0 V c 3 ⟨0, hn⟩) (iblk0 V c 4 ⟨0, hn⟩) (k0_pay3 (F := Ideal)) j).trans ?_
    rw [pay3_apply]
    refine Eq.trans ?_ (Cert.SageSum.first_block (Cert.SageSum.padded fun i => Z V c i j) 5000)
    refine congrArg ((0 : EReal) + ·) (Finset.sum_congr rfl fun r _ => ?_)
    refine (blockZ V c ⟨0, hn⟩ r j).trans ?_
    exact (Cert.SageSum.padded_of_lt (fun i => Z V c i j) (5000 * 0 + r.val) (rowOf ⟨0, hn⟩ r).isLt).symm
  | n + 1, hn => by
    have hN : cfg0.N = 10 := N_0
    have hB : ¬(⟨n + 1, hn⟩ : Fin cfg0.N).val % 10 = 0 := by dsimp only; omega
    rw [point_B V c ⟨n + 1, hn⟩ hB]
    refine (pay5_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.1 j).trans ?_
    rw [s_at j n (Nat.lt_of_succ_lt hn)]
    refine Eq.trans ?_ (Cert.SageSum.next_block (Cert.SageSum.padded fun i => Z V c i j) 5000 n)
    refine congrArg (_ + ·) (Finset.sum_congr rfl fun r _ => ?_)
    refine (blockZ V c ⟨n + 1, hn⟩ r j).trans ?_
    exact (Cert.SageSum.padded_of_lt (fun i => Z V c i j) (5000 * (n + 1) + r.val) (rowOf ⟨n + 1, hn⟩ r).isLt).symm

/-- After point n the row of sums of squares holds the sums of the squares over the rows of blocks 0 … n. -/
theorem ss_at (j : Fin 256) : ∀ (n : ℕ) (hn : n < cfg0.N),
    (outsAt0 V c n hn).2.2 (ix2 (0 : Fin 1) j) = ∑ i ∈ Finset.range (5000 * (n + 1)), (Cert.SageSum.padded fun i => Z V c i j * Z V c i j) i
  | 0, hn => by
    rw [point_A V c ⟨0, hn⟩ rfl]
    refine (pay1_apply (iblk0 V c 0 ⟨0, hn⟩) (iblk0 V c 1 ⟨0, hn⟩) (iblk0 V c 2 ⟨0, hn⟩) (iblk0 V c 3 ⟨0, hn⟩) (iblk0 V c 4 ⟨0, hn⟩) (k0_pay4 (F := Ideal)) j).trans ?_
    rw [pay4_apply]
    refine Eq.trans ?_ (Cert.SageSum.first_block (Cert.SageSum.padded fun i => Z V c i j * Z V c i j) 5000)
    refine congrArg ((0 : EReal) + ·) (Finset.sum_congr rfl fun r _ => ?_)
    rw [blockZ V c ⟨0, hn⟩ r j]
    exact (Cert.SageSum.padded_of_lt (fun i => Z V c i j * Z V c i j) (5000 * 0 + r.val) (rowOf ⟨0, hn⟩ r).isLt).symm
  | n + 1, hn => by
    have hN : cfg0.N = 10 := N_0
    have hB : ¬(⟨n + 1, hn⟩ : Fin cfg0.N).val % 10 = 0 := by dsimp only; omega
    rw [point_B V c ⟨n + 1, hn⟩ hB]
    refine (pay1_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 V c n (Nat.lt_of_succ_lt hn)).2.2 j).trans ?_
    rw [ss_at j n (Nat.lt_of_succ_lt hn)]
    refine Eq.trans ?_ (Cert.SageSum.next_block (Cert.SageSum.padded fun i => Z V c i j * Z V c i j) 5000 n)
    refine congrArg (_ + ·) (Finset.sum_congr rfl fun r _ => ?_)
    rw [blockZ V c ⟨n + 1, hn⟩ r j]
    exact (Cert.SageSum.padded_of_lt (fun i => Z V c i j * Z V c i j) (5000 * (n + 1) + r.val) (rowOf ⟨n + 1, hn⟩ r).isLt).symm

end Cert.KernelIdeal.Sage0

end
-- ==== Proof.Sage0.lean ====
/-
  The first layer's region as a whole: what its three result arrays hold when it ends.

  The output array is written back block by block, and the blocks of 5000 rows tile its 50000 rows (row i lies in
  block i / 5000), so it ends holding the layer's output max((agg · Wl + h · Wrs) + b, 0) at every node and column.
  Each of the two one-row accumulators is written back once, after the last block, when it holds the sum over all
  ten blocks: the column sums of the layer's output, and the column sums of its squares, over all 50000 nodes.
-/
import proofs.«144552_j81088982548491_1_alg».proof.Proof.Sage0Value

noncomputable section

open Idealize.ShloMosaic Idealize.ShloMosaic.TcCoe Idealize.SL.Sem Idealize.ShloMosaic.ValueIdx
open Idealize.ShloMosaic.Pipeline (Dat)
open scoped BigOperators

namespace Cert.KernelIdeal.Sage0

open Cert.KernelIdeal Cert.KernelIdeal.Gen

variable (V : (c : Dev nD) → (b : Ref sig .tc) → Buf (Elt Ideal) ((c : Thread nD τ).loc b)) (c : Dev nD)

/-! ## The three result arrays after the run -/

/-- The layer's output as an array over (node, column). -/
abbrev Zarr : S50000x256.Idx → EReal := fun i => Z V c (i 0) (i 1)
/-- The column sums of the layer's output as a one-row array. -/
abbrev Srow : S1x256.Idx → EReal := fun i => Net.colsum (Z V c) (i 1)
/-- The column sums of squares of the layer's output as a one-row array. -/
abbrev SSrow : S1x256.Idx → EReal := fun i => Net.colsumsq (Z V c) (i 1)

/-- An index of the array is in point t's block of window 5 iff each coordinate is in the block's range on its axis. -/
theorem mem_blk5 (t : Fin cfg0.N) (i : S50000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v28_0).slice (win0_5.rect t)).set ↔ _
  rw [View.set_slice_whole, Rect.mem_set_unit]
  exact Iff.rfl

/-- An index of the array is in point t's block of window 6 iff each coordinate is in the block's range on its axis. -/
theorem mem_blk6 (t : Fin cfg0.N) (i : S1x256.Idx) :
    i ∈ ((cfg0.win 6).blk t).view.set ↔ ∀ a : Fin 2, win0_6.index t a * S1x256.size a ≤ (i a).val ∧ (i a).val < win0_6.index t a * S1x256.size a + S1x256.size a := by
  show i ∈ ((View.whole main_v28_1).slice (win0_6.rect t)).set ↔ _
  rw [View.set_slice_whole, Rect.mem_set_unit]
  exact Iff.rfl

/-- An index of the array is in point t's block of window 7 iff each coordinate is in the block's range on its axis. -/
theorem mem_blk7 (t : Fin cfg0.N) (i : S1x256.Idx) :
    i ∈ ((cfg0.win 7).blk t).view.set ↔ ∀ a : Fin 2, win0_7.index t a * S1x256.size a ≤ (i a).val ∧ (i a).val < win0_7.index t a * S1x256.size a + S1x256.size a := by
  show i ∈ ((View.whole main_v28_2).slice (win0_7.rect t)).set ↔ _
  rw [View.set_slice_whole, Rect.mem_set_unit]
  exact Iff.rfl

/-- What point t writes back into the output array is block t of the layer's output. -/
theorem flushed5_eq (t : Fin cfg0.N) :
    (dat0 V c).flushed 5 t = ((cfg0.win 5).blk t).view.read (Elt Ideal) (Zarr V c) := by
  show (cfg0.win 5).cut (grid0.coords t) ((dat0 V c).after 5 t) = _
  rw [after0_5]
  obtain ⟨-, -, -, -, -, ⟨e0, e1⟩, -⟩ := idx_facts t
  funext y
  obtain ⟨r, j, rfl⟩ : ∃ (r : Fin 5000) (j : Fin 256), y = ix2 r j := ⟨y 0, y 1, eq_ix2 y⟩
  rw [View.read_apply]
  show (outsAt0 V c t.val t.isLt).1 (ix2 r j)
    = Z V c ((((cfg0.win 5).blk t).view.emb (ix2 r j)) 0) ((((cfg0.win 5).blk t).view.emb (ix2 r j)) 1)
  rw [z_at V c t.val t.isLt r j]
  refine congr (congrArg (Z V c) (Fin.ext ?_)) (Fin.ext ?_)
  · show 5000 * t.val + r.val = win0_5.index t (0 : Fin 2) * 5000 + 1 * r.val; rw [e0]; omega
  · show j.val = win0_5.index t (1 : Fin 2) * 256 + 1 * j.val; rw [e1]; omega

/-- The output array after the run: the blocks of 5000 rows tile it, row i lying in block i / 5000. -/
theorem final_z : ((dat0 V c).arrAt 5 cfg0.N : S50000x256.Idx → EReal) = Zarr V c :=
  (dat0 V c).arrAt_eq_of_cover 5 (Zarr V c) (fun t _ => flushed5_eq V c t) fun i => by
    have hi0 : (i 0).val < 50000 := (i 0).isLt
    have hi1 : (i 1).val < 256 := (i 1).isLt
    have hN : cfg0.N = 10 := N_0
    obtain ⟨t, ht⟩ : ∃ t : Fin cfg0.N, t.val = (i 0).val / 5000 := ⟨⟨(i 0).val / 5000, by omega⟩, rfl⟩
    obtain ⟨-, -, -, -, -, ⟨e0, e1⟩, -⟩ := idx_facts t
    refine ⟨t, flush0_5 t, ?_⟩
    rw [mem_blk5]
    intro a
    match a with
    | ⟨0, _⟩ => show win0_5.index t (0 : Fin 2) * 5000 ≤ (i 0).val ∧ (i 0).val < win0_5.index t (0 : Fin 2) * 5000 + 5000; rw [e0, ht]; omega
    | ⟨1, _⟩ => show win0_5.index t (1 : Fin 2) * 256 ≤ (i 1).val ∧ (i 1).val < win0_5.index t (1 : Fin 2) * 256 + 256; rw [e1]; omega

/-- Reading through a cast along an equation of a type with itself changes nothing. -/
theorem eq_cast_self {α : Type} (h : α = α) (x y : α) (hxy : y = x) : y = cast h x := by
  subst hxy; exact (cast_eq h y).symm

/-- The total over all ten blocks is the column sum over every row. -/
theorem total6_eq (j : Fin 256) :
    ∑ i ∈ Finset.range (5000 * (9 + 1)), (Cert.SageSum.padded fun i => Z V c i j) i = Net.colsum (Z V c) j :=
  Cert.SageSum.sum_range_padded fun i => Z V c i j

/-- What the last point writes back into the row: the column sums over every row of the matrix. -/
theorem flushed6_eq (t : Fin cfg0.N) (hf : (cfg0.win 6).flush t = true) :
    (dat0 V c).flushed 6 t = ((cfg0.win 6).blk t).view.read (Elt Ideal) (Srow V c) := by
  have hN : cfg0.N = 10 := N_0
  have h9 : t.val = 9 := by have := (flush0_6 t).mp hf; have := t.isLt; omega
  show (cfg0.win 6).cut (grid0.coords t) ((dat0 V c).after 6 t) = _
  rw [after0_6]
  obtain ⟨-, -, -, -, -, -, ⟨e0, e1⟩, -⟩ := idx_facts t
  funext y
  obtain ⟨u, j, rfl⟩ : ∃ (u : Fin 1) (j : Fin 256), y = ix2 u j := ⟨y 0, y 1, eq_ix2 y⟩
  obtain rfl : u = 0 := Subsingleton.elim _ _
  have hidx : ((cfg0.win 6).blk t).view.emb (ix2 (0 : Fin 1) j) = (ix2 (0 : Fin 1) j : S1x256.Idx) :=
    funext fun a => Fin.ext (by
      match a with
      | ⟨0, _⟩ => show win0_6.index t (0 : Fin 2) * 1 + 1 * 0 = 0; rw [e0]
      | ⟨1, _⟩ => show win0_6.index t (1 : Fin 2) * 256 + 1 * j.val = j.val; rw [e1]; omega)
  have hS : Srow V c (ix2 (0 : Fin 1) j) = Net.colsum (Z V c) j := rfl
  rw [View.read_apply, hidx]
  refine eq_cast_self _ _ _ ?_
  rw [hS]
  refine (s_at V c j t.val t.isLt).trans ?_
  rw [h9]
  exact total6_eq V c j

/-- The row after the run: the last point's block is the whole row. -/
theorem final_s : ((dat0 V c).arrAt 6 cfg0.N : S1x256.Idx → EReal) = Srow V c :=
  (dat0 V c).arrAt_eq_of_cover 6 (Srow V c) (flushed6_eq V c) fun i => by
    have hN : cfg0.N = 10 := N_0
    obtain ⟨t, ht⟩ : ∃ t : Fin cfg0.N, t.val = 9 := ⟨⟨9, by omega⟩, rfl⟩
    obtain ⟨-, -, -, -, -, -, ⟨e0, e1⟩, -⟩ := idx_facts t
    have hi0 : (i 0).val < 1 := (i 0).isLt
    have hi1 : (i 1).val < 256 := (i 1).isLt
    refine ⟨t, (flush0_6 t).mpr (by rw [ht]), ?_⟩
    rw [mem_blk6]
    intro a
    match a with
    | ⟨0, _⟩ => show win0_6.index t (0 : Fin 2) * 1 ≤ (i 0).val ∧ (i 0).val < win0_6.index t (0 : Fin 2) * 1 + 1; rw [e0]; omega
    | ⟨1, _⟩ => show win0_6.index t (1 : Fin 2) * 256 ≤ (i 1).val ∧ (i 1).val < win0_6.index t (1 : Fin 2) * 256 + 256; rw [e1]; omega

/-- The total over all ten blocks is the column sum of squares over every row. -/
theorem total7_eq (j : Fin 256) :
    ∑ i ∈ Finset.range (5000 * (9 + 1)), (Cert.SageSum.padded fun i => Z V c i j * Z V c i j) i = Net.colsumsq (Z V c) j :=
  Cert.SageSum.sum_range_padded fun i => Z V c i j * Z V c i j

/-- What the last point writes back into the row: the sums of squares over every row of the matrix. -/
theorem flushed7_eq (t : Fin cfg0.N) (hf : (cfg0.win 7).flush t = true) :
    (dat0 V c).flushed 7 t = ((cfg0.win 7).blk t).view.read (Elt Ideal) (SSrow V c) := by
  have hN : cfg0.N = 10 := N_0
  have h9 : t.val = 9 := by have := (flush0_7 t).mp hf; have := t.isLt; omega
  show (cfg0.win 7).cut (grid0.coords t) ((dat0 V c).after 7 t) = _
  rw [after0_7]
  obtain ⟨-, -, -, -, -, -, -, ⟨e0, e1⟩⟩ := idx_facts t
  funext y
  obtain ⟨u, j, rfl⟩ : ∃ (u : Fin 1) (j : Fin 256), y = ix2 u j := ⟨y 0, y 1, eq_ix2 y⟩
  obtain rfl : u = 0 := Subsingleton.elim _ _
  have hidx : ((cfg0.win 7).blk t).view.emb (ix2 (0 : Fin 1) j) = (ix2 (0 : Fin 1) j : S1x256.Idx) :=
    funext fun a => Fin.ext (by
      match a with
      | ⟨0, _⟩ => show win0_7.index t (0 : Fin 2) * 1 + 1 * 0 = 0; rw [e0]
      | ⟨1, _⟩ => show win0_7.index t (1 : Fin 2) * 256 + 1 * j.val = j.val; rw [e1]; omega)
  have hS : SSrow V c (ix2 (0 : Fin 1) j) = Net.colsumsq (Z V c) j := rfl
  rw [View.read_apply, hidx]
  refine eq_cast_self _ _ _ ?_
  rw [hS]
  refine (ss_at V c j t.val t.isLt).trans ?_
  rw [h9]
  exact total7_eq V c j

/-- The row after the run: the last point's block is the whole row. -/
theorem final_ss : ((dat0 V c).arrAt 7 cfg0.N : S1x256.Idx → EReal) = SSrow V c :=
  (dat0 V c).arrAt_eq_of_cover 7 (SSrow V c) (flushed7_eq V c) fun i => by
    have hN : cfg0.N = 10 := N_0
    obtain ⟨t, ht⟩ : ∃ t : Fin cfg0.N, t.val = 9 := ⟨⟨9, by omega⟩, rfl⟩
    obtain ⟨-, -, -, -, -, -, -, ⟨e0, e1⟩⟩ := idx_facts t
    have hi0 : (i 0).val < 1 := (i 0).isLt
    have hi1 : (i 1).val < 256 := (i 1).isLt
    refine ⟨t, (flush0_7 t).mpr (by rw [ht]), ?_⟩
    rw [mem_blk7]
    intro a
    match a with
    | ⟨0, _⟩ => show win0_7.index t (0 : Fin 2) * 1 ≤ (i 0).val ∧ (i 0).val < win0_7.index t (0 : Fin 2) * 1 + 1; rw [e0]; omega
    | ⟨1, _⟩ => show win0_7.index t (1 : Fin 2) * 256 ≤ (i 1).val ∧ (i 1).val < win0_7.index t (1 : Fin 2) * 256 + 256; rw [e1]; omega

/-! ## The region's value -/

/-- The output array holds the layer's output, entry by entry. -/
theorem sage0_z (i : Fin 50000) (j : Fin 256) :
    ((dat0 V c).arrAt 5 cfg0.N : S50000x256.Idx → EReal) (ix2 i j)
      = Net.relu (Net.linK (aggF V c) (hF V c) (wlF V c) (wrsF V c) (bF V c)) i j :=
  congrFun (final_z V c) (ix2 i j)

/-- The first accumulator row holds the column sums of the layer's output. -/
theorem sage0_s (j : Fin 256) :
    ((dat0 V c).arrAt 6 cfg0.N : S1x256.Idx → EReal) (ix2 (0 : Fin 1) j)
      = Net.colsum (Net.relu (Net.linK (aggF V c) (hF V c) (wlF V c) (wrsF V c) (bF V c))) j :=
  congrFun (final_s V c) (ix2 (0 : Fin 1) j)

/-- The second accumulator row holds the column sums of squares of the layer's output. -/
theorem sage0_ss (j : Fin 256) :
    ((dat0 V c).arrAt 7 cfg0.N : S1x256.Idx → EReal) (ix2 (0 : Fin 1) j)
      = Net.colsumsq (Net.relu (Net.linK (aggF V c) (hF V c) (wlF V c) (wrsF V c) (bF V c))) j :=
  congrFun (final_ss V c) (ix2 (0 : Fin 1) j)

end Cert.KernelIdeal.Sage0

end
-- ==== Proof.Sage2Pieces.lean ====
/-
  What one grid point of the second layer's kernel leaves in its three output buffers, as values of the point's
  input blocks: the block of the layer's output is the activation of the block's rows, and each of the two
  accumulator rows is the row it held before the point (the zero row at the first point, where the kernel resets
  it) plus the block's column sums, of the entries or of their squares. Stated for any float instance.
-/
import proofs.«144552_j81088982548491_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Sage2

open Cert.KernelIdeal Cert.KernelIdeal.Gen

variable {F : FTy → Type} [FloatOps F]

/-- The zero offsets of every whole-buffer load and store. -/
theorem hz : (![0, 0] : Fin 2 → Nat) = fun _ => 0 := funext fun a => by fin_cases a <;> rfl

/-! ## The first grid point: the two accumulator rows are reset before they are read -/

/-- The block of the layer's output the first point leaves: the activation of the point's input blocks. -/
theorem out_A_5 (c : Dev nD) (i : grid2.Coords) (a1 : Memref sig .tc .vmem S5000x256 .f32) (h1 : a1.IsWhole) (a2 : Memref sig .tc .vmem S5000x256 .f32) (h2 : a2.IsWhole) (a3 : Memref sig .tc .vmem S256x128 .bf16) (h3 : a3.IsWhole) (a4 : Memref sig .tc .vmem S256x128 .bf16) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S5000x256 .f32) (x2 x3 : Vec F S256x128 .bf16) (x4 : Vec F S1x128 .f32) :
    out2_A_5 c i a1 h1 a2 h2 a3 h3 a4 h4 a5 h5 a6 h6 a7 h7 a8 h8 hc x0 x1 x2 x3 x4 = k2_pay2 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  rw [View.canon_unit_zero hz]
  simp only [View.readAt_eq_ld, h1.read_unread, h2.read_unread, h3.read_unread, h4.read_unread, h5.read_unread,
    View.ld_unit_zero (S := S5000x256) hz, View.ld_unit_zero (S := S256x128) hz, View.ld_unit_zero (S := S1x128) hz]

/-- The row of column sums after the first point: the zero row plus the block's column sums. -/
theorem out_A_6 (c : Dev nD) (i : grid2.Coords) (a1 : Memref sig .tc .vmem S5000x256 .f32) (h1 : a1.IsWhole) (a2 : Memref sig .tc .vmem S5000x256 .f32) (h2 : a2.IsWhole) (a3 : Memref sig .tc .vmem S256x128 .bf16) (h3 : a3.IsWhole) (a4 : Memref sig .tc .vmem S256x128 .bf16) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S5000x256 .f32) (x2 x3 : Vec F S256x128 .bf16) (x4 : Vec F S1x128 .f32) :
    out2_A_6 c i a1 h1 a2 h2 a3 h3 a4 h4 a5 h5 a6 h6 a7 h7 a8 h8 hc x0 x1 x2 x3 x4 = k2_pay5 x0 x1 x2 x3 x4 (k2_pay3 (F := F)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x256) hz, View.ld_unit_zero (S := S256x128) hz, View.ld_unit_zero (S := S1x128) hz]

/-- The row of column sums of squares after the first point: the zero row plus the block's sums of squares. -/
theorem out_A_7 (c : Dev nD) (i : grid2.Coords) (a1 : Memref sig .tc .vmem S5000x256 .f32) (h1 : a1.IsWhole) (a2 : Memref sig .tc .vmem S5000x256 .f32) (h2 : a2.IsWhole) (a3 : Memref sig .tc .vmem S256x128 .bf16) (h3 : a3.IsWhole) (a4 : Memref sig .tc .vmem S256x128 .bf16) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : cond2_0 i) (x0 x1 : Vec F S5000x256 .f32) (x2 x3 : Vec F S256x128 .bf16) (x4 : Vec F S1x128 .f32) :
    out2_A_7 c i a1 h1 a2 h2 a3 h3 a4 h4 a5 h5 a6 h6 a7 h7 a8 h8 hc x0 x1 x2 x3 x4 = k2_pay1 (k2_pay6 (k2_pay4 (F := F))) (k2_pay7 x0 x1 x2 x3 x4) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread,
    View.ld_unit_zero (S := S5000x256) hz, View.ld_unit_zero (S := S256x128) hz, View.ld_unit_zero (S := S1x128) hz]

/-! ## Every later grid point: the two rows carry what the point before left -/

/-- The block of the layer's output a later point leaves: the activation of the point's input blocks. -/
theorem out_B_5 (c : Dev nD) (i : grid2.Coords) (a1 : Memref sig .tc .vmem S5000x256 .f32) (h1 : a1.IsWhole) (a2 : Memref sig .tc .vmem S5000x256 .f32) (h2 : a2.IsWhole) (a3 : Memref sig .tc .vmem S256x128 .bf16) (h3 : a3.IsWhole) (a4 : Memref sig .tc .vmem S256x128 .bf16) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S5000x256 .f32) (x2 x3 : Vec F S256x128 .bf16) (x4 : Vec F S1x128 .f32) (xo6 xo7 : Vec F S1x128 .f32) :
    out2_B_5 c i a1 h1 a2 h2 a3 h3 a4 h4 a5 h5 a6 h6 a7 h7 a8 h8 hc x0 x1 x2 x3 x4 xo6 xo7 = k2_pay2 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread,
    h7.read_unread, h8.read_unread,
    View.ld_unit_zero (S := S5000x256) hz, View.ld_unit_zero (S := S256x128) hz, View.ld_unit_zero (S := S1x128) hz]

/-- The row of column sums after a later point: the row carried in plus the block's column sums. -/
theorem out_B_6 (c : Dev nD) (i : grid2.Coords) (a1 : Memref sig .tc .vmem S5000x256 .f32) (h1 : a1.IsWhole) (a2 : Memref sig .tc .vmem S5000x256 .f32) (h2 : a2.IsWhole) (a3 : Memref sig .tc .vmem S256x128 .bf16) (h3 : a3.IsWhole) (a4 : Memref sig .tc .vmem S256x128 .bf16) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S5000x256 .f32) (x2 x3 : Vec F S256x128 .bf16) (x4 : Vec F S1x128 .f32) (xo6 xo7 : Vec F S1x128 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  rw [View.canon_unit_zero hz]
  simp only [View.readAt_eq_ld, h1.read_unread, h2.read_unread, h3.read_unread, h4.read_unread, h5.read_unread,
    h7.read_unread, h8.read_unread,
    View.ld_unit_zero (S := S5000x256) hz, View.ld_unit_zero (S := S256x128) hz, View.ld_unit_zero (S := S1x128) hz]

/-- The row of column sums of squares after a later point: the row carried in plus the block's sums of squares. -/
theorem out_B_7 (c : Dev nD) (i : grid2.Coords) (a1 : Memref sig .tc .vmem S5000x256 .f32) (h1 : a1.IsWhole) (a2 : Memref sig .tc .vmem S5000x256 .f32) (h2 : a2.IsWhole) (a3 : Memref sig .tc .vmem S256x128 .bf16) (h3 : a3.IsWhole) (a4 : Memref sig .tc .vmem S256x128 .bf16) (h4 : a4.IsWhole) (a5 : Memref sig .tc .vmem S1x128 .f32) (h5 : a5.IsWhole) (a6 : Memref sig .tc .vmem S5000x128 .f32) (h6 : a6.IsWhole) (a7 : Memref sig .tc .vmem S1x128 .f32) (h7 : a7.IsWhole) (a8 : Memref sig .tc .vmem S1x128 .f32) (h8 : a8.IsWhole) (hc : ¬cond2_0 i) (x0 x1 : Vec F S5000x256 .f32) (x2 x3 : Vec F S256x128 .bf16) (x4 : Vec F S1x128 .f32) (xo6 xo7 : Vec F S1x128 .f32) :
    out2_B_7 c i a1 h1 a2 h2 a3 h3 a4 h4 a5 h5 a6 h6 a7 h7 a8 h8 hc x0 x1 x2 x3 x4 xo6 xo7 = k2_pay1 (k2_pay6 xo7) (k2_pay7 x0 x1 x2 x3 x4) := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S5000x256) hz, View.ld_unit_zero (S := S256x128) hz, View.ld_unit_zero (S := S1x128) hz]

end Cert.KernelIdeal.Sage2

end
-- ==== Proof.SageLayerCast.lean ====
/-
  The layer's value before its activation when BOTH matrices of rows are cast to their own shape on the way into
  the products (the form the later layers' bodies have): the same two contractions plus the offset row.
-/
import proofs.«144552_j81088982548491_1_alg».proof.Proof.SageLayer

noncomputable section

namespace Cert.SageLayer

open Idealize.ShloMosaic Idealize.ShloMosaic.ValueIdx
open scoped BigOperators

variable {M K N : ℕ}

/-- The same when the second matrix of rows is also cast to its own shape before the product. -/
theorem lin_apply2 (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (hlt : FTy.bits .bf16 < FTy.bits .f32)
    (hA : (⟨2, ![M, K]⟩ : Shape).ShapeCasts ⟨2, ![M, K]⟩) (hW : (⟨2, ![K, N]⟩ : Shape).ShapeCasts ⟨2, ![K, N]⟩)
    (hB : (⟨2, ![1, N]⟩ : Shape).ShapeCasts ⟨2, ![1, N]⟩) (hbc : (⟨2, ![1, N]⟩ : Shape).Broadcasts ⟨2, ![M, N]⟩)
    (a h : FVec Ideal ⟨2, ![M, K]⟩ .f32) (wl wrs : FVec Ideal ⟨2, ![K, N]⟩ .bf16) (b : FVec Ideal ⟨2, ![1, N]⟩ .f32)
    (p : Fin M) (q : Fin N) :
    addf (addf (matmul d none (truncf .bf16 (shapeCast ⟨2, ![M, K]⟩ a hA) hlt) (shapeCast ⟨2, ![K, N]⟩ wl hW)
                  (constant ⟨2, ![M, N]⟩ .f32 0x00000000#32))
               (matmul d none (truncf .bf16 (shapeCast ⟨2, ![M, K]⟩ h hA) hlt) (shapeCast ⟨2, ![K, N]⟩ wrs hW)
                  (constant ⟨2, ![M, N]⟩ .f32 0x00000000#32)))
         (broadcastTo ⟨2, ![M, N]⟩ (shapeCast ⟨2, ![1, N]⟩ b hB) hbc) (ix2 p q)
      = ((∑ k : Fin K, a (ix2 p k) * wl (ix2 k q)) + ∑ k : Fin K, h (ix2 p k) * wrs (ix2 k q)) + b (ix2 (0 : Fin 1) q) := by
  rw [shapeCast_self h hA]
  exact lin_apply d hlc hrc hln hrn hlb hrb hlt hA hW hB hbc a h wl wrs b p q

end Cert.SageLayer

end
-- ==== Proof.Sage2Value.lean ====
/-
  The second layer's kernel, grid point by grid point, as values of the arrays the region finds.

  The region walks the 50000 nodes in ten blocks of 5000 rows. At block t it reads rows 5000 · t … 5000 · t + 4999 of
  the neighbourhood means and of the node features, the two weight matrices and the offset row whole, and leaves
  (i) in the output's block the layer's output on those rows, max((agg · Wl + h · Wrs) + b, 0) entry by entry, and
  (ii) in each of two one-row accumulators the row it held before plus the block's column sums — of the entries and
  of their squares — starting from the zero row at the first block. By induction on the block, after block n the
  accumulators hold the sums over rows 0 … 5000 · (n + 1) − 1; only associativity and commutativity of addition on
  the extended reals are used, so no finiteness is needed.
-/
import proofs.«144552_j81088982548491_1_alg».proof.Proof.Sage2Pieces
import proofs.«144552_j81088982548491_1_alg».proof.Proof.SageLayerCast
import proofs.«144552_j81088982548491_1_alg».proof.Proof.SageSum
import proofs.«144552_j81088982548491_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Sage2

open Cert.KernelIdeal Cert.KernelIdeal.Gen

/-! ## The body's arithmetic on one block, entry by entry -/

/-- The activation of a block of rows at (r, j). -/
theorem pay2_apply (x0 x1 : Vec Ideal S5000x256 .f32) (x2 x3 : Vec Ideal S256x128 .bf16) (x4 : Vec Ideal S1x128 .f32)
    (r : Fin 5000) (j : Fin 128) :
    k2_pay2 x0 x1 x2 x3 x4 (ix2 r j)
      = max (((∑ k : Fin 256, x0 (ix2 r k) * x2 (ix2 k j)) + ∑ k : Fin 256, x1 (ix2 r k) * x3 (ix2 k j)) + x4 (ix2 (0 : Fin 1) j)) 0 := by
  unfold k2_pay2
  refine (Cert.SageLayer.relu_apply _ (ix2 r j)).trans ?_
  refine congrArg (max · 0) ?_
  exact Cert.SageLayer.lin_apply2 dot_S5000x256_S256x128_S5000x128_1_0_0_1_n_n rfl rfl rfl rfl rfl rfl bitsLt_bf16_f32
    shapeCasts_S5000x256_S5000x256 shapeCasts_S256x128_S256x128 shapeCasts_S1x128_S1x128 broadcasts_S1x128_S5000x128
    x0 x1 x2 x3 x4 r j

/-- The zero row the first point stores into the row of column sums. -/
theorem pay3_apply (j : Fin 128) : k2_pay3 (F := Ideal) (ix2 (0 : Fin 1) j) = 0 := Ideal.ofBits_zero_f32

/-- The zero row the first point stores into the row of sums of squares. -/
theorem pay4_apply (j : Fin 128) : k2_pay4 (F := Ideal) (ix2 (0 : Fin 1) j) = 0 := Ideal.ofBits_zero_f32

/-- The row of column sums after a point: the row before it plus the block's column sums. -/
theorem pay5_apply (x0 x1 : Vec Ideal S5000x256 .f32) (x2 x3 : Vec Ideal S256x128 .bf16) (x4 xo : Vec Ideal S1x128 .f32)
    (j : Fin 128) :
    k2_pay5 x0 x1 x2 x3 x4 xo (ix2 (0 : Fin 1) j)
      = xo (ix2 (0 : Fin 1) j) + ∑ r : Fin 5000, k2_pay2 x0 x1 x2 x3 x4 (ix2 r j) := by
  unfold k2_pay5
  show shapeCast S1x128 xo shapeCasts_S1x128_S1x128 (ix2 (0 : Fin 1) j) + _ = _
  rw [shapeCast_self]
  exact congrArg (xo (ix2 (0 : Fin 1) j) + ·)
    (Cert.SageLayer.colsum_apply (k2_pay2 x0 x1 x2 x3 x4) reduces_S5000x128_S128 (.inl rfl) rfl shapeCasts_S128_S1x128 j)

/-- The row of sums of squares after a point: the row before it plus the block's column sums of squares. -/
theorem pay1_apply (x0 x1 : Vec Ideal S5000x256 .f32) (x2 x3 : Vec Ideal S256x128 .bf16) (x4 xo : Vec Ideal S1x128 .f32)
    (j : Fin 128) :
    k2_pay1 (k2_pay6 xo) (k2_pay7 x0 x1 x2 x3 x4) (ix2 (0 : Fin 1) j)
      = xo (ix2 (0 : Fin 1) j) + ∑ r : Fin 5000, k2_pay2 x0 x1 x2 x3 x4 (ix2 r j) * k2_pay2 x0 x1 x2 x3 x4 (ix2 r j) := by
  unfold k2_pay1 k2_pay6 k2_pay7
  show shapeCast S1x128 xo shapeCasts_S1x128_S1x128 (ix2 (0 : Fin 1) j) + _ = _
  rw [shapeCast_self]
  exact congrArg (xo (ix2 (0 : Fin 1) j) + ·)
    (Cert.SageLayer.colsum_apply (mulf (k2_pay2 x0 x1 x2 x3 x4) (k2_pay2 x0 x1 x2 x3 x4)) reduces_S5000x128_S128 (.inl rfl) rfl
      shapeCasts_S128_S1x128 j)

/-! ## The arrays the region finds, and the layer they determine -/

variable (V : (c : Dev nD) → (b : Ref sig .tc) → Buf (Elt Ideal) ((c : Thread nD τ).loc b)) (c : Dev nD)

/-- The neighbourhood means, one row per node. -/
abbrev aggF : Fin 50000 → Fin 256 → EReal := fun i k => (V c (Pipeline.arrRef spec2 0) : S50000x256.Idx → EReal) (ix2 i k)
/-- The node features, one row per node. -/
abbrev hF : Fin 50000 → Fin 256 → EReal := fun i k => (V c (Pipeline.arrRef spec2 1) : S50000x256.Idx → EReal) (ix2 i k)
/-- The weights the means are contracted with. -/
abbrev wlF : Fin 256 → Fin 128 → EReal := fun k j => (V c (Pipeline.arrRef spec2 2) : S256x128.Idx → EReal) (ix2 k j)
/-- The weights the features are contracted with. -/
abbrev wrsF : Fin 256 → Fin 128 → EReal := fun k j => (V c (Pipeline.arrRef spec2 3) : S256x128.Idx → EReal) (ix2 k j)
/-- The offsets, one per output column. -/
abbrev bF : Fin 128 → EReal := fun j => (V c (Pipeline.arrRef spec2 4) : S1x128.Idx → EReal) (ix2 (0 : Fin 1) j)
/-- The layer's output on every node: the activation of the two contractions plus the offsets. -/
abbrev Z : Fin 50000 → Fin 128 → EReal := Net.relu (Net.linK (aggF V c) (hF V c) (wlF V c) (wrsF V c) (bF V c))

/-- Row r of the block of 5000 rows that grid point t works on, as a row of the whole matrix: 5000 · t + r. -/
def rowOf (t : Fin cfg2.N) (r : Fin 5000) : Fin 50000 :=
  ⟨5000 * t.val + r.val, by have := t.isLt; have hN : cfg2.N = 10 := N_2; omega⟩

/-- The printed index maps, decided over the grid: the two row-blocked inputs and the row-blocked output sit at block
    (t, 0); the weights, the offsets and the two accumulator rows at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = t.val ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0) :=
  (by decide +kernel : ∀ t : Fin grid2.N, _)

/-- The block of neighbourhood means at point t holds rows 5000 · t … of the matrix. -/
theorem blk0_apply (t : Fin cfg2.N) (r : Fin 5000) (k : Fin 256) :
    (iblk2 V c 0 t : Vec Ideal S5000x256 .f32) (ix2 r k) = aggF V c (rowOf t r) k := by
  obtain ⟨⟨e0, e1⟩, -⟩ := idx_facts t
  unfold iblk2
  rw [View.read_apply]
  show V c (Pipeline.arrRef spec2 0) (((cfg2.win 0).blk t).view.emb (ix2 r k)) = V c (Pipeline.arrRef spec2 0) (ix2 (rowOf t r) k)
  refine congrArg _ (funext fun a => Fin.ext ?_)
  match a with
  | ⟨0, _⟩ => show win2_0.index t (0 : Fin 2) * 5000 + 1 * r.val = 5000 * t.val + r.val; rw [e0]; omega
  | ⟨1, _⟩ => show win2_0.index t (1 : Fin 2) * 256 + 1 * k.val = k.val; rw [e1]; omega

/-- The block of node features at point t holds the same rows. -/
theorem blk1_apply (t : Fin cfg2.N) (r : Fin 5000) (k : Fin 256) :
    (iblk2 V c 1 t : Vec Ideal S5000x256 .f32) (ix2 r k) = hF V c (rowOf t r) k := by
  obtain ⟨-, ⟨e0, e1⟩, -⟩ := idx_facts t
  unfold iblk2
  rw [View.read_apply]
  show V c (Pipeline.arrRef spec2 1) (((cfg2.win 1).blk t).view.emb (ix2 r k)) = V c (Pipeline.arrRef spec2 1) (ix2 (rowOf t r) k)
  refine congrArg _ (funext fun a => Fin.ext ?_)
  match a with
  | ⟨0, _⟩ => show win2_1.index t (0 : Fin 2) * 5000 + 1 * r.val = 5000 * t.val + r.val; rw [e0]; omega
  | ⟨1, _⟩ => show win2_1.index t (1 : Fin 2) * 256 + 1 * k.val = k.val; rw [e1]; omega

/-- The first weight matrix is staged whole at every point. -/
theorem blk2_apply (t : Fin cfg2.N) (k : Fin 256) (j : Fin 128) :
    (iblk2 V c 2 t : Vec Ideal S256x128 .bf16) (ix2 k j) = wlF V c k j := by
  obtain ⟨-, -, ⟨e0, e1⟩, -⟩ := idx_facts t
  unfold iblk2
  rw [View.read_apply]
  show V c (Pipeline.arrRef spec2 2) (((cfg2.win 2).blk t).view.emb (ix2 k j)) = V c (Pipeline.arrRef spec2 2) (ix2 k j)
  refine congrArg _ (funext fun a => Fin.ext ?_)
  match a with
  | ⟨0, _⟩ => show win2_2.index t (0 : Fin 2) * 256 + 1 * k.val = k.val; rw [e0]; omega
  | ⟨1, _⟩ => show win2_2.index t (1 : Fin 2) * 128 + 1 * j.val = j.val; rw [e1]; omega

/-- The second weight matrix is staged whole at every point. -/
theorem blk3_apply (t : Fin cfg2.N) (k : Fin 256) (j : Fin 128) :
    (iblk2 V c 3 t : Vec Ideal S256x128 .bf16) (ix2 k j) = wrsF V c k j := by
  obtain ⟨-, -, -, ⟨e0, e1⟩, -⟩ := idx_facts t
  unfold iblk2
  rw [View.read_apply]
  show V c (Pipeline.arrRef spec2 3) (((cfg2.win 3).blk t).view.emb (ix2 k j)) = V c (Pipeline.arrRef spec2 3) (ix2 k j)
  refine congrArg _ (funext fun a => Fin.ext ?_)
  match a with
  | ⟨0, _⟩ => show win2_3.index t (0 : Fin 2) * 256 + 1 * k.val = k.val; rw [e0]; omega
  | ⟨1, _⟩ => show win2_3.index t (1 : Fin 2) * 128 + 1 * j.val = j.val; rw [e1]; omega

/-- The offset row is staged whole at every point. -/
theorem blk4_apply (t : Fin cfg2.N) (j : Fin 128) :
    (iblk2 V c 4 t : Vec Ideal S1x128 .f32) (ix2 (0 : Fin 1) j) = bF V c j := by
  obtain ⟨-, -, -, -, ⟨e0, e1⟩, -⟩ := idx_facts t
  unfold iblk2
  rw [View.read_apply]
  show V c (Pipeline.arrRef spec2 4) (((cfg2.win 4).blk t).view.emb (ix2 (0 : Fin 1) j)) = V c (Pipeline.arrRef spec2 4) (ix2 (0 : Fin 1) j)
  refine congrArg _ (funext fun a => Fin.ext ?_)
  match a with
  | ⟨0, _⟩ => show win2_4.index t (0 : Fin 2) * 1 + 1 * 0 = 0; rw [e0]
  | ⟨1, _⟩ => show win2_4.index t (1 : Fin 2) * 128 + 1 * j.val = j.val; rw [e1]; omega

/-- So the activation of point t's blocks at (r, j) is the layer's output at row 5000 · t + r. -/
theorem blockZ (t : Fin cfg2.N) (r : Fin 5000) (j : Fin 128) :
    k2_pay2 (iblk2 V c 0 t) (iblk2 V c 1 t) (iblk2 V c 2 t) (iblk2 V c 3 t) (iblk2 V c 4 t) (ix2 r j) = Z V c (rowOf t r) j := by
  refine (pay2_apply (iblk2 V c 0 t) (iblk2 V c 1 t) (iblk2 V c 2 t) (iblk2 V c 3 t) (iblk2 V c 4 t) r j).trans ?_
  have e0 : ∀ k, (iblk2 V c 0 t : Vec Ideal S5000x256 .f32) (ix2 r k) = aggF V c (rowOf t r) k := fun k => blk0_apply V c t r k
  have e1 : ∀ k, (iblk2 V c 1 t : Vec Ideal S5000x256 .f32) (ix2 r k) = hF V c (rowOf t r) k := fun k => blk1_apply V c t r k
  have e2 : ∀ k, (iblk2 V c 2 t : Vec Ideal S256x128 .bf16) (ix2 k j) = wlF V c k j := fun k => blk2_apply V c t k j
  have e3 : ∀ k, (iblk2 V c 3 t : Vec Ideal S256x128 .bf16) (ix2 k j) = wrsF V c k j := fun k => blk3_apply V c t k j
  have e4 : (iblk2 V c 4 t : Vec Ideal S1x128 .f32) (ix2 (0 : Fin 1) j) = bF V c j := blk4_apply V c t j
  refine congrArg (max · 0) ?_
  refine congr (congrArg HAdd.hAdd (congr (congrArg HAdd.hAdd (Finset.sum_congr rfl fun k _ => ?_)) (Finset.sum_congr rfl fun k _ => ?_))) e4
  · exact congr (congrArg HMul.hMul (e0 k)) (e2 k)
  · exact congr (congrArg HMul.hMul (e1 k)) (e3 k)

/-! ## What a grid point leaves, over the point's blocks -/

/-- At the first point. -/
theorem point_A (t : Fin cfg2.N) (h0 : t.val % 10 = 0) :
    outsAt2 V c t.val t.isLt
      = (k2_pay2 (iblk2 V c 0 t) (iblk2 V c 1 t) (iblk2 V c 2 t) (iblk2 V c 3 t) (iblk2 V c 4 t),
         k2_pay5 (iblk2 V c 0 t) (iblk2 V c 1 t) (iblk2 V c 2 t) (iblk2 V c 3 t) (iblk2 V c 4 t) (k2_pay3 (F := Ideal)),
         k2_pay1 (k2_pay6 (k2_pay4 (F := Ideal))) (k2_pay7 (iblk2 V c 0 t) (iblk2 V c 1 t) (iblk2 V c 2 t) (iblk2 V c 3 t) (iblk2 V c 4 t))) := by
  rw [outsAt2_A V c t h0]
  exact congr (congrArg Prod.mk (out_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)))
    (congr (congrArg Prod.mk (out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t))) (out_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) ((hcond2_0 t).mpr h0) (iblk2 V c 0 t) (iblk2 V c 1 t) (iblk2 V c 2 t) (iblk2 V c 3 t) (iblk2 V c 4 t)))

/-- At every later point, over what the point before left in the two accumulator rows. -/
theorem point_B (t : Fin cfg2.N) (h0 : ¬t.val % 10 = 0) :
    outsAt2 V c t.val t.isLt
      = (k2_pay2 (iblk2 V c 0 t) (iblk2 V c 1 t) (iblk2 V c 2 t) (iblk2 V c 3 t) (iblk2 V c 4 t),
         k2_pay5 (iblk2 V c 0 t) (iblk2 V c 1 t) (iblk2 V c 2 t) (iblk2 V c 3 t) (iblk2 V c 4 t) (outsAt2 V c (t.val - 1) (Nat.lt_of_le_of_lt (Nat.sub_le _ _) t.isLt)).2.1,
         k2_pay1 (k2_pay6 (outsAt2 V c (t.val - 1) (Nat.lt_of_le_of_lt (Nat.sub_le _ _) t.isLt)).2.2) (k2_pay7 (iblk2 V c 0 t) (iblk2 V c 1 t) (iblk2 V c 2 t) (iblk2 V c 3 t) (iblk2 V c 4 t))) := by
  rw [outsAt2_B V c t h0]
  exact congr (congrArg Prod.mk (out_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2))
    (congr (congrArg Prod.mk (out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2)) (out_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2.1 (outsAt2 V c (t.val - 1) (Nat.lt_of_le_of_lt (Nat.sub_le _ _) t.isLt)).2.2))

/-! ## The three outputs after each grid point -/

/-- After point n the output's staging buffer holds the layer's output on the point's rows. -/
theorem z_at (n : ℕ) (hn : n < cfg2.N) (r : Fin 5000) (j : Fin 128) :
    (outsAt2 V c n hn).1 (ix2 r j) = Z V c (rowOf ⟨n, hn⟩ r) j := by
  by_cases h0 : n % 10 = 0
  · rw [point_A V c ⟨n, hn⟩ h0]
    exact blockZ V c ⟨n, hn⟩ r j
  · rw [point_B V c ⟨n, hn⟩ h0]
    exact blockZ V c ⟨n, hn⟩ r j

/-- After point n the row of column sums holds the sums over the rows of blocks 0 … n. -/
theorem s_at (j : Fin 128) : ∀ (n : ℕ) (hn : n < cfg2.N),
    (outsAt2 V c n hn).2.1 (ix2 (0 : Fin 1) j) = ∑ i ∈ Finset.range (5000 * (n + 1)), (Cert.SageSum.padded fun i => Z V c i j) i
  | 0, hn => by
    rw [point_A V c ⟨0, hn⟩ rfl]
    refine (pay5_apply (iblk2 V c 0 ⟨0, hn⟩) (iblk2 V c 1 ⟨0, hn⟩) (iblk2 V c 2 ⟨0, hn⟩) (iblk2 V c 3 ⟨0, hn⟩) (iblk2 V c 4 ⟨0, hn⟩) (k2_pay3 (F := Ideal)) j).trans ?_
    rw [pay3_apply]
    refine Eq.trans ?_ (Cert.SageSum.first_block (Cert.SageSum.padded fun i => Z V c i j) 5000)
    refine congrArg ((0 : EReal) + ·) (Finset.sum_congr rfl fun r _ => ?_)
    refine (blockZ V c ⟨0, hn⟩ r j).trans ?_
    exact (Cert.SageSum.padded_of_lt (fun i => Z V c i j) (5000 * 0 + r.val) (rowOf ⟨0, hn⟩ r).isLt).symm
  | n + 1, hn => by
    have hN : cfg2.N = 10 := N_2
    have hB : ¬(⟨n + 1, hn⟩ : Fin cfg2.N).val % 10 = 0 := by dsimp only; omega
    rw [point_B V c ⟨n + 1, hn⟩ hB]
    refine (pay5_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.1 j).trans ?_
    rw [s_at j n (Nat.lt_of_succ_lt hn)]
    refine Eq.trans ?_ (Cert.SageSum.next_block (Cert.SageSum.padded fun i => Z V c i j) 5000 n)
    refine congrArg (_ + ·) (Finset.sum_congr rfl fun r _ => ?_)
    refine (blockZ V c ⟨n + 1, hn⟩ r j).trans ?_
    exact (Cert.SageSum.padded_of_lt (fun i => Z V c i j) (5000 * (n + 1) + r.val) (rowOf ⟨n + 1, hn⟩ r).isLt).symm

/-- After point n the row of sums of squares holds the sums of the squares over the rows of blocks 0 … n. -/
theorem ss_at (j : Fin 128) : ∀ (n : ℕ) (hn : n < cfg2.N),
    (outsAt2 V c n hn).2.2 (ix2 (0 : Fin 1) j) = ∑ i ∈ Finset.range (5000 * (n + 1)), (Cert.SageSum.padded fun i => Z V c i j * Z V c i j) i
  | 0, hn => by
    rw [point_A V c ⟨0, hn⟩ rfl]
    refine (pay1_apply (iblk2 V c 0 ⟨0, hn⟩) (iblk2 V c 1 ⟨0, hn⟩) (iblk2 V c 2 ⟨0, hn⟩) (iblk2 V c 3 ⟨0, hn⟩) (iblk2 V c 4 ⟨0, hn⟩) (k2_pay4 (F := Ideal)) j).trans ?_
    rw [pay4_apply]
    refine Eq.trans ?_ (Cert.SageSum.first_block (Cert.SageSum.padded fun i => Z V c i j * Z V c i j) 5000)
    refine congrArg ((0 : EReal) + ·) (Finset.sum_congr rfl fun r _ => ?_)
    rw [blockZ V c ⟨0, hn⟩ r j]
    exact (Cert.SageSum.padded_of_lt (fun i => Z V c i j * Z V c i j) (5000 * 0 + r.val) (rowOf ⟨0, hn⟩ r).isLt).symm
  | n + 1, hn => by
    have hN : cfg2.N = 10 := N_2
    have hB : ¬(⟨n + 1, hn⟩ : Fin cfg2.N).val % 10 = 0 := by dsimp only; omega
    rw [point_B V c ⟨n + 1, hn⟩ hB]
    refine (pay1_apply (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 V c n (Nat.lt_of_succ_lt hn)).2.2 j).trans ?_
    rw [ss_at j n (Nat.lt_of_succ_lt hn)]
    refine Eq.trans ?_ (Cert.SageSum.next_block (Cert.SageSum.padded fun i => Z V c i j * Z V c i j) 5000 n)
    refine congrArg (_ + ·) (Finset.sum_congr rfl fun r _ => ?_)
    rw [blockZ V c ⟨n + 1, hn⟩ r j]
    exact (Cert.SageSum.padded_of_lt (fun i => Z V c i j * Z V c i j) (5000 * (n + 1) + r.val) (rowOf ⟨n + 1, hn⟩ r).isLt).symm

end Cert.KernelIdeal.Sage2

end
-- ==== Proof.Sage2.lean ====
/-
  The second layer's region as a whole: what its three result arrays hold when it ends.

  The output array is written back block by block, and the blocks of 5000 rows tile its 50000 rows (row i lies in
  block i / 5000), so it ends holding the layer's output max((agg · Wl + h · Wrs) + b, 0) at every node and column.
  Each of the two one-row accumulators is written back once, after the last block, when it holds the sum over all
  ten blocks: the column sums of the layer's output, and the column sums of its squares, over all 50000 nodes.
-/
import proofs.«144552_j81088982548491_1_alg».proof.Proof.Sage2Value

noncomputable section

open Idealize.ShloMosaic Idealize.ShloMosaic.TcCoe Idealize.SL.Sem Idealize.ShloMosaic.ValueIdx
open Idealize.ShloMosaic.Pipeline (Dat)
open scoped BigOperators

namespace Cert.KernelIdeal.Sage2

open Cert.KernelIdeal Cert.KernelIdeal.Gen

variable (V : (c : Dev nD) → (b : Ref sig .tc) → Buf (Elt Ideal) ((c : Thread nD τ).loc b)) (c : Dev nD)

/-! ## The three result arrays after the run -/

/-- The layer's output as an array over (node, column). -/
abbrev Zarr : S50000x128.Idx → EReal := fun i => Z V c (i 0) (i 1)
/-- The column sums of the layer's output as a one-row array. -/
abbrev Srow : S1x128.Idx → EReal := fun i => Net.colsum (Z V c) (i 1)
/-- The column sums of squares of the layer's output as a one-row array. -/
abbrev SSrow : S1x128.Idx → EReal := fun i => Net.colsumsq (Z V c) (i 1)

/-- An index of the array is in point t's block of window 5 iff each coordinate is in the block's range on its axis. -/
theorem mem_blk5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v55_0).slice (win2_5.rect t)).set ↔ _
  rw [View.set_slice_whole, Rect.mem_set_unit]
  exact Iff.rfl

/-- An index of the array is in point t's block of window 6 iff each coordinate is in the block's range on its axis. -/
theorem mem_blk6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v55_1).slice (win2_6.rect t)).set ↔ _
  rw [View.set_slice_whole, Rect.mem_set_unit]
  exact Iff.rfl

/-- An index of the array is in point t's block of window 7 iff each coordinate is in the block's range on its axis. -/
theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v55_2).slice (win2_7.rect t)).set ↔ _
  rw [View.set_slice_whole, Rect.mem_set_unit]
  exact Iff.rfl

/-- What point t writes back into the output array is block t of the layer's output. -/
theorem flushed5_eq (t : Fin cfg2.N) :
    (dat2 V c).flushed 5 t = ((cfg2.win 5).blk t).view.read (Elt Ideal) (Zarr V c) := by
  show (cfg2.win 5).cut (grid2.coords t) ((dat2 V c).after 5 t) = _
  rw [after2_5]
  obtain ⟨-, -, -, -, -, ⟨e0, e1⟩, -⟩ := idx_facts t
  funext y
  obtain ⟨r, j, rfl⟩ : ∃ (r : Fin 5000) (j : Fin 128), y = ix2 r j := ⟨y 0, y 1, eq_ix2 y⟩
  rw [View.read_apply]
  show (outsAt2 V c t.val t.isLt).1 (ix2 r j)
    = Z V c ((((cfg2.win 5).blk t).view.emb (ix2 r j)) 0) ((((cfg2.win 5).blk t).view.emb (ix2 r j)) 1)
  rw [z_at V c t.val t.isLt r j]
  refine congr (congrArg (Z V c) (Fin.ext ?_)) (Fin.ext ?_)
  · show 5000 * t.val + r.val = win2_5.index t (0 : Fin 2) * 5000 + 1 * r.val; rw [e0]; omega
  · show j.val = win2_5.index t (1 : Fin 2) * 128 + 1 * j.val; rw [e1]; omega

/-- The output array after the run: the blocks of 5000 rows tile it, row i lying in block i / 5000. -/
theorem final_z : ((dat2 V c).arrAt 5 cfg2.N : S50000x128.Idx → EReal) = Zarr V c :=
  (dat2 V c).arrAt_eq_of_cover 5 (Zarr V c) (fun t _ => flushed5_eq V c t) fun i => by
    have hi0 : (i 0).val < 50000 := (i 0).isLt
    have hi1 : (i 1).val < 128 := (i 1).isLt
    have hN : cfg2.N = 10 := N_2
    obtain ⟨t, ht⟩ : ∃ t : Fin cfg2.N, t.val = (i 0).val / 5000 := ⟨⟨(i 0).val / 5000, by omega⟩, rfl⟩
    obtain ⟨-, -, -, -, -, ⟨e0, e1⟩, -⟩ := idx_facts t
    refine ⟨t, flush2_5 t, ?_⟩
    rw [mem_blk5]
    intro a
    match a with
    | ⟨0, _⟩ => show win2_5.index t (0 : Fin 2) * 5000 ≤ (i 0).val ∧ (i 0).val < win2_5.index t (0 : Fin 2) * 5000 + 5000; rw [e0, ht]; omega
    | ⟨1, _⟩ => show win2_5.index t (1 : Fin 2) * 128 ≤ (i 1).val ∧ (i 1).val < win2_5.index t (1 : Fin 2) * 128 + 128; rw [e1]; omega

/-- Reading through a cast along an equation of a type with itself changes nothing. -/
theorem eq_cast_self {α : Type} (h : α = α) (x y : α) (hxy : y = x) : y = cast h x := by
  subst hxy; exact (cast_eq h y).symm

/-- The total over all ten blocks is the column sum over every row. -/
theorem total6_eq (j : Fin 128) :
    ∑ i ∈ Finset.range (5000 * (9 + 1)), (Cert.SageSum.padded fun i => Z V c i j) i = Net.colsum (Z V c) j :=
  Cert.SageSum.sum_range_padded fun i => Z V c i j

/-- What the last point writes back into the row: the column sums over every row of the matrix. -/
theorem flushed6_eq (t : Fin cfg2.N) (hf : (cfg2.win 6).flush t = true) :
    (dat2 V c).flushed 6 t = ((cfg2.win 6).blk t).view.read (Elt Ideal) (Srow V c) := by
  have hN : cfg2.N = 10 := N_2
  have h9 : t.val = 9 := by have := (flush2_6 t).mp hf; have := t.isLt; omega
  show (cfg2.win 6).cut (grid2.coords t) ((dat2 V c).after 6 t) = _
  rw [after2_6]
  obtain ⟨-, -, -, -, -, -, ⟨e0, e1⟩, -⟩ := idx_facts t
  funext y
  obtain ⟨u, j, rfl⟩ : ∃ (u : Fin 1) (j : Fin 128), y = ix2 u j := ⟨y 0, y 1, eq_ix2 y⟩
  obtain rfl : u = 0 := Subsingleton.elim _ _
  have hidx : ((cfg2.win 6).blk t).view.emb (ix2 (0 : Fin 1) j) = (ix2 (0 : Fin 1) j : S1x128.Idx) :=
    funext fun a => Fin.ext (by
      match a with
      | ⟨0, _⟩ => show win2_6.index t (0 : Fin 2) * 1 + 1 * 0 = 0; rw [e0]
      | ⟨1, _⟩ => show win2_6.index t (1 : Fin 2) * 128 + 1 * j.val = j.val; rw [e1]; omega)
  have hS : Srow V c (ix2 (0 : Fin 1) j) = Net.colsum (Z V c) j := rfl
  rw [View.read_apply, hidx]
  refine eq_cast_self _ _ _ ?_
  rw [hS]
  refine (s_at V c j t.val t.isLt).trans ?_
  rw [h9]
  exact total6_eq V c j

/-- The row after the run: the last point's block is the whole row. -/
theorem final_s : ((dat2 V c).arrAt 6 cfg2.N : S1x128.Idx → EReal) = Srow V c :=
  (dat2 V c).arrAt_eq_of_cover 6 (Srow V c) (flushed6_eq V c) fun i => by
    have hN : cfg2.N = 10 := N_2
    obtain ⟨t, ht⟩ : ∃ t : Fin cfg2.N, t.val = 9 := ⟨⟨9, by omega⟩, rfl⟩
    obtain ⟨-, -, -, -, -, -, ⟨e0, e1⟩, -⟩ := idx_facts t
    have hi0 : (i 0).val < 1 := (i 0).isLt
    have hi1 : (i 1).val < 128 := (i 1).isLt
    refine ⟨t, (flush2_6 t).mpr (by rw [ht]), ?_⟩
    rw [mem_blk6]
    intro a
    match a with
    | ⟨0, _⟩ => show win2_6.index t (0 : Fin 2) * 1 ≤ (i 0).val ∧ (i 0).val < win2_6.index t (0 : Fin 2) * 1 + 1; rw [e0]; omega
    | ⟨1, _⟩ => show win2_6.index t (1 : Fin 2) * 128 ≤ (i 1).val ∧ (i 1).val < win2_6.index t (1 : Fin 2) * 128 + 128; rw [e1]; omega

/-- The total over all ten blocks is the column sum of squares over every row. -/
theorem total7_eq (j : Fin 128) :
    ∑ i ∈ Finset.range (5000 * (9 + 1)), (Cert.SageSum.padded fun i => Z V c i j * Z V c i j) i = Net.colsumsq (Z V c) j :=
  Cert.SageSum.sum_range_padded fun i => Z V c i j * Z V c i j

/-- What the last point writes back into the row: the sums of squares over every row of the matrix. -/
theorem flushed7_eq (t : Fin cfg2.N) (hf : (cfg2.win 7).flush t = true) :
    (dat2 V c).flushed 7 t = ((cfg2.win 7).blk t).view.read (Elt Ideal) (SSrow V c) := by
  have hN : cfg2.N = 10 := N_2
  have h9 : t.val = 9 := by have := (flush2_7 t).mp hf; have := t.isLt; omega
  show (cfg2.win 7).cut (grid2.coords t) ((dat2 V c).after 7 t) = _
  rw [after2_7]
  obtain ⟨-, -, -, -, -, -, -, ⟨e0, e1⟩⟩ := idx_facts t
  funext y
  obtain ⟨u, j, rfl⟩ : ∃ (u : Fin 1) (j : Fin 128), y = ix2 u j := ⟨y 0, y 1, eq_ix2 y⟩
  obtain rfl : u = 0 := Subsingleton.elim _ _
  have hidx : ((cfg2.win 7).blk t).view.emb (ix2 (0 : Fin 1) j) = (ix2 (0 : Fin 1) j : S1x128.Idx) :=
    funext fun a => Fin.ext (by
      match a with
      | ⟨0, _⟩ => show win2_7.index t (0 : Fin 2) * 1 + 1 * 0 = 0; rw [e0]
      | ⟨1, _⟩ => show win2_7.index t (1 : Fin 2) * 128 + 1 * j.val = j.val; rw [e1]; omega)
  have hS : SSrow V c (ix2 (0 : Fin 1) j) = Net.colsumsq (Z V c) j := rfl
  rw [View.read_apply, hidx]
  refine eq_cast_self _ _ _ ?_
  rw [hS]
  refine (ss_at V c j t.val t.isLt).trans ?_
  rw [h9]
  exact total7_eq V c j

/-- The row after the run: the last point's block is the whole row. -/
theorem final_ss : ((dat2 V c).arrAt 7 cfg2.N : S1x128.Idx → EReal) = SSrow V c :=
  (dat2 V c).arrAt_eq_of_cover 7 (SSrow V c) (flushed7_eq V c) fun i => by
    have hN : cfg2.N = 10 := N_2
    obtain ⟨t, ht⟩ : ∃ t : Fin cfg2.N, t.val = 9 := ⟨⟨9, by omega⟩, rfl⟩
    obtain ⟨-, -, -, -, -, -, -, ⟨e0, e1⟩⟩ := idx_facts t
    have hi0 : (i 0).val < 1 := (i 0).isLt
    have hi1 : (i 1).val < 128 := (i 1).isLt
    refine ⟨t, (flush2_7 t).mpr (by rw [ht]), ?_⟩
    rw [mem_blk7]
    intro a
    match a with
    | ⟨0, _⟩ => show win2_7.index t (0 : Fin 2) * 1 ≤ (i 0).val ∧ (i 0).val < win2_7.index t (0 : Fin 2) * 1 + 1; rw [e0]; omega
    | ⟨1, _⟩ => show win2_7.index t (1 : Fin 2) * 128 ≤ (i 1).val ∧ (i 1).val < win2_7.index t (1 : Fin 2) * 128 + 128; rw [e1]; omega

/-! ## The region's value -/

/-- The output array holds the layer's output, entry by entry. -/
theorem sage2_z (i : Fin 50000) (j : Fin 128) :
    ((dat2 V c).arrAt 5 cfg2.N : S50000x128.Idx → EReal) (ix2 i j)
      = Net.relu (Net.linK (aggF V c) (hF V c) (wlF V c) (wrsF V c) (bF V c)) i j :=
  congrFun (final_z V c) (ix2 i j)

/-- The first accumulator row holds the column sums of the layer's output. -/
theorem sage2_s (j : Fin 128) :
    ((dat2 V c).arrAt 6 cfg2.N : S1x128.Idx → EReal) (ix2 (0 : Fin 1) j)
      = Net.colsum (Net.relu (Net.linK (aggF V c) (hF V c) (wlF V c) (wrsF V c) (bF V c))) j :=
  congrFun (final_s V c) (ix2 (0 : Fin 1) j)

/-- The second accumulator row holds the column sums of squares of the layer's output. -/
theorem sage2_ss (j : Fin 128) :
    ((dat2 V c).arrAt 7 cfg2.N : S1x128.Idx → EReal) (ix2 (0 : Fin 1) j)
      = Net.colsumsq (Net.relu (Net.linK (aggF V c) (hF V c) (wlF V c) (wrsF V c) (bF V c))) j :=
  congrFun (final_ss V c) (ix2 (0 : Fin 1) j)

end Cert.KernelIdeal.Sage2

end
-- ==== Proof.KSage02.lean ====
import proofs.«144552_j81088982548491_1_alg».proof.Proof.KHostSageAt
import proofs.«144552_j81088982548491_1_alg».proof.Proof.Sage0
import proofs.«144552_j81088982548491_1_alg».proof.Proof.Sage2

/-! # The aggregate-and-project regions on the contents they are entered with

A region's outputs are the layer's activation, column sums and column sums of squares of the matrix
`relu (agg · Wl + h · (Wr + Ws) + (bl + bs))` (the last layer without the `relu` and the sums) formed from its five
input arrays. Entered from its host stretch, those arrays are the neighbour mean of the layer's rows, the rows, and the
layer's parameters; over the extended reals the roundings are identities, so the matrix is that of the launch contents
and of the rows. The launch contents and the rows enter as typed variables with the equations that fix them. -/

noncomputable section

namespace Cert.KernelIdeal.KHost

open Idealize.ShloMosaic Idealize.ShloMosaic.TcCoe Idealize.ShloMosaic.ValueIdx
open Cert.KernelIdeal Cert.KernelIdeal.Gen Cert

/-! ## Layer 1 (region 0) -/

section Layer1

variable (m : (ℓ : Loc nD τ sig) → Buf (Elt Ideal) ℓ) (ρ : Dev nD → PrngReg) (c : Dev nD)

/-- Region 0's five input arrays, curried, are the neighbour mean, the rows and the parameters it is entered with. -/
theorem lin0_fn (EI : (⟨S2x800000, .i32⟩ : BufTy).Contents (Elt Ideal)) (X : S50000x128.Idx → EReal)
    (Wl Wr Ws : S128x256.Idx → EReal) (bl bs : S256.Idx → EReal)
    (hEI : m ((c : Thread nD τ).loc main_arg1) = EI) (hX : m ((c : Thread nD τ).loc main_arg0) = X)
    (hWl : m ((c : Thread nD τ).loc main_arg2) = Wl) (hWr : m ((c : Thread nD τ).loc main_arg4) = Wr) (hWs : m ((c : Thread nD τ).loc main_arg5) = Ws)
    (hbl : m ((c : Thread nD τ).loc main_arg3) = bl) (hbs : m ((c : Thread nD τ).loc main_arg6) = bs) :
    (Net.relu (Net.linK (fun (i : Fin 50000) (k : Fin 128) => (V1 m ρ c (Pipeline.arrRef spec0 0)) (ix2 i k))
        (fun (i : Fin 50000) (k : Fin 128) => (V1 m ρ c (Pipeline.arrRef spec0 1)) (ix2 i k)) (fun (k : Fin 128) (j : Fin 256) => (V1 m ρ c (Pipeline.arrRef spec0 2)) (ix2 k j))
        (fun (k : Fin 128) (j : Fin 256) => (V1 m ρ c (Pipeline.arrRef spec0 3)) (ix2 k j))
        (fun (j : Fin 256) => (V1 m ρ c (Pipeline.arrRef spec0 4)) (ix2 (0 : Fin 1) j))))
      = (Net.relu (Net.linK (fun (i : Fin 50000) (k : Fin 128) => aggK_128 (F := Ideal) EI X (ix2 i k))
        (fun (i : Fin 50000) (k : Fin 128) => X (ix2 i k)) (fun (k : Fin 128) (j : Fin 256) => Wl (ix2 k j))
        (fun (k : Fin 128) (j : Fin 256) => Wr (ix2 k j) + Ws (ix2 k j))
        (fun (j : Fin 256) => bl (ix1 j) + bs (ix1 j)))) := by
  subst hEI hX hWl hWr hWs hbl hbs
  rw [entry0_0 m ρ c, entry0_1 m ρ c, entry0_2 m ρ c, entry0_3 m ρ c, entry0_4 m ρ c]
  refine congrArg (fun b => Net.relu (Net.linK _ _ _ _ b)) ?_
  funext j
  exact b_apply_0 _ _ j

/-- The matrix region 0 leaves in its output array, from the statement of it about its input arrays. -/
theorem kz0_of (EI : (⟨S2x800000, .i32⟩ : BufTy).Contents (Elt Ideal)) (X : S50000x128.Idx → EReal)
    (Wl Wr Ws : S128x256.Idx → EReal) (bl bs : S256.Idx → EReal)
    (hEI : m ((c : Thread nD τ).loc main_arg1) = EI) (hX : m ((c : Thread nD τ).loc main_arg0) = X)
    (hWl : m ((c : Thread nD τ).loc main_arg2) = Wl) (hWr : m ((c : Thread nD τ).loc main_arg4) = Wr) (hWs : m ((c : Thread nD τ).loc main_arg5) = Ws)
    (hbl : m ((c : Thread nD τ).loc main_arg3) = bl) (hbs : m ((c : Thread nD τ).loc main_arg6) = bs)
    (hz : ∀ (i : Fin 50000) (j : Fin 256), (dat0 (V1 m ρ) c).arrAt 5 cfg0.N (ix2 i j) = (Net.relu (Net.linK (fun (i : Fin 50000) (k : Fin 128) => (V1 m ρ c (Pipeline.arrRef spec0 0)) (ix2 i k))
        (fun (i : Fin 50000) (k : Fin 128) => (V1 m ρ c (Pipeline.arrRef spec0 1)) (ix2 i k)) (fun (k : Fin 128) (j : Fin 256) => (V1 m ρ c (Pipeline.arrRef spec0 2)) (ix2 k j))
        (fun (k : Fin 128) (j : Fin 256) => (V1 m ρ c (Pipeline.arrRef spec0 3)) (ix2 k j))
        (fun (j : Fin 256) => (V1 m ρ c (Pipeline.arrRef spec0 4)) (ix2 (0 : Fin 1) j)))) i j) :
    ∀ (i : Fin 50000) (j : Fin 256), (dat0 (V1 m ρ) c).arrAt 5 cfg0.N (ix2 i j) = (Net.relu (Net.linK (fun (i : Fin 50000) (k : Fin 128) => aggK_128 (F := Ideal) EI X (ix2 i k))
        (fun (i : Fin 50000) (k : Fin 128) => X (ix2 i k)) (fun (k : Fin 128) (j : Fin 256) => Wl (ix2 k j))
        (fun (k : Fin 128) (j : Fin 256) => Wr (ix2 k j) + Ws (ix2 k j))
        (fun (j : Fin 256) => bl (ix1 j) + bs (ix1 j)))) i j := by
  intro i j
  rw [hz i j, lin0_fn m ρ c EI X Wl Wr Ws bl bs hEI hX hWl hWr hWs hbl hbs]

/-- The row of column sums region 0 leaves, from the same statement about its input arrays. -/
theorem ks0_of (EI : (⟨S2x800000, .i32⟩ : BufTy).Contents (Elt Ideal)) (X : S50000x128.Idx → EReal)
    (Wl Wr Ws : S128x256.Idx → EReal) (bl bs : S256.Idx → EReal)
    (hEI : m ((c : Thread nD τ).loc main_arg1) = EI) (hX : m ((c : Thread nD τ).loc main_arg0) = X)
    (hWl : m ((c : Thread nD τ).loc main_arg2) = Wl) (hWr : m ((c : Thread nD τ).loc main_arg4) = Wr) (hWs : m ((c : Thread nD τ).loc main_arg5) = Ws)
    (hbl : m ((c : Thread nD τ).loc main_arg3) = bl) (hbs : m ((c : Thread nD τ).loc main_arg6) = bs)
    (hs : ∀ (j : Fin 256), (dat0 (V1 m ρ) c).arrAt 6 cfg0.N (ix2 (0 : Fin 1) j) = Net.colsum (Net.relu (Net.linK (fun (i : Fin 50000) (k : Fin 128) => (V1 m ρ c (Pipeline.arrRef spec0 0)) (ix2 i k))
        (fun (i : Fin 50000) (k : Fin 128) => (V1 m ρ c (Pipeline.arrRef spec0 1)) (ix2 i k)) (fun (k : Fin 128) (j : Fin 256) => (V1 m ρ c (Pipeline.arrRef spec0 2)) (ix2 k j))
        (fun (k : Fin 128) (j : Fin 256) => (V1 m ρ c (Pipeline.arrRef spec0 3)) (ix2 k j))
        (fun (j : Fin 256) => (V1 m ρ c (Pipeline.arrRef spec0 4)) (ix2 (0 : Fin 1) j)))) j) :
    ∀ (j : Fin 256), (dat0 (V1 m ρ) c).arrAt 6 cfg0.N (ix2 (0 : Fin 1) j) = Net.colsum (Net.relu (Net.linK (fun (i : Fin 50000) (k : Fin 128) => aggK_128 (F := Ideal) EI X (ix2 i k))
        (fun (i : Fin 50000) (k : Fin 128) => X (ix2 i k)) (fun (k : Fin 128) (j : Fin 256) => Wl (ix2 k j))
        (fun (k : Fin 128) (j : Fin 256) => Wr (ix2 k j) + Ws (ix2 k j))
        (fun (j : Fin 256) => bl (ix1 j) + bs (ix1 j)))) j := by
  intro j
  rw [hs j, lin0_fn m ρ c EI X Wl Wr Ws bl bs hEI hX hWl hWr hWs hbl hbs]

/-- The row of column sums of squares region 0 leaves, from the same statement about its input arrays. -/
theorem kss0_of (EI : (⟨S2x800000, .i32⟩ : BufTy).Contents (Elt Ideal)) (X : S50000x128.Idx → EReal)
    (Wl Wr Ws : S128x256.Idx → EReal) (bl bs : S256.Idx → EReal)
    (hEI : m ((c : Thread nD τ).loc main_arg1) = EI) (hX : m ((c : Thread nD τ).loc main_arg0) = X)
    (hWl : m ((c : Thread nD τ).loc main_arg2) = Wl) (hWr : m ((c : Thread nD τ).loc main_arg4) = Wr) (hWs : m ((c : Thread nD τ).loc main_arg5) = Ws)
    (hbl : m ((c : Thread nD τ).loc main_arg3) = bl) (hbs : m ((c : Thread nD τ).loc main_arg6) = bs)
    (hss : ∀ (j : Fin 256), (dat0 (V1 m ρ) c).arrAt 7 cfg0.N (ix2 (0 : Fin 1) j) = Net.colsumsq (Net.relu (Net.linK (fun (i : Fin 50000) (k : Fin 128) => (V1 m ρ c (Pipeline.arrRef spec0 0)) (ix2 i k))
        (fun (i : Fin 50000) (k : Fin 128) => (V1 m ρ c (Pipeline.arrRef spec0 1)) (ix2 i k)) (fun (k : Fin 128) (j : Fin 256) => (V1 m ρ c (Pipeline.arrRef spec0 2)) (ix2 k j))
        (fun (k : Fin 128) (j : Fin 256) => (V1 m ρ c (Pipeline.arrRef spec0 3)) (ix2 k j))
        (fun (j : Fin 256) => (V1 m ρ c (Pipeline.arrRef spec0 4)) (ix2 (0 : Fin 1) j)))) j) :
    ∀ (j : Fin 256), (dat0 (V1 m ρ) c).arrAt 7 cfg0.N (ix2 (0 : Fin 1) j) = Net.colsumsq (Net.relu (Net.linK (fun (i : Fin 50000) (k : Fin 128) => aggK_128 (F := Ideal) EI X (ix2 i k))
        (fun (i : Fin 50000) (k : Fin 128) => X (ix2 i k)) (fun (k : Fin 128) (j : Fin 256) => Wl (ix2 k j))
        (fun (k : Fin 128) (j : Fin 256) => Wr (ix2 k j) + Ws (ix2 k j))
        (fun (j : Fin 256) => bl (ix1 j) + bs (ix1 j)))) j := by
  intro j
  rw [hss j, lin0_fn m ρ c EI X Wl Wr Ws bl bs hEI hX hWl hWr hWs hbl hbs]

end Layer1

/-! ## Layer 2 (region 2) -/

section Layer2

variable (m : (ℓ : Loc nD τ sig) → Buf (Elt Ideal) ℓ) (ρ : Dev nD → PrngReg) (c : Dev nD)

/-- Region 2's five input arrays, curried, are the neighbour mean, the rows and the parameters it is entered with. -/
theorem lin2_fn (EI : (⟨S2x800000, .i32⟩ : BufTy).Contents (Elt Ideal)) (X : S50000x256.Idx → EReal)
    (Wl Wr Ws : S256x128.Idx → EReal) (bl bs : S128.Idx → EReal)
    (hEI : m ((c : Thread nD τ).loc main_arg1) = EI) (hX : (dat1 (V3 m ρ) c).arrAt 5 cfg1.N = X)
    (hWl : m ((c : Thread nD τ).loc main_arg9) = Wl) (hWr : m ((c : Thread nD τ).loc main_arg11) = Wr) (hWs : m ((c : Thread nD τ).loc main_arg12) = Ws)
    (hbl : m ((c : Thread nD τ).loc main_arg10) = bl) (hbs : m ((c : Thread nD τ).loc main_arg13) = bs) :
    (Net.relu (Net.linK (fun (i : Fin 50000) (k : Fin 256) => (V5 m ρ c (Pipeline.arrRef spec2 0)) (ix2 i k))
        (fun (i : Fin 50000) (k : Fin 256) => (V5 m ρ c (Pipeline.arrRef spec2 1)) (ix2 i k)) (fun (k : Fin 256) (j : Fin 128) => (V5 m ρ c (Pipeline.arrRef spec2 2)) (ix2 k j))
        (fun (k : Fin 256) (j : Fin 128) => (V5 m ρ c (Pipeline.arrRef spec2 3)) (ix2 k j))
        (fun (j : Fin 128) => (V5 m ρ c (Pipeline.arrRef spec2 4)) (ix2 (0 : Fin 1) j))))
      = (Net.relu (Net.linK (fun (i : Fin 50000) (k : Fin 256) => aggK_256 (F := Ideal) EI X (ix2 i k))
        (fun (i : Fin 50000) (k : Fin 256) => X (ix2 i k)) (fun (k : Fin 256) (j : Fin 128) => Wl (ix2 k j))
        (fun (k : Fin 256) (j : Fin 128) => Wr (ix2 k j) + Ws (ix2 k j))
        (fun (j : Fin 128) => bl (ix1 j) + bs (ix1 j)))) := by
  subst hEI hX hWl hWr hWs hbl hbs
  rw [entry2_0 m ρ c, entry2_1 m ρ c, entry2_2 m ρ c, entry2_3 m ρ c, entry2_4 m ρ c]
  refine congrArg (fun b => Net.relu (Net.linK _ _ _ _ b)) ?_
  funext j
  exact b_apply_2 _ _ j

/-- The matrix region 2 leaves in its output array, from the statement of it about its input arrays. -/
theorem kz2_of (EI : (⟨S2x800000, .i32⟩ : BufTy).Contents (Elt Ideal)) (X : S50000x256.Idx → EReal)
    (Wl Wr Ws : S256x128.Idx → EReal) (bl bs : S128.Idx → EReal)
    (hEI : m ((c : Thread nD τ).loc main_arg1) = EI) (hX : (dat1 (V3 m ρ) c).arrAt 5 cfg1.N = X)
    (hWl : m ((c : Thread nD τ).loc main_arg9) = Wl) (hWr : m ((c : Thread nD τ).loc main_arg11) = Wr) (hWs : m ((c : Thread nD τ).loc main_arg12) = Ws)
    (hbl : m ((c : Thread nD τ).loc main_arg10) = bl) (hbs : m ((c : Thread nD τ).loc main_arg13) = bs)
    (hz : ∀ (i : Fin 50000) (j : Fin 128), (dat2 (V5 m ρ) c).arrAt 5 cfg2.N (ix2 i j) = (Net.relu (Net.linK (fun (i : Fin 50000) (k : Fin 256) => (V5 m ρ c (Pipeline.arrRef spec2 0)) (ix2 i k))
        (fun (i : Fin 50000) (k : Fin 256) => (V5 m ρ c (Pipeline.arrRef spec2 1)) (ix2 i k)) (fun (k : Fin 256) (j : Fin 128) => (V5 m ρ c (Pipeline.arrRef spec2 2)) (ix2 k j))
        (fun (k : Fin 256) (j : Fin 128) => (V5 m ρ c (Pipeline.arrRef spec2 3)) (ix2 k j))
        (fun (j : Fin 128) => (V5 m ρ c (Pipeline.arrRef spec2 4)) (ix2 (0 : Fin 1) j)))) i j) :
    ∀ (i : Fin 50000) (j : Fin 128), (dat2 (V5 m ρ) c).arrAt 5 cfg2.N (ix2 i j) = (Net.relu (Net.linK (fun (i : Fin 50000) (k : Fin 256) => aggK_256 (F := Ideal) EI X (ix2 i k))
        (fun (i : Fin 50000) (k : Fin 256) => X (ix2 i k)) (fun (k : Fin 256) (j : Fin 128) => Wl (ix2 k j))
        (fun (k : Fin 256) (j : Fin 128) => Wr (ix2 k j) + Ws (ix2 k j))
        (fun (j : Fin 128) => bl (ix1 j) + bs (ix1 j)))) i j := by
  intro i j
  rw [hz i j, lin2_fn m ρ c EI X Wl Wr Ws bl bs hEI hX hWl hWr hWs hbl hbs]

/-- The row of column sums region 2 leaves, from the same statement about its input arrays. -/
theorem ks2_of (EI : (⟨S2x800000, .i32⟩ : BufTy).Contents (Elt Ideal)) (X : S50000x256.Idx → EReal)
    (Wl Wr Ws : S256x128.Idx → EReal) (bl bs : S128.Idx → EReal)
    (hEI : m ((c : Thread nD τ).loc main_arg1) = EI) (hX : (dat1 (V3 m ρ) c).arrAt 5 cfg1.N = X)
    (hWl : m ((c : Thread nD τ).loc main_arg9) = Wl) (hWr : m ((c : Thread nD τ).loc main_arg11) = Wr) (hWs : m ((c : Thread nD τ).loc main_arg12) = Ws)
    (hbl : m ((c : Thread nD τ).loc main_arg10) = bl) (hbs : m ((c : Thread nD τ).loc main_arg13) = bs)
    (hs : ∀ (j : Fin 128), (dat2 (V5 m ρ) c).arrAt 6 cfg2.N (ix2 (0 : Fin 1) j) = Net.colsum (Net.relu (Net.linK (fun (i : Fin 50000) (k : Fin 256) => (V5 m ρ c (Pipeline.arrRef spec2 0)) (ix2 i k))
        (fun (i : Fin 50000) (k : Fin 256) => (V5 m ρ c (Pipeline.arrRef spec2 1)) (ix2 i k)) (fun (k : Fin 256) (j : Fin 128) => (V5 m ρ c (Pipeline.arrRef spec2 2)) (ix2 k j))
        (fun (k : Fin 256) (j : Fin 128) => (V5 m ρ c (Pipeline.arrRef spec2 3)) (ix2 k j))
        (fun (j : Fin 128) => (V5 m ρ c (Pipeline.arrRef spec2 4)) (ix2 (0 : Fin 1) j)))) j) :
    ∀ (j : Fin 128), (dat2 (V5 m ρ) c).arrAt 6 cfg2.N (ix2 (0 : Fin 1) j) = Net.colsum (Net.relu (Net.linK (fun (i : Fin 50000) (k : Fin 256) => aggK_256 (F := Ideal) EI X (ix2 i k))
        (fun (i : Fin 50000) (k : Fin 256) => X (ix2 i k)) (fun (k : Fin 256) (j : Fin 128) => Wl (ix2 k j))
        (fun (k : Fin 256) (j : Fin 128) => Wr (ix2 k j) + Ws (ix2 k j))
        (fun (j : Fin 128) => bl (ix1 j) + bs (ix1 j)))) j := by
  intro j
  rw [hs j, lin2_fn m ρ c EI X Wl Wr Ws bl bs hEI hX hWl hWr hWs hbl hbs]

/-- The row of column sums of squares region 2 leaves, from the same statement about its input arrays. -/
theorem kss2_of (EI : (⟨S2x800000, .i32⟩ : BufTy).Contents (Elt Ideal)) (X : S50000x256.Idx → EReal)
    (Wl Wr Ws : S256x128.Idx → EReal) (bl bs : S128.Idx → EReal)
    (hEI : m ((c : Thread nD τ).loc main_arg1) = EI) (hX : (dat1 (V3 m ρ) c).arrAt 5 cfg1.N = X)
    (hWl : m ((c : Thread nD τ).loc main_arg9) = Wl) (hWr : m ((c : Thread nD τ).loc main_arg11) = Wr) (hWs : m ((c : Thread nD τ).loc main_arg12) = Ws)
    (hbl : m ((c : Thread nD τ).loc main_arg10) = bl) (hbs : m ((c : Thread nD τ).loc main_arg13) = bs)
    (hss : ∀ (j : Fin 128), (dat2 (V5 m ρ) c).arrAt 7 cfg2.N (ix2 (0 : Fin 1) j) = Net.colsumsq (Net.relu (Net.linK (fun (i : Fin 50000) (k : Fin 256) => (V5 m ρ c (Pipeline.arrRef spec2 0)) (ix2 i k))
        (fun (i : Fin 50000) (k : Fin 256) => (V5 m ρ c (Pipeline.arrRef spec2 1)) (ix2 i k)) (fun (k : Fin 256) (j : Fin 128) => (V5 m ρ c (Pipeline.arrRef spec2 2)) (ix2 k j))
        (fun (k : Fin 256) (j : Fin 128) => (V5 m ρ c (Pipeline.arrRef spec2 3)) (ix2 k j))
        (fun (j : Fin 128) => (V5 m ρ c (Pipeline.arrRef spec2 4)) (ix2 (0 : Fin 1) j)))) j) :
    ∀ (j : Fin 128), (dat2 (V5 m ρ) c).arrAt 7 cfg2.N (ix2 (0 : Fin 1) j) = Net.colsumsq (Net.relu (Net.linK (fun (i : Fin 50000) (k : Fin 256) => aggK_256 (F := Ideal) EI X (ix2 i k))
        (fun (i : Fin 50000) (k : Fin 256) => X (ix2 i k)) (fun (k : Fin 256) (j : Fin 128) => Wl (ix2 k j))
        (fun (k : Fin 256) (j : Fin 128) => Wr (ix2 k j) + Ws (ix2 k j))
        (fun (j : Fin 128) => bl (ix1 j) + bs (ix1 j)))) j := by
  intro j
  rw [hss j, lin2_fn m ρ c EI X Wl Wr Ws bl bs hEI hX hWl hWr hWs hbl hbs]

end Layer2

section Exact0

variable (m : (ℓ : Loc nD τ sig) → Buf (Elt Ideal) ℓ) (ρ : Dev nD → PrngReg) (c : Dev nD)

/-- Region 0's output matrix as a function of the launch contents. -/
theorem kz0 :
    ∀ (i : Fin 50000) (j : Fin 256), (dat0 (V1 m ρ) c).arrAt 5 cfg0.N (ix2 i j) = (Net.relu (Net.linK (fun (i : Fin 50000) (k : Fin 128) => aggK_128 (F := Ideal) (m ((c : Thread nD τ).loc main_arg1)) (m ((c : Thread nD τ).loc main_arg0)) (ix2 i k))
        (fun (i : Fin 50000) (k : Fin 128) => (m ((c : Thread nD τ).loc main_arg0)) (ix2 i k)) (fun (k : Fin 128) (j : Fin 256) => (m ((c : Thread nD τ).loc main_arg2)) (ix2 k j))
        (fun (k : Fin 128) (j : Fin 256) => HAdd.hAdd (α := EReal) (β := EReal) (γ := EReal) ((m ((c : Thread nD τ).loc main_arg4)) (ix2 k j)) ((m ((c : Thread nD τ).loc main_arg5)) (ix2 k j)))
        (fun (j : Fin 256) => HAdd.hAdd (α := EReal) (β := EReal) (γ := EReal) ((m ((c : Thread nD τ).loc main_arg3)) (ix1 j)) ((m ((c : Thread nD τ).loc main_arg6)) (ix1 j))))) i j :=
  kz0_of m ρ c (m ((c : Thread nD τ).loc main_arg1)) (m ((c : Thread nD τ).loc main_arg0)) (m ((c : Thread nD τ).loc main_arg2)) (m ((c : Thread nD τ).loc main_arg4)) (m ((c : Thread nD τ).loc main_arg5)) (m ((c : Thread nD τ).loc main_arg3)) (m ((c : Thread nD τ).loc main_arg6)) rfl rfl rfl rfl rfl rfl rfl (Sage0.sage0_z (V1 m ρ) c)

/-- Region 0's row of column sums likewise. -/
theorem ks0 :
    ∀ (j : Fin 256), (dat0 (V1 m ρ) c).arrAt 6 cfg0.N (ix2 (0 : Fin 1) j) = Net.colsum (Net.relu (Net.linK (fun (i : Fin 50000) (k : Fin 128) => aggK_128 (F := Ideal) (m ((c : Thread nD τ).loc main_arg1)) (m ((c : Thread nD τ).loc main_arg0)) (ix2 i k))
        (fun (i : Fin 50000) (k : Fin 128) => (m ((c : Thread nD τ).loc main_arg0)) (ix2 i k)) (fun (k : Fin 128) (j : Fin 256) => (m ((c : Thread nD τ).loc main_arg2)) (ix2 k j))
        (fun (k : Fin 128) (j : Fin 256) => HAdd.hAdd (α := EReal) (β := EReal) (γ := EReal) ((m ((c : Thread nD τ).loc main_arg4)) (ix2 k j)) ((m ((c : Thread nD τ).loc main_arg5)) (ix2 k j)))
        (fun (j : Fin 256) => HAdd.hAdd (α := EReal) (β := EReal) (γ := EReal) ((m ((c : Thread nD τ).loc main_arg3)) (ix1 j)) ((m ((c : Thread nD τ).loc main_arg6)) (ix1 j))))) j :=
  ks0_of m ρ c (m ((c : Thread nD τ).loc main_arg1)) (m ((c : Thread nD τ).loc main_arg0)) (m ((c : Thread nD τ).loc main_arg2)) (m ((c : Thread nD τ).loc main_arg4)) (m ((c : Thread nD τ).loc main_arg5)) (m ((c : Thread nD τ).loc main_arg3)) (m ((c : Thread nD τ).loc main_arg6)) rfl rfl rfl rfl rfl rfl rfl (Sage0.sage0_s (V1 m ρ) c)

/-- Region 0's row of column sums of squares likewise. -/
theorem kss0 :
    ∀ (j : Fin 256), (dat0 (V1 m ρ) c).arrAt 7 cfg0.N (ix2 (0 : Fin 1) j) = Net.colsumsq (Net.relu (Net.linK (fun (i : Fin 50000) (k : Fin 128) => aggK_128 (F := Ideal) (m ((c : Thread nD τ).loc main_arg1)) (m ((c : Thread nD τ).loc main_arg0)) (ix2 i k))
        (fun (i : Fin 50000) (k : Fin 128) => (m ((c : Thread nD τ).loc main_arg0)) (ix2 i k)) (fun (k : Fin 128) (j : Fin 256) => (m ((c : Thread nD τ).loc main_arg2)) (ix2 k j))
        (fun (k : Fin 128) (j : Fin 256) => HAdd.hAdd (α := EReal) (β := EReal) (γ := EReal) ((m ((c : Thread nD τ).loc main_arg4)) (ix2 k j)) ((m ((c : Thread nD τ).loc main_arg5)) (ix2 k j)))
        (fun (j : Fin 256) => HAdd.hAdd (α := EReal) (β := EReal) (γ := EReal) ((m ((c : Thread nD τ).loc main_arg3)) (ix1 j)) ((m ((c : Thread nD τ).loc main_arg6)) (ix1 j))))) j :=
  kss0_of m ρ c (m ((c : Thread nD τ).loc main_arg1)) (m ((c : Thread nD τ).loc main_arg0)) (m ((c : Thread nD τ).loc main_arg2)) (m ((c : Thread nD τ).loc main_arg4)) (m ((c : Thread nD τ).loc main_arg5)) (m ((c : Thread nD τ).loc main_arg3)) (m ((c : Thread nD τ).loc main_arg6)) rfl rfl rfl rfl rfl rfl rfl (Sage0.sage0_ss (V1 m ρ) c)

end Exact0

section Exact2

variable (m : (ℓ : Loc nD τ sig) → Buf (Elt Ideal) ℓ) (ρ : Dev nD → PrngReg) (c : Dev nD)

/-- Region 2's output matrix as a function of the launch contents and of the rows entering the layer. -/
theorem kz2 :
    ∀ (i : Fin 50000) (j : Fin 128), (dat2 (V5 m ρ) c).arrAt 5 cfg2.N (ix2 i j) = (Net.relu (Net.linK (fun (i : Fin 50000) (k : Fin 256) => aggK_256 (F := Ideal) (m ((c : Thread nD τ).loc main_arg1)) ((dat1 (V3 m ρ) c).arrAt 5 cfg1.N) (ix2 i k))
        (fun (i : Fin 50000) (k : Fin 256) => ((dat1 (V3 m ρ) c).arrAt 5 cfg1.N) (ix2 i k)) (fun (k : Fin 256) (j : Fin 128) => (m ((c : Thread nD τ).loc main_arg9)) (ix2 k j))
        (fun (k : Fin 256) (j : Fin 128) => HAdd.hAdd (α := EReal) (β := EReal) (γ := EReal) ((m ((c : Thread nD τ).loc main_arg11)) (ix2 k j)) ((m ((c : Thread nD τ).loc main_arg12)) (ix2 k j)))
        (fun (j : Fin 128) => HAdd.hAdd (α := EReal) (β := EReal) (γ := EReal) ((m ((c : Thread nD τ).loc main_arg10)) (ix1 j)) ((m ((c : Thread nD τ).loc main_arg13)) (ix1 j))))) i j :=
  kz2_of m ρ c (m ((c : Thread nD τ).loc main_arg1)) ((dat1 (V3 m ρ) c).arrAt 5 cfg1.N) (m ((c : Thread nD τ).loc main_arg9)) (m ((c : Thread nD τ).loc main_arg11)) (m ((c : Thread nD τ).loc main_arg12)) (m ((c : Thread nD τ).loc main_arg10)) (m ((c : Thread nD τ).loc main_arg13)) rfl rfl rfl rfl rfl rfl rfl (Sage2.sage2_z (V5 m ρ) c)

/-- Region 2's row of column sums likewise. -/
theorem ks2 :
    ∀ (j : Fin 128), (dat2 (V5 m ρ) c).arrAt 6 cfg2.N (ix2 (0 : Fin 1) j) = Net.colsum (Net.relu (Net.linK (fun (i : Fin 50000) (k : Fin 256) => aggK_256 (F := Ideal) (m ((c : Thread nD τ).loc main_arg1)) ((dat1 (V3 m ρ) c).arrAt 5 cfg1.N) (ix2 i k))
        (fun (i : Fin 50000) (k : Fin 256) => ((dat1 (V3 m ρ) c).arrAt 5 cfg1.N) (ix2 i k)) (fun (k : Fin 256) (j : Fin 128) => (m ((c : Thread nD τ).loc main_arg9)) (ix2 k j))
        (fun (k : Fin 256) (j : Fin 128) => HAdd.hAdd (α := EReal) (β := EReal) (γ := EReal) ((m ((c : Thread nD τ).loc main_arg11)) (ix2 k j)) ((m ((c : Thread nD τ).loc main_arg12)) (ix2 k j)))
        (fun (j : Fin 128) => HAdd.hAdd (α := EReal) (β := EReal) (γ := EReal) ((m ((c : Thread nD τ).loc main_arg10)) (ix1 j)) ((m ((c : Thread nD τ).loc main_arg13)) (ix1 j))))) j :=
  ks2_of m ρ c (m ((c : Thread nD τ).loc main_arg1)) ((dat1 (V3 m ρ) c).arrAt 5 cfg1.N) (m ((c : Thread nD τ).loc main_arg9)) (m ((c : Thread nD τ).loc main_arg11)) (m ((c : Thread nD τ).loc main_arg12)) (m ((c : Thread nD τ).loc main_arg10)) (m ((c : Thread nD τ).loc main_arg13)) rfl rfl rfl rfl rfl rfl rfl (Sage2.sage2_s (V5 m ρ) c)

/-- Region 2's row of column sums of squares likewise. -/
theorem kss2 :
    ∀ (j : Fin 128), (dat2 (V5 m ρ) c).arrAt 7 cfg2.N (ix2 (0 : Fin 1) j) = Net.colsumsq (Net.relu (Net.linK (fun (i : Fin 50000) (k : Fin 256) => aggK_256 (F := Ideal) (m ((c : Thread nD τ).loc main_arg1)) ((dat1 (V3 m ρ) c).arrAt 5 cfg1.N) (ix2 i k))
        (fun (i : Fin 50000) (k : Fin 256) => ((dat1 (V3 m ρ) c).arrAt 5 cfg1.N) (ix2 i k)) (fun (k : Fin 256) (j : Fin 128) => (m ((c : Thread nD τ).loc main_arg9)) (ix2 k j))
        (fun (k : Fin 256) (j : Fin 128) => HAdd.hAdd (α := EReal) (β := EReal) (γ := EReal) ((m ((c : Thread nD τ).loc main_arg11)) (ix2 k j)) ((m ((c : Thread nD τ).loc main_arg12)) (ix2 k j)))
        (fun (j : Fin 128) => HAdd.hAdd (α := EReal) (β := EReal) (γ := EReal) ((m ((c : Thread nD τ).loc main_arg10)) (ix1 j)) ((m ((c : Thread nD τ).loc main_arg13)) (ix1 j))))) j :=
  kss2_of m ρ c (m ((c : Thread nD τ).loc main_arg1)) ((dat1 (V3 m ρ) c).arrAt 5 cfg1.N) (m ((c : Thread nD τ).loc main_arg9)) (m ((c : Thread nD τ).loc main_arg11)) (m ((c : Thread nD τ).loc main_arg12)) (m ((c : Thread nD τ).loc main_arg10)) (m ((c : Thread nD τ).loc main_arg13)) rfl rfl rfl rfl rfl rfl rfl (Sage2.sage2_ss (V5 m ρ) c)

end Exact2

end Cert.KernelIdeal.KHost
-- ==== Proof.KHostAt.lean ====
/-
  The kernel program's host preparation of a layer's weights, read at one entry.

  Before each layer the host code narrows the aggregate's weight matrix to the shorter float format, adds the two
  weight matrices of the node's own features and narrows the sum, and adds the two offset vectors and recasts the sum as
  a one-row matrix. On extended reals narrowing changes nothing, so at an entry these are the weight itself, the sum of
  the two weights, and the sum of the two offsets.
-/
import proofs.«144552_j81088982548491_1_alg».proof.Proof.Gen.KernelIdeal
import proofs.«144552_j81088982548491_1_alg».proof.Proof.LibHostAt

noncomputable section

namespace Cert.KernelIdeal.KHostAt

open Cert.KernelIdeal
open Idealize.ShloMosaic Idealize.ShloMosaic.ValueIdx

/-- A narrowed weight array, of any shape, at any index, is the weight there (whatever the evidence that the format is shorter). -/
theorem truncW_at {s : Shape} (W : FVec Ideal s .f32) (h : FTy.bits .bf16 < FTy.bits .f32) (idx : s.Idx) :
    (truncf .bf16 W h : FVec Ideal s .bf16) idx = W idx := rfl

/-- The sum of two weight arrays, of any shape, at any index, is the sum of the two weights there. -/
theorem addW_at {s : Shape} (Wr Ws : FVec Ideal s .f32) (idx : s.Idx) : addf Wr Ws idx = Wr idx + Ws idx := rfl

/-- The narrowed sum of two weight arrays, of any shape, at any index, is the sum of the two weights there. -/
theorem truncAddW_at {s : Shape} (Wr Ws : FVec Ideal s .f32) (h : FTy.bits .bf16 < FTy.bits .f32) (idx : s.Idx) :
    (truncf .bf16 (addf Wr Ws) h : FVec Ideal s .bf16) idx = Wr idx + Ws idx := rfl

/-- Layer 1's two offsets added and recast as a one-row matrix, at (0, j). -/
theorem bias256_at (h : S256.ShapeCasts S1x256) (bl bs : FVec Ideal S256 .f32) (j : Fin 256) :
    shapeCast S1x256 (addf bl bs) h (ix2 (0 : Fin 1) j) = bl (ix1 j) + bs (ix1 j) :=
  LibHostAt.row_of_add_at _ bl bs 0 j

/-- Layer 2's two offsets added and recast as a one-row matrix, at (0, j). -/
theorem bias128_at (h : S128.ShapeCasts S1x128) (bl bs : FVec Ideal S128 .f32) (j : Fin 128) :
    shapeCast S1x128 (addf bl bs) h (ix2 (0 : Fin 1) j) = bl (ix1 j) + bs (ix1 j) :=
  LibHostAt.row_of_add_at _ bl bs 0 j

/-- Layer 3's two offsets added and recast as a one-row matrix, at (0, j). -/
theorem bias64_at (h : S64.ShapeCasts S1x64) (bl bs : FVec Ideal S64 .f32) (j : Fin 64) :
    shapeCast S1x64 (addf bl bs) h (ix2 (0 : Fin 1) j) = bl (ix1 j) + bs (ix1 j) :=
  LibHostAt.row_of_add_at _ bl bs 0 j

/-- Layer 4's two offsets added and recast as a one-row matrix, at (0, j). -/
theorem bias40_at (h : S40.ShapeCasts S1x40) (bl bs : FVec Ideal S40 .f32) (j : Fin 40) :
    shapeCast S1x40 (addf bl bs) h (ix2 (0 : Fin 1) j) = bl (ix1 j) + bs (ix1 j) :=
  LibHostAt.row_of_add_at _ bl bs 0 j

/-- A scale or offset vector recast as a one-row matrix, at (0, j), for the widths 256, 128 and 64. -/
theorem row256_at (h : S256.ShapeCasts S1x256) (g : FVec Ideal S256 .f32) (j : Fin 256) :
    shapeCast S1x256 g h (ix2 (0 : Fin 1) j) = g (ix1 j) := LibHostAt.row_of_vec_at _ g 0 j
theorem row128_at (h : S128.ShapeCasts S1x128) (g : FVec Ideal S128 .f32) (j : Fin 128) :
    shapeCast S1x128 g h (ix2 (0 : Fin 1) j) = g (ix1 j) := LibHostAt.row_of_vec_at _ g 0 j
theorem row64_at (h : S64.ShapeCasts S1x64) (g : FVec Ideal S64 .f32) (j : Fin 64) :
    shapeCast S1x64 g h (ix2 (0 : Fin 1) j) = g (ix1 j) := LibHostAt.row_of_vec_at _ g 0 j

end Cert.KernelIdeal.KHostAt

end
-- ==== Proof.Sage4Pieces.lean ====
/-
  What one grid point of the third layer's kernel leaves in its three output buffers, as values of the point's
  input blocks: the block of the layer's output is the activation of the block's rows, and each of the two
  accumulator rows is the row it held before the point (the zero row at the first point, where the kernel resets
  it) plus the block's column sums, of the entries or of their squares. Stated for any float instance.
-/
import proofs.«144552_j81088982548491_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Sage4

open Cert.KernelIdeal Cert.KernelIdeal.Gen

variable {F : FTy → Type} [FloatOps F]

/-- The zero offsets of every whole-buffer load and store. -/
theorem hz : (![0, 0] : Fin 2 → Nat) = fun _ => 0 := funext fun a => by fin_cases a <;> rfl

/-! ## The first grid point: the two accumulator rows are reset before they are read -/

/-- The block of the layer's output the first point leaves: the activation of the point's input blocks. -/
theorem out_A_5 (c : Dev nD) (i : grid4.Coords) (a1 : Memref sig .tc .vmem S5000x128 .f32) (h1 : a1.IsWhole) (a2 : Memref sig .tc .vmem S5000x128 .f32) (h2 : a2.IsWhole) (a3 : Memref sig .tc .vmem S128x64 .bf16) (h3 : a3.IsWhole) (a4 : Memref sig .tc .vmem S128x64 .bf16) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i) (x0 x1 : Vec F S5000x128 .f32) (x2 x3 : Vec F S128x64 .bf16) (x4 : Vec F S1x64 .f32) :
    out4_A_5 c i a1 h1 a2 h2 a3 h3 a4 h4 a5 h5 a6 h6 a7 h7 a8 h8 hc x0 x1 x2 x3 x4 = k4_pay2 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  rw [View.canon_unit_zero hz]
  simp only [View.readAt_eq_ld, h1.read_unread, h2.read_unread, h3.read_unread, h4.read_unread, h5.read_unread,
    View.ld_unit_zero (S := S5000x128) hz, View.ld_unit_zero (S := S128x64) hz, View.ld_unit_zero (S := S1x64) hz]

/-- The row of column sums after the first point: the zero row plus the block's column sums. -/
theorem out_A_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x64 .bf16) (h3 : a3.IsWhole) (a4 : Memref sig .tc .vmem S128x64 .bf16) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i) (x0 x1 : Vec F S5000x128 .f32) (x2 x3 : Vec F S128x64 .bf16) (x4 : Vec F S1x64 .f32) :
    out4_A_6 c i a1 h1 a2 h2 a3 h3 a4 h4 a5 h5 a6 h6 a7 h7 a8 h8 hc x0 x1 x2 x3 x4 = k4_pay5 x0 x1 x2 x3 x4 (k4_pay3 (F := F)) := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S5000x128) hz, View.ld_unit_zero (S := S128x64) hz, View.ld_unit_zero (S := S1x64) hz]

/-- The row of column sums of squares after the first point: the zero row plus the block's sums of squares. -/
theorem out_A_7 (c : Dev nD) (i : grid4.Coords) (a1 : Memref sig .tc .vmem S5000x128 .f32) (h1 : a1.IsWhole) (a2 : Memref sig .tc .vmem S5000x128 .f32) (h2 : a2.IsWhole) (a3 : Memref sig .tc .vmem S128x64 .bf16) (h3 : a3.IsWhole) (a4 : Memref sig .tc .vmem S128x64 .bf16) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : cond4_0 i) (x0 x1 : Vec F S5000x128 .f32) (x2 x3 : Vec F S128x64 .bf16) (x4 : Vec F S1x64 .f32) :
    out4_A_7 c i a1 h1 a2 h2 a3 h3 a4 h4 a5 h5 a6 h6 a7 h7 a8 h8 hc x0 x1 x2 x3 x4 = k4_pay1 (k4_pay6 (k4_pay4 (F := F))) (k4_pay7 x0 x1 x2 x3 x4) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    View.ld_unit_zero (S := S5000x128) hz, View.ld_unit_zero (S := S128x64) hz, View.ld_unit_zero (S := S1x64) hz]

/-! ## Every later grid point: the two rows carry what the point before left -/

/-- The block of the layer's output a later point leaves: the activation of the point's input blocks. -/
theorem out_B_5 (c : Dev nD) (i : grid4.Coords) (a1 : Memref sig .tc .vmem S5000x128 .f32) (h1 : a1.IsWhole) (a2 : Memref sig .tc .vmem S5000x128 .f32) (h2 : a2.IsWhole) (a3 : Memref sig .tc .vmem S128x64 .bf16) (h3 : a3.IsWhole) (a4 : Memref sig .tc .vmem S128x64 .bf16) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i) (x0 x1 : Vec F S5000x128 .f32) (x2 x3 : Vec F S128x64 .bf16) (x4 : Vec F S1x64 .f32) (xo6 xo7 : Vec F S1x64 .f32) :
    out4_B_5 c i a1 h1 a2 h2 a3 h3 a4 h4 a5 h5 a6 h6 a7 h7 a8 h8 hc x0 x1 x2 x3 x4 xo6 xo7 = k4_pay2 x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x64) hz, View.ld_unit_zero (S := S1x64) hz]

/-- The row of column sums after a later point: the row carried in plus the block's column sums. -/
theorem out_B_6 (c : Dev nD) (i : grid4.Coords) (a1 : Memref sig .tc .vmem S5000x128 .f32) (h1 : a1.IsWhole) (a2 : Memref sig .tc .vmem S5000x128 .f32) (h2 : a2.IsWhole) (a3 : Memref sig .tc .vmem S128x64 .bf16) (h3 : a3.IsWhole) (a4 : Memref sig .tc .vmem S128x64 .bf16) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i) (x0 x1 : Vec F S5000x128 .f32) (x2 x3 : Vec F S128x64 .bf16) (x4 : Vec F S1x64 .f32) (xo6 xo7 : Vec F S1x64 .f32) :
    out4_B_6 c i a1 h1 a2 h2 a3 h3 a4 h4 a5 h5 a6 h6 a7 h7 a8 h8 hc x0 x1 x2 x3 x4 xo6 xo7 = k4_pay5 x0 x1 x2 x3 x4 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x64) hz, View.ld_unit_zero (S := S1x64) hz]

/-- The row of column sums of squares after a later point: the row carried in plus the block's sums of squares. -/
theorem out_B_7 (c : Dev nD) (i : grid4.Coords) (a1 : Memref sig .tc .vmem S5000x128 .f32) (h1 : a1.IsWhole) (a2 : Memref sig .tc .vmem S5000x128 .f32) (h2 : a2.IsWhole) (a3 : Memref sig .tc .vmem S128x64 .bf16) (h3 : a3.IsWhole) (a4 : Memref sig .tc .vmem S128x64 .bf16) (h4 : a4.IsWhole) (a5 : Memref sig .tc .vmem S1x64 .f32) (h5 : a5.IsWhole) (a6 : Memref sig .tc .vmem S5000x64 .f32) (h6 : a6.IsWhole) (a7 : Memref sig .tc .vmem S1x64 .f32) (h7 : a7.IsWhole) (a8 : Memref sig .tc .vmem S1x64 .f32) (h8 : a8.IsWhole) (hc : ¬cond4_0 i) (x0 x1 : Vec F S5000x128 .f32) (x2 x3 : Vec F S128x64 .bf16) (x4 : Vec F S1x64 .f32) (xo6 xo7 : Vec F S1x64 .f32) :
    out4_B_7 c i a1 h1 a2 h2 a3 h3 a4 h4 a5 h5 a6 h6 a7 h7 a8 h8 hc x0 x1 x2 x3 x4 xo6 xo7 = k4_pay1 (k4_pay6 xo7) (k4_pay7 x0 x1 x2 x3 x4) := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero hz]
  simp only [View.readAt_eq_ld, h1.read_unread, h2.read_unread, h3.read_unread, h4.read_unread, h5.read_unread,
    h7.read_unread, h8.read_unread,
    View.ld_unit_zero (S := S5000x128) hz, View.ld_unit_zero (S := S128x64) hz, View.ld_unit_zero (S := S1x64) hz]

end Cert.KernelIdeal.Sage4

end
-- ==== Proof.Sage4Value.lean ====
/-
  The third layer's kernel, grid point by grid point, as values of the arrays the region finds.

  The region walks the 50000 nodes in ten blocks of 5000 rows. At block t it reads rows 5000 · t … 5000 · t + 4999 of
  the neighbourhood means and of the node features, the two weight matrices and the offset row whole, and leaves
  (i) in the output's block the layer's output on those rows, max((agg · Wl + h · Wrs) + b, 0) entry by entry, and
  (ii) in each of two one-row accumulators the row it held before plus the block's column sums — of the entries and
  of their squares — starting from the zero row at the first block. By induction on the block, after block n the
  accumulators hold the sums over rows 0 … 5000 · (n + 1) − 1; only associativity and commutativity of addition on
  the extended reals are used, so no finiteness is needed.
-/
import proofs.«144552_j81088982548491_1_alg».proof.Proof.Sage4Pieces
import proofs.«144552_j81088982548491_1_alg».proof.Proof.SageLayerCast
import proofs.«144552_j81088982548491_1_alg».proof.Proof.SageSum
import proofs.«144552_j81088982548491_1_alg».proof.Proof.Spec
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.Sage4

open Cert.KernelIdeal Cert.KernelIdeal.Gen

/-! ## The body's arithmetic on one block, entry by entry -/

/-- The activation of a block of rows at (r, j). -/
theorem pay2_apply (x0 x1 : Vec Ideal S5000x128 .f32) (x2 x3 : Vec Ideal S128x64 .bf16) (x4 : Vec Ideal S1x64 .f32)
    (r : Fin 5000) (j : Fin 64) :
    k4_pay2 x0 x1 x2 x3 x4 (ix2 r j)
      = max (((∑ k : Fin 128, x0 (ix2 r k) * x2 (ix2 k j)) + ∑ k : Fin 128, x1 (ix2 r k) * x3 (ix2 k j)) + x4 (ix2 (0 : Fin 1) j)) 0 := by
  unfold k4_pay2
  refine (Cert.SageLayer.relu_apply _ (ix2 r j)).trans ?_
  refine congrArg (max · 0) ?_
  exact Cert.SageLayer.lin_apply2 dot_S5000x128_S128x64_S5000x64_1_0_0_1_n_n rfl rfl rfl rfl rfl rfl bitsLt_bf16_f32
    shapeCasts_S5000x128_S5000x128 shapeCasts_S128x64_S128x64 shapeCasts_S1x64_S1x64 broadcasts_S1x64_S5000x64
    x0 x1 x2 x3 x4 r j

/-- The zero row the first point stores into the row of column sums. -/
theorem pay3_apply (j : Fin 64) : k4_pay3 (F := Ideal) (ix2 (0 : Fin 1) j) = 0 := Ideal.ofBits_zero_f32

/-- The zero row the first point stores into the row of sums of squares. -/
theorem pay4_apply (j : Fin 64) : k4_pay4 (F := Ideal) (ix2 (0 : Fin 1) j) = 0 := Ideal.ofBits_zero_f32

/-- The row of column sums after a point: the row before it plus the block's column sums. -/
theorem pay5_apply (x0 x1 : Vec Ideal S5000x128 .f32) (x2 x3 : Vec Ideal S128x64 .bf16) (x4 xo : Vec Ideal S1x64 .f32)
    (j : Fin 64) :
    k4_pay5 x0 x1 x2 x3 x4 xo (ix2 (0 : Fin 1) j)
      = xo (ix2 (0 : Fin 1) j) + ∑ r : Fin 5000, k4_pay2 x0 x1 x2 x3 x4 (ix2 r j) := by
  unfold k4_pay5
  show shapeCast S1x64 xo shapeCasts_S1x64_S1x64 (ix2 (0 : Fin 1) j) + _ = _
  rw [shapeCast_self]
  exact congrArg (xo (ix2 (0 : Fin 1) j) + ·)
    (Cert.SageLayer.colsum_apply (k4_pay2 x0 x1 x2 x3 x4) reduces_S5000x64_S64 (.inl rfl) rfl shapeCasts_S64_S1x64 j)

/-- The row of sums of squares after a point: the row before it plus the block's column sums of squares. -/
theorem pay1_apply (x0 x1 : Vec Ideal S5000x128 .f32) (x2 x3 : Vec Ideal S128x64 .bf16) (x4 xo : Vec Ideal S1x64 .f32)
    (j : Fin 64) :
    k4_pay1 (k4_pay6 xo) (k4_pay7 x0 x1 x2 x3 x4) (ix2 (0 : Fin 1) j)
      = xo (ix2 (0 : Fin 1) j) + ∑ r : Fin 5000, k4_pay2 x0 x1 x2 x3 x4 (ix2 r j) * k4_pay2 x0 x1 x2 x3 x4 (ix2 r j) := by
  unfold k4_pay1 k4_pay6 k4_pay7
  show shapeCast S1x64 xo shapeCasts_S1x64_S1x64 (ix2 (0 : Fin 1) j) + _ = _
  rw [shapeCast_self]
  exact congrArg (xo (ix2 (0 : Fin 1) j) + ·)
    (Cert.SageLayer.colsum_apply (mulf (k4_pay2 x0 x1 x2 x3 x4) (k4_pay2 x0 x1 x2 x3 x4)) reduces_S5000x64_S64 (.inl rfl) rfl
      shapeCasts_S64_S1x64 j)

/-! ## The arrays the region finds, and the layer they determine -/

variable (V : (c : Dev nD) → (b : Ref sig .tc) → Buf (Elt Ideal) ((c : Thread nD τ).loc b)) (c : Dev nD)

/-- The neighbourhood means, one row per node. -/
abbrev aggF : Fin 50000 → Fin 128 → EReal := fun i k => (V c (Pipeline.arrRef spec4 0) : S50000x128.Idx → EReal) (ix2 i k)
/-- The node features, one row per node. -/
abbrev hF : Fin 50000 → Fin 128 → EReal := fun i k => (V c (Pipeline.arrRef spec4 1) : S50000x128.Idx → EReal) (ix2 i k)
/-- The weights the means are contracted with. -/
abbrev wlF : Fin 128 → Fin 64 → EReal := fun k j => (V c (Pipeline.arrRef spec4 2) : S128x64.Idx → EReal) (ix2 k j)
/-- The weights the features are contracted with. -/
abbrev wrsF : Fin 128 → Fin 64 → EReal := fun k j => (V c (Pipeline.arrRef spec4 3) : S128x64.Idx → EReal) (ix2 k j)
/-- The offsets, one per output column. -/
abbrev bF : Fin 64 → EReal := fun j => (V c (Pipeline.arrRef spec4 4) : S1x64.Idx → EReal) (ix2 (0 : Fin 1) j)
/-- The layer's output on every node: the activation of the two contractions plus the offsets. -/
abbrev Z : Fin 50000 → Fin 64 → EReal := Net.relu (Net.linK (aggF V c) (hF V c) (wlF V c) (wrsF V c) (bF V c))

/-- Row r of the block of 5000 rows that grid point t works on, as a row of the whole matrix: 5000 · t + r. -/
def rowOf (t : Fin cfg4.N) (r : Fin 5000) : Fin 50000 :=
  ⟨5000 * t.val + r.val, by have := t.isLt; have hN : cfg4.N = 10 := N_4; omega⟩

/-- The printed index maps, decided over the grid: the two row-blocked inputs and the row-blocked output sit at block
    (t, 0); the weights, the offsets and the two accumulator rows at block (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = t.val ∧ win4_5.index t (1 : Fin 2) = 0)
    ∧ (win4_6.index t (0 : Fin 2) = 0 ∧ win4_6.index t (1 : Fin 2) = 0)
    ∧ (win4_7.index t (0 : Fin 2) = 0 ∧ win4_7.index t (1 : Fin 2) = 0) :=
  (by decide +kernel : ∀ t : Fin grid4.N, _)

/-- The block of neighbourhood means at point t holds rows 5000 · t … of the matrix. -/
theorem blk0_apply (t : Fin cfg4.N) (r : Fin 5000) (k : Fin 128) :
    (iblk4 V c 0 t : Vec Ideal S5000x128 .f32) (ix2 r k) = aggF V c (rowOf t r) k := by
  obtain ⟨⟨e0, e1⟩, -⟩ := idx_facts t
  unfold iblk4
  rw [View.read_apply]
  show V c (Pipeline.arrRef spec4 0) (((cfg4.win 0).blk t).view.emb (ix2 r k)) = V c (Pipeline.arrRef spec4 0) (ix2 (rowOf t r) k)
  refine congrArg _ (funext fun a => Fin.ext ?_)
  match a with
  | ⟨0, _⟩ => show win4_0.index t (0 : Fin 2) * 5000 + 1 * r.val = 5000 * t.val + r.val; rw [e0]; omega
  | ⟨1, _⟩ => show win4_0.index t (1 : Fin 2) * 128 + 1 * k.val = k.val; rw [e1]; omega

/-- The block of node features at point t holds the same rows. -/
theorem blk1_apply (t : Fin cfg4.N) (r : Fin 5000) (k : Fin 128) :
    (iblk4 V c 1 t : Vec Ideal S5000x128 .f32) (ix2 r k) = hF V c (rowOf t r) k := by
  obtain ⟨-, ⟨e0, e1⟩, -⟩ := idx_facts t
  unfold iblk4
  rw [View.read_apply]
  show V c (Pipeline.arrRef spec4 1) (((cfg4.win 1).blk t).view.emb (ix2 r k)) = V c (Pipeline.arrRef spec4 1) (ix2 (rowOf t r) k)
  refine congrArg _ (funext fun a => Fin.ext ?_)
  match a with
  | ⟨0, _⟩ => show win4_1.index t (0 : Fin 2) * 5000 + 1 * r.val = 5000 * t.val + r.val; rw [e0]; omega
  | ⟨1, _⟩ => show win4_1.index t (1 : Fin 2) * 128 + 1 * k.val = k.val; rw [e1]; omega

/-- The first weight matrix is staged whole at every point. -/
theorem blk2_apply (t : Fin cfg4.N) (k : Fin 128) (j : Fin 64) :
    (iblk4 V c 2 t : Vec Ideal S128x64 .bf16) (ix2 k j) = wlF V c k j := by
  obtain ⟨-, -, ⟨e0, e1⟩, -⟩ := idx_facts t
  unfold iblk4
  rw [View.read_apply]
  show V c (Pipeline.arrRef spec4 2) (((cfg4.win 2).blk t).view.emb (ix2 k j)) = V c (Pipeline.arrRef spec4 2) (ix2 k j)
  refine congrArg _ (funext fun a => Fin.ext ?_)
  match a with
  | ⟨0, _⟩ => show win4_2.index t (0 : Fin 2) * 128 + 1 * k.val = k.val; rw [e0]; omega
  | ⟨1, _⟩ => show win4_2.index t (1 : Fin 2) * 64 + 1 * j.val = j.val; rw [e1]; omega

/-- The second weight matrix is staged whole at every point. -/
theorem blk3_apply (t : Fin cfg4.N) (k : Fin 128) (j : Fin 64) :
    (iblk4 V c 3 t : Vec Ideal S128x64 .bf16) (ix2 k j) = wrsF V c k j := by
  obtain ⟨-, -, -, ⟨e0, e1⟩, -⟩ := idx_facts t
  unfold iblk4
  rw [View.read_apply]
  show V c (Pipeline.arrRef spec4 3) (((cfg4.win 3).blk t).view.emb (ix2 k j)) = V c (Pipeline.arrRef spec4 3) (ix2 k j)
  refine congrArg _ (funext fun a => Fin.ext ?_)
  match a with
  | ⟨0, _⟩ => show win4_3.index t (0 : Fin 2) * 128 + 1 * k.val = k.val; rw [e0]; omega
  | ⟨1, _⟩ => show win4_3.index t (1 : Fin 2) * 64 + 1 * j.val = j.val; rw [e1]; omega

/-- The offset row is staged whole at every point. -/
theorem blk4_apply (t : Fin cfg4.N) (j : Fin 64) :
    (iblk4 V c 4 t : Vec Ideal S1x64 .f32) (ix2 (0 : Fin 1) j) = bF V c j := by
  obtain ⟨-, -, -, -, ⟨e0, e1⟩, -⟩ := idx_facts t
  unfold iblk4
  rw [View.read_apply]
  show V c (Pipeline.arrRef spec4 4) (((cfg4.win 4).blk t).view.emb (ix2 (0 : Fin 1) j)) = V c (Pipeline.arrRef spec4 4) (ix2 (0 : Fin 1) j)
  refine congrArg _ (funext fun a => Fin.ext ?_)
  match a with
  | ⟨0, _⟩ => show win4_4.index t (0 : Fin 2) * 1 + 1 * 0 = 0; rw [e0]
  | ⟨1, _⟩ => show win4_4.index t (1 : Fin 2) * 64 + 1 * j.val = j.val; rw [e1]; omega

/-- So the activation of point t's blocks at (r, j) is the layer's output at row 5000 · t + r. -/
theorem blockZ (t : Fin cfg4.N) (r : Fin 5000) (j : Fin 64) :
    k4_pay2 (iblk4 V c 0 t) (iblk4 V c 1 t) (iblk4 V c 2 t) (iblk4 V c 3 t) (iblk4 V c 4 t) (ix2 r j) = Z V c (rowOf t r) j := by
  refine (pay2_apply (iblk4 V c 0 t) (iblk4 V c 1 t) (iblk4 V c 2 t) (iblk4 V c 3 t) (iblk4 V c 4 t) r j).trans ?_
  have e0 : ∀ k, (iblk4 V c 0 t : Vec Ideal S5000x128 .f32) (ix2 r k) = aggF V c (rowOf t r) k := fun k => blk0_apply V c t r k
  have e1 : ∀ k, (iblk4 V c 1 t : Vec Ideal S5000x128 .f32) (ix2 r k) = hF V c (rowOf t r) k := fun k => blk1_apply V c t r k
  have e2 : ∀ k, (iblk4 V c 2 t : Vec Ideal S128x64 .bf16) (ix2 k j) = wlF V c k j := fun k => blk2_apply V c t k j
  have e3 : ∀ k, (iblk4 V c 3 t : Vec Ideal S128x64 .bf16) (ix2 k j) = wrsF V c k j := fun k => blk3_apply V c t k j
  have e4 : (iblk4 V c 4 t : Vec Ideal S1x64 .f32) (ix2 (0 : Fin 1) j) = bF V c j := blk4_apply V c t j
  refine congrArg (max · 0) ?_
  refine congr (congrArg HAdd.hAdd (congr (congrArg HAdd.hAdd (Finset.sum_congr rfl fun k _ => ?_)) (Finset.sum_congr rfl fun k _ => ?_))) e4
  · exact congr (congrArg HMul.hMul (e0 k)) (e2 k)
  · exact congr (congrArg HMul.hMul (e1 k)) (e3 k)

/-! ## What a grid point leaves, over the point's blocks -/

/-- At the first point. -/
theorem point_A (t : Fin cfg4.N) (h0 : t.val % 10 = 0) :
    outsAt4 V c t.val t.isLt
      = (k4_pay2 (iblk4 V c 0 t) (iblk4 V c 1 t) (iblk4 V c 2 t) (iblk4 V c 3 t) (iblk4 V c 4 t),
         k4_pay5 (iblk4 V c 0 t) (iblk4 V c 1 t) (iblk4 V c 2 t) (iblk4 V c 3 t) (iblk4 V c 4 t) (k4_pay3 (F := Ideal)),
         k4_pay1 (k4_pay6 (k4_pay4 (F := Ideal))) (k4_pay7 (iblk4 V c 0 t) (iblk4 V c 1 t) (iblk4 V c 2 t) (iblk4 V c 3 t) (iblk4 V c 4 t))) := by
  rw [outsAt4_A V c t h0]
  exact congr (congrArg Prod.mk (out_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)))
    (congr (congrArg Prod.mk (out_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t))) (out_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) ((hcond4_0 t).mpr h0) (iblk4 V c 0 t) (iblk4 V c 1 t) (iblk4 V c 2 t) (iblk4 V c 3 t) (iblk4 V c 4 t)))

/-- At every later point, over what the point before left in the two accumulator rows. -/
theorem point_B (t : Fin cfg4.N) (h0 : ¬t.val % 10 = 0) :
    outsAt4 V c t.val t.isLt
      = (k4_pay2 (iblk4 V c 0 t) (iblk4 V c 1 t) (iblk4 V c 2 t) (iblk4 V c 3 t) (iblk4 V c 4 t),
         k4_pay5 (iblk4 V c 0 t) (iblk4 V c 1 t) (iblk4 V c 2 t) (iblk4 V c 3 t) (iblk4 V c 4 t) (outsAt4 V c (t.val - 1) (Nat.lt_of_le_of_lt (Nat.sub_le _ _) t.isLt)).2.1,
         k4_pay1 (k4_pay6 (outsAt4 V c (t.val - 1) (Nat.lt_of_le_of_lt (Nat.sub_le _ _) t.isLt)).2.2) (k4_pay7 (iblk4 V c 0 t) (iblk4 V c 1 t) (iblk4 V c 2 t) (iblk4 V c 3 t) (iblk4 V c 4 t))) := by
  rw [outsAt4_B V c t h0]
  exact congr (congrArg Prod.mk (out_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2))
    (congr (congrArg Prod.mk (out_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2)) (out_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (fun h => h0 ((hcond4_0 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)).2.1 (outsAt4 V c (t.val - 1) (Nat.lt_of_le_of_lt (Nat.sub_le _ _) t.isLt)).2.2))

/-! ## The three outputs after each grid point -/

/-- After point n the output's staging buffer holds the layer's output on the point's rows. -/
theorem z_at (n : ℕ) (hn : n < cfg4.N) (r : Fin 5000) (j : Fin 64) :
    (outsAt4 V c n hn).1 (ix2 r j) = Z V c (rowOf ⟨n, hn⟩ r) j := by
  by_cases h0 : n % 10 = 0
  · rw [point_A V c ⟨n, hn⟩ h0]
    exact blockZ V c ⟨n, hn⟩ r j
  · rw [point_B V c ⟨n, hn⟩ h0]
    exact blockZ V c ⟨n, hn⟩ r j

/-- After point n the row of column sums holds the sums over the rows of blocks 0 … n. -/
theorem s_at (j : Fin 64) : ∀ (n : ℕ) (hn : n < cfg4.N),
    (outsAt4 V c n hn).2.1 (ix2 (0 : Fin 1) j) = ∑ i ∈ Finset.range (5000 * (n + 1)), (Cert.SageSum.padded fun i => Z V c i j) i
  | 0, hn => by
    rw [point_A V c ⟨0, hn⟩ rfl]
    refine (pay5_apply (iblk4 V c 0 ⟨0, hn⟩) (iblk4 V c 1 ⟨0, hn⟩) (iblk4 V c 2 ⟨0, hn⟩) (iblk4 V c 3 ⟨0, hn⟩) (iblk4 V c 4 ⟨0, hn⟩) (k4_pay3 (F := Ideal)) j).trans ?_
    rw [pay3_apply]
    refine Eq.trans ?_ (Cert.SageSum.first_block (Cert.SageSum.padded fun i => Z V c i j) 5000)
    refine congrArg ((0 : EReal) + ·) (Finset.sum_congr rfl fun r _ => ?_)
    refine (blockZ V c ⟨0, hn⟩ r j).trans ?_
    exact (Cert.SageSum.padded_of_lt (fun i => Z V c i j) (5000 * 0 + r.val) (rowOf ⟨0, hn⟩ r).isLt).symm
  | n + 1, hn => by
    have hN : cfg4.N = 10 := N_4
    have hB : ¬(⟨n + 1, hn⟩ : Fin cfg4.N).val % 10 = 0 := by dsimp only; omega
    rw [point_B V c ⟨n + 1, hn⟩ hB]
    refine (pay5_apply (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 V c n (Nat.lt_of_succ_lt hn)).2.1 j).trans ?_
    rw [s_at j n (Nat.lt_of_succ_lt hn)]
    refine Eq.trans ?_ (Cert.SageSum.next_block (Cert.SageSum.padded fun i => Z V c i j) 5000 n)
    refine congrArg (_ + ·) (Finset.sum_congr rfl fun r _ => ?_)
    refine (blockZ V c ⟨n + 1, hn⟩ r j).trans ?_
    exact (Cert.SageSum.padded_of_lt (fun i => Z V c i j) (5000 * (n + 1) + r.val) (rowOf ⟨n + 1, hn⟩ r).isLt).symm

/-- After point n the row of sums of squares holds the sums of the squares over the rows of blocks 0 … n. -/
theorem ss_at (j : Fin 64) : ∀ (n : ℕ) (hn : n < cfg4.N),
    (outsAt4 V c n hn).2.2 (ix2 (0 : Fin 1) j) = ∑ i ∈ Finset.range (5000 * (n + 1)), (Cert.SageSum.padded fun i => Z V c i j * Z V c i j) i
  | 0, hn => by
    rw [point_A V c ⟨0, hn⟩ rfl]
    refine (pay1_apply (iblk4 V c 0 ⟨0, hn⟩) (iblk4 V c 1 ⟨0, hn⟩) (iblk4 V c 2 ⟨0, hn⟩) (iblk4 V c 3 ⟨0, hn⟩) (iblk4 V c 4 ⟨0, hn⟩) (k4_pay4 (F := Ideal)) j).trans ?_
    rw [pay4_apply]
    refine Eq.trans ?_ (Cert.SageSum.first_block (Cert.SageSum.padded fun i => Z V c i j * Z V c i j) 5000)
    refine congrArg ((0 : EReal) + ·) (Finset.sum_congr rfl fun r _ => ?_)
    rw [blockZ V c ⟨0, hn⟩ r j]
    exact (Cert.SageSum.padded_of_lt (fun i => Z V c i j * Z V c i j) (5000 * 0 + r.val) (rowOf ⟨0, hn⟩ r).isLt).symm
  | n + 1, hn => by
    have hN : cfg4.N = 10 := N_4
    have hB : ¬(⟨n + 1, hn⟩ : Fin cfg4.N).val % 10 = 0 := by dsimp only; omega
    rw [point_B V c ⟨n + 1, hn⟩ hB]
    refine (pay1_apply (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 V c n (Nat.lt_of_succ_lt hn)).2.2 j).trans ?_
    rw [ss_at j n (Nat.lt_of_succ_lt hn)]
    refine Eq.trans ?_ (Cert.SageSum.next_block (Cert.SageSum.padded fun i => Z V c i j * Z V c i j) 5000 n)
    refine congrArg (_ + ·) (Finset.sum_congr rfl fun r _ => ?_)
    rw [blockZ V c ⟨n + 1, hn⟩ r j]
    exact (Cert.SageSum.padded_of_lt (fun i => Z V c i j * Z V c i j) (5000 * (n + 1) + r.val) (rowOf ⟨n + 1, hn⟩ r).isLt).symm

end Cert.KernelIdeal.Sage4

end
-- ==== Proof.Sage4.lean ====
/-
  The third layer's region as a whole: what its three result arrays hold when it ends.

  The output array is written back block by block, and the blocks of 5000 rows tile its 50000 rows (row i lies in
  block i / 5000), so it ends holding the layer's output max((agg · Wl + h · Wrs) + b, 0) at every node and column.
  Each of the two one-row accumulators is written back once, after the last block, when it holds the sum over all
  ten blocks: the column sums of the layer's output, and the column sums of its squares, over all 50000 nodes.
-/
import proofs.«144552_j81088982548491_1_alg».proof.Proof.Sage4Value

noncomputable section

open Idealize.ShloMosaic Idealize.ShloMosaic.TcCoe Idealize.SL.Sem Idealize.ShloMosaic.ValueIdx
open Idealize.ShloMosaic.Pipeline (Dat)
open scoped BigOperators

namespace Cert.KernelIdeal.Sage4

open Cert.KernelIdeal Cert.KernelIdeal.Gen

variable (V : (c : Dev nD) → (b : Ref sig .tc) → Buf (Elt Ideal) ((c : Thread nD τ).loc b)) (c : Dev nD)

/-! ## The three result arrays after the run -/

/-- The layer's output as an array over (node, column). -/
abbrev Zarr : S50000x64.Idx → EReal := fun i => Z V c (i 0) (i 1)
/-- The column sums of the layer's output as a one-row array. -/
abbrev Srow : S1x64.Idx → EReal := fun i => Net.colsum (Z V c) (i 1)
/-- The column sums of squares of the layer's output as a one-row array. -/
abbrev SSrow : S1x64.Idx → EReal := fun i => Net.colsumsq (Z V c) (i 1)

/-- An index of the array is in point t's block of window 5 iff each coordinate is in the block's range on its axis. -/
theorem mem_blk5 (t : Fin cfg4.N) (i : S50000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v82_0).slice (win4_5.rect t)).set ↔ _
  rw [View.set_slice_whole, Rect.mem_set_unit]
  exact Iff.rfl

/-- An index of the array is in point t's block of window 6 iff each coordinate is in the block's range on its axis. -/
theorem mem_blk6 (t : Fin cfg4.N) (i : S1x64.Idx) :
    i ∈ ((cfg4.win 6).blk t).view.set ↔ ∀ a : Fin 2, win4_6.index t a * S1x64.size a ≤ (i a).val ∧ (i a).val < win4_6.index t a * S1x64.size a + S1x64.size a := by
  show i ∈ ((View.whole main_v82_1).slice (win4_6.rect t)).set ↔ _
  rw [View.set_slice_whole, Rect.mem_set_unit]
  exact Iff.rfl

/-- An index of the array is in point t's block of window 7 iff each coordinate is in the block's range on its axis. -/
theorem mem_blk7 (t : Fin cfg4.N) (i : S1x64.Idx) :
    i ∈ ((cfg4.win 7).blk t).view.set ↔ ∀ a : Fin 2, win4_7.index t a * S1x64.size a ≤ (i a).val ∧ (i a).val < win4_7.index t a * S1x64.size a + S1x64.size a := by
  show i ∈ ((View.whole main_v82_2).slice (win4_7.rect t)).set ↔ _
  rw [View.set_slice_whole, Rect.mem_set_unit]
  exact Iff.rfl

/-- What point t writes back into the output array is block t of the layer's output. -/
theorem flushed5_eq (t : Fin cfg4.N) :
    (dat4 V c).flushed 5 t = ((cfg4.win 5).blk t).view.read (Elt Ideal) (Zarr V c) := by
  show (cfg4.win 5).cut (grid4.coords t) ((dat4 V c).after 5 t) = _
  rw [after4_5]
  obtain ⟨-, -, -, -, -, ⟨e0, e1⟩, -⟩ := idx_facts t
  funext y
  obtain ⟨r, j, rfl⟩ : ∃ (r : Fin 5000) (j : Fin 64), y = ix2 r j := ⟨y 0, y 1, eq_ix2 y⟩
  rw [View.read_apply]
  show (outsAt4 V c t.val t.isLt).1 (ix2 r j)
    = Z V c ((((cfg4.win 5).blk t).view.emb (ix2 r j)) 0) ((((cfg4.win 5).blk t).view.emb (ix2 r j)) 1)
  rw [z_at V c t.val t.isLt r j]
  refine congr (congrArg (Z V c) (Fin.ext ?_)) (Fin.ext ?_)
  · show 5000 * t.val + r.val = win4_5.index t (0 : Fin 2) * 5000 + 1 * r.val; rw [e0]; omega
  · show j.val = win4_5.index t (1 : Fin 2) * 64 + 1 * j.val; rw [e1]; omega

/-- The output array after the run: the blocks of 5000 rows tile it, row i lying in block i / 5000. -/
theorem final_z : ((dat4 V c).arrAt 5 cfg4.N : S50000x64.Idx → EReal) = Zarr V c :=
  (dat4 V c).arrAt_eq_of_cover 5 (Zarr V c) (fun t _ => flushed5_eq V c t) fun i => by
    have hi0 : (i 0).val < 50000 := (i 0).isLt
    have hi1 : (i 1).val < 64 := (i 1).isLt
    have hN : cfg4.N = 10 := N_4
    obtain ⟨t, ht⟩ : ∃ t : Fin cfg4.N, t.val = (i 0).val / 5000 := ⟨⟨(i 0).val / 5000, by omega⟩, rfl⟩
    obtain ⟨-, -, -, -, -, ⟨e0, e1⟩, -⟩ := idx_facts t
    refine ⟨t, flush4_5 t, ?_⟩
    rw [mem_blk5]
    intro a
    match a with
    | ⟨0, _⟩ => show win4_5.index t (0 : Fin 2) * 5000 ≤ (i 0).val ∧ (i 0).val < win4_5.index t (0 : Fin 2) * 5000 + 5000; rw [e0, ht]; omega
    | ⟨1, _⟩ => show win4_5.index t (1 : Fin 2) * 64 ≤ (i 1).val ∧ (i 1).val < win4_5.index t (1 : Fin 2) * 64 + 64; rw [e1]; omega

/-- Reading through a cast along an equation of a type with itself changes nothing. -/
theorem eq_cast_self {α : Type} (h : α = α) (x y : α) (hxy : y = x) : y = cast h x := by
  subst hxy; exact (cast_eq h y).symm

/-- The total over all ten blocks is the column sum over every row. -/
theorem total6_eq (j : Fin 64) :
    ∑ i ∈ Finset.range (5000 * (9 + 1)), (Cert.SageSum.padded fun i => Z V c i j) i = Net.colsum (Z V c) j :=
  Cert.SageSum.sum_range_padded fun i => Z V c i j

/-- What the last point writes back into the row: the column sums over every row of the matrix. -/
theorem flushed6_eq (t : Fin cfg4.N) (hf : (cfg4.win 6).flush t = true) :
    (dat4 V c).flushed 6 t = ((cfg4.win 6).blk t).view.read (Elt Ideal) (Srow V c) := by
  have hN : cfg4.N = 10 := N_4
  have h9 : t.val = 9 := by have := (flush4_6 t).mp hf; have := t.isLt; omega
  show (cfg4.win 6).cut (grid4.coords t) ((dat4 V c).after 6 t) = _
  rw [after4_6]
  obtain ⟨-, -, -, -, -, -, ⟨e0, e1⟩, -⟩ := idx_facts t
  funext y
  obtain ⟨u, j, rfl⟩ : ∃ (u : Fin 1) (j : Fin 64), y = ix2 u j := ⟨y 0, y 1, eq_ix2 y⟩
  obtain rfl : u = 0 := Subsingleton.elim _ _
  have hidx : ((cfg4.win 6).blk t).view.emb (ix2 (0 : Fin 1) j) = (ix2 (0 : Fin 1) j : S1x64.Idx) :=
    funext fun a => Fin.ext (by
      match a with
      | ⟨0, _⟩ => show win4_6.index t (0 : Fin 2) * 1 + 1 * 0 = 0; rw [e0]
      | ⟨1, _⟩ => show win4_6.index t (1 : Fin 2) * 64 + 1 * j.val = j.val; rw [e1]; omega)
  have hS : Srow V c (ix2 (0 : Fin 1) j) = Net.colsum (Z V c) j := rfl
  rw [View.read_apply, hidx]
  refine eq_cast_self _ _ _ ?_
  rw [hS]
  refine (s_at V c j t.val t.isLt).trans ?_
  rw [h9]
  exact total6_eq V c j

/-- The row after the run: the last point's block is the whole row. -/
theorem final_s : ((dat4 V c).arrAt 6 cfg4.N : S1x64.Idx → EReal) = Srow V c :=
  (dat4 V c).arrAt_eq_of_cover 6 (Srow V c) (flushed6_eq V c) fun i => by
    have hN : cfg4.N = 10 := N_4
    obtain ⟨t, ht⟩ : ∃ t : Fin cfg4.N, t.val = 9 := ⟨⟨9, by omega⟩, rfl⟩
    obtain ⟨-, -, -, -, -, -, ⟨e0, e1⟩, -⟩ := idx_facts t
    have hi0 : (i 0).val < 1 := (i 0).isLt
    have hi1 : (i 1).val < 64 := (i 1).isLt
    refine ⟨t, (flush4_6 t).mpr (by rw [ht]), ?_⟩
    rw [mem_blk6]
    intro a
    match a with
    | ⟨0, _⟩ => show win4_6.index t (0 : Fin 2) * 1 ≤ (i 0).val ∧ (i 0).val < win4_6.index t (0 : Fin 2) * 1 + 1; rw [e0]; omega
    | ⟨1, _⟩ => show win4_6.index t (1 : Fin 2) * 64 ≤ (i 1).val ∧ (i 1).val < win4_6.index t (1 : Fin 2) * 64 + 64; rw [e1]; omega

/-- The total over all ten blocks is the column sum of squares over every row. -/
theorem total7_eq (j : Fin 64) :
    ∑ i ∈ Finset.range (5000 * (9 + 1)), (Cert.SageSum.padded fun i => Z V c i j * Z V c i j) i = Net.colsumsq (Z V c) j :=
  Cert.SageSum.sum_range_padded fun i => Z V c i j * Z V c i j

/-- What the last point writes back into the row: the sums of squares over every row of the matrix. -/
theorem flushed7_eq (t : Fin cfg4.N) (hf : (cfg4.win 7).flush t = true) :
    (dat4 V c).flushed 7 t = ((cfg4.win 7).blk t).view.read (Elt Ideal) (SSrow V c) := by
  have hN : cfg4.N = 10 := N_4
  have h9 : t.val = 9 := by have := (flush4_7 t).mp hf; have := t.isLt; omega
  show (cfg4.win 7).cut (grid4.coords t) ((dat4 V c).after 7 t) = _
  rw [after4_7]
  obtain ⟨-, -, -, -, -, -, -, ⟨e0, e1⟩⟩ := idx_facts t
  funext y
  obtain ⟨u, j, rfl⟩ : ∃ (u : Fin 1) (j : Fin 64), y = ix2 u j := ⟨y 0, y 1, eq_ix2 y⟩
  obtain rfl : u = 0 := Subsingleton.elim _ _
  have hidx : ((cfg4.win 7).blk t).view.emb (ix2 (0 : Fin 1) j) = (ix2 (0 : Fin 1) j : S1x64.Idx) :=
    funext fun a => Fin.ext (by
      match a with
      | ⟨0, _⟩ => show win4_7.index t (0 : Fin 2) * 1 + 1 * 0 = 0; rw [e0]
      | ⟨1, _⟩ => show win4_7.index t (1 : Fin 2) * 64 + 1 * j.val = j.val; rw [e1]; omega)
  have hS : SSrow V c (ix2 (0 : Fin 1) j) = Net.colsumsq (Z V c) j := rfl
  rw [View.read_apply, hidx]
  refine eq_cast_self _ _ _ ?_
  rw [hS]
  refine (ss_at V c j t.val t.isLt).trans ?_
  rw [h9]
  exact total7_eq V c j

/-- The row after the run: the last point's block is the whole row. -/
theorem final_ss : ((dat4 V c).arrAt 7 cfg4.N : S1x64.Idx → EReal) = SSrow V c :=
  (dat4 V c).arrAt_eq_of_cover 7 (SSrow V c) (flushed7_eq V c) fun i => by
    have hN : cfg4.N = 10 := N_4
    obtain ⟨t, ht⟩ : ∃ t : Fin cfg4.N, t.val = 9 := ⟨⟨9, by omega⟩, rfl⟩
    obtain ⟨-, -, -, -, -, -, -, ⟨e0, e1⟩⟩ := idx_facts t
    have hi0 : (i 0).val < 1 := (i 0).isLt
    have hi1 : (i 1).val < 64 := (i 1).isLt
    refine ⟨t, (flush4_7 t).mpr (by rw [ht]), ?_⟩
    rw [mem_blk7]
    intro a
    match a with
    | ⟨0, _⟩ => show win4_7.index t (0 : Fin 2) * 1 ≤ (i 0).val ∧ (i 0).val < win4_7.index t (0 : Fin 2) * 1 + 1; rw [e0]; omega
    | ⟨1, _⟩ => show win4_7.index t (1 : Fin 2) * 64 ≤ (i 1).val ∧ (i 1).val < win4_7.index t (1 : Fin 2) * 64 + 64; rw [e1]; omega

/-! ## The region's value -/

/-- The output array holds the layer's output, entry by entry. -/
theorem sage4_z (i : Fin 50000) (j : Fin 64) :
    ((dat4 V c).arrAt 5 cfg4.N : S50000x64.Idx → EReal) (ix2 i j)
      = Net.relu (Net.linK (aggF V c) (hF V c) (wlF V c) (wrsF V c) (bF V c)) i j :=
  congrFun (final_z V c) (ix2 i j)

/-- The first accumulator row holds the column sums of the layer's output. -/
theorem sage4_s (j : Fin 64) :
    ((dat4 V c).arrAt 6 cfg4.N : S1x64.Idx → EReal) (ix2 (0 : Fin 1) j)
      = Net.colsum (Net.relu (Net.linK (aggF V c) (hF V c) (wlF V c) (wrsF V c) (bF V c))) j :=
  congrFun (final_s V c) (ix2 (0 : Fin 1) j)

/-- The second accumulator row holds the column sums of squares of the layer's output. -/
theorem sage4_ss (j : Fin 64) :
    ((dat4 V c).arrAt 7 cfg4.N : S1x64.Idx → EReal) (ix2 (0 : Fin 1) j)
      = Net.colsumsq (Net.relu (Net.linK (aggF V c) (hF V c) (wlF V c) (wrsF V c) (bF V c))) j :=
  congrFun (final_ss V c) (ix2 (0 : Fin 1) j)

end Cert.KernelIdeal.Sage4

end
-- ==== Proof.Sage6Pieces.lean ====
/-
  What one grid point of the last layer's kernel leaves in the buffer of its output block, as a value of the
  point's input blocks: at the first point and at every later one alike, the block is written by one store of the
  whole block, whose value is the layer's affine map of the block's rows — the neighbourhood means against one
  weight matrix, plus the features against the other, plus the offset row.  Stated for any float instance.
-/
import proofs.«144552_j81088982548491_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Sage6

open Cert.KernelIdeal Cert.KernelIdeal.Gen

variable {F : FTy → Type} [FloatOps F]

/-- The zero offsets of every whole-buffer load and store. -/
theorem hz : (![0, 0] : Fin 2 → Nat) = fun _ => 0 := funext fun a => by fin_cases a <;> rfl

/-- The output block the first point leaves: the layer's affine map of the point's input blocks. -/
theorem out_A_5 (c : Dev nD) (i : grid6.Coords) (a1 : Memref sig .tc .vmem S5000x64 .f32) (h1 : a1.IsWhole) (a2 : Memref sig .tc .vmem S5000x64 .f32) (h2 : a2.IsWhole) (a3 : Memref sig .tc .vmem S64x40 .bf16) (h3 : a3.IsWhole) (a4 : Memref sig .tc .vmem S64x40 .bf16) (h4 : a4.IsWhole) (a5 : Memref sig .tc .vmem S1x40 .f32) (h5 : a5.IsWhole) (a6 : Memref sig .tc .vmem S5000x40 .f32) (h6 : a6.IsWhole) (a7 : Memref sig .tc .vmem S1x40 .f32) (h7 : a7.IsWhole) (a8 : Memref sig .tc .vmem S1x40 .f32) (h8 : a8.IsWhole) (hc : cond6_0 i) (x0 x1 : Vec F S5000x64 .f32) (x2 x3 : Vec F S64x40 .bf16) (x4 : Vec F S1x40 .f32) :
    out6_A_5 c i a1 h1 a2 h2 a3 h3 a4 h4 a5 h5 a6 h6 a7 h7 a8 h8 hc x0 x1 x2 x3 x4 = k6_pay2 x0 x1 x2 x3 x4 := by
  unfold out6_A_5
  rw [View.read_writes_eq_canon _ _ _ (cover6_A_5 c i a1 h1 a2 h2 a3 h3 a4 h4 a5 h5 a6 h6 a7 h7 a8 h8 hc x0 x1 x2 x3 x4)]
  unfold kernelRun6_A
  dsimp only
  rw [View.canon_unit_zero hz]
  simp only [View.readAt_eq_ld, h1.read_unread, h2.read_unread, h3.read_unread, h4.read_unread, h5.read_unread,
    View.ld_unit_zero (S := S5000x64) hz, View.ld_unit_zero (S := S64x40) hz, View.ld_unit_zero (S := S1x40) hz]

/-- The output block a later point leaves: the same map of that point's input blocks, whatever the two
    accumulator rows carried in. -/
theorem out_B_5 (c : Dev nD) (i : grid6.Coords) (a1 : Memref sig .tc .vmem S5000x64 .f32) (h1 : a1.IsWhole) (a2 : Memref sig .tc .vmem S5000x64 .f32) (h2 : a2.IsWhole) (a3 : Memref sig .tc .vmem S64x40 .bf16) (h3 : a3.IsWhole) (a4 : Memref sig .tc .vmem S64x40 .bf16) (h4 : a4.IsWhole) (a5 : Memref sig .tc .vmem S1x40 .f32) (h5 : a5.IsWhole) (a6 : Memref sig .tc .vmem S5000x40 .f32) (h6 : a6.IsWhole) (a7 : Memref sig .tc .vmem S1x40 .f32) (h7 : a7.IsWhole) (a8 : Memref sig .tc .vmem S1x40 .f32) (h8 : a8.IsWhole) (hc : ¬cond6_0 i) (x0 x1 : Vec F S5000x64 .f32) (x2 x3 : Vec F S64x40 .bf16) (x4 : Vec F S1x40 .f32) (xo6 xo7 : Vec F S1x40 .f32) :
    out6_B_5 c i a1 h1 a2 h2 a3 h3 a4 h4 a5 h5 a6 h6 a7 h7 a8 h8 hc x0 x1 x2 x3 x4 xo6 xo7 = k6_pay2 x0 x1 x2 x3 x4 := by
  unfold out6_B_5
  rw [View.read_writes_eq_canon _ _ _ (cover6_B_5 c i a1 h1 a2 h2 a3 h3 a4 h4 a5 h5 a6 h6 a7 h7 a8 h8 hc x0 x1 x2 x3 x4 xo6 xo7)]
  unfold kernelRun6_B
  dsimp only
  rw [View.canon_unit_zero hz]
  simp only [View.readAt_eq_ld, h1.read_unread, h2.read_unread, h3.read_unread, h4.read_unread, h5.read_unread,
    h7.read_unread, h8.read_unread,
    View.ld_unit_zero (S := S5000x64) hz, View.ld_unit_zero (S := S64x40) hz, View.ld_unit_zero (S := S1x40) hz]

end Cert.KernelIdeal.Sage6

end
-- ==== Proof.Sage6Pay.lean ====
/-
  The last layer's affine map of one block of rows, read at an entry over the extended reals: entry (r, q) of the
  block the kernel stores is the sum over the 64 input features of the neighbourhood means against the first weight
  matrix, plus the same sum of the features against the second, plus entry q of the offset row.  At the ideal
  instance a change of float format is the identity, a matrix product into a zero accumulator is the plain sum of
  products, and a row broadcast over the block's rows reads the row.
-/
import proofs.«144552_j81088982548491_1_alg».proof.Proof.Gen.KernelIdeal.Skeleton
import proofs.«144552_j81088982548491_1_alg».proof.Proof.LibDot
import Idealize.ShloMosaic.Lib.ValueIdx
import Idealize.ShloMosaic.Lib.ValueLayout
import Idealize.ShloMosaic.Lib.Pipeline.Value

noncomputable section

open Idealize.ShloMosaic
open scoped BigOperators

namespace Cert.KernelIdeal.Sage6

open Cert.KernelIdeal Cert.KernelIdeal.Gen

/-- Entry (r, q) of the stored block. -/
theorem pay2_apply (x0 x1 : S5000x64.Idx → EReal) (x2 x3 : S64x40.Idx → EReal) (x4 : S1x40.Idx → EReal)
    (r : Fin 5000) (q : Fin 40) :
    k6_pay2 (F := Ideal) x0 x1 x2 x3 x4 (ValueIdx.ix2 r q)
      = ((∑ k : Fin 64, x0 (ValueIdx.ix2 r k) * x2 (ValueIdx.ix2 k q))
          + (∑ k : Fin 64, x1 (ValueIdx.ix2 r k) * x3 (ValueIdx.ix2 k q)))
        + x4 (ValueIdx.ix2 0 q) := by
  unfold k6_pay2
  rw [ValueIdx.addf_apply, ValueIdx.addf_apply,
    Cert.LibDot.matmul_plain _ rfl rfl rfl rfl rfl rfl, Cert.LibDot.matmul_plain _ rfl rfl rfl rfl rfl rfl,
    ValueIdx.broadcastTo_1b_ab_apply]
  simp only [shapeCast_self, ValueIdx.truncf_apply]

end Cert.KernelIdeal.Sage6

end
-- ==== Proof.Sage6.lean ====
/-
  The array the last layer's region leaves in its output buffer, entry by entry, over the extended reals and for
  any contents `V` the region is entered with.

  The region walks the 50000 rows in ten blocks of 5000.  At each block it reads that block of the neighbourhood
  means and of the features, the two weight matrices and the offset row whole, and stores the block of the layer's
  affine map; each stored block is written back to rows 5000 t … 5000 t + 4999 of the output array, and the ten
  blocks cover the array.  So the output array is, at entry (i, j), the specification's layer `linK` of the five
  input arrays as the region finds them.
-/
import proofs.«144552_j81088982548491_1_alg».proof.Proof.Gen.KernelIdeal.Frame
import proofs.«144552_j81088982548491_1_alg».proof.Proof.Sage6Pieces
import proofs.«144552_j81088982548491_1_alg».proof.Proof.Sage6Pay
import proofs.«144552_j81088982548491_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)
open scoped BigOperators

namespace Cert.KernelIdeal.Sage6

open Cert.KernelIdeal Cert.KernelIdeal.Gen

variable (V : (c : Dev nD) → (b : Ref sig .tc) → Buf (Elt Ideal) ((c : Thread nD τ).loc b)) (c : Dev nD)

/-! ## The five input arrays as the region finds them -/

/-- The neighbourhood means. -/
abbrev A0 : S50000x64.Idx → EReal := V c (Pipeline.arrRef spec6 0)
/-- The node features. -/
abbrev A1 : S50000x64.Idx → EReal := V c (Pipeline.arrRef spec6 1)
/-- The weight matrix the neighbourhood means meet. -/
abbrev A2 : S64x40.Idx → EReal := V c (Pipeline.arrRef spec6 2)
/-- The weight matrix the features meet. -/
abbrev A3 : S64x40.Idx → EReal := V c (Pipeline.arrRef spec6 3)
/-- The offset row. -/
abbrev A4 : S1x40.Idx → EReal := V c (Pipeline.arrRef spec6 4)

/-- The layer of the five arrays, as one array of the output's shape. -/
def G : S50000x40.Idx → EReal := fun j =>
  Net.linK (fun i k => A0 V c (ValueIdx.ix2 i k)) (fun i k => A1 V c (ValueIdx.ix2 i k))
      (fun k j => A2 V c (ValueIdx.ix2 k j)) (fun k j => A3 V c (ValueIdx.ix2 k j)) (fun j => A4 V c (ValueIdx.ix2 0 j)) (j 0 : Fin 50000) (j 1 : Fin 40)

/-! ## Where each window's block sits at a grid point -/

/-- The printed index maps, decided over the ten points: the two row-blocked inputs and the output sit at block
    row `t`, the three small inputs at their one block. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `r` of block `t` is row `5000 t + r` of the array. -/
def row (t : Fin cfg6.N) (r : Fin 5000) : Fin 50000 :=
  ⟨5000 * t.val + r.val, by have := t.isLt; have hN : cfg6.N = 10 := N_6; have := r.isLt; omega⟩

/-- The block of neighbourhood means at point `t`. -/
theorem iblk0_apply (t : Fin cfg6.N) (r : Fin 5000) (k : Fin 64) :
    (iblk6 V c 0 t : S5000x64.Idx → EReal) (ValueIdx.ix2 r k) = A0 V c (ValueIdx.ix2 (row t r) k) := by
  obtain ⟨e00, e01, -⟩ := idx_facts t
  unfold iblk6
  rw [View.read_apply]
  show V c (Pipeline.arrRef spec6 0) _ = V c (Pipeline.arrRef spec6 0) _
  refine congrArg (V c (Pipeline.arrRef spec6 0)) ?_
  funext a
  apply Fin.ext
  match a with
  | ⟨0, _⟩ => show win6_0.index t (0 : Fin 2) * 5000 + 1 * r.val = 5000 * t.val + r.val; rw [e00]; omega
  | ⟨1, _⟩ => show win6_0.index t (1 : Fin 2) * 64 + 1 * k.val = k.val; rw [e01]; omega

/-- The block of features at point `t`. -/
theorem iblk1_apply (t : Fin cfg6.N) (r : Fin 5000) (k : Fin 64) :
    (iblk6 V c 1 t : S5000x64.Idx → EReal) (ValueIdx.ix2 r k) = A1 V c (ValueIdx.ix2 (row t r) k) := by
  obtain ⟨-, -, e10, e11, -⟩ := idx_facts t
  unfold iblk6
  rw [View.read_apply]
  show V c (Pipeline.arrRef spec6 1) _ = V c (Pipeline.arrRef spec6 1) _
  refine congrArg (V c (Pipeline.arrRef spec6 1)) ?_
  funext a
  apply Fin.ext
  match a with
  | ⟨0, _⟩ => show win6_1.index t (0 : Fin 2) * 5000 + 1 * r.val = 5000 * t.val + r.val; rw [e10]; omega
  | ⟨1, _⟩ => show win6_1.index t (1 : Fin 2) * 64 + 1 * k.val = k.val; rw [e11]; omega

/-- The first weight matrix is read whole at every point. -/
theorem iblk2_apply (t : Fin cfg6.N) (k : Fin 64) (q : Fin 40) :
    (iblk6 V c 2 t : S64x40.Idx → EReal) (ValueIdx.ix2 k q) = A2 V c (ValueIdx.ix2 k q) := by
  obtain ⟨-, -, -, -, e20, e21, -⟩ := idx_facts t
  unfold iblk6
  rw [View.read_apply]
  show V c (Pipeline.arrRef spec6 2) _ = V c (Pipeline.arrRef spec6 2) _
  refine congrArg (V c (Pipeline.arrRef spec6 2)) ?_
  funext a
  apply Fin.ext
  match a with
  | ⟨0, _⟩ => show win6_2.index t (0 : Fin 2) * 64 + 1 * k.val = k.val; rw [e20]; omega
  | ⟨1, _⟩ => show win6_2.index t (1 : Fin 2) * 40 + 1 * q.val = q.val; rw [e21]; omega

/-- The second weight matrix is read whole at every point. -/
theorem iblk3_apply (t : Fin cfg6.N) (k : Fin 64) (q : Fin 40) :
    (iblk6 V c 3 t : S64x40.Idx → EReal) (ValueIdx.ix2 k q) = A3 V c (ValueIdx.ix2 k q) := by
  obtain ⟨-, -, -, -, -, -, e30, e31, -⟩ := idx_facts t
  unfold iblk6
  rw [View.read_apply]
  show V c (Pipeline.arrRef spec6 3) _ = V c (Pipeline.arrRef spec6 3) _
  refine congrArg (V c (Pipeline.arrRef spec6 3)) ?_
  funext a
  apply Fin.ext
  match a with
  | ⟨0, _⟩ => show win6_3.index t (0 : Fin 2) * 64 + 1 * k.val = k.val; rw [e30]; omega
  | ⟨1, _⟩ => show win6_3.index t (1 : Fin 2) * 40 + 1 * q.val = q.val; rw [e31]; omega

/-- The offset row is read whole at every point. -/
theorem iblk4_apply (t : Fin cfg6.N) (q : Fin 40) :
    (iblk6 V c 4 t : S1x40.Idx → EReal) (ValueIdx.ix2 0 q) = A4 V c (ValueIdx.ix2 0 q) := by
  obtain ⟨-, -, -, -, -, -, -, -, e40, e41, -⟩ := idx_facts t
  unfold iblk6
  rw [View.read_apply]
  show V c (Pipeline.arrRef spec6 4) _ = V c (Pipeline.arrRef spec6 4) _
  refine congrArg (V c (Pipeline.arrRef spec6 4)) ?_
  funext a
  apply Fin.ext
  match a with
  | ⟨0, _⟩ => show win6_4.index t (0 : Fin 2) * 1 + 1 * 0 = 0; rw [e40]
  | ⟨1, _⟩ => show win6_4.index t (1 : Fin 2) * 40 + 1 * q.val = q.val; rw [e41]; omega

/-! ## What a point leaves, and what it writes back -/

/-- In both control cases the output block a point leaves is the layer's map of the point's input blocks. -/
theorem left_eq (t : Fin cfg6.N) :
    (outsAt6 V c t.val t.isLt).1 = k6_pay2 (iblk6 V c 0 t) (iblk6 V c 1 t) (iblk6 V c 2 t) (iblk6 V c 3 t) (iblk6 V c 4 t) := by
  by_cases h0 : t.val % 10 = 0
  · rw [outsAt6_A V c t h0]
    dsimp only
    exact out_A_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t)
  · rw [outsAt6_B V c t h0]
    dsimp only
    exact out_B_5 c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t)
      (outsAt6 V c (t.val - 1) (Nat.lt_of_le_of_lt (Nat.sub_le _ _) t.isLt)).2.1 (outsAt6 V c (t.val - 1) (Nat.lt_of_le_of_lt (Nat.sub_le _ _) t.isLt)).2.2

/-- Entry (r, q) of the block point `t` stores is the layer at row `5000 t + r`, column `q`. -/
theorem block_apply (t : Fin cfg6.N) (r : Fin 5000) (q : Fin 40) :
    k6_pay2 (F := Ideal) (iblk6 V c 0 t) (iblk6 V c 1 t) (iblk6 V c 2 t) (iblk6 V c 3 t) (iblk6 V c 4 t) (ValueIdx.ix2 r q)
      = Net.linK (fun i k => A0 V c (ValueIdx.ix2 i k)) (fun i k => A1 V c (ValueIdx.ix2 i k))
      (fun k j => A2 V c (ValueIdx.ix2 k j)) (fun k j => A3 V c (ValueIdx.ix2 k j)) (fun j => A4 V c (ValueIdx.ix2 0 j)) (row t r) q := by
  refine (pay2_apply (iblk6 V c 0 t) (iblk6 V c 1 t) (iblk6 V c 2 t) (iblk6 V c 3 t) (iblk6 V c 4 t) r q).trans ?_
  show _ = ((∑ k : Fin 64, A0 V c (ValueIdx.ix2 (row t r) k) * A2 V c (ValueIdx.ix2 k q))
      + (∑ k : Fin 64, A1 V c (ValueIdx.ix2 (row t r) k) * A3 V c (ValueIdx.ix2 k q))) + A4 V c (ValueIdx.ix2 0 q)
  refine congrArg₂ (· + ·) (congrArg₂ (· + ·)
    (Finset.sum_congr rfl fun k _ => congrArg₂ (· * ·) (iblk0_apply V c t r k) (iblk2_apply V c t k q))
    (Finset.sum_congr rfl fun k _ => congrArg₂ (· * ·) (iblk1_apply V c t r k) (iblk3_apply V c t k q)))
    (iblk4_apply V c t q)

/-- What point `t` writes back is block `t` of `G`. -/
theorem flushed_eq (t : Fin cfg6.N) :
    (dat6 V c).flushed 5 t = ((cfg6.win 5).blk t).view.read (Elt Ideal) (G V c) := by
  show (cfg6.win 5).cut (grid6.coords t) ((dat6 V c).after 5 t) = _
  rw [after6_5, left_eq]
  obtain ⟨-, -, -, -, -, -, -, -, -, -, e50, e51⟩ := idx_facts t
  funext (j : S5000x40.Idx)
  obtain ⟨r, q, rfl⟩ : ∃ (r : Fin 5000) (q : Fin 40), j = ValueIdx.ix2 r q := ⟨j 0, j 1, ValueIdx.eq_ix2 j⟩
  rw [View.read_apply]
  show k6_pay2 (F := Ideal) (iblk6 V c 0 t) (iblk6 V c 1 t) (iblk6 V c 2 t) (iblk6 V c 3 t) (iblk6 V c 4 t) (ValueIdx.ix2 r q) = G V c (((cfg6.win 5).blk t).view.emb (ValueIdx.ix2 r q))
  refine (block_apply V c t r q).trans ?_
  unfold G
  refine congrArg₂ (Net.linK (fun i k => A0 V c (ValueIdx.ix2 i k)) (fun i k => A1 V c (ValueIdx.ix2 i k))
      (fun k j => A2 V c (ValueIdx.ix2 k j)) (fun k j => A3 V c (ValueIdx.ix2 k j)) (fun j => A4 V c (ValueIdx.ix2 0 j))) (Fin.ext ?_) (Fin.ext ?_)
  · show 5000 * t.val + r.val = win6_5.index t (0 : Fin 2) * 5000 + 1 * r.val
    rw [e50]; omega
  · show q.val = win6_5.index t (1 : Fin 2) * 40 + 1 * q.val
    rw [e51]; omega

/-! ## The ten blocks cover the array -/

/-- An index of the array is in point `t`'s block iff each coordinate is in the block's range on its axis. -/
theorem mem_blk (t : Fin cfg6.N) (i : S50000x40.Idx) :
    i ∈ ((cfg6.win 5).blk t).view.set ↔ ∀ a : Fin 2, win6_5.index t a * S5000x40.size a ≤ (i a).val ∧ (i a).val < win6_5.index t a * S5000x40.size a + S5000x40.size a := by
  show i ∈ ((View.whole main_v109_0).slice (win6_5.rect t)).set ↔ _
  rw [View.set_slice_whole, Rect.mem_set_unit]
  exact Iff.rfl

/-- Every index is in the block of the point its row falls in. -/
theorem cover (i : S50000x40.Idx) :
    ∃ t : Fin cfg6.N, (cfg6.win 5).flush t = true ∧ i ∈ ((cfg6.win 5).blk t).view.set := by
  have hi0 : (i 0).val < 50000 := (i 0).isLt
  have hi1 : (i 1).val < 40 := (i 1).isLt
  have hN : cfg6.N = 10 := N_6
  refine ⟨⟨(i 0).val / 5000, by omega⟩, flush6_5 _, ?_⟩
  rw [mem_blk]
  obtain ⟨-, -, -, -, -, -, -, -, -, -, e50, e51⟩ := idx_facts ⟨(i 0).val / 5000, by omega⟩
  intro a
  match a with
  | ⟨0, _⟩ =>
    show win6_5.index _ (0 : Fin 2) * 5000 ≤ (i 0).val ∧ (i 0).val < win6_5.index _ (0 : Fin 2) * 5000 + 5000
    rw [e50]; dsimp only; omega
  | ⟨1, _⟩ =>
    show win6_5.index _ (1 : Fin 2) * 40 ≤ (i 1).val ∧ (i 1).val < win6_5.index _ (1 : Fin 2) * 40 + 40
    rw [e51]; omega

/-! ## The output array -/

/-- The output array after the region is `G`. -/
theorem final : (dat6 V c).arrAt 5 cfg6.N = G V c :=
  (dat6 V c).arrAt_eq_of_cover 5 (G V c) (fun t _ => flushed_eq V c t) (cover)

/-- Entry (i, j) of the output array after the region: the layer of the five input arrays. -/
theorem sage6_z (i : Fin 50000) (j : Fin 40) :
    (Gen.dat6 V c).arrAt 5 cfg6.N (ValueIdx.ix2 i j)
      = Net.linK (fun i k => A0 V c (ValueIdx.ix2 i k)) (fun i k => A1 V c (ValueIdx.ix2 i k))
      (fun k j => A2 V c (ValueIdx.ix2 k j)) (fun k j => A3 V c (ValueIdx.ix2 k j)) (fun j => A4 V c (ValueIdx.ix2 0 j)) i j :=
  congrFun (final V c) (ValueIdx.ix2 i j)

end Cert.KernelIdeal.Sage6

end
-- ==== Proof.KSage46.lean ====
/-
  The kernel program's third and fourth aggregate-and-project regions, composed with the host stretches that feed
  them. A region's output array is, entry by entry, the layer of its five input arrays; at the region's entry those
  arrays are the neighbourhood mean of the preceding normalisation's output, that output itself, the narrowed
  neighbour weight, the narrowed sum of the two self weights and the row of the two offsets' sum. Narrowing is the
  identity on extended reals, so the output is the layer of the launch contents' weights and offsets: the sum of the
  self weights and the sum of the offsets appear entry by entry.
-/
import proofs.«144552_j81088982548491_1_alg».proof.Proof.KHostSage
import proofs.«144552_j81088982548491_1_alg».proof.Proof.KHostAt
import proofs.«144552_j81088982548491_1_alg».proof.Proof.Sage4
import proofs.«144552_j81088982548491_1_alg».proof.Proof.Sage6
import proofs.«144552_j81088982548491_1_alg».proof.Proof.Spec
import Idealize.ShloMosaic.Lib.ValueIdx

noncomputable section

namespace Cert.KernelIdeal.KHost

open Idealize.ShloMosaic Idealize.ShloMosaic.ValueIdx Idealize.ShloMosaic.TcCoe
open Cert.KernelIdeal Cert.KernelIdeal.Gen

variable (m : (ℓ : Loc nD τ sig) → Buf (Elt Ideal) ℓ) (ρ : Dev nD → PrngReg)

/-- The sum of two extended reals (written out so that both summands are read as extended reals). -/
local notation:65 a:65 " +ₑ " b:66 => @HAdd.hAdd EReal EReal EReal instHAdd a b

/-- The layer function of equal arguments. -/
theorem linK_congr {n d e : ℕ} {a a' h h' : Fin n → Fin d → EReal} {wl wl' wrs wrs' : Fin d → Fin e → EReal}
    {b b' : Fin e → EReal} (e0 : a = a') (e1 : h = h') (e2 : wl = wl') (e3 : wrs = wrs') (e4 : b = b') :
    Net.linK a h wl wrs b = Net.linK a' h' wl' wrs' b' := by
  subst e0 e1 e2 e3 e4; rfl

/-! ## Region 4 -/

/-- Region 4's input array 0 at its entry, entry by entry: the neighbourhood mean of the preceding output. -/
theorem in4_0 (c : Dev nD) :
    (fun (i : Fin 50000) (k : Fin 128) => (Gen.V9 m ρ c (Pipeline.arrRef spec4 0)) (ix2 i k))
      = (fun (i : Fin 50000) (k : Fin 128) => aggK_128 (F := Ideal) (m ((c.tc : Thread nD τ).loc main_arg1)) ((Gen.dat3 (Gen.V7 m ρ) c).arrAt 5 cfg3.N) (ix2 i k)) :=
  funext fun i => funext fun k => congrFun (entry4_0 m ρ c) (ix2 i k)

/-- Region 4's input array 1 at its entry, entry by entry: the preceding output. -/
theorem in4_1 (c : Dev nD) :
    (fun (i : Fin 50000) (k : Fin 128) => (Gen.V9 m ρ c (Pipeline.arrRef spec4 1)) (ix2 i k))
      = (fun (i : Fin 50000) (k : Fin 128) => (Gen.dat3 (Gen.V7 m ρ) c).arrAt 5 cfg3.N (ix2 i k)) :=
  funext fun i => funext fun k => congrFun (entry4_1 m ρ c) (ix2 i k)

/-- Region 4's input array 2 at its entry, entry by entry: the neighbour weight. -/
theorem in4_2 (c : Dev nD) :
    (fun (k : Fin 128) (j : Fin 64) => (Gen.V9 m ρ c (Pipeline.arrRef spec4 2)) (ix2 k j))
      = (fun (k : Fin 128) (j : Fin 64) => m ((c.tc : Thread nD τ).loc main_arg16) (ix2 k j)) :=
  funext fun k => funext fun j => (congrFun (entry4_2 m ρ c) (ix2 k j)).trans (KHostAt.truncW_at _ _ _)

/-- Region 4's input array 3 at its entry, entry by entry: the sum of the two self weights. -/
theorem in4_3 (c : Dev nD) :
    (fun (k : Fin 128) (j : Fin 64) => (Gen.V9 m ρ c (Pipeline.arrRef spec4 3)) (ix2 k j))
      = (fun (k : Fin 128) (j : Fin 64) => (m ((c.tc : Thread nD τ).loc main_arg18) (ix2 k j) +ₑ m ((c.tc : Thread nD τ).loc main_arg19) (ix2 k j))) :=
  funext fun k => funext fun j => (congrFun (entry4_3 m ρ c) (ix2 k j)).trans (KHostAt.truncAddW_at _ _ _ _)

/-- Region 4's input array 4 at its entry, entry by entry: the sum of the two offsets. -/
theorem in4_4 (c : Dev nD) :
    (fun (j : Fin 64) => (Gen.V9 m ρ c (Pipeline.arrRef spec4 4)) (ix2 (0 : Fin 1) j))
      = (fun (j : Fin 64) => (m ((c.tc : Thread nD τ).loc main_arg17) (ix1 j) +ₑ m ((c.tc : Thread nD τ).loc main_arg20) (ix1 j))) :=
  funext fun j => (congrFun (entry4_4 m ρ c) (ix2 (0 : Fin 1) j)).trans (KHostAt.bias64_at _ _ _ j)

/-- Region 4's output array: the positive part of the layer of the launch contents' weights over the neighbourhood
    mean of the preceding normalisation's output . -/
theorem kz4 (c : Dev nD) :
    ∀ (i : Fin 50000) (j : Fin 64), (Gen.dat4 (Gen.V9 m ρ) c).arrAt 5 cfg4.N (ix2 i j)
      = Net.relu (Net.linK (fun (i : Fin 50000) (k : Fin 128) => aggK_128 (F := Ideal) (m ((c.tc : Thread nD τ).loc main_arg1)) ((Gen.dat3 (Gen.V7 m ρ) c).arrAt 5 cfg3.N) (ix2 i k))
        (fun (i : Fin 50000) (k : Fin 128) => (Gen.dat3 (Gen.V7 m ρ) c).arrAt 5 cfg3.N (ix2 i k))
        (fun (k : Fin 128) (j : Fin 64) => m ((c.tc : Thread nD τ).loc main_arg16) (ix2 k j))
        (fun (k : Fin 128) (j : Fin 64) => (m ((c.tc : Thread nD τ).loc main_arg18) (ix2 k j) +ₑ m ((c.tc : Thread nD τ).loc main_arg19) (ix2 k j)))
        (fun (j : Fin 64) => (m ((c.tc : Thread nD τ).loc main_arg17) (ix1 j) +ₑ m ((c.tc : Thread nD τ).loc main_arg20) (ix1 j)))) i j :=
  fun i j => (show (Gen.dat4 (Gen.V9 m ρ) c).arrAt 5 cfg4.N (ix2 i j)
      = Net.relu (Net.linK (fun (i : Fin 50000) (k : Fin 128) => (Gen.V9 m ρ c (Pipeline.arrRef spec4 0)) (ix2 i k))
        (fun (i : Fin 50000) (k : Fin 128) => (Gen.V9 m ρ c (Pipeline.arrRef spec4 1)) (ix2 i k))
        (fun (k : Fin 128) (j : Fin 64) => (Gen.V9 m ρ c (Pipeline.arrRef spec4 2)) (ix2 k j))
        (fun (k : Fin 128) (j : Fin 64) => (Gen.V9 m ρ c (Pipeline.arrRef spec4 3)) (ix2 k j))
        (fun (j : Fin 64) => (Gen.V9 m ρ c (Pipeline.arrRef spec4 4)) (ix2 (0 : Fin 1) j))) i j from Sage4.sage4_z (Gen.V9 m ρ) c i j).trans (congrFun (congrFun (congrArg Net.relu (linK_congr (in4_0 m ρ c) (in4_1 m ρ c) (in4_2 m ρ c) (in4_3 m ρ c) (in4_4 m ρ c))) i) j)

/-- Region 4's column sums of that array. -/
theorem ks4 (c : Dev nD) :
    ∀ (j : Fin 64), (Gen.dat4 (Gen.V9 m ρ) c).arrAt 6 cfg4.N (ix2 (0 : Fin 1) j)
      = Net.colsum (Net.relu (Net.linK (fun (i : Fin 50000) (k : Fin 128) => aggK_128 (F := Ideal) (m ((c.tc : Thread nD τ).loc main_arg1)) ((Gen.dat3 (Gen.V7 m ρ) c).arrAt 5 cfg3.N) (ix2 i k))
        (fun (i : Fin 50000) (k : Fin 128) => (Gen.dat3 (Gen.V7 m ρ) c).arrAt 5 cfg3.N (ix2 i k))
        (fun (k : Fin 128) (j : Fin 64) => m ((c.tc : Thread nD τ).loc main_arg16) (ix2 k j))
        (fun (k : Fin 128) (j : Fin 64) => (m ((c.tc : Thread nD τ).loc main_arg18) (ix2 k j) +ₑ m ((c.tc : Thread nD τ).loc main_arg19) (ix2 k j)))
        (fun (j : Fin 64) => (m ((c.tc : Thread nD τ).loc main_arg17) (ix1 j) +ₑ m ((c.tc : Thread nD τ).loc main_arg20) (ix1 j))))) j :=
  fun j => (show (Gen.dat4 (Gen.V9 m ρ) c).arrAt 6 cfg4.N (ix2 (0 : Fin 1) j)
      = Net.colsum (Net.relu (Net.linK (fun (i : Fin 50000) (k : Fin 128) => (Gen.V9 m ρ c (Pipeline.arrRef spec4 0)) (ix2 i k))
        (fun (i : Fin 50000) (k : Fin 128) => (Gen.V9 m ρ c (Pipeline.arrRef spec4 1)) (ix2 i k))
        (fun (k : Fin 128) (j : Fin 64) => (Gen.V9 m ρ c (Pipeline.arrRef spec4 2)) (ix2 k j))
        (fun (k : Fin 128) (j : Fin 64) => (Gen.V9 m ρ c (Pipeline.arrRef spec4 3)) (ix2 k j))
        (fun (j : Fin 64) => (Gen.V9 m ρ c (Pipeline.arrRef spec4 4)) (ix2 (0 : Fin 1) j)))) j from Sage4.sage4_s (Gen.V9 m ρ) c j).trans (congrFun (congrArg Net.colsum (congrArg Net.relu (linK_congr (in4_0 m ρ c) (in4_1 m ρ c) (in4_2 m ρ c) (in4_3 m ρ c) (in4_4 m ρ c)))) j)

/-- Region 4's column sums of squares of that array. -/
theorem kss4 (c : Dev nD) :
    ∀ (j : Fin 64), (Gen.dat4 (Gen.V9 m ρ) c).arrAt 7 cfg4.N (ix2 (0 : Fin 1) j)
      = Net.colsumsq (Net.relu (Net.linK (fun (i : Fin 50000) (k : Fin 128) => aggK_128 (F := Ideal) (m ((c.tc : Thread nD τ).loc main_arg1)) ((Gen.dat3 (Gen.V7 m ρ) c).arrAt 5 cfg3.N) (ix2 i k))
        (fun (i : Fin 50000) (k : Fin 128) => (Gen.dat3 (Gen.V7 m ρ) c).arrAt 5 cfg3.N (ix2 i k))
        (fun (k : Fin 128) (j : Fin 64) => m ((c.tc : Thread nD τ).loc main_arg16) (ix2 k j))
        (fun (k : Fin 128) (j : Fin 64) => (m ((c.tc : Thread nD τ).loc main_arg18) (ix2 k j) +ₑ m ((c.tc : Thread nD τ).loc main_arg19) (ix2 k j)))
        (fun (j : Fin 64) => (m ((c.tc : Thread nD τ).loc main_arg17) (ix1 j) +ₑ m ((c.tc : Thread nD τ).loc main_arg20) (ix1 j))))) j :=
  fun j => (show (Gen.dat4 (Gen.V9 m ρ) c).arrAt 7 cfg4.N (ix2 (0 : Fin 1) j)
      = Net.colsumsq (Net.relu (Net.linK (fun (i : Fin 50000) (k : Fin 128) => (Gen.V9 m ρ c (Pipeline.arrRef spec4 0)) (ix2 i k))
        (fun (i : Fin 50000) (k : Fin 128) => (Gen.V9 m ρ c (Pipeline.arrRef spec4 1)) (ix2 i k))
        (fun (k : Fin 128) (j : Fin 64) => (Gen.V9 m ρ c (Pipeline.arrRef spec4 2)) (ix2 k j))
        (fun (k : Fin 128) (j : Fin 64) => (Gen.V9 m ρ c (Pipeline.arrRef spec4 3)) (ix2 k j))
        (fun (j : Fin 64) => (Gen.V9 m ρ c (Pipeline.arrRef spec4 4)) (ix2 (0 : Fin 1) j)))) j from Sage4.sage4_ss (Gen.V9 m ρ) c j).trans (congrFun (congrArg Net.colsumsq (congrArg Net.relu (linK_congr (in4_0 m ρ c) (in4_1 m ρ c) (in4_2 m ρ c) (in4_3 m ρ c) (in4_4 m ρ c)))) j)

/-! ## Region 6 -/

/-- Region 6's input array 0 at its entry, entry by entry: the neighbourhood mean of the preceding output. -/
theorem in6_0 (c : Dev nD) :
    (fun (i : Fin 50000) (k : Fin 64) => (Gen.V13 m ρ c (Pipeline.arrRef spec6 0)) (ix2 i k))
      = (fun (i : Fin 50000) (k : Fin 64) => aggK_64 (F := Ideal) (m ((c.tc : Thread nD τ).loc main_arg1)) ((Gen.dat5 (Gen.V11 m ρ) c).arrAt 5 cfg5.N) (ix2 i k)) :=
  funext fun i => funext fun k => congrFun (entry6_0 m ρ c) (ix2 i k)

/-- Region 6's input array 1 at its entry, entry by entry: the preceding output. -/
theorem in6_1 (c : Dev nD) :
    (fun (i : Fin 50000) (k : Fin 64) => (Gen.V13 m ρ c (Pipeline.arrRef spec6 1)) (ix2 i k))
      = (fun (i : Fin 50000) (k : Fin 64) => (Gen.dat5 (Gen.V11 m ρ) c).arrAt 5 cfg5.N (ix2 i k)) :=
  funext fun i => funext fun k => congrFun (entry6_1 m ρ c) (ix2 i k)

/-- Region 6's input array 2 at its entry, entry by entry: the neighbour weight. -/
theorem in6_2 (c : Dev nD) :
    (fun (k : Fin 64) (j : Fin 40) => (Gen.V13 m ρ c (Pipeline.arrRef spec6 2)) (ix2 k j))
      = (fun (k : Fin 64) (j : Fin 40) => m ((c.tc : Thread nD τ).loc main_arg23) (ix2 k j)) :=
  funext fun k => funext fun j => (congrFun (entry6_2 m ρ c) (ix2 k j)).trans (KHostAt.truncW_at _ _ _)

/-- Region 6's input array 3 at its entry, entry by entry: the sum of the two self weights. -/
theorem in6_3 (c : Dev nD) :
    (fun (k : Fin 64) (j : Fin 40) => (Gen.V13 m ρ c (Pipeline.arrRef spec6 3)) (ix2 k j))
      = (fun (k : Fin 64) (j : Fin 40) => (m ((c.tc : Thread nD τ).loc main_arg25) (ix2 k j) +ₑ m ((c.tc : Thread nD τ).loc main_arg26) (ix2 k j))) :=
  funext fun k => funext fun j => (congrFun (entry6_3 m ρ c) (ix2 k j)).trans (KHostAt.truncAddW_at _ _ _ _)

/-- Region 6's input array 4 at its entry, entry by entry: the sum of the two offsets. -/
theorem in6_4 (c : Dev nD) :
    (fun (j : Fin 40) => (Gen.V13 m ρ c (Pipeline.arrRef spec6 4)) (ix2 (0 : Fin 1) j))
      = (fun (j : Fin 40) => (m ((c.tc : Thread nD τ).loc main_arg24) (ix1 j) +ₑ m ((c.tc : Thread nD τ).loc main_arg27) (ix1 j))) :=
  funext fun j => (congrFun (entry6_4 m ρ c) (ix2 (0 : Fin 1) j)).trans (KHostAt.bias40_at _ _ _ j)

/-- Region 6's output array: the layer (no positive part) of the launch contents' weights over the neighbourhood mean
    of the preceding normalisation's output. -/
theorem kz6 (c : Dev nD) :
    ∀ (i : Fin 50000) (j : Fin 40), (Gen.dat6 (Gen.V13 m ρ) c).arrAt 5 cfg6.N (ix2 i j)
      = Net.linK (fun (i : Fin 50000) (k : Fin 64) => aggK_64 (F := Ideal) (m ((c.tc : Thread nD τ).loc main_arg1)) ((Gen.dat5 (Gen.V11 m ρ) c).arrAt 5 cfg5.N) (ix2 i k))
        (fun (i : Fin 50000) (k : Fin 64) => (Gen.dat5 (Gen.V11 m ρ) c).arrAt 5 cfg5.N (ix2 i k))
        (fun (k : Fin 64) (j : Fin 40) => m ((c.tc : Thread nD τ).loc main_arg23) (ix2 k j))
        (fun (k : Fin 64) (j : Fin 40) => (m ((c.tc : Thread nD τ).loc main_arg25) (ix2 k j) +ₑ m ((c.tc : Thread nD τ).loc main_arg26) (ix2 k j)))
        (fun (j : Fin 40) => (m ((c.tc : Thread nD τ).loc main_arg24) (ix1 j) +ₑ m ((c.tc : Thread nD τ).loc main_arg27) (ix1 j))) i j :=
  fun i j => (show (Gen.dat6 (Gen.V13 m ρ) c).arrAt 5 cfg6.N (ix2 i j)
      = Net.linK (fun (i : Fin 50000) (k : Fin 64) => (Gen.V13 m ρ c (Pipeline.arrRef spec6 0)) (ix2 i k))
        (fun (i : Fin 50000) (k : Fin 64) => (Gen.V13 m ρ c (Pipeline.arrRef spec6 1)) (ix2 i k))
        (fun (k : Fin 64) (j : Fin 40) => (Gen.V13 m ρ c (Pipeline.arrRef spec6 2)) (ix2 k j))
        (fun (k : Fin 64) (j : Fin 40) => (Gen.V13 m ρ c (Pipeline.arrRef spec6 3)) (ix2 k j))
        (fun (j : Fin 40) => (Gen.V13 m ρ c (Pipeline.arrRef spec6 4)) (ix2 (0 : Fin 1) j)) i j from Sage6.sage6_z (Gen.V13 m ρ) c i j).trans (congrFun (congrFun (linK_congr (in6_0 m ρ c) (in6_1 m ρ c) (in6_2 m ρ c) (in6_3 m ρ c) (in6_4 m ρ c)) i) j)

end Cert.KernelIdeal.KHost

end
-- ==== Proof.Bn1.lean ====
/-
  The value of the normalisation region that follows layer 1: a matrix of 50000 rows and 256 columns, taken
  5000 rows at a time over ten grid points, and four rows of 256 entries (the column means, the column variances,
  the scales, the shifts), each taken whole at every point. At a point the stored block is, entry by entry,

      ((z − mean) · (var + eps)^(−1/2)) · g + be

  with the four rows repeated down the block's rows. Block `t` of the matrix is its rows `5000 t … 5000 t + 4999`
  and the stored block is written back to the same rows of the result, so every point writes a block of ONE
  function of the five arrays (`normed`), the ten blocks cover the result, and after the region the result is
  that function: entry `(i, j)` is `Net.bn` of the matrix and the four rows at `(i, j)`. Everything is stated at
  arbitrary contents `V` of the buffers when the region is entered.
-/
import proofs.«144552_j81088982548491_1_alg».proof.Proof.Gen.KernelIdeal.Frame
import proofs.«144552_j81088982548491_1_alg».proof.Proof.Spec
import Idealize.ShloMosaic.Lib.Pipeline.Value
import Idealize.ShloMosaic.Lib.ValueIdx
import Idealize.ShloMosaic.Lib.ValueLayout

noncomputable section

namespace Cert.KernelIdeal.Bn1

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a load or store of a whole block, as a constant function. -/
theorem zero_offsets : (![0, 0] : Fin 2 → Nat) = fun _ => 0 := funext fun a => by fin_cases a <;> rfl

/-- The stored value at row `p`, column `q` of a block: the block's entry less the mean of its column, times the
    inverse square root of the column's variance plus the offset, times the column's scale, plus the column's shift.
    The four rows are repeated down the block's rows, so each is read at its one row and column `q`. -/
theorem stored_at (x0 : Vec Ideal S5000x256 .f32) (xvar xmean xg xbe : Vec Ideal S1x256 .f32) (p : Fin 5000) (q : Fin 256) :
    k1_pay1 (F := Ideal) x0 xvar xmean xg xbe (ix2 p q)
      = ((x0 (ix2 p q) - xmean (ix2 (0 : Fin 1) q)) * Ideal.rsqrt (xvar (ix2 (0 : Fin 1) q) + Ideal.ofBits .f32 0x3727C5AC#32))
          * xg (ix2 (0 : Fin 1) q) + xbe (ix2 (0 : Fin 1) q) := by
  unfold k1_pay1
  simp only [shapeCast_self]
  rw [addf_apply, mulf_apply, mulf_apply, subf_apply, broadcastTo_1b_ab_apply, broadcastTo_1b_ab_apply,
    broadcastTo_1b_ab_apply, broadcastTo_1b_ab_apply]
  rfl

variable (V : (c : Dev nD) → (b : Ref sig .tc) → Buf (Elt Ideal) ((c : Thread nD τ).loc b))

/-- The matrix being normalised, as the region finds it. -/
abbrev zA (c : Dev nD) : S50000x256.Idx → EReal := V c (Pipeline.arrRef spec1 0)
/-- The row of column means, as the region finds it. -/
abbrev meanA (c : Dev nD) : S1x256.Idx → EReal := V c (Pipeline.arrRef spec1 1)
/-- The row of column variances, as the region finds it. -/
abbrev varA (c : Dev nD) : S1x256.Idx → EReal := V c (Pipeline.arrRef spec1 2)
/-- The row of column scales, as the region finds it. -/
abbrev gA (c : Dev nD) : S1x256.Idx → EReal := V c (Pipeline.arrRef spec1 3)
/-- The row of column shifts, as the region finds it. -/
abbrev beA (c : Dev nD) : S1x256.Idx → EReal := V c (Pipeline.arrRef spec1 4)

/-- The normalised matrix as one function of the five arrays, index by index. -/
def normed (Z : S50000x256.Idx → EReal) (M Vr Gm Be : S1x256.Idx → EReal) : S50000x256.Idx → EReal :=
  fun i => ((Z i - M (ix2 (0 : Fin 1) (i 1 : Fin 256))) * Ideal.rsqrt (Vr (ix2 (0 : Fin 1) (i 1 : Fin 256)) + Ideal.ofBits .f32 0x3727C5AC#32))
      * Gm (ix2 (0 : Fin 1) (i 1 : Fin 256)) + Be (ix2 (0 : Fin 1) (i 1 : Fin 256))

/-- The block indices at each of the ten grid points: the matrix and the result move down their rows with the
    point, five thousand rows a block; the four rows stay at their one block. -/
theorem block_indices : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Block `t` of the matrix is its rows `5000 t … 5000 t + 4999`: entry `y` of the block is the matrix at `k`
    whenever `k`'s row is `5000 t` plus `y`'s and the columns agree. -/
theorem z_block (c : Dev nD) (t : Fin cfg1.N) (y : S5000x256.Idx) (k : S50000x256.Idx)
    (hk0 : (k 0).val = 5000 * t.val + (y 0).val) (hk1 : (k 1).val = (y 1).val) :
    (iblk1 V c 0 t : Vec Ideal S5000x256 .f32) y = zA V c k := by
  obtain ⟨e0, e1, -⟩ := block_indices t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * (y 0).val = (k 0).val; rw [e0, hk0]; omega
  | ⟨1, _⟩ => show win1_0.index t (1 : Fin 2) * 256 + 1 * (y 1).val = (k 1).val; rw [e1, hk1]; omega

/-- The one block of the row of means is the row, at every point. -/
theorem mean_block (c : Dev nD) (t : Fin cfg1.N) : (iblk1 V c 1 t : Vec Ideal S1x256 .f32) = meanA V c := by
  obtain ⟨-, -, -, -, e0, e1, -⟩ := block_indices t
  funext y
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

/-- The one block of the row of variances is the row, at every point. -/
theorem var_block (c : Dev nD) (t : Fin cfg1.N) : (iblk1 V c 2 t : Vec Ideal S1x256 .f32) = varA V c := by
  obtain ⟨-, -, -, -, -, -, e0, e1, -⟩ := block_indices t
  funext y
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The one block of the row of scales is the row, at every point. -/
theorem g_block (c : Dev nD) (t : Fin cfg1.N) : (iblk1 V c 3 t : Vec Ideal S1x256 .f32) = gA V c := by
  obtain ⟨-, -, -, -, -, -, -, -, e0, e1, -⟩ := block_indices t
  funext y
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The one block of the row of shifts is the row, at every point. -/
theorem be_block (c : Dev nD) (t : Fin cfg1.N) : (iblk1 V c 4 t : Vec Ideal S1x256 .f32) = beA V c := by
  obtain ⟨-, -, -, -, -, -, -, -, -, -, e0, e1⟩ := block_indices t
  funext y
  unfold iblk1
  rw [View.read_apply]
  show V c (Pipeline.arrRef spec1 4) _ = V c (Pipeline.arrRef spec1 4) _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- What point `t` writes back is block `t` of the normalised matrix: the point's block of the matrix is the
    rows the result's block names, and the four rows are whole. -/
theorem written_block (c : Dev nD) (t : Fin cfg1.N) :
    (dat1 V c).flushed 5 t
      = ((cfg1.win 5).blk t).view.read (Elt Ideal) (normed (zA V c) (meanA V c) (varA V c) (gA V c) (beA V c)) := by
  show (cfg1.win 5).cut (grid1.coords t) ((dat1 V c).after 5 t) = _
  rw [after1_5]
  unfold out1_5
  rw [View.canon_unit_zero zero_offsets]
  simp only [View.ld_unit_zero (S := S5000x256) zero_offsets, View.ld_unit_zero (S := S1x256) zero_offsets]
  rw [mean_block, var_block, g_block, be_block]
  funext y
  obtain ⟨p, q, rfl⟩ : ∃ (p : Fin 5000) (q : Fin 256), y = ix2 p q := ⟨y 0, y 1, eq_ix2 y⟩
  obtain ⟨-, -, e0, e1, -⟩ := block_indices t
  have hk : ∃ k : S50000x256.Idx, ((cfg1.win 5).blk t).view.emb (ix2 p q) = k
      ∧ (k 0).val = 5000 * t.val + p.val ∧ (k 1 : Fin 256) = q := by
    refine ⟨_, rfl, ?_, ?_⟩
    · show win1_5.index t (0 : Fin 2) * 5000 + 1 * p.val = _; rw [e0]; omega
    · apply Fin.ext; show win1_5.index t (1 : Fin 2) * 256 + 1 * q.val = _; rw [e1]; omega
  obtain ⟨k, hk, hk0, hk1⟩ := hk
  rw [View.read_apply]
  show k1_pay1 (iblk1 V c 0 t) (varA V c) (meanA V c) (gA V c) (beA V c) (ix2 p q)
    = normed (zA V c) (meanA V c) (varA V c) (gA V c) (beA V c) (((cfg1.win 5).blk t).view.emb (ix2 p q))
  rw [hk, stored_at, z_block V c t (ix2 p q) k hk0 (by rw [hk1])]
  unfold normed
  rw [hk1]

/-- An index of the result is in point `t`'s block iff each coordinate is in the block's range on its axis. -/
theorem mem_block (t : Fin cfg1.N) (i : S50000x256.Idx) :
    i ∈ ((cfg1.win 5).blk t).view.set ↔ ∀ a : Fin 2, win1_5.index t a * S5000x256.size a ≤ (i a).val ∧ (i a).val < win1_5.index t a * S5000x256.size a + S5000x256.size a := by
  show i ∈ ((View.whole main_v37).slice (win1_5.rect t)).set ↔ _
  rw [View.set_slice_whole, Rect.mem_set_unit]
  exact Iff.rfl

/-- Each of the ten row blocks is some point's. -/
theorem block_of_row : ∀ q0 : Fin 10, ∃ t : Fin cfg1.N, win1_5.index t (0 : Fin 2) = q0.val ∧ win1_5.index t (1 : Fin 2) = 0 :=
  (by decide +kernel : ∀ q0 : Fin 10, ∃ t : Fin grid1.N, win1_5.index t (0 : Fin 2) = q0.val ∧ win1_5.index t (1 : Fin 2) = 0)

/-- The ten blocks cover the result: row `r` is in the block of the point whose block index is `r / 5000`. -/
theorem blocks_cover (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  obtain ⟨t, q0, q1⟩ := block_of_row ⟨(i 0).val / 5000, by omega⟩
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    rw [q0]
    show (i 0).val / 5000 * 5000 ≤ (i 0).val ∧ (i 0).val < (i 0).val / 5000 * 5000 + 5000
    omega
  | ⟨1, _⟩ =>
    show win1_5.index t (1 : Fin 2) * 256 ≤ (i 1).val ∧ (i 1).val < win1_5.index t (1 : Fin 2) * 256 + 256
    rw [q1]
    omega

/-- After the region the result array is the normalised matrix. -/
theorem result_eq (c : Dev nD) :
    (dat1 V c).arrAt 5 cfg1.N = normed (zA V c) (meanA V c) (varA V c) (gA V c) (beA V c) :=
  (dat1 V c).arrAt_eq_of_cover 5 _ (fun t _ => written_block V c t) blocks_cover

/-- THE REGION'S VALUE: after the region, entry `(i, j)` of the result is the normalisation, at `(i, j)`, of the
    matrix the region found with the rows of means, variances, scales and shifts it found. -/
theorem bn1_y (c : Dev nD) (i : Fin 50000) (j : Fin 256) :
    (dat1 V c).arrAt 5 cfg1.N (ix2 i j)
      = Net.bn (fun i j => zA V c (ix2 i j)) (fun j => meanA V c (ix2 (0 : Fin 1) j)) (fun j => varA V c (ix2 (0 : Fin 1) j))
          (fun j => gA V c (ix2 (0 : Fin 1) j)) (fun j => beA V c (ix2 (0 : Fin 1) j)) (Ideal.ofBits .f32 0x3727C5AC#32) i j := by
  rw [result_eq]
  rfl

end Cert.KernelIdeal.Bn1

end
-- ==== Proof.Bn3.lean ====
/-
  The value of the normalisation region that follows layer 2: a matrix of 50000 rows and 128 columns, taken
  5000 rows at a time over ten grid points, and four rows of 128 entries (the column means, the column variances,
  the scales, the shifts), each taken whole at every point. At a point the stored block is, entry by entry,

      ((z − mean) · (var + eps)^(−1/2)) · g + be

  with the four rows repeated down the block's rows. Block `t` of the matrix is its rows `5000 t … 5000 t + 4999`
  and the stored block is written back to the same rows of the result, so every point writes a block of ONE
  function of the five arrays (`normed`), the ten blocks cover the result, and after the region the result is
  that function: entry `(i, j)` is `Net.bn` of the matrix and the four rows at `(i, j)`. Everything is stated at
  arbitrary contents `V` of the buffers when the region is entered.
-/
import proofs.«144552_j81088982548491_1_alg».proof.Proof.Gen.KernelIdeal.Frame
import proofs.«144552_j81088982548491_1_alg».proof.Proof.Spec
import Idealize.ShloMosaic.Lib.Pipeline.Value
import Idealize.ShloMosaic.Lib.ValueIdx
import Idealize.ShloMosaic.Lib.ValueLayout

noncomputable section

namespace Cert.KernelIdeal.Bn3

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a load or store of a whole block, as a constant function. -/
theorem zero_offsets : (![0, 0] : Fin 2 → Nat) = fun _ => 0 := funext fun a => by fin_cases a <;> rfl

/-- The stored value at row `p`, column `q` of a block: the block's entry less the mean of its column, times the
    inverse square root of the column's variance plus the offset, times the column's scale, plus the column's shift.
    The four rows are repeated down the block's rows, so each is read at its one row and column `q`. -/
theorem stored_at (x0 : Vec Ideal S5000x128 .f32) (xvar xmean xg xbe : Vec Ideal S1x128 .f32) (p : Fin 5000) (q : Fin 128) :
    k3_pay1 (F := Ideal) x0 xvar xmean xg xbe (ix2 p q)
      = ((x0 (ix2 p q) - xmean (ix2 (0 : Fin 1) q)) * Ideal.rsqrt (xvar (ix2 (0 : Fin 1) q) + Ideal.ofBits .f32 0x3727C5AC#32))
          * xg (ix2 (0 : Fin 1) q) + xbe (ix2 (0 : Fin 1) q) := by
  unfold k3_pay1
  simp only [shapeCast_self]
  rw [addf_apply, mulf_apply, mulf_apply, subf_apply, broadcastTo_1b_ab_apply, broadcastTo_1b_ab_apply,
    broadcastTo_1b_ab_apply, broadcastTo_1b_ab_apply]
  rfl

variable (V : (c : Dev nD) → (b : Ref sig .tc) → Buf (Elt Ideal) ((c : Thread nD τ).loc b))

/-- The matrix being normalised, as the region finds it. -/
abbrev zA (c : Dev nD) : S50000x128.Idx → EReal := V c (Pipeline.arrRef spec3 0)
/-- The row of column means, as the region finds it. -/
abbrev meanA (c : Dev nD) : S1x128.Idx → EReal := V c (Pipeline.arrRef spec3 1)
/-- The row of column variances, as the region finds it. -/
abbrev varA (c : Dev nD) : S1x128.Idx → EReal := V c (Pipeline.arrRef spec3 2)
/-- The row of column scales, as the region finds it. -/
abbrev gA (c : Dev nD) : S1x128.Idx → EReal := V c (Pipeline.arrRef spec3 3)
/-- The row of column shifts, as the region finds it. -/
abbrev beA (c : Dev nD) : S1x128.Idx → EReal := V c (Pipeline.arrRef spec3 4)

/-- The normalised matrix as one function of the five arrays, index by index. -/
def normed (Z : S50000x128.Idx → EReal) (M Vr Gm Be : S1x128.Idx → EReal) : S50000x128.Idx → EReal :=
  fun i => ((Z i - M (ix2 (0 : Fin 1) (i 1 : Fin 128))) * Ideal.rsqrt (Vr (ix2 (0 : Fin 1) (i 1 : Fin 128)) + Ideal.ofBits .f32 0x3727C5AC#32))
      * Gm (ix2 (0 : Fin 1) (i 1 : Fin 128)) + Be (ix2 (0 : Fin 1) (i 1 : Fin 128))

/-- The block indices at each of the ten grid points: the matrix and the result move down their rows with the
    point, five thousand rows a block; the four rows stay at their one block. -/
theorem block_indices : ∀ t : Fin cfg3.N, win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Block `t` of the matrix is its rows `5000 t … 5000 t + 4999`: entry `y` of the block is the matrix at `k`
    whenever `k`'s row is `5000 t` plus `y`'s and the columns agree. -/
theorem z_block (c : Dev nD) (t : Fin cfg3.N) (y : S5000x128.Idx) (k : S50000x128.Idx)
    (hk0 : (k 0).val = 5000 * t.val + (y 0).val) (hk1 : (k 1).val = (y 1).val) :
    (iblk3 V c 0 t : Vec Ideal S5000x128 .f32) y = zA V c k := by
  obtain ⟨e0, e1, -⟩ := block_indices t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * (y 0).val = (k 0).val; rw [e0, hk0]; omega
  | ⟨1, _⟩ => show win3_0.index t (1 : Fin 2) * 128 + 1 * (y 1).val = (k 1).val; rw [e1, hk1]; omega

/-- The one block of the row of means is the row, at every point. -/
theorem mean_block (c : Dev nD) (t : Fin cfg3.N) : (iblk3 V c 1 t : Vec Ideal S1x128 .f32) = meanA V c := by
  obtain ⟨-, -, -, -, e0, e1, -⟩ := block_indices t
  funext y
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

/-- The one block of the row of variances is the row, at every point. -/
theorem var_block (c : Dev nD) (t : Fin cfg3.N) : (iblk3 V c 2 t : Vec Ideal S1x128 .f32) = varA V c := by
  obtain ⟨-, -, -, -, -, -, e0, e1, -⟩ := block_indices t
  funext y
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

/-- The one block of the row of scales is the row, at every point. -/
theorem g_block (c : Dev nD) (t : Fin cfg3.N) : (iblk3 V c 3 t : Vec Ideal S1x128 .f32) = gA V c := by
  obtain ⟨-, -, -, -, -, -, -, -, e0, e1, -⟩ := block_indices t
  funext y
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The one block of the row of shifts is the row, at every point. -/
theorem be_block (c : Dev nD) (t : Fin cfg3.N) : (iblk3 V c 4 t : Vec Ideal S1x128 .f32) = beA V c := by
  obtain ⟨-, -, -, -, -, -, -, -, -, -, e0, e1⟩ := block_indices t
  funext y
  unfold iblk3
  rw [View.read_apply]
  show V c (Pipeline.arrRef spec3 4) _ = V c (Pipeline.arrRef spec3 4) _
  congr 1
  funext a
  apply Fin.ext
  match a with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- What point `t` writes back is block `t` of the normalised matrix: the point's block of the matrix is the
    rows the result's block names, and the four rows are whole. -/
theorem written_block (c : Dev nD) (t : Fin cfg3.N) :
    (dat3 V c).flushed 5 t
      = ((cfg3.win 5).blk t).view.read (Elt Ideal) (normed (zA V c) (meanA V c) (varA V c) (gA V c) (beA V c)) := by
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets]
  rw [mean_block, var_block, g_block, be_block]
  funext y
  obtain ⟨p, q, rfl⟩ : ∃ (p : Fin 5000) (q : Fin 128), y = ix2 p q := ⟨y 0, y 1, eq_ix2 y⟩
  obtain ⟨-, -, e0, e1, -⟩ := block_indices t
  have hk : ∃ k : S50000x128.Idx, ((cfg3.win 5).blk t).view.emb (ix2 p q) = k
      ∧ (k 0).val = 5000 * t.val + p.val ∧ (k 1 : Fin 128) = q := by
    refine ⟨_, rfl, ?_, ?_⟩
    · show win3_5.index t (0 : Fin 2) * 5000 + 1 * p.val = _; rw [e0]; omega
    · apply Fin.ext; show win3_5.index t (1 : Fin 2) * 128 + 1 * q.val = _; rw [e1]; omega
  obtain ⟨k, hk, hk0, hk1⟩ := hk
  rw [View.read_apply]
  show k3_pay1 (iblk3 V c 0 t) (varA V c) (meanA V c) (gA V c) (beA V c) (ix2 p q)
    = normed (zA V c) (meanA V c) (varA V c) (gA V c) (beA V c) (((cfg3.win 5).blk t).view.emb (ix2 p q))
  rw [hk, stored_at, z_block V c t (ix2 p q) k hk0 (by rw [hk1])]
  unfold normed
  rw [hk1]

/-- An index of the result is in point `t`'s block iff each coordinate is in the block's range on its axis. -/
theorem mem_block (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v64).slice (win3_5.rect t)).set ↔ _
  rw [View.set_slice_whole, Rect.mem_set_unit]
  exact Iff.rfl

/-- Each of the ten row blocks is some point's. -/
theorem block_of_row : ∀ q0 : Fin 10, ∃ t : Fin cfg3.N, win3_5.index t (0 : Fin 2) = q0.val ∧ win3_5.index t (1 : Fin 2) = 0 :=
  (by decide +kernel : ∀ q0 : Fin 10, ∃ t : Fin grid3.N, win3_5.index t (0 : Fin 2) = q0.val ∧ win3_5.index t (1 : Fin 2) = 0)

/-- The ten blocks cover the result: row `r` is in the block of the point whose block index is `r / 5000`. -/
theorem blocks_cover (i : S50000x128.Idx) :
    ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, q0, q1⟩ := block_of_row ⟨(i 0).val / 5000, by omega⟩
  refine ⟨t, flush3_5 t, ?_⟩
  rw [mem_block]
  intro a
  match a with
  | ⟨0, _⟩ =>
    show win3_5.index t (0 : Fin 2) * 5000 ≤ (i 0).val ∧ (i 0).val < win3_5.index t (0 : Fin 2) * 5000 + 5000
    rw [q0]
    show (i 0).val / 5000 * 5000 ≤ (i 0).val ∧ (i 0).val < (i 0).val / 5000 * 5000 + 5000
    omega
  | ⟨1, _⟩ =>
    show win3_5.index t (1 : Fin 2) * 128 ≤ (i 1).val ∧ (i 1).val < win3_5.index t (1 : Fin 2) * 128 + 128
    rw [q1]
    omega

/-- After the region the result array is the normalised matrix. -/
theorem result_eq (c : Dev nD) :
    (dat3 V c).arrAt 5 cfg3.N = normed (zA V c) (meanA V c) (varA V c) (gA V c) (beA V c) :=
  (dat3 V c).arrAt_eq_of_cover 5 _ (fun t _ => written_block V c t) blocks_cover

/-- THE REGION'S VALUE: after the region, entry `(i, j)` of the result is the normalisation, at `(i, j)`, of the
    matrix the region found with the rows of means, variances, scales and shifts it found. -/
theorem bn3_y (c : Dev nD) (i : Fin 50000) (j : Fin 128) :
    (dat3 V c).arrAt 5 cfg3.N (ix2 i j)
      = Net.bn (fun i j => zA V c (ix2 i j)) (fun j => meanA V c (ix2 (0 : Fin 1) j)) (fun j => varA V c (ix2 (0 : Fin 1) j))
          (fun j => gA V c (ix2 (0 : Fin 1) j)) (fun j => beA V c (ix2 (0 : Fin 1) j)) (Ideal.ofBits .f32 0x3727C5AC#32) i j := by
  rw [result_eq]
  rfl

end Cert.KernelIdeal.Bn3

end
-- ==== Proof.Bn5.lean ====
/-
  The value of the normalisation region that follows layer 3: a matrix of 50000 rows and 64 columns, taken
  5000 rows at a time over ten grid points, and four rows of 64 entries (the column means, the column variances,
  the scales, the shifts), each taken whole at every point. At a point the stored block is, entry by entry,

      ((z − mean) · (var + eps)^(−1/2)) · g + be

  with the four rows repeated down the block's rows. Block `t` of the matrix is its rows `5000 t … 5000 t + 4999`
  and the stored block is written back to the same rows of the result, so every point writes a block of ONE
  function of the five arrays (`normed`), the ten blocks cover the result, and after the region the result is
  that function: entry `(i, j)` is `Net.bn` of the matrix and the four rows at `(i, j)`. Everything is stated at
  arbitrary contents `V` of the buffers when the region is entered.
-/
import proofs.«144552_j81088982548491_1_alg».proof.Proof.Gen.KernelIdeal.Frame
import proofs.«144552_j81088982548491_1_alg».proof.Proof.Spec
import Idealize.ShloMosaic.Lib.Pipeline.Value
import Idealize.ShloMosaic.Lib.ValueIdx
import Idealize.ShloMosaic.Lib.ValueLayout

noncomputable section

namespace Cert.KernelIdeal.Bn5

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a load or store of a whole block, as a constant function. -/
theorem zero_offsets : (![0, 0] : Fin 2 → Nat) = fun _ => 0 := funext fun a => by fin_cases a <;> rfl

/-- The stored value at row `p`, column `q` of a block: the block's entry less the mean of its column, times the
    inverse square root of the column's variance plus the offset, times the column's scale, plus the column's shift.
    The four rows are repeated down the block's rows, so each is read at its one row and column `q`. -/
theorem stored_at (x0 : Vec Ideal S5000x64 .f32) (xvar xmean xg xbe : Vec Ideal S1x64 .f32) (p : Fin 5000) (q : Fin 64) :
    k5_pay1 (F := Ideal) x0 xvar xmean xg xbe (ix2 p q)
      = ((x0 (ix2 p q) - xmean (ix2 (0 : Fin 1) q)) * Ideal.rsqrt (xvar (ix2 (0 : Fin 1) q) + Ideal.ofBits .f32 0x3727C5AC#32))
          * xg (ix2 (0 : Fin 1) q) + xbe (ix2 (0 : Fin 1) q) := by
  unfold k5_pay1
  simp only [shapeCast_self]
  rw [addf_apply, mulf_apply, mulf_apply, subf_apply, broadcastTo_1b_ab_apply, broadcastTo_1b_ab_apply,
    broadcastTo_1b_ab_apply, broadcastTo_1b_ab_apply]
  rfl

variable (V : (c : Dev nD) → (b : Ref sig .tc) → Buf (Elt Ideal) ((c : Thread nD τ).loc b))

/-- The matrix being normalised, as the region finds it. -/
abbrev zA (c : Dev nD) : S50000x64.Idx → EReal := V c (Pipeline.arrRef spec5 0)
/-- The row of column means, as the region finds it. -/
abbrev meanA (c : Dev nD) : S1x64.Idx → EReal := V c (Pipeline.arrRef spec5 1)
/-- The row of column variances, as the region finds it. -/
abbrev varA (c : Dev nD) : S1x64.Idx → EReal := V c (Pipeline.arrRef spec5 2)
/-- The row of column scales, as the region finds it. -/
abbrev gA (c : Dev nD) : S1x64.Idx → EReal := V c (Pipeline.arrRef spec5 3)
/-- The row of column shifts, as the region finds it. -/
abbrev beA (c : Dev nD) : S1x64.Idx → EReal := V c (Pipeline.arrRef spec5 4)

/-- The normalised matrix as one function of the five arrays, index by index. -/
def normed (Z : S50000x64.Idx → EReal) (M Vr Gm Be : S1x64.Idx → EReal) : S50000x64.Idx → EReal :=
  fun i => ((Z i - M (ix2 (0 : Fin 1) (i 1 : Fin 64))) * Ideal.rsqrt (Vr (ix2 (0 : Fin 1) (i 1 : Fin 64)) + Ideal.ofBits .f32 0x3727C5AC#32))
      * Gm (ix2 (0 : Fin 1) (i 1 : Fin 64)) + Be (ix2 (0 : Fin 1) (i 1 : Fin 64))

/-- The block indices at each of the ten grid points: the matrix and the result move down their rows with the
    point, five thousand rows a block; the four rows stay at their one block. -/
theorem block_indices : ∀ t : Fin cfg5.N, win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Block `t` of the matrix is its rows `5000 t … 5000 t + 4999`: entry `y` of the block is the matrix at `k`
    whenever `k`'s row is `5000 t` plus `y`'s and the columns agree. -/
theorem z_block (c : Dev nD) (t : Fin cfg5.N) (y : S5000x64.Idx) (k : S50000x64.Idx)
    (hk0 : (k 0).val = 5000 * t.val + (y 0).val) (hk1 : (k 1).val = (y 1).val) :
    (iblk5 V c 0 t : Vec Ideal S5000x64 .f32) y = zA V c k := by
  obtain ⟨e0, e1, -⟩ := block_indices t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * (y 0).val = (k 0).val; rw [e0, hk0]; omega
  | ⟨1, _⟩ => show win5_0.index t (1 : Fin 2) * 64 + 1 * (y 1).val = (k 1).val; rw [e1, hk1]; omega

/-- The one block of the row of means is the row, at every point. -/
theorem mean_block (c : Dev nD) (t : Fin cfg5.N) : (iblk5 V c 1 t : Vec Ideal S1x64 .f32) = meanA V c := by
  obtain ⟨-, -, -, -, e0, e1, -⟩ := block_indices t
  funext y
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 1 + 1 * (y 0).val = (y 0).val; rw [e0]; omega
  | ⟨1, _⟩ => show win5_1.index t (1 : Fin 2) * 64 + 1 * (y 1).val = (y 1).val; rw [e1]; omega

/-- The one block of the row of variances is the row, at every point. -/
theorem var_block (c : Dev nD) (t : Fin cfg5.N) : (iblk5 V c 2 t : Vec Ideal S1x64 .f32) = varA V c := by
  obtain ⟨-, -, -, -, -, -, e0, e1, -⟩ := block_indices t
  funext y
  unfold iblk5
  rw [View.read_apply]
  show V c (Pipeline.arrRef spec5 2) _ = V c (Pipeline.arrRef spec5 2) _
  congr 1
  funext a
  apply Fin.ext
  match a with
  | ⟨0, _⟩ => show win5_2.index t (0 : Fin 2) * 1 + 1 * (y 0).val = (y 0).val; rw [e0]; omega
  | ⟨1, _⟩ => show win5_2.index t (1 : Fin 2) * 64 + 1 * (y 1).val = (y 1).val; rw [e1]; omega

/-- The one block of the row of scales is the row, at every point. -/
theorem g_block (c : Dev nD) (t : Fin cfg5.N) : (iblk5 V c 3 t : Vec Ideal S1x64 .f32) = gA V c := by
  obtain ⟨-, -, -, -, -, -, -, -, e0, e1, -⟩ := block_indices t
  funext y
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 1 + 1 * (y 0).val = (y 0).val; rw [e0]; omega
  | ⟨1, _⟩ => show win5_3.index t (1 : Fin 2) * 64 + 1 * (y 1).val = (y 1).val; rw [e1]; omega

/-- The one block of the row of shifts is the row, at every point. -/
theorem be_block (c : Dev nD) (t : Fin cfg5.N) : (iblk5 V c 4 t : Vec Ideal S1x64 .f32) = beA V c := by
  obtain ⟨-, -, -, -, -, -, -, -, -, -, e0, e1⟩ := block_indices t
  funext y
  unfold iblk5
  rw [View.read_apply]
  show V c (Pipeline.arrRef spec5 4) _ = V c (Pipeline.arrRef spec5 4) _
  congr 1
  funext a
  apply Fin.ext
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- What point `t` writes back is block `t` of the normalised matrix: the point's block of the matrix is the
    rows the result's block names, and the four rows are whole. -/
theorem written_block (c : Dev nD) (t : Fin cfg5.N) :
    (dat5 V c).flushed 5 t
      = ((cfg5.win 5).blk t).view.read (Elt Ideal) (normed (zA V c) (meanA V c) (varA V c) (gA V c) (beA V c)) := by
  show (cfg5.win 5).cut (grid5.coords t) ((dat5 V c).after 5 t) = _
  rw [after5_5]
  unfold out5_5
  rw [View.canon_unit_zero zero_offsets]
  simp only [View.ld_unit_zero (S := S5000x64) zero_offsets, View.ld_unit_zero (S := S1x64) zero_offsets]
  rw [mean_block, var_block, g_block, be_block]
  funext y
  obtain ⟨p, q, rfl⟩ : ∃ (p : Fin 5000) (q : Fin 64), y = ix2 p q := ⟨y 0, y 1, eq_ix2 y⟩
  obtain ⟨-, -, e0, e1, -⟩ := block_indices t
  have hk : ∃ k : S50000x64.Idx, ((cfg5.win 5).blk t).view.emb (ix2 p q) = k
      ∧ (k 0).val = 5000 * t.val + p.val ∧ (k 1 : Fin 64) = q := by
    refine ⟨_, rfl, ?_, ?_⟩
    · show win5_5.index t (0 : Fin 2) * 5000 + 1 * p.val = _; rw [e0]; omega
    · apply Fin.ext; show win5_5.index t (1 : Fin 2) * 64 + 1 * q.val = _; rw [e1]; omega
  obtain ⟨k, hk, hk0, hk1⟩ := hk
  rw [View.read_apply]
  show k5_pay1 (iblk5 V c 0 t) (varA V c) (meanA V c) (gA V c) (beA V c) (ix2 p q)
    = normed (zA V c) (meanA V c) (varA V c) (gA V c) (beA V c) (((cfg5.win 5).blk t).view.emb (ix2 p q))
  rw [hk, stored_at, z_block V c t (ix2 p q) k hk0 (by rw [hk1])]
  unfold normed
  rw [hk1]

/-- An index of the result is in point `t`'s block iff each coordinate is in the block's range on its axis. -/
theorem mem_block (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v91).slice (win5_5.rect t)).set ↔ _
  rw [View.set_slice_whole, Rect.mem_set_unit]
  exact Iff.rfl

/-- Each of the ten row blocks is some point's. -/
theorem block_of_row : ∀ q0 : Fin 10, ∃ t : Fin cfg5.N, win5_5.index t (0 : Fin 2) = q0.val ∧ win5_5.index t (1 : Fin 2) = 0 :=
  (by decide +kernel : ∀ q0 : Fin 10, ∃ t : Fin grid5.N, win5_5.index t (0 : Fin 2) = q0.val ∧ win5_5.index t (1 : Fin 2) = 0)

/-- The ten blocks cover the result: row `r` is in the block of the point whose block index is `r / 5000`. -/
theorem blocks_cover (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  obtain ⟨t, q0, q1⟩ := block_of_row ⟨(i 0).val / 5000, by omega⟩
  refine ⟨t, flush5_5 t, ?_⟩
  rw [mem_block]
  intro a
  match a with
  | ⟨0, _⟩ =>
    show win5_5.index t (0 : Fin 2) * 5000 ≤ (i 0).val ∧ (i 0).val < win5_5.index t (0 : Fin 2) * 5000 + 5000
    rw [q0]
    show (i 0).val / 5000 * 5000 ≤ (i 0).val ∧ (i 0).val < (i 0).val / 5000 * 5000 + 5000
    omega
  | ⟨1, _⟩ =>
    show win5_5.index t (1 : Fin 2) * 64 ≤ (i 1).val ∧ (i 1).val < win5_5.index t (1 : Fin 2) * 64 + 64
    rw [q1]
    omega

/-- After the region the result array is the normalised matrix. -/
theorem result_eq (c : Dev nD) :
    (dat5 V c).arrAt 5 cfg5.N = normed (zA V c) (meanA V c) (varA V c) (gA V c) (beA V c) :=
  (dat5 V c).arrAt_eq_of_cover 5 _ (fun t _ => written_block V c t) blocks_cover

/-- THE REGION'S VALUE: after the region, entry `(i, j)` of the result is the normalisation, at `(i, j)`, of the
    matrix the region found with the rows of means, variances, scales and shifts it found. -/
theorem bn5_y (c : Dev nD) (i : Fin 50000) (j : Fin 64) :
    (dat5 V c).arrAt 5 cfg5.N (ix2 i j)
      = Net.bn (fun i j => zA V c (ix2 i j)) (fun j => meanA V c (ix2 (0 : Fin 1) j)) (fun j => varA V c (ix2 (0 : Fin 1) j))
          (fun j => gA V c (ix2 (0 : Fin 1) j)) (fun j => beA V c (ix2 (0 : Fin 1) j)) (Ideal.ofBits .f32 0x3727C5AC#32) i j := by
  rw [result_eq]
  rfl

end Cert.KernelIdeal.Bn5

end
-- ==== Proof.KHostBn1.lean ====
/- The normalisation region 1's input arrays at its entry, each walked back to what wrote it.

   Between the layer's region 0 and the normalisation's region 1 the host computes, from the column sums `s` and the
   column sums of squares `ss` that region 0 leaves (its windows 6 and 7) and the row count `N = 50000` broadcast to a
   row of 256 entries: the column means `s / N`, and the column variances `ss / N - (s / N) * (s / N)`; and it reshapes
   the scale and the shift, two launch arguments of 256 entries, into rows.  The layer's output `z` (window 5 of region
   0) is read by region 1 as it was left.  Each statement below reads one input window of region 1 at its entry
   contents as that term over region 0's final arrays and the launch memory. -/
import proofs.«144552_j81088982548491_1_alg».proof.Proof.Gen.KernelIdeal.Frame
import Idealize.ShloMosaic.Lib.StableHlo.Run

set_option maxRecDepth 16384

noncomputable section

namespace Cert.KernelIdeal.KHostBn

open Idealize.ShloMosaic Idealize.ShloMosaic.TcCoe Idealize.ShloMosaic.Tactic
open Idealize.SL Idealize.SL.Sem
open Cert.KernelIdeal.Gen

variable {F : FTy → Type} [FloatOps F]

/-! ## The host terms -/

/-- The row count `50000` as a row of 256 equal entries. -/
def cntK1 : (⟨S1x256, .f32⟩ : BufTy).Contents (Elt F) :=
  broadcastInDim S1x256 ![] bcast_S_S1x256 (constant S_ .f32 0x47435000#32)

/-- The column means: the column sums over the row count. -/
def meanK1 (s : (⟨S1x256, .f32⟩ : BufTy).Contents (Elt F)) : (⟨S1x256, .f32⟩ : BufTy).Contents (Elt F) :=
  Host.divf s cntK1

/-- The column variances: the mean of the squares less the square of the mean. -/
def varK1 (s ss : (⟨S1x256, .f32⟩ : BufTy).Contents (Elt F)) : (⟨S1x256, .f32⟩ : BufTy).Contents (Elt F) :=
  subf (Host.divf ss cntK1) (mulf (meanK1 s) (meanK1 s))

/-- A vector of 256 entries as a row. -/
def rowK1 (g : (⟨S256, .f32⟩ : BufTy).Contents (Elt F)) : (⟨S1x256, .f32⟩ : BufTy).Contents (Elt F) :=
  shapeCast S1x256 g shapeCasts_S256_S1x256

/-! ## The stretch of host operations, from any contents `W` -/

section Stretch
variable (W : Valuation τ sig (Elt F))

/-- The stretch does not write the layer's output. -/
theorem after1_z : StableHlo.after (hostOps1 (F := F)) W (Proc.devRef .tc main_v28_0) = W (Proc.devRef .tc main_v28_0) := by
  dsimp only [hostOps1]
  after_results_simp

/-- The mean's buffer after the stretch. -/
theorem after1_mean : StableHlo.after (hostOps1 (F := F)) W (Proc.devRef .tc main_v30) = meanK1 (W (Proc.devRef .tc main_v28_1)) := by
  dsimp only [hostOps1]
  after_results_simp
  rfl

/-- The variance's buffer after the stretch. -/
theorem after1_var : StableHlo.after (hostOps1 (F := F)) W (Proc.devRef .tc main_v34)
    = varK1 (W (Proc.devRef .tc main_v28_1)) (W (Proc.devRef .tc main_v28_2)) := by
  dsimp only [hostOps1]
  after_results_simp
  rfl

/-- The scale's row after the stretch. -/
theorem after1_g : StableHlo.after (hostOps1 (F := F)) W (Proc.devRef .tc main_v35) = rowK1 (W (Proc.devRef .tc main_arg7)) := by
  dsimp only [hostOps1]
  after_results_simp
  rfl

/-- The shift's row after the stretch. -/
theorem after1_be : StableHlo.after (hostOps1 (F := F)) W (Proc.devRef .tc main_v36) = rowK1 (W (Proc.devRef .tc main_arg8)) := by
  dsimp only [hostOps1]
  after_results_simp
  rfl

end Stretch

/-! ## The two launch arguments at region 0's exit: no host operation and no region before it writes them -/

variable (m : (ℓ : Loc nD τ sig) → Buf (Elt F) ℓ) (ρ : Dev nD → PrngReg)

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-! ## Region 1's input arrays at its entry -/

/-- Window 0: the layer's output, as region 0 leaves it. -/
theorem entry1_0 (c : Dev nD) :
    Gen.V3 m ρ c (Pipeline.arrRef spec1 0) = (Gen.dat0 (Gen.V1 m ρ) c).arrAt 5 cfg0.N :=
  (after1_z (W2 m ρ c)).trans (W2_arr m ρ c 5)

/-- Window 1: the column means of region 0's column sums. -/
theorem entry1_1 (c : Dev nD) :
    Gen.V3 m ρ c (Pipeline.arrRef spec1 1) = meanK1 ((Gen.dat0 (Gen.V1 m ρ) c).arrAt 6 cfg0.N) :=
  (after1_mean (W2 m ρ c)).trans (congrArg meanK1 (W2_arr m ρ c 6))

/-- Window 2: the column variances of region 0's column sums and column sums of squares. -/
theorem entry1_2 (c : Dev nD) :
    Gen.V3 m ρ c (Pipeline.arrRef spec1 2)
      = varK1 ((Gen.dat0 (Gen.V1 m ρ) c).arrAt 6 cfg0.N) ((Gen.dat0 (Gen.V1 m ρ) c).arrAt 7 cfg0.N) :=
  (after1_var (W2 m ρ c)).trans (congrArg₂ varK1 (W2_arr m ρ c 6) (W2_arr m ρ c 7))

/-- Window 3: the scale, a launch argument, as a row. -/
theorem entry1_3 (c : Dev nD) :
    Gen.V3 m ρ c (Pipeline.arrRef spec1 3) = rowK1 (m ((c.tc : Thread nD τ).loc main_arg7)) :=
  (after1_g (W2 m ρ c)).trans (congrArg rowK1 (W2_main_arg7 m ρ c))

/-- Window 4: the shift, a launch argument, as a row. -/
theorem entry1_4 (c : Dev nD) :
    Gen.V3 m ρ c (Pipeline.arrRef spec1 4) = rowK1 (m ((c.tc : Thread nD τ).loc main_arg8)) :=
  (after1_be (W2 m ρ c)).trans (congrArg rowK1 (W2_main_arg8 m ρ c))

end Cert.KernelIdeal.KHostBn

end
-- ==== Proof.KHostBn3.lean ====
/- The normalisation region 3's input arrays at its entry, each walked back to what wrote it.

   Between the layer's region 2 and the normalisation's region 3 the host computes, from the column sums `s` and the
   column sums of squares `ss` that region 2 leaves (its windows 6 and 7) and the row count `N = 50000` broadcast to a
   row of 128 entries: the column means `s / N`, and the column variances `ss / N - (s / N) * (s / N)`; and it reshapes
   the scale and the shift, two launch arguments of 128 entries, into rows.  The layer's output `z` (window 5 of region
   2) is read by region 3 as it was left.  Each statement below reads one input window of region 3 at its entry
   contents as that term over region 2's final arrays and the launch memory. -/
import proofs.«144552_j81088982548491_1_alg».proof.Proof.Gen.KernelIdeal.Frame
import Idealize.ShloMosaic.Lib.StableHlo.Run

set_option maxRecDepth 16384

noncomputable section

namespace Cert.KernelIdeal.KHostBn

open Idealize.ShloMosaic Idealize.ShloMosaic.TcCoe Idealize.ShloMosaic.Tactic
open Idealize.SL Idealize.SL.Sem
open Cert.KernelIdeal.Gen

variable {F : FTy → Type} [FloatOps F]

/-! ## The host terms -/

/-- The row count `50000` as a row of 128 equal entries. -/
def cntK3 : (⟨S1x128, .f32⟩ : BufTy).Contents (Elt F) :=
  broadcastInDim S1x128 ![] bcast_S_S1x128 (constant S_ .f32 0x47435000#32)

/-- The column means: the column sums over the row count. -/
def meanK3 (s : (⟨S1x128, .f32⟩ : BufTy).Contents (Elt F)) : (⟨S1x128, .f32⟩ : BufTy).Contents (Elt F) :=
  Host.divf s cntK3

/-- The column variances: the mean of the squares less the square of the mean. -/
def varK3 (s ss : (⟨S1x128, .f32⟩ : BufTy).Contents (Elt F)) : (⟨S1x128, .f32⟩ : BufTy).Contents (Elt F) :=
  subf (Host.divf ss cntK3) (mulf (meanK3 s) (meanK3 s))

/-- A vector of 128 entries as a row. -/
def rowK3 (g : (⟨S128, .f32⟩ : BufTy).Contents (Elt F)) : (⟨S1x128, .f32⟩ : BufTy).Contents (Elt F) :=
  shapeCast S1x128 g shapeCasts_S128_S1x128

/-! ## The stretch of host operations, from any contents `W` -/

section Stretch
variable (W : Valuation τ sig (Elt F))

/-- The stretch does not write the layer's output. -/
theorem after3_z : StableHlo.after (hostOps3 (F := F)) W (Proc.devRef .tc main_v55_0) = W (Proc.devRef .tc main_v55_0) := by
  dsimp only [hostOps3]
  after_results_simp

/-- The mean's buffer after the stretch. -/
theorem after3_mean : StableHlo.after (hostOps3 (F := F)) W (Proc.devRef .tc main_v57) = meanK3 (W (Proc.devRef .tc main_v55_1)) := by
  dsimp only [hostOps3]
  after_results_simp
  rfl

/-- The variance's buffer after the stretch. -/
theorem after3_var : StableHlo.after (hostOps3 (F := F)) W (Proc.devRef .tc main_v61)
    = varK3 (W (Proc.devRef .tc main_v55_1)) (W (Proc.devRef .tc main_v55_2)) := by
  dsimp only [hostOps3]
  after_results_simp
  rfl

/-- The scale's row after the stretch. -/
theorem after3_g : StableHlo.after (hostOps3 (F := F)) W (Proc.devRef .tc main_v62) = rowK3 (W (Proc.devRef .tc main_arg14)) := by
  dsimp only [hostOps3]
  after_results_simp
  rfl

/-- The shift's row after the stretch. -/
theorem after3_be : StableHlo.after (hostOps3 (F := F)) W (Proc.devRef .tc main_v63) = rowK3 (W (Proc.devRef .tc main_arg15)) := by
  dsimp only [hostOps3]
  after_results_simp
  rfl

end Stretch

/-! ## The two launch arguments at region 2's exit: no host operation and no region before it writes them -/

variable (m : (ℓ : Loc nD τ sig) → Buf (Elt F) ℓ) (ρ : Dev nD → PrngReg)

theorem W6_main_arg14 (c : Dev nD) : W6 m ρ c (Proc.devRef .tc main_arg14) = m ((c : Thread nD τ).loc main_arg14) :=
  calc W6 m ρ c (Proc.devRef .tc main_arg14)
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W6_main_arg15 (c : Dev nD) : W6 m ρ c (Proc.devRef .tc main_arg15) = m ((c : Thread nD τ).loc main_arg15) :=
  calc W6 m ρ c (Proc.devRef .tc main_arg15)
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

/-! ## Region 3's input arrays at its entry -/

/-- Window 0: the layer's output, as region 2 leaves it. -/
theorem entry3_0 (c : Dev nD) :
    Gen.V7 m ρ c (Pipeline.arrRef spec3 0) = (Gen.dat2 (Gen.V5 m ρ) c).arrAt 5 cfg2.N :=
  (after3_z (W6 m ρ c)).trans (W6_arr m ρ c 5)

/-- Window 1: the column means of region 2's column sums. -/
theorem entry3_1 (c : Dev nD) :
    Gen.V7 m ρ c (Pipeline.arrRef spec3 1) = meanK3 ((Gen.dat2 (Gen.V5 m ρ) c).arrAt 6 cfg2.N) :=
  (after3_mean (W6 m ρ c)).trans (congrArg meanK3 (W6_arr m ρ c 6))

/-- Window 2: the column variances of region 2's column sums and column sums of squares. -/
theorem entry3_2 (c : Dev nD) :
    Gen.V7 m ρ c (Pipeline.arrRef spec3 2)
      = varK3 ((Gen.dat2 (Gen.V5 m ρ) c).arrAt 6 cfg2.N) ((Gen.dat2 (Gen.V5 m ρ) c).arrAt 7 cfg2.N) :=
  (after3_var (W6 m ρ c)).trans (congrArg₂ varK3 (W6_arr m ρ c 6) (W6_arr m ρ c 7))

/-- Window 3: the scale, a launch argument, as a row. -/
theorem entry3_3 (c : Dev nD) :
    Gen.V7 m ρ c (Pipeline.arrRef spec3 3) = rowK3 (m ((c.tc : Thread nD τ).loc main_arg14)) :=
  (after3_g (W6 m ρ c)).trans (congrArg rowK3 (W6_main_arg14 m ρ c))

/-- Window 4: the shift, a launch argument, as a row. -/
theorem entry3_4 (c : Dev nD) :
    Gen.V7 m ρ c (Pipeline.arrRef spec3 4) = rowK3 (m ((c.tc : Thread nD τ).loc main_arg15)) :=
  (after3_be (W6 m ρ c)).trans (congrArg rowK3 (W6_main_arg15 m ρ c))

end Cert.KernelIdeal.KHostBn

end
-- ==== Proof.KHostBn5.lean ====
/- The normalisation region 5's input arrays at its entry, each walked back to what wrote it.

   Between the layer's region 4 and the normalisation's region 5 the host computes, from the column sums `s` and the
   column sums of squares `ss` that region 4 leaves (its windows 6 and 7) and the row count `N = 50000` broadcast to a
   row of 64 entries: the column means `s / N`, and the column variances `ss / N - (s / N) * (s / N)`; and it reshapes
   the scale and the shift, two launch arguments of 64 entries, into rows.  The layer's output `z` (window 5 of region
   4) is read by region 5 as it was left.  Each statement below reads one input window of region 5 at its entry
   contents as that term over region 4's final arrays and the launch memory. -/
import proofs.«144552_j81088982548491_1_alg».proof.Proof.Gen.KernelIdeal.Frame
import Idealize.ShloMosaic.Lib.StableHlo.Run

set_option maxRecDepth 16384

noncomputable section

namespace Cert.KernelIdeal.KHostBn

open Idealize.ShloMosaic Idealize.ShloMosaic.TcCoe Idealize.ShloMosaic.Tactic
open Idealize.SL Idealize.SL.Sem
open Cert.KernelIdeal.Gen

variable {F : FTy → Type} [FloatOps F]

/-! ## The host terms -/

/-- The row count `50000` as a row of 64 equal entries. -/
def cntK5 : (⟨S1x64, .f32⟩ : BufTy).Contents (Elt F) :=
  broadcastInDim S1x64 ![] bcast_S_S1x64 (constant S_ .f32 0x47435000#32)

/-- The column means: the column sums over the row count. -/
def meanK5 (s : (⟨S1x64, .f32⟩ : BufTy).Contents (Elt F)) : (⟨S1x64, .f32⟩ : BufTy).Contents (Elt F) :=
  Host.divf s cntK5

/-- The column variances: the mean of the squares less the square of the mean. -/
def varK5 (s ss : (⟨S1x64, .f32⟩ : BufTy).Contents (Elt F)) : (⟨S1x64, .f32⟩ : BufTy).Contents (Elt F) :=
  subf (Host.divf ss cntK5) (mulf (meanK5 s) (meanK5 s))

/-- A vector of 64 entries as a row. -/
def rowK5 (g : (⟨S64, .f32⟩ : BufTy).Contents (Elt F)) : (⟨S1x64, .f32⟩ : BufTy).Contents (Elt F) :=
  shapeCast S1x64 g shapeCasts_S64_S1x64

/-! ## The stretch of host operations, from any contents `W` -/

section Stretch
variable (W : Valuation τ sig (Elt F))

/-- The stretch does not write the layer's output. -/
theorem after5_z : StableHlo.after (hostOps5 (F := F)) W (Proc.devRef .tc main_v82_0) = W (Proc.devRef .tc main_v82_0) := by
  dsimp only [hostOps5]
  after_results_simp

/-- The mean's buffer after the stretch. -/
theorem after5_mean : StableHlo.after (hostOps5 (F := F)) W (Proc.devRef .tc main_v84) = meanK5 (W (Proc.devRef .tc main_v82_1)) := by
  dsimp only [hostOps5]
  after_results_simp
  rfl

/-- The variance's buffer after the stretch. -/
theorem after5_var : StableHlo.after (hostOps5 (F := F)) W (Proc.devRef .tc main_v88)
    = varK5 (W (Proc.devRef .tc main_v82_1)) (W (Proc.devRef .tc main_v82_2)) := by
  dsimp only [hostOps5]
  after_results_simp
  rfl

/-- The scale's row after the stretch. -/
theorem after5_g : StableHlo.after (hostOps5 (F := F)) W (Proc.devRef .tc main_v89) = rowK5 (W (Proc.devRef .tc main_arg21)) := by
  dsimp only [hostOps5]
  after_results_simp
  rfl

/-- The shift's row after the stretch. -/
theorem after5_be : StableHlo.after (hostOps5 (F := F)) W (Proc.devRef .tc main_v90) = rowK5 (W (Proc.devRef .tc main_arg22)) := by
  dsimp only [hostOps5]
  after_results_simp
  rfl

end Stretch

/-! ## The two launch arguments at region 4's exit: no host operation and no region before it writes them -/

variable (m : (ℓ : Loc nD τ sig) → Buf (Elt F) ℓ) (ρ : Dev nD → PrngReg)

theorem W10_main_arg21 (c : Dev nD) : W10 m ρ c (Proc.devRef .tc main_arg21) = m ((c : Thread nD τ).loc main_arg21) :=
  calc W10 m ρ c (Proc.devRef .tc main_arg21)
    _ = W9 m ρ c (Proc.devRef .tc main_arg21) := W10_of_ne m ρ c main_arg21 (by decide)
    _ = W8 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := W4_of_ne m ρ c main_arg21 (by decide)
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

theorem W10_main_arg22 (c : Dev nD) : W10 m ρ c (Proc.devRef .tc main_arg22) = m ((c : Thread nD τ).loc main_arg22) :=
  calc W10 m ρ c (Proc.devRef .tc main_arg22)
    _ = W9 m ρ c (Proc.devRef .tc main_arg22) := W10_of_ne m ρ c main_arg22 (by decide)
    _ = W8 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := W4_of_ne m ρ c main_arg22 (by decide)
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

/-! ## Region 5's input arrays at its entry -/

/-- Window 0: the layer's output, as region 4 leaves it. -/
theorem entry5_0 (c : Dev nD) :
    Gen.V11 m ρ c (Pipeline.arrRef spec5 0) = (Gen.dat4 (Gen.V9 m ρ) c).arrAt 5 cfg4.N :=
  (after5_z (W10 m ρ c)).trans (W10_arr m ρ c 5)

/-- Window 1: the column means of region 4's column sums. -/
theorem entry5_1 (c : Dev nD) :
    Gen.V11 m ρ c (Pipeline.arrRef spec5 1) = meanK5 ((Gen.dat4 (Gen.V9 m ρ) c).arrAt 6 cfg4.N) :=
  (after5_mean (W10 m ρ c)).trans (congrArg meanK5 (W10_arr m ρ c 6))

/-- Window 2: the column variances of region 4's column sums and column sums of squares. -/
theorem entry5_2 (c : Dev nD) :
    Gen.V11 m ρ c (Pipeline.arrRef spec5 2)
      = varK5 ((Gen.dat4 (Gen.V9 m ρ) c).arrAt 6 cfg4.N) ((Gen.dat4 (Gen.V9 m ρ) c).arrAt 7 cfg4.N) :=
  (after5_var (W10 m ρ c)).trans (congrArg₂ varK5 (W10_arr m ρ c 6) (W10_arr m ρ c 7))

/-- Window 3: the scale, a launch argument, as a row. -/
theorem entry5_3 (c : Dev nD) :
    Gen.V11 m ρ c (Pipeline.arrRef spec5 3) = rowK5 (m ((c.tc : Thread nD τ).loc main_arg21)) :=
  (after5_g (W10 m ρ c)).trans (congrArg rowK5 (W10_main_arg21 m ρ c))

/-- Window 4: the shift, a launch argument, as a row. -/
theorem entry5_4 (c : Dev nD) :
    Gen.V11 m ρ c (Pipeline.arrRef spec5 4) = rowK5 (m ((c.tc : Thread nD τ).loc main_arg22)) :=
  (after5_be (W10 m ρ c)).trans (congrArg rowK5 (W10_main_arg22 m ρ c))

end Cert.KernelIdeal.KHostBn

end
-- ==== Proof.KHostBnAt.lean ====
/- The host terms between a layer's region and its normalisation, read at an index over the extended reals.

   At the ideal instance every float is an extended real, the host's division is the extended reals' division, and
   subtraction and multiplication are theirs; a constant's row reads its one number at every index, and a vector
   reshaped into a row reads, at `(0, j)`, the vector at `j`.  So the column means and variances the host computes
   are, column by column, the specification's `meanK` and `varK` of the column sums at the row count `50000`. -/
import proofs.«144552_j81088982548491_1_alg».proof.Proof.KHostBn1
import proofs.«144552_j81088982548491_1_alg».proof.Proof.KHostBn3
import proofs.«144552_j81088982548491_1_alg».proof.Proof.KHostBn5
import proofs.«144552_j81088982548491_1_alg».proof.Proof.Spec
import Idealize.ShloMosaic.Lib.ValueIdx
import Idealize.ShloMosaic.Lib.ValueLayout

set_option maxRecDepth 16384

noncomputable section

namespace Cert.KernelIdeal.KHostBn

open Idealize.ShloMosaic

/-! ## Width 256 (region 1) -/

/-- The row count's row reads the one number `50000` at every index. -/
theorem cntK1_apply (i : S1x256.Idx) : cntK1 (F := Ideal) i = Ideal.ofBits .f32 0x47435000#32 := rfl

/-- The column means at column `j`: the column sum over the row count. -/
theorem meanK1_apply (s : S1x256.Idx → EReal) (j : Fin 256) :
    meanK1 (F := Ideal) s (ValueIdx.ix2 0 j)
      = Net.meanK (fun j => s (ValueIdx.ix2 0 j)) (Ideal.ofBits .f32 0x47435000#32) j := rfl

/-- The column variances at column `j`: the mean of the squares less the square of the mean. -/
theorem varK1_apply (s ss : S1x256.Idx → EReal) (j : Fin 256) :
    varK1 (F := Ideal) s ss (ValueIdx.ix2 0 j)
      = Net.varK (fun j => ss (ValueIdx.ix2 0 j)) (fun j => s (ValueIdx.ix2 0 j)) (Ideal.ofBits .f32 0x47435000#32) j := rfl

/-- A vector written as a row reads, at `(0, j)`, the vector at `j`. -/
theorem rowK1_apply (g : S256.Idx → EReal) (j : Fin 256) :
    rowK1 (F := Ideal) g (ValueIdx.ix2 0 j) = g (ValueIdx.ix1 j) :=
  ValueIdx.shapeCast_a_1a_apply g Gen.shapeCasts_S256_S1x256 0 j

/-! ## Width 128 (region 3) -/

/-- The row count's row reads the one number `50000` at every index. -/
theorem cntK3_apply (i : S1x128.Idx) : cntK3 (F := Ideal) i = Ideal.ofBits .f32 0x47435000#32 := rfl

/-- The column means at column `j`: the column sum over the row count. -/
theorem meanK3_apply (s : S1x128.Idx → EReal) (j : Fin 128) :
    meanK3 (F := Ideal) s (ValueIdx.ix2 0 j)
      = Net.meanK (fun j => s (ValueIdx.ix2 0 j)) (Ideal.ofBits .f32 0x47435000#32) j := rfl

/-- The column variances at column `j`: the mean of the squares less the square of the mean. -/
theorem varK3_apply (s ss : S1x128.Idx → EReal) (j : Fin 128) :
    varK3 (F := Ideal) s ss (ValueIdx.ix2 0 j)
      = Net.varK (fun j => ss (ValueIdx.ix2 0 j)) (fun j => s (ValueIdx.ix2 0 j)) (Ideal.ofBits .f32 0x47435000#32) j := rfl

/-- A vector written as a row reads, at `(0, j)`, the vector at `j`. -/
theorem rowK3_apply (g : S128.Idx → EReal) (j : Fin 128) :
    rowK3 (F := Ideal) g (ValueIdx.ix2 0 j) = g (ValueIdx.ix1 j) :=
  ValueIdx.shapeCast_a_1a_apply g Gen.shapeCasts_S128_S1x128 0 j

/-! ## Width 64 (region 5) -/

/-- The row count's row reads the one number `50000` at every index. -/
theorem cntK5_apply (i : S1x64.Idx) : cntK5 (F := Ideal) i = Ideal.ofBits .f32 0x47435000#32 := rfl

/-- The column means at column `j`: the column sum over the row count. -/
theorem meanK5_apply (s : S1x64.Idx → EReal) (j : Fin 64) :
    meanK5 (F := Ideal) s (ValueIdx.ix2 0 j)
      = Net.meanK (fun j => s (ValueIdx.ix2 0 j)) (Ideal.ofBits .f32 0x47435000#32) j := rfl

/-- The column variances at column `j`: the mean of the squares less the square of the mean. -/
theorem varK5_apply (s ss : S1x64.Idx → EReal) (j : Fin 64) :
    varK5 (F := Ideal) s ss (ValueIdx.ix2 0 j)
      = Net.varK (fun j => ss (ValueIdx.ix2 0 j)) (fun j => s (ValueIdx.ix2 0 j)) (Ideal.ofBits .f32 0x47435000#32) j := rfl

/-- A vector written as a row reads, at `(0, j)`, the vector at `j`. -/
theorem rowK5_apply (g : S64.Idx → EReal) (j : Fin 64) :
    rowK5 (F := Ideal) g (ValueIdx.ix2 0 j) = g (ValueIdx.ix1 j) :=
  ValueIdx.shapeCast_a_1a_apply g Gen.shapeCasts_S64_S1x64 0 j

end Cert.KernelIdeal.KHostBn

end
-- ==== Proof.KBn.lean ====
/-
  The kernel's three normalisation regions composed with the host operations that feed them.

  A normalisation region finds five arrays: the matrix the layer's region before it left, the rows of column means
  and column variances the host computed from that region's column sums and column sums of squares, and the scale
  and the shift, two launch arguments the host reshaped into rows. The region's result at `(i, j)` is the
  normalisation of what it found; substituting what each array was when the region was entered gives the result
  over the layer region's three final arrays and the launch memory alone.
-/
import proofs.«144552_j81088982548491_1_alg».proof.Proof.Bn1
import proofs.«144552_j81088982548491_1_alg».proof.Proof.Bn3
import proofs.«144552_j81088982548491_1_alg».proof.Proof.Bn5
import proofs.«144552_j81088982548491_1_alg».proof.Proof.KHostBnAt

noncomputable section

namespace Cert.KernelIdeal.KBn

open Cert.KernelIdeal Cert.KernelIdeal.Gen Idealize.ShloMosaic Idealize.ShloMosaic.TcCoe Idealize.SL.Sem
open Idealize.ShloMosaic.ValueIdx

set_option maxHeartbeats 1000000 in
/-- Region 1's result at `(i, j)`: the normalisation of region 0's output by the column means and variances the
    host takes from region 0's column sums and column sums of squares, with the scale and shift the program was
    launched with. -/
theorem kbn1 (m : (ℓ : Loc nD τ sig) → Buf (Elt Ideal) ℓ) (ρ : Dev nD → PrngReg) (c : Dev nD)
    (i : Fin 50000) (j : Fin 256) :
    (Gen.dat1 (Gen.V3 m ρ) c).arrAt 5 cfg1.N (ix2 i j)
      = Net.bn (fun i j => (Gen.dat0 (Gen.V1 m ρ) c).arrAt 5 cfg0.N (ix2 i j))
          (Net.meanK (fun j => (Gen.dat0 (Gen.V1 m ρ) c).arrAt 6 cfg0.N (ix2 (0 : Fin 1) j))
            (Ideal.ofBits .f32 0x47435000#32))
          (Net.varK (fun j => (Gen.dat0 (Gen.V1 m ρ) c).arrAt 7 cfg0.N (ix2 (0 : Fin 1) j))
            (fun j => (Gen.dat0 (Gen.V1 m ρ) c).arrAt 6 cfg0.N (ix2 (0 : Fin 1) j))
            (Ideal.ofBits .f32 0x47435000#32))
          (fun j => m ((c.tc : Thread nD τ).loc main_arg7) (ix1 j))
          (fun j => m ((c.tc : Thread nD τ).loc main_arg8) (ix1 j))
          (Ideal.ofBits .f32 0x3727C5AC#32) i j := by
  rw [Bn1.bn1_y (Gen.V3 m ρ) c i j]
  simp only [Bn1.zA, Bn1.meanA, Bn1.varA, Bn1.gA, Bn1.beA]
  rw [KHostBn.entry1_0 m ρ c, KHostBn.entry1_1 m ρ c, KHostBn.entry1_2 m ρ c, KHostBn.entry1_3 m ρ c,
    KHostBn.entry1_4 m ρ c]
  simp only [KHostBn.meanK1_apply, KHostBn.varK1_apply, KHostBn.rowK1_apply]

set_option maxHeartbeats 1000000 in
/-- Region 3's result at `(i, j)`: the normalisation of region 2's output by the column means and variances the
    host takes from region 2's column sums and column sums of squares, with the scale and shift the program was
    launched with. -/
theorem kbn3 (m : (ℓ : Loc nD τ sig) → Buf (Elt Ideal) ℓ) (ρ : Dev nD → PrngReg) (c : Dev nD)
    (i : Fin 50000) (j : Fin 128) :
    (Gen.dat3 (Gen.V7 m ρ) c).arrAt 5 cfg3.N (ix2 i j)
      = Net.bn (fun i j => (Gen.dat2 (Gen.V5 m ρ) c).arrAt 5 cfg2.N (ix2 i j))
          (Net.meanK (fun j => (Gen.dat2 (Gen.V5 m ρ) c).arrAt 6 cfg2.N (ix2 (0 : Fin 1) j))
            (Ideal.ofBits .f32 0x47435000#32))
          (Net.varK (fun j => (Gen.dat2 (Gen.V5 m ρ) c).arrAt 7 cfg2.N (ix2 (0 : Fin 1) j))
            (fun j => (Gen.dat2 (Gen.V5 m ρ) c).arrAt 6 cfg2.N (ix2 (0 : Fin 1) j))
            (Ideal.ofBits .f32 0x47435000#32))
          (fun j => m ((c.tc : Thread nD τ).loc main_arg14) (ix1 j))
          (fun j => m ((c.tc : Thread nD τ).loc main_arg15) (ix1 j))
          (Ideal.ofBits .f32 0x3727C5AC#32) i j := by
  rw [Bn3.bn3_y (Gen.V7 m ρ) c i j]
  simp only [Bn3.zA, Bn3.meanA, Bn3.varA, Bn3.gA, Bn3.beA]
  rw [KHostBn.entry3_0 m ρ c, KHostBn.entry3_1 m ρ c, KHostBn.entry3_2 m ρ c, KHostBn.entry3_3 m ρ c,
    KHostBn.entry3_4 m ρ c]
  simp only [KHostBn.meanK3_apply, KHostBn.varK3_apply, KHostBn.rowK3_apply]

set_option maxHeartbeats 1000000 in
/-- Region 5's result at `(i, j)`: the normalisation of region 4's output by the column means and variances the
    host takes from region 4's column sums and column sums of squares, with the scale and shift the program was
    launched with. -/
theorem kbn5 (m : (ℓ : Loc nD τ sig) → Buf (Elt Ideal) ℓ) (ρ : Dev nD → PrngReg) (c : Dev nD)
    (i : Fin 50000) (j : Fin 64) :
    (Gen.dat5 (Gen.V11 m ρ) c).arrAt 5 cfg5.N (ix2 i j)
      = Net.bn (fun i j => (Gen.dat4 (Gen.V9 m ρ) c).arrAt 5 cfg4.N (ix2 i j))
          (Net.meanK (fun j => (Gen.dat4 (Gen.V9 m ρ) c).arrAt 6 cfg4.N (ix2 (0 : Fin 1) j))
            (Ideal.ofBits .f32 0x47435000#32))
          (Net.varK (fun j => (Gen.dat4 (Gen.V9 m ρ) c).arrAt 7 cfg4.N (ix2 (0 : Fin 1) j))
            (fun j => (Gen.dat4 (Gen.V9 m ρ) c).arrAt 6 cfg4.N (ix2 (0 : Fin 1) j))
            (Ideal.ofBits .f32 0x47435000#32))
          (fun j => m ((c.tc : Thread nD τ).loc main_arg21) (ix1 j))
          (fun j => m ((c.tc : Thread nD τ).loc main_arg22) (ix1 j))
          (Ideal.ofBits .f32 0x3727C5AC#32) i j := by
  rw [Bn5.bn5_y (Gen.V11 m ρ) c i j]
  simp only [Bn5.zA, Bn5.meanA, Bn5.varA, Bn5.gA, Bn5.beA]
  rw [KHostBn.entry5_0 m ρ c, KHostBn.entry5_1 m ρ c, KHostBn.entry5_2 m ρ c, KHostBn.entry5_3 m ρ c,
    KHostBn.entry5_4 m ρ c]
  simp only [KHostBn.meanK5_apply, KHostBn.varK5_apply, KHostBn.rowK5_apply]

end Cert.KernelIdeal.KBn

end
-- ==== Proof.PreReal.lean ====
/-
  The precondition read back. It is printed as one `and` over the 27 float arguments of "every entry's absolute value
  is below the pattern of +∞"; on the extended reals that says every entry is a real number, which is what the laws
  joining the two programs (distributing a contraction over a sum of weights, the two forms of a variance) need.
-/
import proofs.«144552_j81088982548491_1_alg».proof.Proof.Gen.Pre_finite_inputs
import Idealize.ShloMosaic.Lib.ReduceAll
import Idealize.ShloMosaic.Lib.ValueIdx
import Idealize.ShloMosaic.PureOps.Ideal

noncomputable section

namespace Cert.PreReal

open Idealize.ShloMosaic Idealize.ShloMosaic.ValueIdx

instance : Subsingleton (⟨0, ![]⟩ : Shape).Idx := ⟨fun a b => funext fun d => d.elim0⟩

/-- An extended real whose absolute value is below the pattern of `+∞` is a real number. -/
theorem real_of_abs_lt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  induction x using EReal.rec with
  | bot =>
    exfalso
    have e : FloatOps.hostAbsf (F := Ideal) (φ := .f32) (⊥ : EReal) = max (⊥ : EReal) (-⊥) := rfl
    rw [e] at h; revert h
    simp [FloatOps.cmpf, FloatOps.scalar, Ideal.scalarOps, Ideal.cmp, Ideal.ofBits, Ideal.ieee]
  | coe r => exact ⟨r, rfl⟩
  | top =>
    exfalso
    have e : FloatOps.hostAbsf (F := Ideal) (φ := .f32) (⊤ : EReal) = max (⊤ : EReal) (-⊤) := rfl
    rw [e] at h; revert h
    simp [FloatOps.cmpf, FloatOps.scalar, Ideal.scalarOps, Ideal.cmp, Ideal.ofBits, Ideal.ieee]

/-- `jnp.all(|x| < +∞)` read back: every entry of `x` is a real number. -/
theorem real_of_all {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
        (constantI ⟨0, ![]⟩ 1 1#1) h hu ix0 = 1#1) (i : s.Idx) : ∃ r : ℝ, x i = (r : EReal) :=
  real_of_abs_lt (x i) (Host.reduce_andi_all _ _ h hu ix0 e i)

open Cert.Pre_finite_inputs in
/-- Under the precondition every entry of every float argument is a real number. -/
theorem all_real [Cert.Pre_finite_inputs.Facts] (a0 : FVec Ideal S50000x128 .f32) (a1 : IVec S2x800000 32) (a2 : FVec Ideal S128x256 .f32) (a3 : FVec Ideal S256 .f32) (a4 : FVec Ideal S128x256 .f32) (a5 : FVec Ideal S128x256 .f32) (a6 : FVec Ideal S256 .f32) (a7 : FVec Ideal S256 .f32) (a8 : FVec Ideal S256 .f32) (a9 : FVec Ideal S256x128 .f32) (a10 : FVec Ideal S128 .f32) (a11 : FVec Ideal S256x128 .f32) (a12 : FVec Ideal S256x128 .f32) (a13 : FVec Ideal S128 .f32) (a14 : FVec Ideal S128 .f32) (a15 : FVec Ideal S128 .f32) (a16 : FVec Ideal S128x64 .f32) (a17 : FVec Ideal S64 .f32) (a18 : FVec Ideal S128x64 .f32) (a19 : FVec Ideal S128x64 .f32) (a20 : FVec Ideal S64 .f32) (a21 : FVec Ideal S64 .f32) (a22 : FVec Ideal S64 .f32) (a23 : FVec Ideal S64x40 .f32) (a24 : FVec Ideal S40 .f32) (a25 : FVec Ideal S64x40 .f32) (a26 : FVec Ideal S64x40 .f32) (a27 : FVec Ideal S40 .f32)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    (∀ i, ∃ r : ℝ, a0 i = (r : EReal))
      ∧ (∀ i, ∃ r : ℝ, a2 i = (r : EReal))
      ∧ (∀ i, ∃ r : ℝ, a3 i = (r : EReal))
      ∧ (∀ i, ∃ r : ℝ, a4 i = (r : EReal))
      ∧ (∀ i, ∃ r : ℝ, a5 i = (r : EReal))
      ∧ (∀ i, ∃ r : ℝ, a6 i = (r : EReal))
      ∧ (∀ i, ∃ r : ℝ, a7 i = (r : EReal))
      ∧ (∀ i, ∃ r : ℝ, a8 i = (r : EReal))
      ∧ (∀ i, ∃ r : ℝ, a9 i = (r : EReal))
      ∧ (∀ i, ∃ r : ℝ, a10 i = (r : EReal))
      ∧ (∀ i, ∃ r : ℝ, a11 i = (r : EReal))
      ∧ (∀ i, ∃ r : ℝ, a12 i = (r : EReal))
      ∧ (∀ i, ∃ r : ℝ, a13 i = (r : EReal))
      ∧ (∀ i, ∃ r : ℝ, a14 i = (r : EReal))
      ∧ (∀ i, ∃ r : ℝ, a15 i = (r : EReal))
      ∧ (∀ i, ∃ r : ℝ, a16 i = (r : EReal))
      ∧ (∀ i, ∃ r : ℝ, a17 i = (r : EReal))
      ∧ (∀ i, ∃ r : ℝ, a18 i = (r : EReal))
      ∧ (∀ i, ∃ r : ℝ, a19 i = (r : EReal))
      ∧ (∀ i, ∃ r : ℝ, a20 i = (r : EReal))
      ∧ (∀ i, ∃ r : ℝ, a21 i = (r : EReal))
      ∧ (∀ i, ∃ r : ℝ, a22 i = (r : EReal))
      ∧ (∀ i, ∃ r : ℝ, a23 i = (r : EReal))
      ∧ (∀ i, ∃ r : ℝ, a24 i = (r : EReal))
      ∧ (∀ i, ∃ r : ℝ, a25 i = (r : EReal))
      ∧ (∀ i, ∃ r : ℝ, a26 i = (r : EReal))
      ∧ (∀ i, ∃ r : ℝ, a27 i = (r : EReal)) := by
  have h0 := congrFun h ix0
  dsimp only [fn, fn_part1, fn_part2, fn_part3, fn_part4, fn_part5, fn_part6, fn_part7, Idealize.ShloMosaic.andi] at h0
  simp only [IntOp.andi_eq_one, and_assoc] at h0
  obtain ⟨h0, h2, h3, h4, h5, h6, h7, h8, h9, h10, h11, h12, h13, h14, h15, h16, h17, h18, h19, h20, h21, h22, h23, h24, h25, h26, h27⟩ := h0
  exact ⟨real_of_all _ _ _ _ h0,
    real_of_all _ _ _ _ h2,
    real_of_all _ _ _ _ h3,
    real_of_all _ _ _ _ h4,
    real_of_all _ _ _ _ h5,
    real_of_all _ _ _ _ h6,
    real_of_all _ _ _ _ h7,
    real_of_all _ _ _ _ h8,
    real_of_all _ _ _ _ h9,
    real_of_all _ _ _ _ h10,
    real_of_all _ _ _ _ h11,
    real_of_all _ _ _ _ h12,
    real_of_all _ _ _ _ h13,
    real_of_all _ _ _ _ h14,
    real_of_all _ _ _ _ h15,
    real_of_all _ _ _ _ h16,
    real_of_all _ _ _ _ h17,
    real_of_all _ _ _ _ h18,
    real_of_all _ _ _ _ h19,
    real_of_all _ _ _ _ h20,
    real_of_all _ _ _ _ h21,
    real_of_all _ _ _ _ h22,
    real_of_all _ _ _ _ h23,
    real_of_all _ _ _ _ h24,
    real_of_all _ _ _ _ h25,
    real_of_all _ _ _ _ h26,
    real_of_all _ _ _ _ h27⟩

end Cert.PreReal

end
-- ==== Proof.Bridge.lean ====
/-
  The two programs end with equal results. The kernel program's result array is the last region's output;
  region by region its arrays are the layer functions of the arrays before them, the inputs are real under the
  precondition, and the layer-by-layer comparison (`chain`) identifies the last array with the reference's
  composed result at the same arguments.
-/
import proofs.«144552_j81088982548491_1_alg».proof.Defs
import proofs.«144552_j81088982548491_1_alg».proof.Proof.BridgeChain
import proofs.«144552_j81088982548491_1_alg».proof.Proof.KSage02
import proofs.«144552_j81088982548491_1_alg».proof.Proof.KSage46
import proofs.«144552_j81088982548491_1_alg».proof.Proof.KBn
import proofs.«144552_j81088982548491_1_alg».proof.Proof.PreReal
import proofs.«144552_j81088982548491_1_alg».proof.Proof.RefRead

noncomputable section

namespace Cert.Bridge

open Idealize.ShloMosaic Idealize.ShloMosaic.ValueIdx Idealize.SL.Sem Cert.VecReal Cert.Net

/-- Column sums stated over a matrix's closed form are column sums of the array that has that form. -/
theorem colsum_of {n e : ℕ} (Z : (⟨2, ![n, e]⟩ : Shape).Idx → EReal) (f : Fin n → Fin e → EReal)
    (hz : ∀ i j, Z (ix2 i j) = f i j) (S : (⟨2, ![1, e]⟩ : Shape).Idx → EReal)
    (hs : ∀ j, S (ix2 0 j) = colsum f j) : ∀ j, S (ix2 0 j) = colsum (fun i j => Z (ix2 i j)) j := by
  have e1 : (fun i j => Z (ix2 i j)) = f := funext fun i => funext fun j => hz i j
  rw [e1]; exact hs

/-- The same for the column sums of squares. -/
theorem colsumsq_of {n e : ℕ} (Z : (⟨2, ![n, e]⟩ : Shape).Idx → EReal) (f : Fin n → Fin e → EReal)
    (hz : ∀ i j, Z (ix2 i j) = f i j) (S : (⟨2, ![1, e]⟩ : Shape).Idx → EReal)
    (hs : ∀ j, S (ix2 0 j) = colsumsq f j) : ∀ j, S (ix2 0 j) = colsumsq (fun i j => Z (ix2 i j)) j := by
  have e1 : (fun i j => Z (ix2 i j)) = f := funext fun i => funext fun j => hz i j
  rw [e1]; exact hs

set_option maxHeartbeats 4000000 in
/-- Under the precondition, from memories that agree on the arguments, the kernel program's result array is the
    reference's composed result. -/
theorem result_eq [hPre : Cert.Pre_finite_inputs.Facts]
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (g0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (g1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (g2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (g3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (g4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (g5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (g6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (g7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (g8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (g9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (g10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (g11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (g12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (g13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (g14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (g15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
    (g16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (g17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
    (g18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))
    (g19 : m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19))
    (g20 : m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20))
    (g21 : m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21))
    (g22 : m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22))
    (g23 : m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23))
    (g24 : m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24))
    (g25 : m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25))
    (g26 : m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26))
    (g27 : m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) :
    ((Cert.KernelIdeal.Gen.dat6 (Cert.KernelIdeal.Gen.V13 m ρ) c).arrAt 5 Cert.KernelIdeal.cfg6.N) = Cert.ReferenceIdeal.RefRun.RES (F := Ideal) m' c := by
  obtain ⟨r0, r2, r3, r4, r5, r6, r7, r8, r9, r10, r11, r12, r13, r14, r15, r16, r17, r18, r19, r20, r21, r22, r23, r24, r25, r26, r27⟩ := Cert.PreReal.all_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (hpre c)
  rw [Cert.ReferenceIdeal.RefRun.RES_eq, g0, g1, g2, g3, g4, g5, g6, g7, g8, g9, g10, g11, g12, g13, g14, g15, g16, g17, g18, g19, g20, g21, g22, g23, g24, g25, g26, g27]
  have z1 := Cert.KernelIdeal.KHost.kz0 m ρ c
  have z2 := Cert.KernelIdeal.KHost.kz2 m ρ c
  have z3 := Cert.KernelIdeal.KHost.kz4 m ρ c
  exact chain (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))
    ((Cert.KernelIdeal.Gen.dat0 (Cert.KernelIdeal.Gen.V1 m ρ) c).arrAt 5 Cert.KernelIdeal.cfg0.N) ((Cert.KernelIdeal.Gen.dat0 (Cert.KernelIdeal.Gen.V1 m ρ) c).arrAt 6 Cert.KernelIdeal.cfg0.N) ((Cert.KernelIdeal.Gen.dat0 (Cert.KernelIdeal.Gen.V1 m ρ) c).arrAt 7 Cert.KernelIdeal.cfg0.N) ((Cert.KernelIdeal.Gen.dat1 (Cert.KernelIdeal.Gen.V3 m ρ) c).arrAt 5 Cert.KernelIdeal.cfg1.N)
    ((Cert.KernelIdeal.Gen.dat2 (Cert.KernelIdeal.Gen.V5 m ρ) c).arrAt 5 Cert.KernelIdeal.cfg2.N) ((Cert.KernelIdeal.Gen.dat2 (Cert.KernelIdeal.Gen.V5 m ρ) c).arrAt 6 Cert.KernelIdeal.cfg2.N) ((Cert.KernelIdeal.Gen.dat2 (Cert.KernelIdeal.Gen.V5 m ρ) c).arrAt 7 Cert.KernelIdeal.cfg2.N) ((Cert.KernelIdeal.Gen.dat3 (Cert.KernelIdeal.Gen.V7 m ρ) c).arrAt 5 Cert.KernelIdeal.cfg3.N)
    ((Cert.KernelIdeal.Gen.dat4 (Cert.KernelIdeal.Gen.V9 m ρ) c).arrAt 5 Cert.KernelIdeal.cfg4.N) ((Cert.KernelIdeal.Gen.dat4 (Cert.KernelIdeal.Gen.V9 m ρ) c).arrAt 6 Cert.KernelIdeal.cfg4.N) ((Cert.KernelIdeal.Gen.dat4 (Cert.KernelIdeal.Gen.V9 m ρ) c).arrAt 7 Cert.KernelIdeal.cfg4.N) ((Cert.KernelIdeal.Gen.dat5 (Cert.KernelIdeal.Gen.V11 m ρ) c).arrAt 5 Cert.KernelIdeal.cfg5.N)
    ((Cert.KernelIdeal.Gen.dat6 (Cert.KernelIdeal.Gen.V13 m ρ) c).arrAt 5 Cert.KernelIdeal.cfg6.N)
    z1 (colsum_of _ _ z1 _ (Cert.KernelIdeal.KHost.ks0 m ρ c)) (colsumsq_of _ _ z1 _ (Cert.KernelIdeal.KHost.kss0 m ρ c)) (Cert.KernelIdeal.KBn.kbn1 m ρ c)
    z2 (colsum_of _ _ z2 _ (Cert.KernelIdeal.KHost.ks2 m ρ c)) (colsumsq_of _ _ z2 _ (Cert.KernelIdeal.KHost.kss2 m ρ c)) (Cert.KernelIdeal.KBn.kbn3 m ρ c)
    z3 (colsum_of _ _ z3 _ (Cert.KernelIdeal.KHost.ks4 m ρ c)) (colsumsq_of _ _ z3 _ (Cert.KernelIdeal.KHost.kss4 m ρ c)) (Cert.KernelIdeal.KBn.kbn5 m ρ c)
    (Cert.KernelIdeal.KHost.kz6 m ρ c)
    r0 r2 r3 r4 r5 r6 r7 r8 r9 r10 r11 r12 r13 r14 r15 r16 r17 r18 r19 r20 r21 r22 r23 r24 r25 r26 r27

end Cert.Bridge

end
-- ==== Proof.lean ====
/-
  A four-layer graph network over 50000 nodes and 800000 edges, computed two ways. Every layer takes the node
  features `h` and their means over incoming neighbours `agg` (the source rows gathered, added at the destination
  rows, divided by the in-degree clamped below by one) to `agg · Wl + h · Wr + h · Ws + bl + bs`; the first three
  layers rectify this and normalise every column to mean 0 and variance 1 over the nodes, with a scale and a shift.

  One program runs the dense part of each layer in tiled regions, ten blocks of 5000 rows: it contracts `h` against
  `Wr + Ws`, adds `bl + bs`, accumulates each column's sum and sum of squares block by block, and normalises with
  the variance `E[z²] − E[z]²`. The other is the plain composition: `Wr` and `Ws` contracted one after the other,
  the variance as the mean squared deviation from the mean. On the extended reals the two agree whenever the
  inputs are real numbers, which the precondition says: distributing a contraction over a sum of weights, and the
  two forms of the variance, are laws of the reals; regrouping a sum needs nothing; changes of float format are the
  identity; and realness is kept by every step (a gather returns entries of its operand, an accumulating scatter
  adds finitely many of them, the degree is at least one, the variance offset is positive).

  The frames of the two tiled programs are the generated ones; the reference's run is read operation by operation
  (`RefRun`); the tiled program's run names its result as the last region's output array (`KRun`), and
  `Bridge.result_eq` identifies that array with the reference's composed result.
-/
import proofs.«144552_j81088982548491_1_alg».proof.Defs
import proofs.«144552_j81088982548491_1_alg».proof.Proof.Gen.Kernel
import proofs.«144552_j81088982548491_1_alg».proof.Proof.Gen.Kernel.Skeleton
import proofs.«144552_j81088982548491_1_alg».proof.Proof.Gen.Kernel.Launch
import proofs.«144552_j81088982548491_1_alg».proof.Proof.Gen.Kernel.Points
import proofs.«144552_j81088982548491_1_alg».proof.Proof.Gen.Kernel.Frame
import proofs.«144552_j81088982548491_1_alg».proof.Proof.Gen.KernelIdeal
import proofs.«144552_j81088982548491_1_alg».proof.Proof.Gen.KernelIdeal.Skeleton
import proofs.«144552_j81088982548491_1_alg».proof.Proof.Gen.KernelIdeal.Launch
import proofs.«144552_j81088982548491_1_alg».proof.Proof.Gen.KernelIdeal.Points
import proofs.«144552_j81088982548491_1_alg».proof.Proof.Gen.KernelIdeal.Frame
import proofs.«144552_j81088982548491_1_alg».proof.Proof.Gen.ReferenceIdeal
import proofs.«144552_j81088982548491_1_alg».proof.Proof.Gen.Pre_finite_inputs
import proofs.«144552_j81088982548491_1_alg».proof.Proof.KRun
import proofs.«144552_j81088982548491_1_alg».proof.Proof.RefFrame
import proofs.«144552_j81088982548491_1_alg».proof.Proof.Bridge
import Idealize.ShloMosaic.Adequacy
import Idealize.ShloMosaic.Init

noncomputable section

namespace Cert.Proof

open Idealize.ShloMosaic Idealize.SL.Sem

/-- The word-level tiled program runs and leaves its arguments unchanged: the generated frame. -/
theorem frame_k : Cert.frame_Kernel := fun m ρ _ => Cert.Kernel.Gen.frame m ρ

/-- The idealized tiled program runs and leaves its arguments unchanged: the generated frame. -/
theorem frame_ki : Cert.frame_KernelIdeal := fun m ρ _ => Cert.KernelIdeal.Gen.frame m ρ

/-- The idealization rewrote no operation. -/
theorem preserves : Cert.preserves_Kernel_KernelIdeal := trivial

/-- From memories agreeing on the arguments both idealized programs run, leave their arguments unchanged, and
    end with the same array: the tiled program's last output, which is the reference's composed result. -/
theorem algebraic : Cert.algebraic_KernelIdeal_ReferenceIdeal := by
  intro m ρ m' ρ' hpre hagree
  refine ⟨fun c => (Cert.KernelIdeal.Gen.dat6 (Cert.KernelIdeal.Gen.V13 m ρ) c).arrAt 5 Cert.KernelIdeal.cfg6.N,
    Cert.KernelIdeal.KRun.run_named (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨g0, g1, g2, g3, g4, g5, g6, g7, g8, g9, g10, g11, g12, g13, g14, g15, g16, g17, g18, g19, g20, g21, g22, g23, g24, g25, g26, g27⟩ := hagree c
  exact (Cert.Bridge.result_eq m ρ m' hpre c g0 g1 g2 g3 g4 g5 g6 g7 g8 g9 g10 g11 g12 g13 g14 g15 g16 g17 g18 g19 g20 g21 g22 g23 g24 g25 g26 g27).symm

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, preserves, algebraic⟩

end Cert.Proof

end
